-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S16x2816x2048 : Shape := ⟨3, ![16, 2816, 2048]⟩
abbrev S16x2048x1408 : Shape := ⟨3, ![16, 2048, 1408]⟩
abbrev S4096x2 : Shape := ⟨2, ![4096, 2]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x2816x2048 : S_.BroadcastsInDim S16x2816x2048 (![] : Fin 0 → Fin S16x2816x2048.rank)
  reducesTo_S16x2816x2048_S_d0_1_2 : S16x2816x2048.ReducesTo [0, 1, 2] S_
  bcast_S_S16x2048x1408 : S_.BroadcastsInDim S16x2048x1408 (![] : Fin 0 → Fin S16x2048x1408.rank)
  reducesTo_S16x2048x1408_S_d0_1_2 : S16x2048x1408.ReducesTo [0, 1, 2] S_
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_v13 : IVec S_ 1) (main_v16 : IVec S4096x2 1) : IVec S_ 1 :=
  let main_c_5 : IVec S_ 1 := constantI S_ 1 1#1
  let main_v17 : IVec S_ 1 := (fun x v => Host.reduce IntOp.andi x v reducesTo_S4096x2_S_d0_1 h_S_) main_v16 main_c_5
  let main_v18 : IVec S_ 1 := andi main_v13 main_v17
  main_v18

def fn {F : FTy → Type} [FloatOps F] (main_arg0 : FVec F S4096x2048 .f32) (main_arg1 : FVec F S16x2816x2048 .f32) (main_arg2 : FVec F S16x2048x1408 .f32) (main_arg3 : FVec F S4096x2 .f32) (main_arg4 : IVec S4096x2 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S16x2816x2048 .f32 := Host.absf main_arg1
  let main_cst_0 : FVec F S_ .f32 := constant S_ .f32 0x7F800000#32
  let main_v5 : FVec F S16x2816x2048 .f32 := broadcastInDim S16x2816x2048 ![] bcast_S_S16x2816x2048 main_cst_0
  let main_v6 : IVec S16x2816x2048 1 := cmpf .olt main_v4 main_v5
  let main_c_1 : IVec S_ 1 := constantI S_ 1 1#1
  let main_v7 : IVec S_ 1 := (fun x v => Host.reduce IntOp.andi x v reducesTo_S16x2816x2048_S_d0_1_2 h_S_) main_v6 main_c_1
  let main_v8 : IVec S_ 1 := andi main_v3 main_v7
  let main_v9 : FVec F S16x2048x1408 .f32 := Host.absf main_arg2
  let main_cst_2 : FVec F S_ .f32 := constant S_ .f32 0x7F800000#32
  let main_v10 : FVec F S16x2048x1408 .f32 := broadcastInDim S16x2048x1408 ![] bcast_S_S16x2048x1408 main_cst_2
  let main_v11 : IVec S16x2048x1408 1 := cmpf .olt main_v9 main_v10
  let main_c_3 : IVec S_ 1 := constantI S_ 1 1#1
  let main_v12 : IVec S_ 1 := (fun x v => Host.reduce IntOp.andi x v reducesTo_S16x2048x1408_S_d0_1_2 h_S_) main_v11 main_c_3
  let main_v13 : IVec S_ 1 := andi main_v8 main_v12
  let main_v14 : FVec F S4096x2 .f32 := Host.absf main_arg3
  let main_cst_4 : FVec F S_ .f32 := constant S_ .f32 0x7F800000#32
  let main_v15 : FVec F S4096x2 .f32 := broadcastInDim S4096x2 ![] bcast_S_S4096x2 main_cst_4
  let main_v16 : IVec S4096x2 1 := cmpf .olt main_v14 main_v15
  fn_part1 (F := F) main_v13 main_v16
-- ==== Kernel.lean ====
abbrev S4096x2048 : Shape := ⟨2, ![4096, 2048]⟩
abbrev S16x2816x2048 : Shape := ⟨3, ![16, 2816, 2048]⟩
abbrev S16x2048x1408 : Shape := ⟨3, ![16, 2048, 1408]⟩
abbrev S4096x2 : Shape := ⟨2, ![4096, 2]⟩
abbrev S256x2048 : Shape := ⟨2, ![256, 2048]⟩
abbrev S1x2816x2048 : Shape := ⟨3, ![1, 2816, 2048]⟩
abbrev S1x2048x1408 : Shape := ⟨3, ![1, 2048, 1408]⟩
abbrev S256x2 : Shape := ⟨2, ![256, 2]⟩
abbrev S2816x2048 : Shape := ⟨2, ![2816, 2048]⟩
abbrev S2048x1408 : Shape := ⟨2, ![2048, 1408]⟩
abbrev S256x2816 : Shape := ⟨2, ![256, 2816]⟩
abbrev S256x1408 : Shape := ⟨2, ![256, 1408]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S16x2816x2048, .f32⟩
  | .hbm, ⟨2, _⟩ => ⟨S16x2048x1408, .f32⟩
  | .hbm, ⟨3, _⟩ => ⟨S4096x2, .f32⟩
  | .hbm, ⟨4, _⟩ => ⟨S4096x2, .i32⟩
  | .hbm, ⟨5, _⟩ => ⟨S4096x2048, .bf16⟩
  | .hbm, ⟨6, _⟩ => ⟨S16x2816x2048, .bf16⟩
  | .hbm, ⟨7, _⟩ => ⟨S16x2048x1408, .bf16⟩
  | .hbm, ⟨8, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x2, .f32⟩
  | .local _ .vmem, ⟨7, _⟩ => ⟨S256x2, .f32⟩
  | .local _ .vmem, ⟨8, _⟩ => ⟨S256x2, .i32⟩
  | .local _ .vmem, ⟨9, _⟩ => ⟨S256x2, .i32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2816x2048_S1x2816x2048_0_0_0 : ∀ a, (![0, 0, 0] : Fin 3 → Nat) a + S1x2816x2048.size a ≤ S1x2816x2048.size a
  h_S1x2816x2048 : 0 < S1x2816x2048.numel
  shapeCasts_S1x2816x2048_S2816x2048 : S1x2816x2048.ShapeCasts S2816x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  slices_S256x2816_o0_0_S256x1408 : S256x2816.Slices ![0, 0] S256x1408
  slices_S256x2816_o0_1408_S256x1408 : S256x2816.Slices ![0, 1408] S256x1408
  inb_S256x2_S256x2_0_0 : ∀ a, (![0, 0] : Fin 2 → Nat) a + S256x2.size a ≤ S256x2.size a
  h_S256x2 : 0 < S256x2.numel
  reduces_S256x2_S256 : S256x2.Reduces [1] S256
  shapeCasts_S256_S256x1 : S256.ShapeCasts S256x1
  broadcasts_S256x1_S256x2048 : S256x1.Broadcasts S256x2048
  dot_S256x2048_S2816x2048_S256x2816_1_1_0_0_n_n_wf : DotDims.WF S256x2048 S2816x2048 S256x2816 [1] [1] [0] [0] [] []
  dot_S256x1408_S2048x1408_S256x2048_1_1_0_0_n_n_wf : DotDims.WF S256x1408 S2048x1408 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2816x2048.size a ≤ S16x2816x2048.size a
  hwx0_1 : ∀ i : grid0.Coords, EltTy.bits .bf16 = 32 ∨ (Rect.block (s := S16x2816x2048) S1x2816x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S16x2048x1408.size a
  hwx0_2 : ∀ i : grid0.Coords, EltTy.bits .bf16 = 32 ∨ (Rect.block (s := S16x2048x1408) S1x2048x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S4096x2.size a
  hwx0_3 : ∀ i : grid0.Coords, EltTy.bits .f32 = 32 ∨ (Rect.block (s := S4096x2) S256x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2.size a ≤ S4096x2.size a
  hwx0_4 : ∀ i : grid0.Coords, EltTy.bits .i32 = 32 ∨ (Rect.block (s := S4096x2) S256x2.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)

variable [Facts₀]

def dot_S256x2048_S2816x2048_S256x2816_1_1_0_0_n_n : DotDims S256x2048 S2816x2048 S256x2816 where
  lhsContracting := [1]
  rhsContracting := [1]
  lhsNonContracting := [0]
  rhsNonContracting := [0]
  lhsBatch := []
  rhsBatch := []
  wf := dot_S256x2048_S2816x2048_S256x2816_1_1_0_0_n_n_wf
def dot_S256x1408_S2048x1408_S256x2048_1_1_0_0_n_n : DotDims S256x1408 S2048x1408 S256x2048 where
  lhsContracting := [1]
  rhsContracting := [1]
  lhsNonContracting := [0]
  rhsNonContracting := [0]
  lhsBatch := []
  rhsBatch := []
  wf := dot_S256x1408_S2048x1408_S256x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2816x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S16x2816x2048 : Shape := ⟨3, ![16, 2816, 2048]⟩
abbrev S16x2048x1408 : Shape := ⟨3, ![16, 2048, 1408]⟩
abbrev S4096x2 : Shape := ⟨2, ![4096, 2]⟩
abbrev S_ : Shape := ⟨0, ![]⟩
abbrev S1x2816x2048 : Shape := ⟨3, ![1, 2816, 2048]⟩
abbrev S2816x2048 : Shape := ⟨2, ![2816, 2048]⟩
abbrev S2048x2816 : Shape := ⟨2, ![2048, 2816]⟩
abbrev S4096x2816 : Shape := ⟨2, ![4096, 2816]⟩
abbrev S4096x1408 : Shape := ⟨2, ![4096, 1408]⟩
abbrev S1x2048x1408 : Shape := ⟨3, ![1, 2048, 1408]⟩
abbrev S2048x1408 : Shape := ⟨2, ![2048, 1408]⟩
abbrev S1408x2048 : Shape := ⟨2, ![1408, 2048]⟩
abbrev S4096 : Shape := ⟨1, ![4096]⟩
abbrev S4096x1 : Shape := ⟨2, ![4096, 1]⟩

abbrev nBuf : Space → Nat
  | .hbm => 503
  | .vmem => 0
  | .smem => 0
  | _ => 0

abbrev hbmTy0_0 (i : Nat) : BufTy := match i % 128 with
  | 0 => ⟨S4096x2048, .f32⟩
  | 1 => ⟨S16x2816x2048, .f32⟩
  | 2 => ⟨S16x2048x1408, .f32⟩
  | 3 => ⟨S4096x2, .f32⟩
  | 4 => ⟨S4096x2, .i32⟩
  | 5 => ⟨S_, .f32⟩
  | 6 => ⟨S4096x2048, .f32⟩
  | 7 => ⟨S1x2816x2048, .f32⟩
  | 8 => ⟨S2816x2048, .f32⟩
  | 9 => ⟨S2048x2816, .f32⟩
  | 10 => ⟨S4096x2816, .f32⟩
  | 11 => ⟨S4096x1408, .f32⟩
  | 12 => ⟨S4096x1408, .f32⟩
  | 13 => ⟨S4096x1408, .f32⟩
  | 14 => ⟨S_, .f32⟩
  | 15 => ⟨S4096x1408, .f32⟩
  | 16 => ⟨S4096x1408, .f32⟩
  | 17 => ⟨S_, .f32⟩
  | 18 => ⟨S4096x1408, .f32⟩
  | 19 => ⟨S4096x1408, .f32⟩
  | 20 => ⟨S4096x1408, .f32⟩
  | 21 => ⟨S4096x1408, .f32⟩
  | 22 => ⟨S4096x1408, .f32⟩
  | 23 => ⟨S1x2048x1408, .f32⟩
  | 24 => ⟨S2048x1408, .f32⟩
  | 25 => ⟨S1408x2048, .f32⟩
  | 26 => ⟨S4096x2048, .f32⟩
  | 27 => ⟨S_, .i32⟩
  | 28 => ⟨S4096x2, .i32⟩
  | 29 => ⟨S4096x2, .i1⟩
  | 30 => ⟨S4096x2, .f32⟩
  | 31 => ⟨S4096x2, .f32⟩
  | 32 => ⟨S_, .f32⟩
  | 33 => ⟨S4096, .f32⟩
  | 34 => ⟨S4096x1, .f32⟩
  | 35 => ⟨S4096x2048, .f32⟩
  | 36 => ⟨S4096x2048, .f32⟩
  | 37 => ⟨S4096x2048, .f32⟩
  | 38 => ⟨S1x2816x2048, .f32⟩
  | 39 => ⟨S2816x2048, .f32⟩
  | 40 => ⟨S2048x2816, .f32⟩
  | 41 => ⟨S4096x2816, .f32⟩
  | 42 => ⟨S4096x1408, .f32⟩
  | 43 => ⟨S4096x1408, .f32⟩
  | 44 => ⟨S4096x1408, .f32⟩
  | 45 => ⟨S_, .f32⟩
  | 46 => ⟨S4096x1408, .f32⟩
  | 47 => ⟨S4096x1408, .f32⟩
  | 48 => ⟨S_, .f32⟩
  | 49 => ⟨S4096x1408, .f32⟩
  | 50 => ⟨S4096x1408, .f32⟩
  | 51 => ⟨S4096x1408, .f32⟩
  | 52 => ⟨S4096x1408, .f32⟩
  | 53 => ⟨S4096x1408, .f32⟩
  | 54 => ⟨S1x2048x1408, .f32⟩
  | 55 => ⟨S2048x1408, .f32⟩
  | 56 => ⟨S1408x2048, .f32⟩
  | 57 => ⟨S4096x2048, .f32⟩
  | 58 => ⟨S_, .i32⟩
  | 59 => ⟨S4096x2, .i32⟩
  | 60 => ⟨S4096x2, .i1⟩
  | 61 => ⟨S4096x2, .f32⟩
  | 62 => ⟨S4096x2, .f32⟩
  | 63 => ⟨S_, .f32⟩
  | 64 => ⟨S4096, .f32⟩
  | 65 => ⟨S4096x1, .f32⟩
  | 66 => ⟨S4096x2048, .f32⟩
  | 67 => ⟨S4096x2048, .f32⟩
  | 68 => ⟨S4096x2048, .f32⟩
  | 69 => ⟨S1x2816x2048, .f32⟩
  | 70 => ⟨S2816x2048, .f32⟩
  | 71 => ⟨S2048x2816, .f32⟩
  | 72 => ⟨S4096x2816, .f32⟩
  | 73 => ⟨S4096x1408, .f32⟩
  | 74 => ⟨S4096x1408, .f32⟩
  | 75 => ⟨S4096x1408, .f32⟩
  | 76 => ⟨S_, .f32⟩
  | 77 => ⟨S4096x1408, .f32⟩
  | 78 => ⟨S4096x1408, .f32⟩
  | 79 => ⟨S_, .f32⟩
  | 80 => ⟨S4096x1408, .f32⟩
  | 81 => ⟨S4096x1408, .f32⟩
  | 82 => ⟨S4096x1408, .f32⟩
  | 83 => ⟨S4096x1408, .f32⟩
  | 84 => ⟨S4096x1408, .f32⟩
  | 85 => ⟨S1x2048x1408, .f32⟩
  | 86 => ⟨S2048x1408, .f32⟩
  | 87 => ⟨S1408x2048, .f32⟩
  | 88 => ⟨S4096x2048, .f32⟩
  | 89 => ⟨S_, .i32⟩
  | 90 => ⟨S4096x2, .i32⟩
  | 91 => ⟨S4096x2, .i1⟩
  | 92 => ⟨S4096x2, .f32⟩
  | 93 => ⟨S4096x2, .f32⟩
  | 94 => ⟨S_, .f32⟩
  | 95 => ⟨S4096, .f32⟩
  | 96 => ⟨S4096x1, .f32⟩
  | 97 => ⟨S4096x2048, .f32⟩
  | 98 => ⟨S4096x2048, .f32⟩
  | 99 => ⟨S4096x2048, .f32⟩
  | 100 => ⟨S1x2816x2048, .f32⟩
  | 101 => ⟨S2816x2048, .f32⟩
  | 102 => ⟨S2048x2816, .f32⟩
  | 103 => ⟨S4096x2816, .f32⟩
  | 104 => ⟨S4096x1408, .f32⟩
  | 105 => ⟨S4096x1408, .f32⟩
  | 106 => ⟨S4096x1408, .f32⟩
  | 107 => ⟨S_, .f32⟩
  | 108 => ⟨S4096x1408, .f32⟩
  | 109 => ⟨S4096x1408, .f32⟩
  | 110 => ⟨S_, .f32⟩
  | 111 => ⟨S4096x1408, .f32⟩
  | 112 => ⟨S4096x1408, .f32⟩
  | 113 => ⟨S4096x1408, .f32⟩
  | 114 => ⟨S4096x1408, .f32⟩
  | 115 => ⟨S4096x1408, .f32⟩
  | 116 => ⟨S1x2048x1408, .f32⟩
  | 117 => ⟨S2048x1408, .f32⟩
  | 118 => ⟨S1408x2048, .f32⟩
  | 119 => ⟨S4096x2048, .f32⟩
  | 120 => ⟨S_, .i32⟩
  | 121 => ⟨S4096x2, .i32⟩
  | 122 => ⟨S4096x2, .i1⟩
  | 123 => ⟨S4096x2, .f32⟩
  | 124 => ⟨S4096x2, .f32⟩
  | 125 => ⟨S_, .f32⟩
  | 126 => ⟨S4096, .f32⟩
  | 127 => ⟨S4096x1, .f32⟩
  | _ => ⟨S4096x2048, .f32⟩

abbrev hbmTy0_1 (i : Nat) : BufTy := match i % 128 with
  | 0 => ⟨S4096x2048, .f32⟩
  | 1 => ⟨S4096x2048, .f32⟩
  | 2 => ⟨S4096x2048, .f32⟩
  | 3 => ⟨S1x2816x2048, .f32⟩
  | 4 => ⟨S2816x2048, .f32⟩
  | 5 => ⟨S2048x2816, .f32⟩
  | 6 => ⟨S4096x2816, .f32⟩
  | 7 => ⟨S4096x1408, .f32⟩
  | 8 => ⟨S4096x1408, .f32⟩
  | 9 => ⟨S4096x1408, .f32⟩
  | 10 => ⟨S_, .f32⟩
  | 11 => ⟨S4096x1408, .f32⟩
  | 12 => ⟨S4096x1408, .f32⟩
  | 13 => ⟨S_, .f32⟩
  | 14 => ⟨S4096x1408, .f32⟩
  | 15 => ⟨S4096x1408, .f32⟩
  | 16 => ⟨S4096x1408, .f32⟩
  | 17 => ⟨S4096x1408, .f32⟩
  | 18 => ⟨S4096x1408, .f32⟩
  | 19 => ⟨S1x2048x1408, .f32⟩
  | 20 => ⟨S2048x1408, .f32⟩
  | 21 => ⟨S1408x2048, .f32⟩
  | 22 => ⟨S4096x2048, .f32⟩
  | 23 => ⟨S_, .i32⟩
  | 24 => ⟨S4096x2, .i32⟩
  | 25 => ⟨S4096x2, .i1⟩
  | 26 => ⟨S4096x2, .f32⟩
  | 27 => ⟨S4096x2, .f32⟩
  | 28 => ⟨S_, .f32⟩
  | 29 => ⟨S4096, .f32⟩
  | 30 => ⟨S4096x1, .f32⟩
  | 31 => ⟨S4096x2048, .f32⟩
  | 32 => ⟨S4096x2048, .f32⟩
  | 33 => ⟨S4096x2048, .f32⟩
  | 34 => ⟨S1x2816x2048, .f32⟩
  | 35 => ⟨S2816x2048, .f32⟩
  | 36 => ⟨S2048x2816, .f32⟩
  | 37 => ⟨S4096x2816, .f32⟩
  | 38 => ⟨S4096x1408, .f32⟩
  | 39 => ⟨S4096x1408, .f32⟩
  | 40 => ⟨S4096x1408, .f32⟩
  | 41 => ⟨S_, .f32⟩
  | 42 => ⟨S4096x1408, .f32⟩
  | 43 => ⟨S4096x1408, .f32⟩
  | 44 => ⟨S_, .f32⟩
  | 45 => ⟨S4096x1408, .f32⟩
  | 46 => ⟨S4096x1408, .f32⟩
  | 47 => ⟨S4096x1408, .f32⟩
  | 48 => ⟨S4096x1408, .f32⟩
  | 49 => ⟨S4096x1408, .f32⟩
  | 50 => ⟨S1x2048x1408, .f32⟩
  | 51 => ⟨S2048x1408, .f32⟩
  | 52 => ⟨S1408x2048, .f32⟩
  | 53 => ⟨S4096x2048, .f32⟩
  | 54 => ⟨S_, .i32⟩
  | 55 => ⟨S4096x2, .i32⟩
  | 56 => ⟨S4096x2, .i1⟩
  | 57 => ⟨S4096x2, .f32⟩
  | 58 => ⟨S4096x2, .f32⟩
  | 59 => ⟨S_, .f32⟩
  | 60 => ⟨S4096, .f32⟩
  | 61 => ⟨S4096x1, .f32⟩
  | 62 => ⟨S4096x2048, .f32⟩
  | 63 => ⟨S4096x2048, .f32⟩
  | 64 => ⟨S4096x2048, .f32⟩
  | 65 => ⟨S1x2816x2048, .f32⟩
  | 66 => ⟨S2816x2048, .f32⟩
  | 67 => ⟨S2048x2816, .f32⟩
  | 68 => ⟨S4096x2816, .f32⟩
  | 69 => ⟨S4096x1408, .f32⟩
  | 70 => ⟨S4096x1408, .f32⟩
  | 71 => ⟨S4096x1408, .f32⟩
  | 72 => ⟨S_, .f32⟩
  | 73 => ⟨S4096x1408, .f32⟩
  | 74 => ⟨S4096x1408, .f32⟩
  | 75 => ⟨S_, .f32⟩
  | 76 => ⟨S4096x1408, .f32⟩
  | 77 => ⟨S4096x1408, .f32⟩
  | 78 => ⟨S4096x1408, .f32⟩
  | 79 => ⟨S4096x1408, .f32⟩
  | 80 => ⟨S4096x1408, .f32⟩
  | 81 => ⟨S1x2048x1408, .f32⟩
  | 82 => ⟨S2048x1408, .f32⟩
  | 83 => ⟨S1408x2048, .f32⟩
  | 84 => ⟨S4096x2048, .f32⟩
  | 85 => ⟨S_, .i32⟩
  | 86 => ⟨S4096x2, .i32⟩
  | 87 => ⟨S4096x2, .i1⟩
  | 88 => ⟨S4096x2, .f32⟩
  | 89 => ⟨S4096x2, .f32⟩
  | 90 => ⟨S_, .f32⟩
  | 91 => ⟨S4096, .f32⟩
  | 92 => ⟨S4096x1, .f32⟩
  | 93 => ⟨S4096x2048, .f32⟩
  | 94 => ⟨S4096x2048, .f32⟩
  | 95 => ⟨S4096x2048, .f32⟩
  | 96 => ⟨S1x2816x2048, .f32⟩
  | 97 => ⟨S2816x2048, .f32⟩
  | 98 => ⟨S2048x2816, .f32⟩
  | 99 => ⟨S4096x2816, .f32⟩
  | 100 => ⟨S4096x1408, .f32⟩
  | 101 => ⟨S4096x1408, .f32⟩
  | 102 => ⟨S4096x1408, .f32⟩
  | 103 => ⟨S_, .f32⟩
  | 104 => ⟨S4096x1408, .f32⟩
  | 105 => ⟨S4096x1408, .f32⟩
  | 106 => ⟨S_, .f32⟩
  | 107 => ⟨S4096x1408, .f32⟩
  | 108 => ⟨S4096x1408, .f32⟩
  | 109 => ⟨S4096x1408, .f32⟩
  | 110 => ⟨S4096x1408, .f32⟩
  | 111 => ⟨S4096x1408, .f32⟩
  | 112 => ⟨S1x2048x1408, .f32⟩
  | 113 => ⟨S2048x1408, .f32⟩
  | 114 => ⟨S1408x2048, .f32⟩
  | 115 => ⟨S4096x2048, .f32⟩
  | 116 => ⟨S_, .i32⟩
  | 117 => ⟨S4096x2, .i32⟩
  | 118 => ⟨S4096x2, .i1⟩
  | 119 => ⟨S4096x2, .f32⟩
  | 120 => ⟨S4096x2, .f32⟩
  | 121 => ⟨S_, .f32⟩
  | 122 => ⟨S4096, .f32⟩
  | 123 => ⟨S4096x1, .f32⟩
  | 124 => ⟨S4096x2048, .f32⟩
  | 125 => ⟨S4096x2048, .f32⟩
  | 126 => ⟨S4096x2048, .f32⟩
  | 127 => ⟨S1x2816x2048, .f32⟩
  | _ => ⟨S4096x2048, .f32⟩

abbrev hbmTy0_2 (i : Nat) : BufTy := match i % 128 with
  | 0 => ⟨S2816x2048, .f32⟩
  | 1 => ⟨S2048x2816, .f32⟩
  | 2 => ⟨S4096x2816, .f32⟩
  | 3 => ⟨S4096x1408, .f32⟩
  | 4 => ⟨S4096x1408, .f32⟩
  | 5 => ⟨S4096x1408, .f32⟩
  | 6 => ⟨S_, .f32⟩
  | 7 => ⟨S4096x1408, .f32⟩
  | 8 => ⟨S4096x1408, .f32⟩
  | 9 => ⟨S_, .f32⟩
  | 10 => ⟨S4096x1408, .f32⟩
  | 11 => ⟨S4096x1408, .f32⟩
  | 12 => ⟨S4096x1408, .f32⟩
  | 13 => ⟨S4096x1408, .f32⟩
  | 14 => ⟨S4096x1408, .f32⟩
  | 15 => ⟨S1x2048x1408, .f32⟩
  | 16 => ⟨S2048x1408, .f32⟩
  | 17 => ⟨S1408x2048, .f32⟩
  | 18 => ⟨S4096x2048, .f32⟩
  | 19 => ⟨S_, .i32⟩
  | 20 => ⟨S4096x2, .i32⟩
  | 21 => ⟨S4096x2, .i1⟩
  | 22 => ⟨S4096x2, .f32⟩
  | 23 => ⟨S4096x2, .f32⟩
  | 24 => ⟨S_, .f32⟩
  | 25 => ⟨S4096, .f32⟩
  | 26 => ⟨S4096x1, .f32⟩
  | 27 => ⟨S4096x2048, .f32⟩
  | 28 => ⟨S4096x2048, .f32⟩
  | 29 => ⟨S4096x2048, .f32⟩
  | 30 => ⟨S1x2816x2048, .f32⟩
  | 31 => ⟨S2816x2048, .f32⟩
  | 32 => ⟨S2048x2816, .f32⟩
  | 33 => ⟨S4096x2816, .f32⟩
  | 34 => ⟨S4096x1408, .f32⟩
  | 35 => ⟨S4096x1408, .f32⟩
  | 36 => ⟨S4096x1408, .f32⟩
  | 37 => ⟨S_, .f32⟩
  | 38 => ⟨S4096x1408, .f32⟩
  | 39 => ⟨S4096x1408, .f32⟩
  | 40 => ⟨S_, .f32⟩
  | 41 => ⟨S4096x1408, .f32⟩
  | 42 => ⟨S4096x1408, .f32⟩
  | 43 => ⟨S4096x1408, .f32⟩
  | 44 => ⟨S4096x1408, .f32⟩
  | 45 => ⟨S4096x1408, .f32⟩
  | 46 => ⟨S1x2048x1408, .f32⟩
  | 47 => ⟨S2048x1408, .f32⟩
  | 48 => ⟨S1408x2048, .f32⟩
  | 49 => ⟨S4096x2048, .f32⟩
  | 50 => ⟨S_, .i32⟩
  | 51 => ⟨S4096x2, .i32⟩
  | 52 => ⟨S4096x2, .i1⟩
  | 53 => ⟨S4096x2, .f32⟩
  | 54 => ⟨S4096x2, .f32⟩
  | 55 => ⟨S_, .f32⟩
  | 56 => ⟨S4096, .f32⟩
  | 57 => ⟨S4096x1, .f32⟩
  | 58 => ⟨S4096x2048, .f32⟩
  | 59 => ⟨S4096x2048, .f32⟩
  | 60 => ⟨S4096x2048, .f32⟩
  | 61 => ⟨S1x2816x2048, .f32⟩
  | 62 => ⟨S2816x2048, .f32⟩
  | 63 => ⟨S2048x2816, .f32⟩
  | 64 => ⟨S4096x2816, .f32⟩
  | 65 => ⟨S4096x1408, .f32⟩
  | 66 => ⟨S4096x1408, .f32⟩
  | 67 => ⟨S4096x1408, .f32⟩
  | 68 => ⟨S_, .f32⟩
  | 69 => ⟨S4096x1408, .f32⟩
  | 70 => ⟨S4096x1408, .f32⟩
  | 71 => ⟨S_, .f32⟩
  | 72 => ⟨S4096x1408, .f32⟩
  | 73 => ⟨S4096x1408, .f32⟩
  | 74 => ⟨S4096x1408, .f32⟩
  | 75 => ⟨S4096x1408, .f32⟩
  | 76 => ⟨S4096x1408, .f32⟩
  | 77 => ⟨S1x2048x1408, .f32⟩
  | 78 => ⟨S2048x1408, .f32⟩
  | 79 => ⟨S1408x2048, .f32⟩
  | 80 => ⟨S4096x2048, .f32⟩
  | 81 => ⟨S_, .i32⟩
  | 82 => ⟨S4096x2, .i32⟩
  | 83 => ⟨S4096x2, .i1⟩
  | 84 => ⟨S4096x2, .f32⟩
  | 85 => ⟨S4096x2, .f32⟩
  | 86 => ⟨S_, .f32⟩
  | 87 => ⟨S4096, .f32⟩
  | 88 => ⟨S4096x1, .f32⟩
  | 89 => ⟨S4096x2048, .f32⟩
  | 90 => ⟨S4096x2048, .f32⟩
  | 91 => ⟨S4096x2048, .f32⟩
  | 92 => ⟨S1x2816x2048, .f32⟩
  | 93 => ⟨S2816x2048, .f32⟩
  | 94 => ⟨S2048x2816, .f32⟩
  | 95 => ⟨S4096x2816, .f32⟩
  | 96 => ⟨S4096x1408, .f32⟩
  | 97 => ⟨S4096x1408, .f32⟩
  | 98 => ⟨S4096x1408, .f32⟩
  | 99 => ⟨S_, .f32⟩
  | 100 => ⟨S4096x1408, .f32⟩
  | 101 => ⟨S4096x1408, .f32⟩
  | 102 => ⟨S_, .f32⟩
  | 103 => ⟨S4096x1408, .f32⟩
  | 104 => ⟨S4096x1408, .f32⟩
  | 105 => ⟨S4096x1408, .f32⟩
  | 106 => ⟨S4096x1408, .f32⟩
  | 107 => ⟨S4096x1408, .f32⟩
  | 108 => ⟨S1x2048x1408, .f32⟩
  | 109 => ⟨S2048x1408, .f32⟩
  | 110 => ⟨S1408x2048, .f32⟩
  | 111 => ⟨S4096x2048, .f32⟩
  | 112 => ⟨S_, .i32⟩
  | 113 => ⟨S4096x2, .i32⟩
  | 114 => ⟨S4096x2, .i1⟩
  | 115 => ⟨S4096x2, .f32⟩
  | 116 => ⟨S4096x2, .f32⟩
  | 117 => ⟨S_, .f32⟩
  | 118 => ⟨S4096, .f32⟩
  | 119 => ⟨S4096x1, .f32⟩
  | 120 => ⟨S4096x2048, .f32⟩
  | 121 => ⟨S4096x2048, .f32⟩
  | 122 => ⟨S4096x2048, .f32⟩
  | 123 => ⟨S1x2816x2048, .f32⟩
  | 124 => ⟨S2816x2048, .f32⟩
  | 125 => ⟨S2048x2816, .f32⟩
  | 126 => ⟨S4096x2816, .f32⟩
  | 127 => ⟨S4096x1408, .f32⟩
  | _ => ⟨S4096x2048, .f32⟩

abbrev hbmTy0_3 (i : Nat) : BufTy := match i % 128 with
  | 0 => ⟨S4096x1408, .f32⟩
  | 1 => ⟨S4096x1408, .f32⟩
  | 2 => ⟨S_, .f32⟩
  | 3 => ⟨S4096x1408, .f32⟩
  | 4 => ⟨S4096x1408, .f32⟩
  | 5 => ⟨S_, .f32⟩
  | 6 => ⟨S4096x1408, .f32⟩
  | 7 => ⟨S4096x1408, .f32⟩
  | 8 => ⟨S4096x1408, .f32⟩
  | 9 => ⟨S4096x1408, .f32⟩
  | 10 => ⟨S4096x1408, .f32⟩
  | 11 => ⟨S1x2048x1408, .f32⟩
  | 12 => ⟨S2048x1408, .f32⟩
  | 13 => ⟨S1408x2048, .f32⟩
  | 14 => ⟨S4096x2048, .f32⟩
  | 15 => ⟨S_, .i32⟩
  | 16 => ⟨S4096x2, .i32⟩
  | 17 => ⟨S4096x2, .i1⟩
  | 18 => ⟨S4096x2, .f32⟩
  | 19 => ⟨S4096x2, .f32⟩
  | 20 => ⟨S_, .f32⟩
  | 21 => ⟨S4096, .f32⟩
  | 22 => ⟨S4096x1, .f32⟩
  | 23 => ⟨S4096x2048, .f32⟩
  | 24 => ⟨S4096x2048, .f32⟩
  | 25 => ⟨S4096x2048, .f32⟩
  | 26 => ⟨S1x2816x2048, .f32⟩
  | 27 => ⟨S2816x2048, .f32⟩
  | 28 => ⟨S2048x2816, .f32⟩
  | 29 => ⟨S4096x2816, .f32⟩
  | 30 => ⟨S4096x1408, .f32⟩
  | 31 => ⟨S4096x1408, .f32⟩
  | 32 => ⟨S4096x1408, .f32⟩
  | 33 => ⟨S_, .f32⟩
  | 34 => ⟨S4096x1408, .f32⟩
  | 35 => ⟨S4096x1408, .f32⟩
  | 36 => ⟨S_, .f32⟩
  | 37 => ⟨S4096x1408, .f32⟩
  | 38 => ⟨S4096x1408, .f32⟩
  | 39 => ⟨S4096x1408, .f32⟩
  | 40 => ⟨S4096x1408, .f32⟩
  | 41 => ⟨S4096x1408, .f32⟩
  | 42 => ⟨S1x2048x1408, .f32⟩
  | 43 => ⟨S2048x1408, .f32⟩
  | 44 => ⟨S1408x2048, .f32⟩
  | 45 => ⟨S4096x2048, .f32⟩
  | 46 => ⟨S_, .i32⟩
  | 47 => ⟨S4096x2, .i32⟩
  | 48 => ⟨S4096x2, .i1⟩
  | 49 => ⟨S4096x2, .f32⟩
  | 50 => ⟨S4096x2, .f32⟩
  | 51 => ⟨S_, .f32⟩
  | 52 => ⟨S4096, .f32⟩
  | 53 => ⟨S4096x1, .f32⟩
  | 54 => ⟨S4096x2048, .f32⟩
  | 55 => ⟨S4096x2048, .f32⟩
  | 56 => ⟨S4096x2048, .f32⟩
  | 57 => ⟨S1x2816x2048, .f32⟩
  | 58 => ⟨S2816x2048, .f32⟩
  | 59 => ⟨S2048x2816, .f32⟩
  | 60 => ⟨S4096x2816, .f32⟩
  | 61 => ⟨S4096x1408, .f32⟩
  | 62 => ⟨S4096x1408, .f32⟩
  | 63 => ⟨S4096x1408, .f32⟩
  | 64 => ⟨S_, .f32⟩
  | 65 => ⟨S4096x1408, .f32⟩
  | 66 => ⟨S4096x1408, .f32⟩
  | 67 => ⟨S_, .f32⟩
  | 68 => ⟨S4096x1408, .f32⟩
  | 69 => ⟨S4096x1408, .f32⟩
  | 70 => ⟨S4096x1408, .f32⟩
  | 71 => ⟨S4096x1408, .f32⟩
  | 72 => ⟨S4096x1408, .f32⟩
  | 73 => ⟨S1x2048x1408, .f32⟩
  | 74 => ⟨S2048x1408, .f32⟩
  | 75 => ⟨S1408x2048, .f32⟩
  | 76 => ⟨S4096x2048, .f32⟩
  | 77 => ⟨S_, .i32⟩
  | 78 => ⟨S4096x2, .i32⟩
  | 79 => ⟨S4096x2, .i1⟩
  | 80 => ⟨S4096x2, .f32⟩
  | 81 => ⟨S4096x2, .f32⟩
  | 82 => ⟨S_, .f32⟩
  | 83 => ⟨S4096, .f32⟩
  | 84 => ⟨S4096x1, .f32⟩
  | 85 => ⟨S4096x2048, .f32⟩
  | 86 => ⟨S4096x2048, .f32⟩
  | 87 => ⟨S4096x2048, .f32⟩
  | 88 => ⟨S1x2816x2048, .f32⟩
  | 89 => ⟨S2816x2048, .f32⟩
  | 90 => ⟨S2048x2816, .f32⟩
  | 91 => ⟨S4096x2816, .f32⟩
  | 92 => ⟨S4096x1408, .f32⟩
  | 93 => ⟨S4096x1408, .f32⟩
  | 94 => ⟨S4096x1408, .f32⟩
  | 95 => ⟨S_, .f32⟩
  | 96 => ⟨S4096x1408, .f32⟩
  | 97 => ⟨S4096x1408, .f32⟩
  | 98 => ⟨S_, .f32⟩
  | 99 => ⟨S4096x1408, .f32⟩
  | 100 => ⟨S4096x1408, .f32⟩
  | 101 => ⟨S4096x1408, .f32⟩
  | 102 => ⟨S4096x1408, .f32⟩
  | 103 => ⟨S4096x1408, .f32⟩
  | 104 => ⟨S1x2048x1408, .f32⟩
  | 105 => ⟨S2048x1408, .f32⟩
  | 106 => ⟨S1408x2048, .f32⟩
  | 107 => ⟨S4096x2048, .f32⟩
  | 108 => ⟨S_, .i32⟩
  | 109 => ⟨S4096x2, .i32⟩
  | 110 => ⟨S4096x2, .i1⟩
  | 111 => ⟨S4096x2, .f32⟩
  | 112 => ⟨S4096x2, .f32⟩
  | 113 => ⟨S_, .f32⟩
  | 114 => ⟨S4096, .f32⟩
  | 115 => ⟨S4096x1, .f32⟩
  | 116 => ⟨S4096x2048, .f32⟩
  | 117 => ⟨S4096x2048, .f32⟩
  | 118 => ⟨S4096x2048, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_3 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_4 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call3_v0 : Ref sig .tc := ⟨.hbm, 105, rfl⟩
abbrev main_call3_v1 : Ref sig .tc := ⟨.hbm, 106, rfl⟩
abbrev main_call3_cst : Ref sig .tc := ⟨.hbm, 107, rfl⟩
abbrev main_call3_v2 : Ref sig .tc := ⟨.hbm, 108, rfl⟩
abbrev main_call3_v3 : Ref sig .tc := ⟨.hbm, 109, rfl⟩
abbrev main_call3_cst_0 : Ref sig .tc := ⟨.hbm, 110, rfl⟩
abbrev main_call3_v4 : Ref sig .tc := ⟨.hbm, 111, rfl⟩
abbrev main_call3_v5 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_5 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_6 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_c_7 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_8 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_c_9 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_cst_10 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_call6_v0 : Ref sig .tc := ⟨.hbm, 198, rfl⟩
abbrev main_call6_v1 : Ref sig .tc := ⟨.hbm, 199, rfl⟩
abbrev main_call6_cst : Ref sig .tc := ⟨.hbm, 200, rfl⟩
abbrev main_call6_v2 : Ref sig .tc := ⟨.hbm, 201, rfl⟩
abbrev main_call6_v3 : Ref sig .tc := ⟨.hbm, 202, rfl⟩
abbrev main_call6_cst_0 : Ref sig .tc := ⟨.hbm, 203, rfl⟩
abbrev main_call6_v4 : Ref sig .tc := ⟨.hbm, 204, rfl⟩
abbrev main_call6_v5 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_c_11 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_cst_12 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_call7_v0 : Ref sig .tc := ⟨.hbm, 229, rfl⟩
abbrev main_call7_v1 : Ref sig .tc := ⟨.hbm, 230, rfl⟩
abbrev main_call7_cst : Ref sig .tc := ⟨.hbm, 231, rfl⟩
abbrev main_call7_v2 : Ref sig .tc := ⟨.hbm, 232, rfl⟩
abbrev main_call7_v3 : Ref sig .tc := ⟨.hbm, 233, rfl⟩
abbrev main_call7_cst_0 : Ref sig .tc := ⟨.hbm, 234, rfl⟩
abbrev main_call7_v4 : Ref sig .tc := ⟨.hbm, 235, rfl⟩
abbrev main_call7_v5 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_c_13 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_cst_14 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_call8_v0 : Ref sig .tc := ⟨.hbm, 260, rfl⟩
abbrev main_call8_v1 : Ref sig .tc := ⟨.hbm, 261, rfl⟩
abbrev main_call8_cst : Ref sig .tc := ⟨.hbm, 262, rfl⟩
abbrev main_call8_v2 : Ref sig .tc := ⟨.hbm, 263, rfl⟩
abbrev main_call8_v3 : Ref sig .tc := ⟨.hbm, 264, rfl⟩
abbrev main_call8_cst_0 : Ref sig .tc := ⟨.hbm, 265, rfl⟩
abbrev main_call8_v4 : Ref sig .tc := ⟨.hbm, 266, rfl⟩
abbrev main_call8_v5 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_c_15 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_cst_16 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_call9_v0 : Ref sig .tc := ⟨.hbm, 291, rfl⟩
abbrev main_call9_v1 : Ref sig .tc := ⟨.hbm, 292, rfl⟩
abbrev main_call9_cst : Ref sig .tc := ⟨.hbm, 293, rfl⟩
abbrev main_call9_v2 : Ref sig .tc := ⟨.hbm, 294, rfl⟩
abbrev main_call9_v3 : Ref sig .tc := ⟨.hbm, 295, rfl⟩
abbrev main_call9_cst_0 : Ref sig .tc := ⟨.hbm, 296, rfl⟩
abbrev main_call9_v4 : Ref sig .tc := ⟨.hbm, 297, rfl⟩
abbrev main_call9_v5 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_c_17 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_cst_18 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_call10_v0 : Ref sig .tc := ⟨.hbm, 322, rfl⟩
abbrev main_call10_v1 : Ref sig .tc := ⟨.hbm, 323, rfl⟩
abbrev main_call10_cst : Ref sig .tc := ⟨.hbm, 324, rfl⟩
abbrev main_call10_v2 : Ref sig .tc := ⟨.hbm, 325, rfl⟩
abbrev main_call10_v3 : Ref sig .tc := ⟨.hbm, 326, rfl⟩
abbrev main_call10_cst_0 : Ref sig .tc := ⟨.hbm, 327, rfl⟩
abbrev main_call10_v4 : Ref sig .tc := ⟨.hbm, 328, rfl⟩
abbrev main_call10_v5 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_c_19 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_cst_20 : Ref sig .tc := ⟨.hbm, 342, rfl⟩
abbrev main_v227 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_call11_v0 : Ref sig .tc := ⟨.hbm, 353, rfl⟩
abbrev main_call11_v1 : Ref sig .tc := ⟨.hbm, 354, rfl⟩
abbrev main_call11_cst : Ref sig .tc := ⟨.hbm, 355, rfl⟩
abbrev main_call11_v2 : Ref sig .tc := ⟨.hbm, 356, rfl⟩
abbrev main_call11_v3 : Ref sig .tc := ⟨.hbm, 357, rfl⟩
abbrev main_call11_cst_0 : Ref sig .tc := ⟨.hbm, 358, rfl⟩
abbrev main_call11_v4 : Ref sig .tc := ⟨.hbm, 359, rfl⟩
abbrev main_call11_v5 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_c_21 : Ref sig .tc := ⟨.hbm, 368, rfl⟩
abbrev main_v244 : Ref sig .tc := ⟨.hbm, 369, rfl⟩
abbrev main_v245 : Ref sig .tc := ⟨.hbm, 370, rfl⟩
abbrev main_v246 : Ref sig .tc := ⟨.hbm, 371, rfl⟩
abbrev main_v247 : Ref sig .tc := ⟨.hbm, 372, rfl⟩
abbrev main_cst_22 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_call12_v0 : Ref sig .tc := ⟨.hbm, 384, rfl⟩
abbrev main_call12_v1 : Ref sig .tc := ⟨.hbm, 385, rfl⟩
abbrev main_call12_cst : Ref sig .tc := ⟨.hbm, 386, rfl⟩
abbrev main_call12_v2 : Ref sig .tc := ⟨.hbm, 387, rfl⟩
abbrev main_call12_v3 : Ref sig .tc := ⟨.hbm, 388, rfl⟩
abbrev main_call12_cst_0 : Ref sig .tc := ⟨.hbm, 389, rfl⟩
abbrev main_call12_v4 : Ref sig .tc := ⟨.hbm, 390, rfl⟩
abbrev main_call12_v5 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_c_23 : Ref sig .tc := ⟨.hbm, 399, rfl⟩
abbrev main_v265 : Ref sig .tc := ⟨.hbm, 400, rfl⟩
abbrev main_v266 : Ref sig .tc := ⟨.hbm, 401, rfl⟩
abbrev main_v267 : Ref sig .tc := ⟨.hbm, 402, rfl⟩
abbrev main_v268 : Ref sig .tc := ⟨.hbm, 403, rfl⟩
abbrev main_cst_24 : Ref sig .tc := ⟨.hbm, 404, rfl⟩
abbrev main_v269 : Ref sig .tc := ⟨.hbm, 405, rfl⟩
abbrev main_v270 : Ref sig .tc := ⟨.hbm, 406, rfl⟩
abbrev main_v271 : Ref sig .tc := ⟨.hbm, 407, rfl⟩
abbrev main_v272 : Ref sig .tc := ⟨.hbm, 408, rfl⟩
abbrev main_v273 : Ref sig .tc := ⟨.hbm, 409, rfl⟩
abbrev main_v274 : Ref sig .tc := ⟨.hbm, 410, rfl⟩
abbrev main_v275 : Ref sig .tc := ⟨.hbm, 411, rfl⟩
abbrev main_v276 : Ref sig .tc := ⟨.hbm, 412, rfl⟩
abbrev main_v277 : Ref sig .tc := ⟨.hbm, 413, rfl⟩
abbrev main_v278 : Ref sig .tc := ⟨.hbm, 414, rfl⟩
abbrev main_call13_v0 : Ref sig .tc := ⟨.hbm, 415, rfl⟩
abbrev main_call13_v1 : Ref sig .tc := ⟨.hbm, 416, rfl⟩
abbrev main_call13_cst : Ref sig .tc := ⟨.hbm, 417, rfl⟩
abbrev main_call13_v2 : Ref sig .tc := ⟨.hbm, 418, rfl⟩
abbrev main_call13_v3 : Ref sig .tc := ⟨.hbm, 419, rfl⟩
abbrev main_call13_cst_0 : Ref sig .tc := ⟨.hbm, 420, rfl⟩
abbrev main_call13_v4 : Ref sig .tc := ⟨.hbm, 421, rfl⟩
abbrev main_call13_v5 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_c_25 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_cst_26 : Ref sig .tc := ⟨.hbm, 435, rfl⟩
abbrev main_v290 : Ref sig .tc := ⟨.hbm, 436, rfl⟩
abbrev main_v291 : Ref sig .tc := ⟨.hbm, 437, rfl⟩
abbrev main_v292 : Ref sig .tc := ⟨.hbm, 438, rfl⟩
abbrev main_v293 : Ref sig .tc := ⟨.hbm, 439, rfl⟩
abbrev main_v294 : Ref sig .tc := ⟨.hbm, 440, rfl⟩
abbrev main_v295 : Ref sig .tc := ⟨.hbm, 441, rfl⟩
abbrev main_v296 : Ref sig .tc := ⟨.hbm, 442, rfl⟩
abbrev main_v297 : Ref sig .tc := ⟨.hbm, 443, rfl⟩
abbrev main_v298 : Ref sig .tc := ⟨.hbm, 444, rfl⟩
abbrev main_v299 : Ref sig .tc := ⟨.hbm, 445, rfl⟩
abbrev main_call14_v0 : Ref sig .tc := ⟨.hbm, 446, rfl⟩
abbrev main_call14_v1 : Ref sig .tc := ⟨.hbm, 447, rfl⟩
abbrev main_call14_cst : Ref sig .tc := ⟨.hbm, 448, rfl⟩
abbrev main_call14_v2 : Ref sig .tc := ⟨.hbm, 449, rfl⟩
abbrev main_call14_v3 : Ref sig .tc := ⟨.hbm, 450, rfl⟩
abbrev main_call14_cst_0 : Ref sig .tc := ⟨.hbm, 451, rfl⟩
abbrev main_call14_v4 : Ref sig .tc := ⟨.hbm, 452, rfl⟩
abbrev main_call14_v5 : Ref sig .tc := ⟨.hbm, 453, rfl⟩
abbrev main_v300 : Ref sig .tc := ⟨.hbm, 454, rfl⟩
abbrev main_v301 : Ref sig .tc := ⟨.hbm, 455, rfl⟩
abbrev main_v302 : Ref sig .tc := ⟨.hbm, 456, rfl⟩
abbrev main_v303 : Ref sig .tc := ⟨.hbm, 457, rfl⟩
abbrev main_v304 : Ref sig .tc := ⟨.hbm, 458, rfl⟩
abbrev main_v305 : Ref sig .tc := ⟨.hbm, 459, rfl⟩
abbrev main_v306 : Ref sig .tc := ⟨.hbm, 460, rfl⟩
abbrev main_c_27 : Ref sig .tc := ⟨.hbm, 461, rfl⟩
abbrev main_v307 : Ref sig .tc := ⟨.hbm, 462, rfl⟩
abbrev main_v308 : Ref sig .tc := ⟨.hbm, 463, rfl⟩
abbrev main_v309 : Ref sig .tc := ⟨.hbm, 464, rfl⟩
abbrev main_v310 : Ref sig .tc := ⟨.hbm, 465, rfl⟩
abbrev main_cst_28 : Ref sig .tc := ⟨.hbm, 466, rfl⟩
abbrev main_v311 : Ref sig .tc := ⟨.hbm, 467, rfl⟩
abbrev main_v312 : Ref sig .tc := ⟨.hbm, 468, rfl⟩
abbrev main_v313 : Ref sig .tc := ⟨.hbm, 469, rfl⟩
abbrev main_v314 : Ref sig .tc := ⟨.hbm, 470, rfl⟩
abbrev main_v315 : Ref sig .tc := ⟨.hbm, 471, rfl⟩
abbrev main_v316 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_v320 : Ref sig .tc := ⟨.hbm, 476, rfl⟩
abbrev main_call15_v0 : Ref sig .tc := ⟨.hbm, 477, rfl⟩
abbrev main_call15_v1 : Ref sig .tc := ⟨.hbm, 478, rfl⟩
abbrev main_call15_cst : Ref sig .tc := ⟨.hbm, 479, rfl⟩
abbrev main_call15_v2 : Ref sig .tc := ⟨.hbm, 480, rfl⟩
abbrev main_call15_v3 : Ref sig .tc := ⟨.hbm, 481, rfl⟩
abbrev main_call15_cst_0 : Ref sig .tc := ⟨.hbm, 482, rfl⟩
abbrev main_call15_v4 : Ref sig .tc := ⟨.hbm, 483, rfl⟩
abbrev main_call15_v5 : Ref sig .tc := ⟨.hbm, 484, rfl⟩
abbrev main_v321 : Ref sig .tc := ⟨.hbm, 485, rfl⟩
abbrev main_v322 : Ref sig .tc := ⟨.hbm, 486, rfl⟩
abbrev main_v323 : Ref sig .tc := ⟨.hbm, 487, rfl⟩
abbrev main_v324 : Ref sig .tc := ⟨.hbm, 488, rfl⟩
abbrev main_v325 : Ref sig .tc := ⟨.hbm, 489, rfl⟩
abbrev main_v326 : Ref sig .tc := ⟨.hbm, 490, rfl⟩
abbrev main_v327 : Ref sig .tc := ⟨.hbm, 491, rfl⟩
abbrev main_c_29 : Ref sig .tc := ⟨.hbm, 492, rfl⟩
abbrev main_v328 : Ref sig .tc := ⟨.hbm, 493, rfl⟩
abbrev main_v329 : Ref sig .tc := ⟨.hbm, 494, rfl⟩
abbrev main_v330 : Ref sig .tc := ⟨.hbm, 495, rfl⟩
abbrev main_v331 : Ref sig .tc := ⟨.hbm, 496, rfl⟩
abbrev main_cst_30 : Ref sig .tc := ⟨.hbm, 497, rfl⟩
abbrev main_v332 : Ref sig .tc := ⟨.hbm, 498, rfl⟩
abbrev main_v333 : Ref sig .tc := ⟨.hbm, 499, rfl⟩
abbrev main_v334 : Ref sig .tc := ⟨.hbm, 500, rfl⟩
abbrev main_v335 : Ref sig .tc := ⟨.hbm, 501, rfl⟩
abbrev main_v336 : Ref sig .tc := ⟨.hbm, 502, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  slices_S16x2816x2048_S1x2816x2048_0_0_0 : S16x2816x2048.Slices ![0, 0, 0] S1x2816x2048
  shapeCasts_S1x2816x2048_S2816x2048 : S1x2816x2048.ShapeCasts S2816x2048
  transposes_S2816x2048_S2048x2816_1_0 : S2816x2048.Transposes [1, 0] S2048x2816
  slices_S4096x2816_S4096x1408_0_0 : S4096x2816.Slices ![0, 0] S4096x1408
  bcast_S_S4096x1408 : S_.BroadcastsInDim S4096x1408 (![] : Fin 0 → Fin S4096x1408.rank)
  slices_S4096x2816_S4096x1408_0_1408 : S4096x2816.Slices ![0, 1408] S4096x1408
  slices_S16x2048x1408_S1x2048x1408_0_0_0 : S16x2048x1408.Slices ![0, 0, 0] S1x2048x1408
  shapeCasts_S1x2048x1408_S2048x1408 : S1x2048x1408.ShapeCasts S2048x1408
  transposes_S2048x1408_S1408x2048_1_0 : S2048x1408.Transposes [1, 0] S1408x2048
  bcast_S_S4096x2 : S_.BroadcastsInDim S4096x2 (![] : Fin 0 → Fin S4096x2.rank)
  reducesTo_S4096x2_S4096_d1 : S4096x2.ReducesTo [1] S4096
  h_S_ : 0 < S_.numel
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  slices_S16x2816x2048_S1x2816x2048_1_0_0 : S16x2816x2048.Slices ![1, 0, 0] S1x2816x2048
  slices_S16x2048x1408_S1x2048x1408_1_0_0 : S16x2048x1408.Slices ![1, 0, 0] S1x2048x1408
  slices_S16x2816x2048_S1x2816x2048_2_0_0 : S16x2816x2048.Slices ![2, 0, 0] S1x2816x2048
  slices_S16x2048x1408_S1x2048x1408_2_0_0 : S16x2048x1408.Slices ![2, 0, 0] S1x2048x1408
  slices_S16x2816x2048_S1x2816x2048_3_0_0 : S16x2816x2048.Slices ![3, 0, 0] S1x2816x2048
  slices_S16x2048x1408_S1x2048x1408_3_0_0 : S16x2048x1408.Slices ![3, 0, 0] S1x2048x1408
  slices_S16x2816x2048_S1x2816x2048_4_0_0 : S16x2816x2048.Slices ![4, 0, 0] S1x2816x2048
  slices_S16x2048x1408_S1x2048x1408_4_0_0 : S16x2048x1408.Slices ![4, 0, 0] S1x2048x1408
  slices_S16x2816x2048_S1x2816x2048_5_0_0 : S16x2816x2048.Slices ![5, 0, 0] S1x2816x2048
  slices_S16x2048x1408_S1x2048x1408_5_0_0 : S16x2048x1408.Slices ![5, 0, 0] S1x2048x1408
  slices_S16x2816x2048_S1x2816x2048_6_0_0 : S16x2816x2048.Slices ![6, 0, 0] S1x2816x2048
  slices_S16x2048x1408_S1x2048x1408_6_0_0 : S16x2048x1408.Slices ![6, 0, 0] S1x2048x1408
  slices_S16x2816x2048_S1x2816x2048_7_0_0 : S16x2816x2048.Slices ![7, 0, 0] S1x2816x2048
  slices_S16x2048x1408_S1x2048x1408_7_0_0 : S16x2048x1408.Slices ![7, 0, 0] S1x2048x1408
  slices_S16x2816x2048_S1x2816x2048_8_0_0 : S16x2816x2048.Slices ![8, 0, 0] S1x2816x2048
  slices_S16x2048x1408_S1x2048x1408_8_0_0 : S16x2048x1408.Slices ![8, 0, 0] S1x2048x1408
  slices_S16x2816x2048_S1x2816x2048_9_0_0 : S16x2816x2048.Slices ![9, 0, 0] S1x2816x2048
  slices_S16x2048x1408_S1x2048x1408_9_0_0 : S16x2048x1408.Slices ![9, 0, 0] S1x2048x1408
  slices_S16x2816x2048_S1x2816x2048_10_0_0 : S16x2816x2048.Slices ![10, 0, 0] S1x2816x2048
  slices_S16x2048x1408_S1x2048x1408_10_0_0 : S16x2048x1408.Slices ![10, 0, 0] S1x2048x1408
  slices_S16x2816x2048_S1x2816x2048_11_0_0 : S16x2816x2048.Slices ![11, 0, 0] S1x2816x2048
  slices_S16x2048x1408_S1x2048x1408_11_0_0 : S16x2048x1408.Slices ![11, 0, 0] S1x2048x1408
  slices_S16x2816x2048_S1x2816x2048_12_0_0 : S16x2816x2048.Slices ![12, 0, 0] S1x2816x2048
  slices_S16x2048x1408_S1x2048x1408_12_0_0 : S16x2048x1408.Slices ![12, 0, 0] S1x2048x1408
  slices_S16x2816x2048_S1x2816x2048_13_0_0 : S16x2816x2048.Slices ![13, 0, 0] S1x2816x2048
  slices_S16x2048x1408_S1x2048x1408_13_0_0 : S16x2048x1408.Slices ![13, 0, 0] S1x2048x1408
  slices_S16x2816x2048_S1x2816x2048_14_0_0 : S16x2816x2048.Slices ![14, 0, 0] S1x2816x2048
  slices_S16x2048x1408_S1x2048x1408_14_0_0 : S16x2048x1408.Slices ![14, 0, 0] S1x2048x1408
  slices_S16x2816x2048_S1x2816x2048_15_0_0 : S16x2816x2048.Slices ![15, 0, 0] S1x2816x2048
  slices_S16x2048x1408_S1x2048x1408_15_0_0 : S16x2048x1408.Slices ![15, 0, 0] S1x2048x1408
  dot_S4096x2048_S2048x2816_S4096x2816_1_0_0_1_n_n_wf : DotDims.WF S4096x2048 S2048x2816 S4096x2816 [1] [0] [0] [1] [] []
  dot_S4096x1408_S1408x2048_S4096x2048_1_0_0_1_n_n_wf : DotDims.WF S4096x1408 S1408x2048 S4096x2048 [1] [0] [0] [1] [] []

variable [Facts₀]

def dot_S4096x2048_S2048x2816_S4096x2816_1_0_0_1_n_n : DotDims S4096x2048 S2048x2816 S4096x2816 where
  lhsContracting := [1]
  rhsContracting := [0]
  lhsNonContracting := [0]
  rhsNonContracting := [1]
  lhsBatch := []
  rhsBatch := []
  wf := dot_S4096x2048_S2048x2816_S4096x2816_1_0_0_1_n_n_wf
def dot_S4096x1408_S1408x2048_S4096x2048_1_0_0_1_n_n : DotDims S4096x1408 S1408x2048 S4096x2048 where
  lhsContracting := [1]
  rhsContracting := [0]
  lhsNonContracting := [0]
  rhsNonContracting := [1]
  lhsBatch := []
  rhsBatch := []
  wf := dot_S4096x1408_S1408x2048_S4096x2048_1_0_0_1_n_n_wf

class Facts : Prop extends Facts₀ where

variable [Facts]
-- ==== Proof.Spec.lean ====
/-
  The specification: a mixture-of-experts layer on the extended reals, one token and one expert at a time.

  A token is a row `x` of 2048 features.  Expert `e` owns a projection `w1` (2816 rows of 2048) and a projection
  `w2` (2048 rows of 1408).  The token's projected features are `proj x w1 n = ∑ k, x k · w1 n k`; the first 1408
  are a gate, the last 1408 an up projection, and the hidden features are `silu (gate) · up` with
  `silu g = g · logistic g`.  The expert's output for the token is `down c = ∑ n, hidden n · w2 c n`.  The token
  carries two routing slots, each an expert id and a weight; expert `e`'s share of the token is the sum of the
  weights of the slots whose id is `e` (`route`), and its contribution to the token's output is
  `route · down` (`term`).  The layer's output is the experts' contributions added in the order of the experts,
  starting from zero (`accum`): a left fold, so no law of the extended reals is needed to compare two programs
  that both add in that order.
-/
import Idealize.ShloMosaic.PureOps.Ideal
import Idealize.ShloMosaic.PureOps.Ideal.Laws
import Idealize.ShloMosaic.Lib.ValueIdx

noncomputable section

open scoped BigOperators

namespace Cert.Moe

open Idealize.ShloMosaic Idealize.ShloMosaic.ValueIdx

/-- Projected feature `n` of the gate half. -/
def lo (n : Fin 1408) : Fin 2816 := ⟨n.val, by have := n.isLt; omega⟩

/-- Projected feature `n` of the up half. -/
def hi (n : Fin 1408) : Fin 2816 := ⟨1408 + n.val, by have := n.isLt; omega⟩

/-- A token's projected feature `n` under an expert's first projection. -/
def proj (x : Fin 2048 → EReal) (w1 : Fin 2816 → Fin 2048 → EReal) (n : Fin 2816) : EReal :=
  ∑ k : Fin 2048, x k * w1 n k

/-- Hidden feature `n`: `silu (gate n) · up n`, with `silu g = g · logistic g`. -/
def hidden (x : Fin 2048 → EReal) (w1 : Fin 2816 → Fin 2048 → EReal) (n : Fin 1408) : EReal :=
  proj x w1 (lo n) * Ideal.logistic (proj x w1 (lo n)) * proj x w1 (hi n)

/-- The expert's output feature `c` for the token. -/
def down (x : Fin 2048 → EReal) (w1 : Fin 2816 → Fin 2048 → EReal) (w2 : Fin 2048 → Fin 1408 → EReal)
    (c : Fin 2048) : EReal :=
  ∑ n : Fin 1408, hidden x w1 n * w2 c n

/-- Expert `e`'s share of a token: the weights of the routing slots whose id is `e`, added. -/
def route (tw : Fin 2 → EReal) (ids : Fin 2 → BitVec 32) (e : BitVec 32) : EReal :=
  ∑ s : Fin 2, if ids s = e then tw s else 0

/-- Expert `e`'s contribution to output feature `c` of the token. -/
def term (x : Fin 2048 → EReal) (w1 : Fin 2816 → Fin 2048 → EReal) (w2 : Fin 2048 → Fin 1408 → EReal)
    (tw : Fin 2 → EReal) (ids : Fin 2 → BitVec 32) (e : BitVec 32) (c : Fin 2048) : EReal :=
  route tw ids e * down x w1 w2 c

/-- The first `n` terms of `f` added in order, starting from zero. -/
def accum (f : ℕ → EReal) : ℕ → EReal
  | 0 => 0
  | n + 1 => accum f n + f n

theorem accum_zero (f : ℕ → EReal) : accum f 0 = 0 := rfl
theorem accum_succ (f : ℕ → EReal) (n : ℕ) : accum f (n + 1) = accum f n + f n := rfl

/-- Two sequences that agree below `n` have the same first `n` partial sum. -/
theorem accum_congr (f g : ℕ → EReal) (n : ℕ) (h : ∀ k, k < n → f k = g k) : accum f n = accum g n := by
  induction n with
  | zero => rfl
  | succ n ih =>
    rw [accum_succ, accum_succ, ih (fun k hk => h k (Nat.lt_succ_of_lt hk)), h n (Nat.lt_succ_self n)]

/-! ## Over the argument arrays -/

/-- Expert `e`'s contribution to entry `(r, c)` of the output, from the whole argument arrays: token `r` is row
    `r` of the hidden states, of the routing weights and of the routing ids; expert `e`'s projections are slab `e`
    of the two stacked weight arrays.  (Beyond the sixteen experts: zero; never summed.) -/
def contrib (x0 : (⟨2, ![4096, 2048]⟩ : Shape).Idx → EReal) (x1 : (⟨3, ![16, 2816, 2048]⟩ : Shape).Idx → EReal)
    (x2 : (⟨3, ![16, 2048, 1408]⟩ : Shape).Idx → EReal) (x3 : (⟨2, ![4096, 2]⟩ : Shape).Idx → EReal)
    (x4 : (⟨2, ![4096, 2]⟩ : Shape).Idx → BitVec 32) (r : Fin 4096) (c : Fin 2048) (e : ℕ) : EReal :=
  if h : e < 16 then
    term (fun k => x0 (ix2 r k)) (fun n k => x1 (ix3 (⟨e, h⟩ : Fin 16) n k)) (fun d n => x2 (ix3 (⟨e, h⟩ : Fin 16) d n))
      (fun s => x3 (ix2 r s)) (fun s => x4 (ix2 r s)) (BitVec.ofNat 32 e) c
  else 0

/-- The layer's output array: entry `(r, c)` is the sixteen experts' contributions added in order from zero. -/
def out (x0 : (⟨2, ![4096, 2048]⟩ : Shape).Idx → EReal) (x1 : (⟨3, ![16, 2816, 2048]⟩ : Shape).Idx → EReal)
    (x2 : (⟨3, ![16, 2048, 1408]⟩ : Shape).Idx → EReal) (x3 : (⟨2, ![4096, 2]⟩ : Shape).Idx → EReal)
    (x4 : (⟨2, ![4096, 2]⟩ : Shape).Idx → BitVec 32) : (⟨2, ![4096, 2048]⟩ : Shape).Idx → EReal :=
  fun i => accum (contrib x0 x1 x2 x3 x4 ⟨(i 0).val, idx2_lt0 i⟩ ⟨(i 1).val, idx2_lt1 i⟩) 16

theorem out_apply (x0 : (⟨2, ![4096, 2048]⟩ : Shape).Idx → EReal) (x1 : (⟨3, ![16, 2816, 2048]⟩ : Shape).Idx → EReal)
    (x2 : (⟨3, ![16, 2048, 1408]⟩ : Shape).Idx → EReal) (x3 : (⟨2, ![4096, 2]⟩ : Shape).Idx → EReal)
    (x4 : (⟨2, ![4096, 2]⟩ : Shape).Idx → BitVec 32) (r : Fin 4096) (c : Fin 2048) :
    out x0 x1 x2 x3 x4 (ix2 r c) = accum (contrib x0 x1 x2 x3 x4 r c) 16 := rfl

end Cert.Moe

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibMaskSlab.lean ====
/-
  Slabs, equality masks and folds of concatenated straight lines.

  A stacked rank-3 array `[n, a, b]` cut along its first axis at `o` with extent one reads, at `(u, i, j)`, the source
  at `(o, i, j)`.  Routing by an id is written two ways: a select on the test `id = e` between a weight and zero, and the
  weight times the test converted to a float (0 or 1); on the extended reals `w · 1 = w` and `w · 0 = 0` for every
  `w`, the infinities included, so both are the weight where the id is `e` and zero elsewhere.  The buffer contents after a
  concatenation of two straight lines of host operations are those after the second line from those after the first.
-/
import Idealize.ShloMosaic.PureOps.Ideal.Laws
import Idealize.ShloMosaic.Lib.ValueIdx
import Idealize.ShloMosaic.Lib.Pipeline.Value
import Idealize.ShloMosaic.Lib.StableHlo.Run

noncomputable section

namespace Cert.MaskSlab

open Idealize.ShloMosaic Idealize.ShloMosaic.ValueIdx

/-- One slab of a stacked rank-3 array: cut along axis 0 at `o` with extent one, it reads, at `(u, a, b)`, the
    source at `(o, a, b)`. -/
theorem slab_apply {α : Type} {n0 n1 n2 : ℕ} (o : ℕ) (X : (⟨3, ![n0, n1, n2]⟩ : Shape).Idx → α)
    (h : (⟨3, ![n0, n1, n2]⟩ : Shape).Slices ![o, 0, 0] ⟨3, ![1, n1, n2]⟩) (u : Fin 1) (a : Fin n1) (b : Fin n2)
    (k : Fin n0) (hk : k.val = o) :
    extractStridedSlice ⟨3, ![1, n1, n2]⟩ ![o, 0, 0] X h (ix3 u a b) = X (ix3 k a b) :=
  extractStridedSlice_apply _ _ _ _ _ (fun ax => by
    match ax with
    | ⟨0, _⟩ =>
      have hu : u.val = 0 := by omega
      show k.val = o + u.val
      omega
    | ⟨1, _⟩ => exact (Nat.zero_add _).symm
    | ⟨2, _⟩ => exact (Nat.zero_add _).symm)

/-- Selecting on an equality test of two words is the conditional on their equality. -/
theorem select_cmpi_eq {α : Type} (a b : BitVec 32) (x y : α) :
    Scalar.select (IntOp.cmpi .eq a b) x y = if a = b then x else y := by
  unfold Scalar.select IntOp.cmpi
  by_cases h : a = b
  · subst h; simp
  · simp [h, beq_eq_false_iff_ne.mpr h]

/-- A weight times the float indicator of an equality of two words is the weight where they are equal and zero
    elsewhere, for every extended real weight. -/
theorem mul_indicator (w : EReal) (a b : BitVec 32) :
    w * FloatOps.uitofp (F := Ideal) .f32 (IntOp.cmpi .eq a b) = if a = b then w else 0 := by
  show w * (((IntOp.cmpi .eq a b).toNat : ℝ) : EReal) = _
  unfold IntOp.cmpi
  by_cases h : a = b
  · subst h; simp
  · simp [h]

/-- The fold of a concatenation is the fold of the second list from the fold of the first. -/
theorem after_append {τ : Topo} {sig : RefSig} {Val : EltTy → Type} (l₁ l₂ : List (HloOp τ sig Val))
    (V : Valuation τ sig Val) :
    StableHlo.after (l₁ ++ l₂) V = StableHlo.after l₂ (StableHlo.after l₁ V) := by
  induction l₁ generalizing V with
  | nil => rfl
  | cons op l ih => exact ih (op.result V)

end Cert.MaskSlab

end
-- ==== Proof.KernelPay.lean ====
/-
  The kernel body's arithmetic, read at an index.

  At one grid point the body holds a block of 256 tokens, one expert's two projections, the tokens' routing slots, and
  the running output block.  It leaves `running + route · down`: the block's projected features are a contraction of
  the tokens' features with the rows of the first projection (the second axes of both contracted), the hidden
  features are `silu (gate) · up` of the two halves of the projected features, the expert's output is a contraction
  of the hidden features with the rows of the second projection, and the expert's share of a token is the sum, over
  the token's two slots, of the slot's weight where its id is the expert's number and of zero elsewhere.  Entry
  `(p, q)` of what the body leaves therefore depends on row `p` of the block only, and is the specification's `term`
  of that row added to the running entry.
-/
import proofs.«156857_j4587025072789_1_alg».proof.Proof.Gen.KernelIdeal.Skeleton
import proofs.«156857_j4587025072789_1_alg».proof.Proof.Spec
import proofs.«156857_j4587025072789_1_alg».proof.Proof.LibRowBlocks
import proofs.«156857_j4587025072789_1_alg».proof.Proof.LibMaskSlab
import Idealize.ShloMosaic.Lib.ValueLayout
import Idealize.ShloMosaic.Lib.Pipeline.Value
import Idealize.ShloMosaic.PureOps.Ideal.Laws

noncomputable section

open scoped BigOperators

namespace Cert.Moe.KernelPay

open Idealize.ShloMosaic Idealize.ShloMosaic.ValueIdx Cert.KernelIdeal Cert.KernelIdeal.Facts₀

/-- The block's projected features: the tokens' features contracted with the rows of the first projection. -/
def kProj (x0 : FVec Ideal S256x2048 .bf16) (x1 : FVec Ideal S1x2816x2048 .bf16) : FVec Ideal S256x2816 .f32 :=
  matmul dot_S256x2048_S2816x2048_S256x2816_1_1_0_0_n_n none (shapeCast S256x2048 x0 shapeCasts_S256x2048_S256x2048)
    (shapeCast S2816x2048 x1 shapeCasts_S1x2816x2048_S2816x2048) (constant S256x2816 .f32 0x00000000#32)

theorem kProj_apply (x0 : FVec Ideal S256x2048 .bf16) (x1 : FVec Ideal S1x2816x2048 .bf16) (p : Fin 256) (n : Fin 2816) :
    kProj x0 x1 (ix2 p n) = Moe.proj (fun k => x0 (ix2 p k)) (fun n k => x1 (ix3 (0 : Fin 1) n k)) n := by
  unfold kProj Moe.proj
  refine ((Ideal.matmul_constant_zero_apply (φ₁ := .bf16) (φ₂ := .bf16) dot_S256x2048_S2816x2048_S256x2816_1_1_0_0_n_n none
      (shapeCast S256x2048 x0 shapeCasts_S256x2048_S256x2048) (shapeCast S2816x2048 x1 shapeCasts_S1x2816x2048_S2816x2048)
      (ix2 p n)).trans
    (Cert.RowBlocks.abT_sum dot_S256x2048_S2816x2048_S256x2816_1_1_0_0_n_n rfl rfl rfl rfl rfl rfl _ _ p n)).trans ?_
  refine Finset.sum_congr rfl fun k _ => ?_
  rw [shapeCast_self, shapeCast_1ab_ab_apply]

/-- The block's hidden features: `silu` of the gate half times the up half. -/
def kHidden (x0 : FVec Ideal S256x2048 .bf16) (x1 : FVec Ideal S1x2816x2048 .bf16) : FVec Ideal S256x1408 .bf16 :=
  truncf .bf16
    (mulf
      (mulf (extractStridedSlice S256x1408 ![0, 0] (kProj x0 x1) slices_S256x2816_o0_0_S256x1408)
        (logistic (extractStridedSlice S256x1408 ![0, 0] (kProj x0 x1) slices_S256x2816_o0_0_S256x1408)))
      (extractStridedSlice S256x1408 ![0, 1408] (kProj x0 x1) slices_S256x2816_o0_1408_S256x1408))
    bitsLt_bf16_f32

theorem kHidden_apply (x0 : FVec Ideal S256x2048 .bf16) (x1 : FVec Ideal S1x2816x2048 .bf16) (p : Fin 256) (n : Fin 1408) :
    kHidden x0 x1 (ix2 p n) = Moe.hidden (fun k => x0 (ix2 p k)) (fun n k => x1 (ix3 (0 : Fin 1) n k)) n := by
  unfold kHidden Moe.hidden
  show extractStridedSlice S256x1408 ![0, 0] (kProj x0 x1) slices_S256x2816_o0_0_S256x1408 (ix2 p n)
        * Ideal.logistic (extractStridedSlice S256x1408 ![0, 0] (kProj x0 x1) slices_S256x2816_o0_0_S256x1408 (ix2 p n))
      * extractStridedSlice S256x1408 ![0, 1408] (kProj x0 x1) slices_S256x2816_o0_1408_S256x1408 (ix2 p n) = _
  rw [slice2_axis1_apply 0 (kProj x0 x1) slices_S256x2816_o0_0_S256x1408 p n (Moe.lo n) (by show n.val = 0 + n.val; omega),
    slice2_axis1_apply 1408 (kProj x0 x1) slices_S256x2816_o0_1408_S256x1408 p n (Moe.hi n) rfl,
    kProj_apply, kProj_apply]

/-- The expert's output for the block: the hidden features contracted with the rows of the second projection. -/
def kDown (x0 : FVec Ideal S256x2048 .bf16) (x1 : FVec Ideal S1x2816x2048 .bf16) (x2 : FVec Ideal S1x2048x1408 .bf16) :
    FVec Ideal S256x2048 .f32 :=
  matmul dot_S256x1408_S2048x1408_S256x2048_1_1_0_0_n_n none (kHidden x0 x1)
    (shapeCast S2048x1408 x2 shapeCasts_S1x2048x1408_S2048x1408) (constant S256x2048 .f32 0x00000000#32)

theorem kDown_apply (x0 : FVec Ideal S256x2048 .bf16) (x1 : FVec Ideal S1x2816x2048 .bf16)
    (x2 : FVec Ideal S1x2048x1408 .bf16) (p : Fin 256) (q : Fin 2048) :
    kDown x0 x1 x2 (ix2 p q)
      = Moe.down (fun k => x0 (ix2 p k)) (fun n k => x1 (ix3 (0 : Fin 1) n k)) (fun d n => x2 (ix3 (0 : Fin 1) d n)) q := by
  unfold kDown Moe.down
  refine ((Ideal.matmul_constant_zero_apply (φ₁ := .bf16) (φ₂ := .bf16) dot_S256x1408_S2048x1408_S256x2048_1_1_0_0_n_n none
      (kHidden x0 x1) (shapeCast S2048x1408 x2 shapeCasts_S1x2048x1408_S2048x1408) (ix2 p q)).trans
    (Cert.RowBlocks.abT_sum dot_S256x1408_S2048x1408_S256x2048_1_1_0_0_n_n rfl rfl rfl rfl rfl rfl _ _ p q)).trans ?_
  refine Finset.sum_congr rfl fun n _ => ?_
  rw [kHidden_apply, shapeCast_1ab_ab_apply]

/-- The expert's share of each token of the block, as a column: at the grid point with expert coordinate `i 1`. -/
def kRoute (i : grid0.Coords) (ids : IVec S256x2 32) (tw : FVec Ideal S256x2 .f32) : FVec Ideal S256x1 .f32 :=
  shapeCast S256x1
    (multiReduction .add [1] S256
      (select (cmpi .eq ids (broadcast S256x2 (BitVec.ofNat 32 (i 1).val))) tw
        (broadcast S256x2 (Scalar.ofBits (F := Ideal) .f32 0x00000000#32)))
      0x00000000#32 reduces_S256x2_S256 (.inl rfl) rfl)
    shapeCasts_S256_S256x1

theorem kRoute_apply (i : grid0.Coords) (ids : IVec S256x2 32) (tw : FVec Ideal S256x2 .f32) (p : Fin 256) (u : Fin 1) :
    kRoute i ids tw (ix2 p u)
      = Moe.route (fun s => tw (ix2 p s)) (fun s => ids (ix2 p s)) (BitVec.ofNat 32 (i 1).val) := by
  unfold kRoute Moe.route
  refine (Cert.RowBlocks.shapeCast_col_apply _ _ p u).trans ?_
  refine (Cert.RowBlocks.rowSum_apply _ _ _ _ p).trans ?_
  refine Finset.sum_congr rfl fun s _ => ?_
  show Scalar.select (IntOp.cmpi .eq (ids (ix2 p s)) (BitVec.ofNat 32 (i 1).val)) (tw (ix2 p s))
      (Ideal.ofBits .f32 0x00000000#32) = _
  rw [Cert.MaskSlab.select_cmpi_eq, Ideal.ofBits_zero_f32]

/-- The payload the body stores is the running block plus the column of shares times the expert's output. -/
theorem pay_eq (i : grid0.Coords) (x0 : FVec Ideal S256x2048 .bf16) (x1 : FVec Ideal S1x2816x2048 .bf16)
    (x2 : FVec Ideal S1x2048x1408 .bf16) (ids : IVec S256x2 32) (tw : FVec Ideal S256x2 .f32)
    (prev : FVec Ideal S256x2048 .f32) :
    Gen.k0_pay2 (F := Ideal) i x0 x1 x2 ids tw prev
      = shapeCast S256x2048
          (addf prev (mulf (broadcastTo S256x2048 (kRoute i ids tw) broadcasts_S256x1_S256x2048) (kDown x0 x1 x2)))
          shapeCasts_S256x2048_S256x2048 := rfl

/-- Entry `(p, q)` of what the body leaves: the running entry plus the specification's term of row `p`. -/
theorem pay_apply (i : grid0.Coords) (x0 : FVec Ideal S256x2048 .bf16) (x1 : FVec Ideal S1x2816x2048 .bf16)
    (x2 : FVec Ideal S1x2048x1408 .bf16) (ids : IVec S256x2 32) (tw : FVec Ideal S256x2 .f32)
    (prev : FVec Ideal S256x2048 .f32) (p : Fin 256) (q : Fin 2048) :
    Gen.k0_pay2 (F := Ideal) i x0 x1 x2 ids tw prev (ix2 p q)
      = prev (ix2 p q)
        + Moe.term (fun k => x0 (ix2 p k)) (fun n k => x1 (ix3 (0 : Fin 1) n k)) (fun d n => x2 (ix3 (0 : Fin 1) d n))
            (fun s => tw (ix2 p s)) (fun s => ids (ix2 p s)) (BitVec.ofNat 32 (i 1).val) q := by
  rw [pay_eq, shapeCast_self]
  show prev (ix2 p q)
      + broadcastTo S256x2048 (kRoute i ids tw) broadcasts_S256x1_S256x2048 (ix2 p q) * kDown x0 x1 x2 (ix2 p q) = _
  rw [Cert.RowBlocks.broadcastTo_col_apply, kRoute_apply, kDown_apply]
  rfl

/-- The zero block the reset stores. -/
theorem pay1_apply (j : S256x2048.Idx) : Gen.k0_pay1 (F := Ideal) j = 0 := by
  unfold Gen.k0_pay1
  rw [shapeCast_self]
  show Ideal.ofBits .f32 0x00000000#32 = 0
  exact Ideal.ofBits_zero_f32

end Cert.Moe.KernelPay

end
-- ==== Proof.KernelValue.lean ====
/-
  The kernel's result array.

  The grid has 16 × 16 points; point `t` works on token block `t / 16` (256 tokens) and expert `t % 16`.  A scratch
  block carries the running output of the token block from one expert to the next: the first expert's point stores
  zero and then adds its contribution, every later point adds its own, and the last expert's point also copies the
  scratch into the output block, which is written back there and nowhere else.  So after point `t` the scratch
  holds, at `(p, q)`, the first `t % 16 + 1` experts' contributions to token `256 · (t / 16) + p`, added in order
  from zero (by induction on the point), and the output array, whose sixteen blocks the last experts' points
  cover, ends as the specification's `out`.
-/
import proofs.«156857_j4587025072789_1_alg».proof.Proof.Gen.KernelIdeal.Value
import proofs.«156857_j4587025072789_1_alg».proof.Proof.KernelPay
import proofs.«156857_j4587025072789_1_alg».proof.Proof.Spec
import Idealize.ShloMosaic.Lib.Pipeline.Value
import Idealize.ShloMosaic.Lib.StableHlo.Run
import Idealize.ShloMosaic.Lib.Tactic

noncomputable section

open scoped BigOperators

namespace Cert.Moe.KernelValue

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves -/

section Pieces

variable {F : FTy → Type} [FloatOps F]

/-- At the first expert's point the scratch ends at the body's sum over the zero block. -/
theorem sout_A (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S256x2 .f32) (harg5 : arg5.IsWhole) (arg6 : Memref sig .tc .vmem S256x2 .i32) (harg6 : arg6.IsWhole) (arg7 : Memref sig .tc .vmem S256x2048 .f32) (harg7 : arg7.IsWhole) (arg8 : Memref sig .tc .vmem S256x2048 .f32) (harg8 : arg8.IsWhole) (hc0 : cond0_0 i) (hc1 : ¬cond0_1 i) (x0 : Vec F S256x2048 .bf16) (x1 : Vec F S1x2816x2048 .bf16) (x2 : Vec F S1x2048x1408 .bf16) (x3 : Vec F S256x2 .f32) (x4 : Vec F S256x2 .i32) :
    sout0_A_0 c i arg2 harg2 arg3 harg3 arg4 harg4 arg5 harg5 arg6 harg6 arg7 harg7 arg8 harg8 hc0 hc1 x0 x1 x2 x3 x4 = k0_pay2 i x0 x1 x2 x4 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread, harg6.read_unread, harg8.read_unread, View.ld_unit_zero (S := S256x2048) hz2, View.ld_unit_zero (S := S1x2816x2048) hz3, View.ld_unit_zero (S := S1x2048x1408) hz3, View.ld_unit_zero (S := S256x2) hz2]

/-- At a middle expert's point the scratch ends at the body's sum over what the point before left. -/
theorem sout_B (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S256x2 .f32) (harg5 : arg5.IsWhole) (arg6 : Memref sig .tc .vmem S256x2 .i32) (harg6 : arg6.IsWhole) (arg7 : Memref sig .tc .vmem S256x2048 .f32) (harg7 : arg7.IsWhole) (arg8 : Memref sig .tc .vmem S256x2048 .f32) (harg8 : arg8.IsWhole) (hc0 : ¬cond0_0 i) (hc1 : ¬cond0_1 i) (x0 : Vec F S256x2048 .bf16) (x1 : Vec F S1x2816x2048 .bf16) (x2 : Vec F S1x2048x1408 .bf16) (x3 : Vec F S256x2 .f32) (x4 : Vec F S256x2 .i32) (xs0 : Vec F S256x2048 .f32) :
    sout0_B_0 c i arg2 harg2 arg3 harg3 arg4 harg4 arg5 harg5 arg6 harg6 arg7 harg7 arg8 harg8 hc0 hc1 x0 x1 x2 x3 x4 xs0 = k0_pay2 i x0 x1 x2 x4 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg5.read_unread, harg6.read_unread, harg8.read_unread, View.ld_unit_zero (S := S256x2048) hz2, View.ld_unit_zero (S := S1x2816x2048) hz3, View.ld_unit_zero (S := S1x2048x1408) hz3, View.ld_unit_zero (S := S256x2) hz2]

/-- At the last expert's point the scratch ends at the body's sum over what the point before left, -/
theorem sout_C (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S256x2 .f32) (harg5 : arg5.IsWhole) (arg6 : Memref sig .tc .vmem S256x2 .i32) (harg6 : arg6.IsWhole) (arg7 : Memref sig .tc .vmem S256x2048 .f32) (harg7 : arg7.IsWhole) (arg8 : Memref sig .tc .vmem S256x2048 .f32) (harg8 : arg8.IsWhole) (hc0 : ¬cond0_0 i) (hc1 : cond0_1 i) (x0 : Vec F S256x2048 .bf16) (x1 : Vec F S1x2816x2048 .bf16) (x2 : Vec F S1x2048x1408 .bf16) (x3 : Vec F S256x2 .f32) (x4 : Vec F S256x2 .i32) (xs0 : Vec F S256x2048 .f32) :
    sout0_C_0 c i arg2 harg2 arg3 harg3 arg4 harg4 arg5 harg5 arg6 harg6 arg7 harg7 arg8 harg8 hc0 hc1 x0 x1 x2 x3 x4 xs0 = k0_pay2 i x0 x1 x2 x4 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S256x2048) hz2, View.ld_unit_zero (S := S1x2816x2048) hz3, View.ld_unit_zero (S := S1x2048x1408) hz3, View.ld_unit_zero (S := S256x2) hz2]

/-- and the output block is a copy of it. -/
theorem out_C (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S256x2 .f32) (harg5 : arg5.IsWhole) (arg6 : Memref sig .tc .vmem S256x2 .i32) (harg6 : arg6.IsWhole) (arg7 : Memref sig .tc .vmem S256x2048 .f32) (harg7 : arg7.IsWhole) (arg8 : Memref sig .tc .vmem S256x2048 .f32) (harg8 : arg8.IsWhole) (hc0 : ¬cond0_0 i) (hc1 : cond0_1 i) (x0 : Vec F S256x2048 .bf16) (x1 : Vec F S1x2816x2048 .bf16) (x2 : Vec F S1x2048x1408 .bf16) (x3 : Vec F S256x2 .f32) (x4 : Vec F S256x2 .i32) (xs0 : Vec F S256x2048 .f32) :
    out0_C_5 c i arg2 harg2 arg3 harg3 arg4 harg4 arg5 harg5 arg6 harg6 arg7 harg7 arg8 harg8 hc0 hc1 x0 x1 x2 x3 x4 xs0 = k0_pay2 i x0 x1 x2 x4 x3 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2, View.readCov_unit_zero (S := S256x2048) _ hz2]
  simp only [View.readAt_eq_ld, harg2.read_unread, harg3.read_unread, harg4.read_unread, harg5.read_unread, harg6.read_unread, harg8.read_unread, View.ld_unit_zero (S := S256x2048) hz2, View.ld_unit_zero (S := S1x2816x2048) hz3, View.ld_unit_zero (S := S1x2048x1408) hz3, View.ld_unit_zero (S := S256x2) hz2]

end Pieces

/-! ## The schedule: which block each window holds at a point -/

/-- The printed index maps and the expert coordinate, decided over the grid: the token windows sit at block
    `t / 16`, the weight windows at slab `t % 16`, and the expert coordinate is `t % 16`. -/
theorem idx_facts : ∀ t : Fin cfg0.N,
    win0_0.index t (0 : Fin 2) = t.val / 16 ∧ win0_0.index t (1 : Fin 2) = 0
    ∧ win0_1.index t (0 : Fin 3) = t.val % 16 ∧ win0_1.index t (1 : Fin 3) = 0 ∧ win0_1.index t (2 : Fin 3) = 0
    ∧ win0_2.index t (0 : Fin 3) = t.val % 16 ∧ win0_2.index t (1 : Fin 3) = 0 ∧ win0_2.index t (2 : Fin 3) = 0
    ∧ win0_3.index t (0 : Fin 2) = t.val / 16 ∧ win0_3.index t (1 : Fin 2) = 0
    ∧ win0_4.index t (0 : Fin 2) = t.val / 16 ∧ win0_4.index t (1 : Fin 2) = 0
    ∧ win0_5.index t (0 : Fin 2) = t.val / 16 ∧ win0_5.index t (1 : Fin 2) = 0
    ∧ (grid0.coords t (1 : Fin 2)).val = t.val % 16 :=
  (by decide +kernel : ∀ t : Fin grid0.N, _)

variable (m : (ℓ : Loc nD τ sig) → Buf (Elt Ideal) ℓ) (ρ : Dev nD → PrngReg)

/-- The argument arrays as launched. -/
abbrev X0 (c : Dev nD) : S4096x2048.Idx → EReal := m ((c : Thread nD τ).loc main_arg0)
abbrev X1 (c : Dev nD) : S16x2816x2048.Idx → EReal := m ((c : Thread nD τ).loc main_arg1)
abbrev X2 (c : Dev nD) : S16x2048x1408.Idx → EReal := m ((c : Thread nD τ).loc main_arg2)
abbrev X3 (c : Dev nD) : S4096x2.Idx → EReal := m ((c : Thread nD τ).loc main_arg3)
abbrev X4 (c : Dev nD) : S4096x2.Idx → BitVec 32 := m ((c : Thread nD τ).loc main_arg4)

/-- Token row `p` of the block point `n` works on. -/
def row (n : ℕ) (p : Fin 256) : Fin 4096 :=
  ⟨256 * (n / 16 % 16) + p.val, by have := p.isLt; have := Nat.mod_lt (n / 16) (by decide : 16 > 0); omega⟩

/-- The expert point `n` works on. -/
def slab (n : ℕ) : Fin 16 := ⟨n % 16, Nat.mod_lt n (by decide)⟩

theorem row_pred (n : ℕ) (h : ¬n % 16 = 0) (p : Fin 256) : row (n - 1) p = row n p :=
  Fin.ext (by
    show 256 * ((n - 1) / 16 % 16) + p.val = 256 * (n / 16 % 16) + p.val
    have e : (n - 1) / 16 = n / 16 := by omega
    rw [e])

/-! ## The windows' blocks, read off the argument arrays

The three converted arrays the region stages are the arguments themselves on the extended reals (a change of float
format is the identity there). -/

theorem V_v0 (c : Dev nD) : (V m c main_v0 : S4096x2048.Idx → EReal) = X0 m c := by
  have e : (V m c main_v0 : S4096x2048.Idx → EReal)
      = truncf (F := Ideal) .bf16 (m ((c : Thread nD τ).loc main_arg0)) Facts₀.bitsLt_bf16_f32 := by
    dsimp only [Gen.V, Gen.hostOps0]; after_results
  rw [e]; rfl

theorem V_v1 (c : Dev nD) : (V m c main_v1 : S16x2816x2048.Idx → EReal) = X1 m c := by
  have e : (V m c main_v1 : S16x2816x2048.Idx → EReal)
      = truncf (F := Ideal) .bf16 (m ((c : Thread nD τ).loc main_arg1)) Facts₀.bitsLt_bf16_f32 := by
    dsimp only [Gen.V, Gen.hostOps0]; after_results
  rw [e]; rfl

theorem V_v2 (c : Dev nD) : (V m c main_v2 : S16x2048x1408.Idx → EReal) = X2 m c := by
  have e : (V m c main_v2 : S16x2048x1408.Idx → EReal)
      = truncf (F := Ideal) .bf16 (m ((c : Thread nD τ).loc main_arg2)) Facts₀.bitsLt_bf16_f32 := by
    dsimp only [Gen.V, Gen.hostOps0]; after_results
  rw [e]; rfl

theorem V_a3 (c : Dev nD) : (V m c main_arg3 : S4096x2.Idx → EReal) = X3 m c := V_main_arg3 m c
theorem V_a4 (c : Dev nD) : (V m c main_arg4 : S4096x2.Idx → BitVec 32) = X4 m c := V_main_arg4 m c

theorem iblk0_apply (c : Dev nD) (t : Fin cfg0.N) (p : Fin 256) (k : Fin 2048) :
    (iblk m c 0 t : Vec Ideal S256x2048 .bf16) (ix2 p k) = X0 m c (ix2 (row t.val p) k) := by
  have hN : t.val < 256 := lt_of_lt_of_eq t.isLt (show cfg0.N = 256 from N_0)
  obtain ⟨e0, e1, -⟩ := idx_facts t
  unfold iblk
  rw [View.read_apply]
  show (V m c main_v0 : S4096x2048.Idx → EReal) (((cfg0.win 0).blk t).view.emb (ix2 p k)) = _
  rw [V_v0]
  refine congrArg (X0 m c) (funext fun a => Fin.ext ?_)
  match a with
  | ⟨0, _⟩ =>
    show win0_0.index t (0 : Fin 2) * 256 + 1 * p.val = 256 * (t.val / 16 % 16) + p.val
    rw [e0]; omega
  | ⟨1, _⟩ =>
    show win0_0.index t (1 : Fin 2) * 2048 + 1 * k.val = k.val
    rw [e1]; omega

theorem iblk1_apply (c : Dev nD) (t : Fin cfg0.N) (n : Fin 2816) (k : Fin 2048) :
    (iblk m c 1 t : Vec Ideal S1x2816x2048 .bf16) (ix3 (0 : Fin 1) n k) = X1 m c (ix3 (slab t.val) n k) := by
  obtain ⟨-, -, e0, e1, e2, -⟩ := idx_facts t
  unfold iblk
  rw [View.read_apply]
  show (V m c main_v1 : S16x2816x2048.Idx → EReal) (((cfg0.win 1).blk t).view.emb (ix3 (0 : Fin 1) n k)) = _
  rw [V_v1]
  refine congrArg (X1 m c) (funext fun a => Fin.ext ?_)
  match a with
  | ⟨0, _⟩ =>
    show win0_1.index t (0 : Fin 3) * 1 + 1 * 0 = t.val % 16
    rw [e0]; omega
  | ⟨1, _⟩ =>
    show win0_1.index t (1 : Fin 3) * 2816 + 1 * n.val = n.val
    rw [e1]; omega
  | ⟨2, _⟩ =>
    show win0_1.index t (2 : Fin 3) * 2048 + 1 * k.val = k.val
    rw [e2]; omega

theorem iblk2_apply (c : Dev nD) (t : Fin cfg0.N) (d : Fin 2048) (n : Fin 1408) :
    (iblk m c 2 t : Vec Ideal S1x2048x1408 .bf16) (ix3 (0 : Fin 1) d n) = X2 m c (ix3 (slab t.val) d n) := by
  obtain ⟨-, -, -, -, -, e0, e1, e2, -⟩ := idx_facts t
  unfold iblk
  rw [View.read_apply]
  show (V m c main_v2 : S16x2048x1408.Idx → EReal) (((cfg0.win 2).blk t).view.emb (ix3 (0 : Fin 1) d n)) = _
  rw [V_v2]
  refine congrArg (X2 m c) (funext fun a => Fin.ext ?_)
  match a with
  | ⟨0, _⟩ =>
    show win0_2.index t (0 : Fin 3) * 1 + 1 * 0 = t.val % 16
    rw [e0]; omega
  | ⟨1, _⟩ =>
    show win0_2.index t (1 : Fin 3) * 2048 + 1 * d.val = d.val
    rw [e1]; omega
  | ⟨2, _⟩ =>
    show win0_2.index t (2 : Fin 3) * 1408 + 1 * n.val = n.val
    rw [e2]; omega

theorem iblk3_apply (c : Dev nD) (t : Fin cfg0.N) (p : Fin 256) (s : Fin 2) :
    (iblk m c 3 t : Vec Ideal S256x2 .f32) (ix2 p s) = X3 m c (ix2 (row t.val p) s) := by
  obtain ⟨-, -, -, -, -, -, -, -, e0, e1, -⟩ := idx_facts t
  unfold iblk
  rw [View.read_apply]
  show (V m c main_arg3 : S4096x2.Idx → EReal) (((cfg0.win 3).blk t).view.emb (ix2 p s)) = _
  rw [V_a3]
  refine congrArg (X3 m c) (funext fun a => Fin.ext ?_)
  match a with
  | ⟨0, _⟩ =>
    show win0_3.index t (0 : Fin 2) * 256 + 1 * p.val = 256 * (t.val / 16 % 16) + p.val
    have hN : t.val < 256 := lt_of_lt_of_eq t.isLt (show cfg0.N = 256 from N_0)
    rw [e0]; omega
  | ⟨1, _⟩ =>
    show win0_3.index t (1 : Fin 2) * 2 + 1 * s.val = s.val
    rw [e1]; omega

theorem iblk4_apply (c : Dev nD) (t : Fin cfg0.N) (p : Fin 256) (s : Fin 2) :
    (iblk m c 4 t : Vec Ideal S256x2 .i32) (ix2 p s) = X4 m c (ix2 (row t.val p) s) := by
  obtain ⟨-, -, -, -, -, -, -, -, -, -, e0, e1, -⟩ := idx_facts t
  unfold iblk
  rw [View.read_apply]
  show (V m c main_arg4 : S4096x2.Idx → BitVec 32) (((cfg0.win 4).blk t).view.emb (ix2 p s)) = _
  rw [V_a4]
  refine congrArg (X4 m c) (funext fun a => Fin.ext ?_)
  match a with
  | ⟨0, _⟩ =>
    show win0_4.index t (0 : Fin 2) * 256 + 1 * p.val = 256 * (t.val / 16 % 16) + p.val
    have hN : t.val < 256 := lt_of_lt_of_eq t.isLt (show cfg0.N = 256 from N_0)
    rw [e0]; omega
  | ⟨1, _⟩ =>
    show win0_4.index t (1 : Fin 2) * 2 + 1 * s.val = s.val
    rw [e1]; omega

/-! ## The running block after each point -/

/-- Expert `e`'s contribution to entry `(r, q)` of the output, from the argument arrays as launched. -/
abbrev contribAt (c : Dev nD) (r : Fin 4096) (q : Fin 2048) (e : ℕ) : EReal :=
  Moe.contrib (X0 m c) (X1 m c) (X2 m c) (X3 m c) (X4 m c) r q e

/-- What the body adds at point `t`, at entry `(p, q)` of the block: the contribution of the point's expert to the
    point's token row. -/
theorem term_at (c : Dev nD) (t : Fin cfg0.N) (p : Fin 256) (q : Fin 2048) :
    Moe.term (fun k => (iblk m c 0 t : Vec Ideal S256x2048 .bf16) (ix2 p k))
        (fun n k => (iblk m c 1 t : Vec Ideal S1x2816x2048 .bf16) (ix3 (0 : Fin 1) n k))
        (fun d n => (iblk m c 2 t : Vec Ideal S1x2048x1408 .bf16) (ix3 (0 : Fin 1) d n))
        (fun s => (iblk m c 3 t : Vec Ideal S256x2 .f32) (ix2 p s))
        (fun s => (iblk m c 4 t : Vec Ideal S256x2 .i32) (ix2 p s))
        (BitVec.ofNat 32 (grid0.coords t (1 : Fin 2)).val) q
      = contribAt m c (row t.val p) q (t.val % 16) := by
  have ec : (grid0.coords t (1 : Fin 2)).val = t.val % 16 := (idx_facts t).2.2.2.2.2.2.2.2.2.2.2.2.2.2
  unfold contribAt Moe.contrib
  rw [dif_pos (Nat.mod_lt t.val (by decide : 16 > 0)), ec]
  simp only [iblk0_apply, iblk1_apply, iblk2_apply, iblk3_apply, iblk4_apply]
  rfl

/-- The running block after point `n`: at `(p, q)` the first `n % 16 + 1` experts' contributions to the token row. -/
def blockAcc (c : Dev nD) (n : ℕ) : Vec Ideal S256x2048 .f32 := fun j =>
  Moe.accum (contribAt m c (row n ⟨(j 0).val, idx2_lt0 j⟩) ⟨(j 1).val, idx2_lt1 j⟩) (n % 16 + 1)

theorem blockAcc_apply (c : Dev nD) (n : ℕ) (p : Fin 256) (q : Fin 2048) :
    blockAcc m c n (ix2 p q) = Moe.accum (contribAt m c (row n p) q) (n % 16 + 1) := rfl

/-- The body's sum at point `t` over zero, when `t` is a first expert's point, is the running block there; -/
theorem pay_first (c : Dev nD) (t : Fin cfg0.N) (h0 : t.val % 16 = 0) :
    k0_pay2 (F := Ideal) (grid0.coords t) (iblk m c 0 t) (iblk m c 1 t) (iblk m c 2 t) (iblk m c 4 t) (iblk m c 3 t)
        (k0_pay1 (F := Ideal)) = blockAcc m c t.val := by
  funext j
  obtain ⟨p, q, rfl⟩ : ∃ (p : Fin 256) (q : Fin 2048), j = ix2 p q := ⟨j 0, j 1, eq_ix2 j⟩
  rw [Cert.Moe.KernelPay.pay_apply, Cert.Moe.KernelPay.pay1_apply, term_at, blockAcc_apply, h0]
  rfl

/-- and over the running block of the point before, when it is not, is the running block there. -/
theorem pay_next (c : Dev nD) (t : Fin cfg0.N) (h0 : ¬t.val % 16 = 0) :
    k0_pay2 (F := Ideal) (grid0.coords t) (iblk m c 0 t) (iblk m c 1 t) (iblk m c 2 t) (iblk m c 4 t) (iblk m c 3 t)
        (blockAcc m c (t.val - 1)) = blockAcc m c t.val := by
  funext j
  obtain ⟨p, q, rfl⟩ : ∃ (p : Fin 256) (q : Fin 2048), j = ix2 p q := ⟨j 0, j 1, eq_ix2 j⟩
  rw [Cert.Moe.KernelPay.pay_apply, term_at, blockAcc_apply, blockAcc_apply, row_pred t.val h0 p]
  have e : (t.val - 1) % 16 + 1 = t.val % 16 := by omega
  rw [e]
  rfl

/-- The scratch after every point is the running block (by induction on the point). -/
theorem souts_eq (c : Dev nD) : ∀ (n : ℕ) (h : n < cfg0.N), (outsAt0 m c n h).2 = blockAcc m c n := by
  intro n
  induction n with
  | zero =>
    intro h
    rw [outsAt0_A m c ⟨0, h⟩ (Nat.zero_mod 16) (by show ¬(0 : ℕ) % 16 = 15; omega)]
    dsimp only
    rw [sout_A]
    exact pay_first m c ⟨0, h⟩ (Nat.zero_mod 16)
  | succ n ih =>
    intro h
    have hN : n + 1 < 256 := lt_of_lt_of_eq h (show cfg0.N = 256 from N_0)
    have hp : (outsAt0 m c ((⟨n + 1, h⟩ : Fin cfg0.N).val - 1) (Nat.lt_of_le_of_lt (Nat.sub_le _ _) (⟨n + 1, h⟩ : Fin cfg0.N).isLt)).2
        = blockAcc m c ((⟨n + 1, h⟩ : Fin cfg0.N).val - 1) := ih (Nat.lt_of_succ_lt h)
    by_cases h0 : (n + 1) % 16 = 0
    · have h1 : ¬(n + 1) % 16 = 15 := by omega
      rw [outsAt0_A m c ⟨n + 1, h⟩ h0 h1]
      dsimp only
      rw [sout_A]
      exact pay_first m c ⟨n + 1, h⟩ h0
    · by_cases h1 : (n + 1) % 16 = 15
      · rw [outsAt0_C m c ⟨n + 1, h⟩ h0 h1]
        dsimp only
        rw [sout_C, hp]
        exact pay_next m c ⟨n + 1, h⟩ h0
      · rw [outsAt0_B m c ⟨n + 1, h⟩ h0 h1]
        dsimp only
        rw [sout_B, hp]
        exact pay_next m c ⟨n + 1, h⟩ h0

/-! ## The output array -/

/-- The layer's output, of the argument arrays as launched. -/
abbrev result (c : Dev nD) : S4096x2048.Idx → EReal := Moe.out (X0 m c) (X1 m c) (X2 m c) (X3 m c) (X4 m c)

/-- What a last expert's point writes back is its block of the layer's output. -/
theorem flushed_eq (c : Dev nD) (t : Fin cfg0.N) (hf : (cfg0.win 5).flush t = true) :
    (dats m 0 c).flushed 5 t = ((cfg0.win 5).blk t).view.read (Elt Ideal) (result m c) := by
  have hN : t.val < 256 := lt_of_lt_of_eq t.isLt (show cfg0.N = 256 from N_0)
  have h1 : t.val % 16 = 15 := (flush0_5 t).mp hf
  have h0 : ¬t.val % 16 = 0 := by omega
  have e5 := (idx_facts t).2.2.2.2.2.2.2.2.2.2.2.2
  rw [Cert.KernelIdeal.Value.flushed5_C m c t h0 h1, out_C, souts_eq m c (t.val - 1), pay_next m c t h0]
  funext j
  obtain ⟨p, q, rfl⟩ : ∃ (p : Fin 256) (q : Fin 2048), j = ix2 p q := ⟨j 0, j 1, eq_ix2 j⟩
  rw [View.read_apply]
  show blockAcc m c t.val (ix2 p q) = result m c (((cfg0.win 5).blk t).view.emb (ix2 p q))
  have he : ((cfg0.win 5).blk t).view.emb (ix2 p q) = ix2 (row t.val p) q := funext fun a => Fin.ext (by
    match a with
    | ⟨0, _⟩ =>
      show win0_5.index t (0 : Fin 2) * 256 + 1 * p.val = 256 * (t.val / 16 % 16) + p.val
      rw [e5.1]; omega
    | ⟨1, _⟩ =>
      show win0_5.index t (1 : Fin 2) * 2048 + 1 * q.val = q.val
      rw [e5.2.1]; omega)
  rw [he, blockAcc_apply, h1]
  rfl

/-- An index of the output array is in point `t`'s block iff each coordinate is in the block's range. -/
theorem mem_blk (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v3).slice (win0_5.rect t)).set ↔ _
  rw [View.set_slice_whole, Rect.mem_set_unit]
  exact Iff.rfl

/-- Every index of the output array is in the block of the last expert's point of its token block. -/
theorem cover (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hN : cfg0.N = 256 := N_0
  let t : Fin cfg0.N := ⟨16 * ((i 0).val / 256) + 15, by rw [hN]; omega⟩
  have e5 := (idx_facts t).2.2.2.2.2.2.2.2.2.2.2.2
  have tv : t.val = 16 * ((i 0).val / 256) + 15 := rfl
  refine ⟨t, (flush0_5 t).mpr (by rw [tv]; omega), ?_⟩
  rw [mem_blk]
  intro a
  match a with
  | ⟨0, _⟩ =>
    show win0_5.index t (0 : Fin 2) * 256 ≤ (i 0).val ∧ (i 0).val < win0_5.index t (0 : Fin 2) * 256 + 256
    rw [e5.1, tv]; omega
  | ⟨1, _⟩ =>
    show win0_5.index t (1 : Fin 2) * 2048 ≤ (i 1).val ∧ (i 1).val < win0_5.index t (1 : Fin 2) * 2048 + 2048
    rw [e5.2.1]; omega

/-- The output array ends as the layer's output. -/
theorem final (c : Dev nD) : (dats m 0 c).arrAt 5 cfg0.N = result m c :=
  (dats m 0 c).arrAt_eq_of_cover 5 (result m c) (flushed_eq m c) cover

/-- The kernel's run: the result array at the layer's output of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Moe.KernelValue

end
-- ==== Proof.RefOps.lean ====
/-
  The reference program as lists of its host operations.

  The reference starts from a zero array (two operations) and then, sixteen times, runs one expert's thirty-one
  operations: the slab of each stacked weight array, its transpose, the two matrix products, the two halves, the
  host's spelling of `silu` (seven operations of the called function, in the call's place), the routing share and
  the update of the running array.  `opsPre` and `opsE0 … opsE15` are those stretches in program order (the whole
  program is their concatenation: Proof/RefMain.lean).  Every operation touches only TensorCore buffers and
  determines its results.
-/
import proofs.«156857_j4587025072789_1_alg».proof.ReferenceIdeal
import proofs.«156857_j4587025072789_1_alg».proof.Proof.Gen.ReferenceIdeal
import Idealize.ShloMosaic.Lib.StableHlo.Run

noncomputable section

namespace Cert.Moe.RefRun

open Cert.ReferenceIdeal Cert.ReferenceIdeal.Gen Idealize.ShloMosaic Idealize.ShloMosaic.TcCoe Idealize.SL.Sem Idealize.ShloMosaic.StableHlo

variable {F : FTy → Type} [FloatOps F]

/-- An operation touches only TensorCore buffers and determines its results. -/
abbrev Good (op : HloOp τ sig (Elt F)) : Prop := op.bufs ⊆ tcRefs τ sig ∧ op.fresh = ∅

/-- The zero array the reference starts from. -/
abbrev opsPre : List (HloOp τ sig (Elt F)) :=
  [ nullary main_cst (constant S_ .f32 0x00000000#32),
    unary main_cst main_v0 (broadcastInDim S4096x2048 ![] bcast_S_S4096x2048 : (⟨S_, .f32⟩ : BufTy).Contents (Elt F) → (⟨S4096x2048, .f32⟩ : BufTy).Contents (Elt F)) ]

theorem opsPre_good : ∀ op ∈ (opsPre : List (HloOp τ sig (Elt F))), Good op := fun op h =>
  ⟨List.forall_iff_forall_mem.mp (show (opsPre : List (HloOp τ sig (Elt F))).Forall fun op => op.bufs ⊆ tcRefs τ sig from
      ⟨nullary_bufs_sub .., unary_bufs_sub ..⟩) op h,
    by revert op; intro _ h; (repeat (cases h with | head => rfl | tail _ h => ?_)); exact nomatch h⟩

/-- Expert 0's operations. -/
abbrev opsE0 : List (HloOp τ sig (Elt F)) :=
  [ unary main_arg1 main_v1 ((extractStridedSlice S1x2816x2048 ![0, 0, 0] · slices_S16x2816x2048_S1x2816x2048_0_0_0) : (⟨S16x2816x2048, .f32⟩ : BufTy).Contents (Elt F) → (⟨S1x2816x2048, .f32⟩ : BufTy).Contents (Elt F)),
    reshape main_v1 main_v2 rfl shapeCasts_S1x2816x2048_S2816x2048,
    unary main_v2 main_v3 ((transpose S2048x2816 [1, 0] · transposes_S2816x2048_S2048x2816_1_0) : (⟨S2816x2048, .f32⟩ : BufTy).Contents (Elt F) → (⟨S2048x2816, .f32⟩ : BufTy).Contents (Elt F)),
    binary main_arg0 main_v3 main_v4 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v4 main_v5 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v5) (TRef.of (T := ⟨S4096x1408, .f32⟩) main_call0_v0) Host.negf,
    TRef.unary (TRef.of (T := ⟨S4096x1408, .f32⟩) main_call0_v0) (TRef.of (T := ⟨S4096x1408, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x1408, .f32⟩) main_call0_v2) (broadcastInDim S4096x1408 ![] bcast_S_S4096x1408),
    TRef.binary (TRef.of (T := ⟨S4096x1408, .f32⟩) main_call0_v2) (TRef.of (T := ⟨S4096x1408, .f32⟩) main_call0_v1) (TRef.of (T := ⟨S4096x1408, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x1408, .f32⟩) main_call0_v4) (broadcastInDim S4096x1408 ![] bcast_S_S4096x1408),
    TRef.binary (TRef.of (T := ⟨S4096x1408, .f32⟩) main_call0_v4) (TRef.of (T := ⟨S4096x1408, .f32⟩) main_call0_v3) (TRef.of (T := ⟨S4096x1408, .f32⟩) main_call0_v5) Host.divf,
    TRef.binary (TRef.of (T := ⟨S4096x1408, .f32⟩) main_v5) (TRef.of (T := ⟨S4096x1408, .f32⟩) main_call0_v5) (TRef.of (T := ⟨S4096x1408, .f32⟩) main_v6) mulf,
    unary main_v4 main_v7 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v6 main_v7 main_v8 (mulf : (⟨S4096x1408, .f32⟩ : BufTy).Contents (Elt F) → (⟨S4096x1408, .f32⟩ : BufTy).Contents (Elt F) → (⟨S4096x1408, .f32⟩ : BufTy).Contents (Elt F)),
    unary main_arg2 main_v9 ((extractStridedSlice S1x2048x1408 ![0, 0, 0] · slices_S16x2048x1408_S1x2048x1408_0_0_0) : (⟨S16x2048x1408, .f32⟩ : BufTy).Contents (Elt F) → (⟨S1x2048x1408, .f32⟩ : BufTy).Contents (Elt F)),
    reshape main_v9 main_v10 rfl shapeCasts_S1x2048x1408_S2048x1408,
    unary main_v10 main_v11 ((transpose S1408x2048 [1, 0] · transposes_S2048x1408_S1408x2048_1_0) : (⟨S2048x1408, .f32⟩ : BufTy).Contents (Elt F) → (⟨S1408x2048, .f32⟩ : BufTy).Contents (Elt F)),
    binary main_v8 main_v11 main_v12 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c (constantI S_ 32 0#32),
    unary main_c main_v13 (broadcastInDim S4096x2 ![] bcast_S_S4096x2 : (⟨S_, .i32⟩ : BufTy).Contents (Elt F) → (⟨S4096x2, .i32⟩ : BufTy).Contents (Elt F)),
    binary main_arg4 main_v13 main_v14 (cmpi .eq : (⟨S4096x2, .i32⟩ : BufTy).Contents (Elt F) → (⟨S4096x2, .i32⟩ : BufTy).Contents (Elt F) → (⟨S4096x2, .i1⟩ : BufTy).Contents (Elt F)),
    unary main_v14 main_v15 (uitofp .f32 : (⟨S4096x2, .i1⟩ : BufTy).Contents (Elt F) → (⟨S4096x2, .f32⟩ : BufTy).Contents (Elt F)),
    binary main_arg3 main_v15 main_v16 (mulf : (⟨S4096x2, .f32⟩ : BufTy).Contents (Elt F) → (⟨S4096x2, .f32⟩ : BufTy).Contents (Elt F) → (⟨S4096x2, .f32⟩ : BufTy).Contents (Elt F)),
    nullary main_cst_0 (constant S_ .f32 0x00000000#32),
    binary main_v16 main_cst_0 main_v17 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (broadcastInDim S4096x2048 ![0, 1] bcast_S4096x1_S4096x2048_0_1 : (⟨S4096x1, .f32⟩ : BufTy).Contents (Elt F) → (⟨S4096x2048, .f32⟩ : BufTy).Contents (Elt F)),
    binary main_v19 main_v12 main_v20 (mulf : (⟨S4096x2048, .f32⟩ : BufTy).Contents (Elt F) → (⟨S4096x2048, .f32⟩ : BufTy).Contents (Elt F) → (⟨S4096x2048, .f32⟩ : BufTy).Contents (Elt F)),
    binary main_v0 main_v20 main_v21 (addf : (⟨S4096x2048, .f32⟩ : BufTy).Contents (Elt F) → (⟨S4096x2048, .f32⟩ : BufTy).Contents (Elt F) → (⟨S4096x2048, .f32⟩ : BufTy).Contents (Elt F)) ]

theorem opsE0_good : ∀ op ∈ (opsE0 : List (HloOp τ sig (Elt F))), Good op := fun op h =>
  ⟨List.forall_iff_forall_mem.mp (show (opsE0 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 1's operations. -/
abbrev opsE1 : List (HloOp τ sig (Elt F)) :=
  [ unary main_arg1 main_v22 ((extractStridedSlice S1x2816x2048 ![1, 0, 0] · slices_S16x2816x2048_S1x2816x2048_1_0_0) : (⟨S16x2816x2048, .f32⟩ : BufTy).Contents (Elt F) → (⟨S1x2816x2048, .f32⟩ : BufTy).Contents (Elt F)),
    reshape main_v22 main_v23 rfl shapeCasts_S1x2816x2048_S2816x2048,
    unary main_v23 main_v24 ((transpose S2048x2816 [1, 0] · transposes_S2816x2048_S2048x2816_1_0) : (⟨S2816x2048, .f32⟩ : BufTy).Contents (Elt F) → (⟨S2048x2816, .f32⟩ : BufTy).Contents (Elt F)),
    binary main_arg0 main_v24 main_v25 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v25 main_v26 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v26) (TRef.of (T := ⟨S4096x1408, .f32⟩) main_call1_v0) Host.negf,
    TRef.unary (TRef.of (T := ⟨S4096x1408, .f32⟩) main_call1_v0) (TRef.of (T := ⟨S4096x1408, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4096x1408, .f32⟩) main_call1_v2) (broadcastInDim S4096x1408 ![] bcast_S_S4096x1408),
    TRef.binary (TRef.of (T := ⟨S4096x1408, .f32⟩) main_call1_v2) (TRef.of (T := ⟨S4096x1408, .f32⟩) main_call1_v1) (TRef.of (T := ⟨S4096x1408, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4096x1408, .f32⟩) main_call1_v4) (broadcastInDim S4096x1408 ![] bcast_S_S4096x1408),
    TRef.binary (TRef.of (T := ⟨S4096x1408, .f32⟩) main_call1_v4) (TRef.of (T := ⟨S4096x1408, .f32⟩) main_call1_v3) (TRef.of (T := ⟨S4096x1408, .f32⟩) main_call1_v5) Host.divf,
    TRef.binary (TRef.of (T := ⟨S4096x1408, .f32⟩) main_v26) (TRef.of (T := ⟨S4096x1408, .f32⟩) main_call1_v5) (TRef.of (T := ⟨S4096x1408, .f32⟩) main_v27) mulf,
    unary main_v25 main_v28 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v27 main_v28 main_v29 (mulf : (⟨S4096x1408, .f32⟩ : BufTy).Contents (Elt F) → (⟨S4096x1408, .f32⟩ : BufTy).Contents (Elt F) → (⟨S4096x1408, .f32⟩ : BufTy).Contents (Elt F)),
    unary main_arg2 main_v30 ((extractStridedSlice S1x2048x1408 ![1, 0, 0] · slices_S16x2048x1408_S1x2048x1408_1_0_0) : (⟨S16x2048x1408, .f32⟩ : BufTy).Contents (Elt F) → (⟨S1x2048x1408, .f32⟩ : BufTy).Contents (Elt F)),
    reshape main_v30 main_v31 rfl shapeCasts_S1x2048x1408_S2048x1408,
    unary main_v31 main_v32 ((transpose S1408x2048 [1, 0] · transposes_S2048x1408_S1408x2048_1_0) : (⟨S2048x1408, .f32⟩ : BufTy).Contents (Elt F) → (⟨S1408x2048, .f32⟩ : BufTy).Contents (Elt F)),
    binary main_v29 main_v32 main_v33 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_1 (constantI S_ 32 1#32),
    unary main_c_1 main_v34 (broadcastInDim S4096x2 ![] bcast_S_S4096x2 : (⟨S_, .i32⟩ : BufTy).Contents (Elt F) → (⟨S4096x2, .i32⟩ : BufTy).Contents (Elt F)),
    binary main_arg4 main_v34 main_v35 (cmpi .eq : (⟨S4096x2, .i32⟩ : BufTy).Contents (Elt F) → (⟨S4096x2, .i32⟩ : BufTy).Contents (Elt F) → (⟨S4096x2, .i1⟩ : BufTy).Contents (Elt F)),
    unary main_v35 main_v36 (uitofp .f32 : (⟨S4096x2, .i1⟩ : BufTy).Contents (Elt F) → (⟨S4096x2, .f32⟩ : BufTy).Contents (Elt F)),
    binary main_arg3 main_v36 main_v37 (mulf : (⟨S4096x2, .f32⟩ : BufTy).Contents (Elt F) → (⟨S4096x2, .f32⟩ : BufTy).Contents (Elt F) → (⟨S4096x2, .f32⟩ : BufTy).Contents (Elt F)),
    nullary main_cst_2 (constant S_ .f32 0x00000000#32),
    binary main_v37 main_cst_2 main_v38 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v38 main_v39 (broadcastInDim S4096x1 ![0] bcast_S4096_S4096x1_0 : (⟨S4096, .f32⟩ : BufTy).Contents (Elt F) → (⟨S4096x1, .f32⟩ : BufTy).Contents (Elt F)),
    unary main_v39 main_v40 (broadcastInDim S4096x2048 ![0, 1] bcast_S4096x1_S4096x2048_0_1 : (⟨S4096x1, .f32⟩ : BufTy).Contents (Elt F) → (⟨S4096x2048, .f32⟩ : BufTy).Contents (Elt F)),
    binary main_v40 main_v33 main_v41 (mulf : (⟨S4096x2048, .f32⟩ : BufTy).Contents (Elt F) → (⟨S4096x2048, .f32⟩ : BufTy).Contents (Elt F) → (⟨S4096x2048, .f32⟩ : BufTy).Contents (Elt F)),
    binary main_v21 main_v41 main_v42 (addf : (⟨S4096x2048, .f32⟩ : BufTy).Contents (Elt F) → (⟨S4096x2048, .f32⟩ : BufTy).Contents (Elt F) → (⟨S4096x2048, .f32⟩ : BufTy).Contents (Elt F)) ]

theorem opsE1_good : ∀ op ∈ (opsE1 : List (HloOp τ sig (Elt F))), Good op := fun op h =>
  ⟨List.forall_iff_forall_mem.mp (show (opsE1 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 2's operations. -/
abbrev opsE2 : List (HloOp τ sig (Elt F)) :=
  [ unary main_arg1 main_v43 ((extractStridedSlice S1x2816x2048 ![2, 0, 0] · slices_S16x2816x2048_S1x2816x2048_2_0_0) : (⟨S16x2816x2048, .f32⟩ : BufTy).Contents (Elt F) → (⟨S1x2816x2048, .f32⟩ : BufTy).Contents (Elt F)),
    reshape main_v43 main_v44 rfl shapeCasts_S1x2816x2048_S2816x2048,
    unary main_v44 main_v45 ((transpose S2048x2816 [1, 0] · transposes_S2816x2048_S2048x2816_1_0) : (⟨S2816x2048, .f32⟩ : BufTy).Contents (Elt F) → (⟨S2048x2816, .f32⟩ : BufTy).Contents (Elt F)),
    binary main_arg0 main_v45 main_v46 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v46 main_v47 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v47) (TRef.of (T := ⟨S4096x1408, .f32⟩) main_call2_v0) Host.negf,
    TRef.unary (TRef.of (T := ⟨S4096x1408, .f32⟩) main_call2_v0) (TRef.of (T := ⟨S4096x1408, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4096x1408, .f32⟩) main_call2_v2) (broadcastInDim S4096x1408 ![] bcast_S_S4096x1408),
    TRef.binary (TRef.of (T := ⟨S4096x1408, .f32⟩) main_call2_v2) (TRef.of (T := ⟨S4096x1408, .f32⟩) main_call2_v1) (TRef.of (T := ⟨S4096x1408, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4096x1408, .f32⟩) main_call2_v4) (broadcastInDim S4096x1408 ![] bcast_S_S4096x1408),
    TRef.binary (TRef.of (T := ⟨S4096x1408, .f32⟩) main_call2_v4) (TRef.of (T := ⟨S4096x1408, .f32⟩) main_call2_v3) (TRef.of (T := ⟨S4096x1408, .f32⟩) main_call2_v5) Host.divf,
    TRef.binary (TRef.of (T := ⟨S4096x1408, .f32⟩) main_v47) (TRef.of (T := ⟨S4096x1408, .f32⟩) main_call2_v5) (TRef.of (T := ⟨S4096x1408, .f32⟩) main_v48) mulf,
    unary main_v46 main_v49 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v48 main_v49 main_v50 (mulf : (⟨S4096x1408, .f32⟩ : BufTy).Contents (Elt F) → (⟨S4096x1408, .f32⟩ : BufTy).Contents (Elt F) → (⟨S4096x1408, .f32⟩ : BufTy).Contents (Elt F)),
    unary main_arg2 main_v51 ((extractStridedSlice S1x2048x1408 ![2, 0, 0] · slices_S16x2048x1408_S1x2048x1408_2_0_0) : (⟨S16x2048x1408, .f32⟩ : BufTy).Contents (Elt F) → (⟨S1x2048x1408, .f32⟩ : BufTy).Contents (Elt F)),
    reshape main_v51 main_v52 rfl shapeCasts_S1x2048x1408_S2048x1408,
    unary main_v52 main_v53 ((transpose S1408x2048 [1, 0] · transposes_S2048x1408_S1408x2048_1_0) : (⟨S2048x1408, .f32⟩ : BufTy).Contents (Elt F) → (⟨S1408x2048, .f32⟩ : BufTy).Contents (Elt F)),
    binary main_v50 main_v53 main_v54 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_3 (constantI S_ 32 2#32),
    unary main_c_3 main_v55 (broadcastInDim S4096x2 ![] bcast_S_S4096x2 : (⟨S_, .i32⟩ : BufTy).Contents (Elt F) → (⟨S4096x2, .i32⟩ : BufTy).Contents (Elt F)),
    binary main_arg4 main_v55 main_v56 (cmpi .eq : (⟨S4096x2, .i32⟩ : BufTy).Contents (Elt F) → (⟨S4096x2, .i32⟩ : BufTy).Contents (Elt F) → (⟨S4096x2, .i1⟩ : BufTy).Contents (Elt F)),
    unary main_v56 main_v57 (uitofp .f32 : (⟨S4096x2, .i1⟩ : BufTy).Contents (Elt F) → (⟨S4096x2, .f32⟩ : BufTy).Contents (Elt F)),
    binary main_arg3 main_v57 main_v58 (mulf : (⟨S4096x2, .f32⟩ : BufTy).Contents (Elt F) → (⟨S4096x2, .f32⟩ : BufTy).Contents (Elt F) → (⟨S4096x2, .f32⟩ : BufTy).Contents (Elt F)),
    nullary main_cst_4 (constant S_ .f32 0x00000000#32),
    binary main_v58 main_cst_4 main_v59 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v59 main_v60 (broadcastInDim S4096x1 ![0] bcast_S4096_S4096x1_0 : (⟨S4096, .f32⟩ : BufTy).Contents (Elt F) → (⟨S4096x1, .f32⟩ : BufTy).Contents (Elt F)),
    unary main_v60 main_v61 (broadcastInDim S4096x2048 ![0, 1] bcast_S4096x1_S4096x2048_0_1 : (⟨S4096x1, .f32⟩ : BufTy).Contents (Elt F) → (⟨S4096x2048, .f32⟩ : BufTy).Contents (Elt F)),
    binary main_v61 main_v54 main_v62 (mulf : (⟨S4096x2048, .f32⟩ : BufTy).Contents (Elt F) → (⟨S4096x2048, .f32⟩ : BufTy).Contents (Elt F) → (⟨S4096x2048, .f32⟩ : BufTy).Contents (Elt F)),
    binary main_v42 main_v62 main_v63 (addf : (⟨S4096x2048, .f32⟩ : BufTy).Contents (Elt F) → (⟨S4096x2048, .f32⟩ : BufTy).Contents (Elt F) → (⟨S4096x2048, .f32⟩ : BufTy).Contents (Elt F)) ]

theorem opsE2_good : ∀ op ∈ (opsE2 : List (HloOp τ sig (Elt F))), Good op := fun op h =>
  ⟨List.forall_iff_forall_mem.mp (show (opsE2 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 3's operations. -/
abbrev opsE3 : List (HloOp τ sig (Elt F)) :=
  [ unary main_arg1 main_v64 ((extractStridedSlice S1x2816x2048 ![3, 0, 0] · slices_S16x2816x2048_S1x2816x2048_3_0_0) : (⟨S16x2816x2048, .f32⟩ : BufTy).Contents (Elt F) → (⟨S1x2816x2048, .f32⟩ : BufTy).Contents (Elt F)),
    reshape main_v64 main_v65 rfl shapeCasts_S1x2816x2048_S2816x2048,
    unary main_v65 main_v66 ((transpose S2048x2816 [1, 0] · transposes_S2816x2048_S2048x2816_1_0) : (⟨S2816x2048, .f32⟩ : BufTy).Contents (Elt F) → (⟨S2048x2816, .f32⟩ : BufTy).Contents (Elt F)),
    binary main_arg0 main_v66 main_v67 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v67 main_v68 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v68) (TRef.of (T := ⟨S4096x1408, .f32⟩) main_call3_v0) Host.negf,
    TRef.unary (TRef.of (T := ⟨S4096x1408, .f32⟩) main_call3_v0) (TRef.of (T := ⟨S4096x1408, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4096x1408, .f32⟩) main_call3_v2) (broadcastInDim S4096x1408 ![] bcast_S_S4096x1408),
    TRef.binary (TRef.of (T := ⟨S4096x1408, .f32⟩) main_call3_v2) (TRef.of (T := ⟨S4096x1408, .f32⟩) main_call3_v1) (TRef.of (T := ⟨S4096x1408, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4096x1408, .f32⟩) main_call3_v4) (broadcastInDim S4096x1408 ![] bcast_S_S4096x1408),
    TRef.binary (TRef.of (T := ⟨S4096x1408, .f32⟩) main_call3_v4) (TRef.of (T := ⟨S4096x1408, .f32⟩) main_call3_v3) (TRef.of (T := ⟨S4096x1408, .f32⟩) main_call3_v5) Host.divf,
    TRef.binary (TRef.of (T := ⟨S4096x1408, .f32⟩) main_v68) (TRef.of (T := ⟨S4096x1408, .f32⟩) main_call3_v5) (TRef.of (T := ⟨S4096x1408, .f32⟩) main_v69) mulf,
    unary main_v67 main_v70 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v69 main_v70 main_v71 (mulf : (⟨S4096x1408, .f32⟩ : BufTy).Contents (Elt F) → (⟨S4096x1408, .f32⟩ : BufTy).Contents (Elt F) → (⟨S4096x1408, .f32⟩ : BufTy).Contents (Elt F)),
    unary main_arg2 main_v72 ((extractStridedSlice S1x2048x1408 ![3, 0, 0] · slices_S16x2048x1408_S1x2048x1408_3_0_0) : (⟨S16x2048x1408, .f32⟩ : BufTy).Contents (Elt F) → (⟨S1x2048x1408, .f32⟩ : BufTy).Contents (Elt F)),
    reshape main_v72 main_v73 rfl shapeCasts_S1x2048x1408_S2048x1408,
    unary main_v73 main_v74 ((transpose S1408x2048 [1, 0] · transposes_S2048x1408_S1408x2048_1_0) : (⟨S2048x1408, .f32⟩ : BufTy).Contents (Elt F) → (⟨S1408x2048, .f32⟩ : BufTy).Contents (Elt F)),
    binary main_v71 main_v74 main_v75 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_5 (constantI S_ 32 3#32),
    unary main_c_5 main_v76 (broadcastInDim S4096x2 ![] bcast_S_S4096x2 : (⟨S_, .i32⟩ : BufTy).Contents (Elt F) → (⟨S4096x2, .i32⟩ : BufTy).Contents (Elt F)),
    binary main_arg4 main_v76 main_v77 (cmpi .eq : (⟨S4096x2, .i32⟩ : BufTy).Contents (Elt F) → (⟨S4096x2, .i32⟩ : BufTy).Contents (Elt F) → (⟨S4096x2, .i1⟩ : BufTy).Contents (Elt F)),
    unary main_v77 main_v78 (uitofp .f32 : (⟨S4096x2, .i1⟩ : BufTy).Contents (Elt F) → (⟨S4096x2, .f32⟩ : BufTy).Contents (Elt F)),
    binary main_arg3 main_v78 main_v79 (mulf : (⟨S4096x2, .f32⟩ : BufTy).Contents (Elt F) → (⟨S4096x2, .f32⟩ : BufTy).Contents (Elt F) → (⟨S4096x2, .f32⟩ : BufTy).Contents (Elt F)),
    nullary main_cst_6 (constant S_ .f32 0x00000000#32),
    binary main_v79 main_cst_6 main_v80 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v80 main_v81 (broadcastInDim S4096x1 ![0] bcast_S4096_S4096x1_0 : (⟨S4096, .f32⟩ : BufTy).Contents (Elt F) → (⟨S4096x1, .f32⟩ : BufTy).Contents (Elt F)),
    unary main_v81 main_v82 (broadcastInDim S4096x2048 ![0, 1] bcast_S4096x1_S4096x2048_0_1 : (⟨S4096x1, .f32⟩ : BufTy).Contents (Elt F) → (⟨S4096x2048, .f32⟩ : BufTy).Contents (Elt F)),
    binary main_v82 main_v75 main_v83 (mulf : (⟨S4096x2048, .f32⟩ : BufTy).Contents (Elt F) → (⟨S4096x2048, .f32⟩ : BufTy).Contents (Elt F) → (⟨S4096x2048, .f32⟩ : BufTy).Contents (Elt F)),
    binary main_v63 main_v83 main_v84 (addf : (⟨S4096x2048, .f32⟩ : BufTy).Contents (Elt F) → (⟨S4096x2048, .f32⟩ : BufTy).Contents (Elt F) → (⟨S4096x2048, .f32⟩ : BufTy).Contents (Elt F)) ]

theorem opsE3_good : ∀ op ∈ (opsE3 : List (HloOp τ sig (Elt F))), Good op := fun op h =>
  ⟨List.forall_iff_forall_mem.mp (show (opsE3 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 4's operations. -/
abbrev opsE4 : List (HloOp τ sig (Elt F)) :=
  [ unary main_arg1 main_v85 ((extractStridedSlice S1x2816x2048 ![4, 0, 0] · slices_S16x2816x2048_S1x2816x2048_4_0_0) : (⟨S16x2816x2048, .f32⟩ : BufTy).Contents (Elt F) → (⟨S1x2816x2048, .f32⟩ : BufTy).Contents (Elt F)),
    reshape main_v85 main_v86 rfl shapeCasts_S1x2816x2048_S2816x2048,
    unary main_v86 main_v87 ((transpose S2048x2816 [1, 0] · transposes_S2816x2048_S2048x2816_1_0) : (⟨S2816x2048, .f32⟩ : BufTy).Contents (Elt F) → (⟨S2048x2816, .f32⟩ : BufTy).Contents (Elt F)),
    binary main_arg0 main_v87 main_v88 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v88 main_v89 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v89) (TRef.of (T := ⟨S4096x1408, .f32⟩) main_call4_v0) Host.negf,
    TRef.unary (TRef.of (T := ⟨S4096x1408, .f32⟩) main_call4_v0) (TRef.of (T := ⟨S4096x1408, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4096x1408, .f32⟩) main_call4_v2) (broadcastInDim S4096x1408 ![] bcast_S_S4096x1408),
    TRef.binary (TRef.of (T := ⟨S4096x1408, .f32⟩) main_call4_v2) (TRef.of (T := ⟨S4096x1408, .f32⟩) main_call4_v1) (TRef.of (T := ⟨S4096x1408, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4096x1408, .f32⟩) main_call4_v4) (broadcastInDim S4096x1408 ![] bcast_S_S4096x1408),
    TRef.binary (TRef.of (T := ⟨S4096x1408, .f32⟩) main_call4_v4) (TRef.of (T := ⟨S4096x1408, .f32⟩) main_call4_v3) (TRef.of (T := ⟨S4096x1408, .f32⟩) main_call4_v5) Host.divf,
    TRef.binary (TRef.of (T := ⟨S4096x1408, .f32⟩) main_v89) (TRef.of (T := ⟨S4096x1408, .f32⟩) main_call4_v5) (TRef.of (T := ⟨S4096x1408, .f32⟩) main_v90) mulf,
    unary main_v88 main_v91 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v90 main_v91 main_v92 (mulf : (⟨S4096x1408, .f32⟩ : BufTy).Contents (Elt F) → (⟨S4096x1408, .f32⟩ : BufTy).Contents (Elt F) → (⟨S4096x1408, .f32⟩ : BufTy).Contents (Elt F)),
    unary main_arg2 main_v93 ((extractStridedSlice S1x2048x1408 ![4, 0, 0] · slices_S16x2048x1408_S1x2048x1408_4_0_0) : (⟨S16x2048x1408, .f32⟩ : BufTy).Contents (Elt F) → (⟨S1x2048x1408, .f32⟩ : BufTy).Contents (Elt F)),
    reshape main_v93 main_v94 rfl shapeCasts_S1x2048x1408_S2048x1408,
    unary main_v94 main_v95 ((transpose S1408x2048 [1, 0] · transposes_S2048x1408_S1408x2048_1_0) : (⟨S2048x1408, .f32⟩ : BufTy).Contents (Elt F) → (⟨S1408x2048, .f32⟩ : BufTy).Contents (Elt F)),
    binary main_v92 main_v95 main_v96 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_7 (constantI S_ 32 4#32),
    unary main_c_7 main_v97 (broadcastInDim S4096x2 ![] bcast_S_S4096x2 : (⟨S_, .i32⟩ : BufTy).Contents (Elt F) → (⟨S4096x2, .i32⟩ : BufTy).Contents (Elt F)),
    binary main_arg4 main_v97 main_v98 (cmpi .eq : (⟨S4096x2, .i32⟩ : BufTy).Contents (Elt F) → (⟨S4096x2, .i32⟩ : BufTy).Contents (Elt F) → (⟨S4096x2, .i1⟩ : BufTy).Contents (Elt F)),
    unary main_v98 main_v99 (uitofp .f32 : (⟨S4096x2, .i1⟩ : BufTy).Contents (Elt F) → (⟨S4096x2, .f32⟩ : BufTy).Contents (Elt F)),
    binary main_arg3 main_v99 main_v100 (mulf : (⟨S4096x2, .f32⟩ : BufTy).Contents (Elt F) → (⟨S4096x2, .f32⟩ : BufTy).Contents (Elt F) → (⟨S4096x2, .f32⟩ : BufTy).Contents (Elt F)),
    nullary main_cst_8 (constant S_ .f32 0x00000000#32),
    binary main_v100 main_cst_8 main_v101 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v101 main_v102 (broadcastInDim S4096x1 ![0] bcast_S4096_S4096x1_0 : (⟨S4096, .f32⟩ : BufTy).Contents (Elt F) → (⟨S4096x1, .f32⟩ : BufTy).Contents (Elt F)),
    unary main_v102 main_v103 (broadcastInDim S4096x2048 ![0, 1] bcast_S4096x1_S4096x2048_0_1 : (⟨S4096x1, .f32⟩ : BufTy).Contents (Elt F) → (⟨S4096x2048, .f32⟩ : BufTy).Contents (Elt F)),
    binary main_v103 main_v96 main_v104 (mulf : (⟨S4096x2048, .f32⟩ : BufTy).Contents (Elt F) → (⟨S4096x2048, .f32⟩ : BufTy).Contents (Elt F) → (⟨S4096x2048, .f32⟩ : BufTy).Contents (Elt F)),
    binary main_v84 main_v104 main_v105 (addf : (⟨S4096x2048, .f32⟩ : BufTy).Contents (Elt F) → (⟨S4096x2048, .f32⟩ : BufTy).Contents (Elt F) → (⟨S4096x2048, .f32⟩ : BufTy).Contents (Elt F)) ]

theorem opsE4_good : ∀ op ∈ (opsE4 : List (HloOp τ sig (Elt F))), Good op := fun op h =>
  ⟨List.forall_iff_forall_mem.mp (show (opsE4 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 5's operations. -/
abbrev opsE5 : List (HloOp τ sig (Elt F)) :=
  [ unary main_arg1 main_v106 ((extractStridedSlice S1x2816x2048 ![5, 0, 0] · slices_S16x2816x2048_S1x2816x2048_5_0_0) : (⟨S16x2816x2048, .f32⟩ : BufTy).Contents (Elt F) → (⟨S1x2816x2048, .f32⟩ : BufTy).Contents (Elt F)),
    reshape main_v106 main_v107 rfl shapeCasts_S1x2816x2048_S2816x2048,
    unary main_v107 main_v108 ((transpose S2048x2816 [1, 0] · transposes_S2816x2048_S2048x2816_1_0) : (⟨S2816x2048, .f32⟩ : BufTy).Contents (Elt F) → (⟨S2048x2816, .f32⟩ : BufTy).Contents (Elt F)),
    binary main_arg0 main_v108 main_v109 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v109 main_v110 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v110) (TRef.of (T := ⟨S4096x1408, .f32⟩) main_call5_v0) Host.negf,
    TRef.unary (TRef.of (T := ⟨S4096x1408, .f32⟩) main_call5_v0) (TRef.of (T := ⟨S4096x1408, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S4096x1408, .f32⟩) main_call5_v2) (broadcastInDim S4096x1408 ![] bcast_S_S4096x1408),
    TRef.binary (TRef.of (T := ⟨S4096x1408, .f32⟩) main_call5_v2) (TRef.of (T := ⟨S4096x1408, .f32⟩) main_call5_v1) (TRef.of (T := ⟨S4096x1408, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S4096x1408, .f32⟩) main_call5_v4) (broadcastInDim S4096x1408 ![] bcast_S_S4096x1408),
    TRef.binary (TRef.of (T := ⟨S4096x1408, .f32⟩) main_call5_v4) (TRef.of (T := ⟨S4096x1408, .f32⟩) main_call5_v3) (TRef.of (T := ⟨S4096x1408, .f32⟩) main_call5_v5) Host.divf,
    TRef.binary (TRef.of (T := ⟨S4096x1408, .f32⟩) main_v110) (TRef.of (T := ⟨S4096x1408, .f32⟩) main_call5_v5) (TRef.of (T := ⟨S4096x1408, .f32⟩) main_v111) mulf,
    unary main_v109 main_v112 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v111 main_v112 main_v113 (mulf : (⟨S4096x1408, .f32⟩ : BufTy).Contents (Elt F) → (⟨S4096x1408, .f32⟩ : BufTy).Contents (Elt F) → (⟨S4096x1408, .f32⟩ : BufTy).Contents (Elt F)),
    unary main_arg2 main_v114 ((extractStridedSlice S1x2048x1408 ![5, 0, 0] · slices_S16x2048x1408_S1x2048x1408_5_0_0) : (⟨S16x2048x1408, .f32⟩ : BufTy).Contents (Elt F) → (⟨S1x2048x1408, .f32⟩ : BufTy).Contents (Elt F)),
    reshape main_v114 main_v115 rfl shapeCasts_S1x2048x1408_S2048x1408,
    unary main_v115 main_v116 ((transpose S1408x2048 [1, 0] · transposes_S2048x1408_S1408x2048_1_0) : (⟨S2048x1408, .f32⟩ : BufTy).Contents (Elt F) → (⟨S1408x2048, .f32⟩ : BufTy).Contents (Elt F)),
    binary main_v113 main_v116 main_v117 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_9 (constantI S_ 32 5#32),
    unary main_c_9 main_v118 (broadcastInDim S4096x2 ![] bcast_S_S4096x2 : (⟨S_, .i32⟩ : BufTy).Contents (Elt F) → (⟨S4096x2, .i32⟩ : BufTy).Contents (Elt F)),
    binary main_arg4 main_v118 main_v119 (cmpi .eq : (⟨S4096x2, .i32⟩ : BufTy).Contents (Elt F) → (⟨S4096x2, .i32⟩ : BufTy).Contents (Elt F) → (⟨S4096x2, .i1⟩ : BufTy).Contents (Elt F)),
    unary main_v119 main_v120 (uitofp .f32 : (⟨S4096x2, .i1⟩ : BufTy).Contents (Elt F) → (⟨S4096x2, .f32⟩ : BufTy).Contents (Elt F)),
    binary main_arg3 main_v120 main_v121 (mulf : (⟨S4096x2, .f32⟩ : BufTy).Contents (Elt F) → (⟨S4096x2, .f32⟩ : BufTy).Contents (Elt F) → (⟨S4096x2, .f32⟩ : BufTy).Contents (Elt F)),
    nullary main_cst_10 (constant S_ .f32 0x00000000#32),
    binary main_v121 main_cst_10 main_v122 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v122 main_v123 (broadcastInDim S4096x1 ![0] bcast_S4096_S4096x1_0 : (⟨S4096, .f32⟩ : BufTy).Contents (Elt F) → (⟨S4096x1, .f32⟩ : BufTy).Contents (Elt F)),
    unary main_v123 main_v124 (broadcastInDim S4096x2048 ![0, 1] bcast_S4096x1_S4096x2048_0_1 : (⟨S4096x1, .f32⟩ : BufTy).Contents (Elt F) → (⟨S4096x2048, .f32⟩ : BufTy).Contents (Elt F)),
    binary main_v124 main_v117 main_v125 (mulf : (⟨S4096x2048, .f32⟩ : BufTy).Contents (Elt F) → (⟨S4096x2048, .f32⟩ : BufTy).Contents (Elt F) → (⟨S4096x2048, .f32⟩ : BufTy).Contents (Elt F)),
    binary main_v105 main_v125 main_v126 (addf : (⟨S4096x2048, .f32⟩ : BufTy).Contents (Elt F) → (⟨S4096x2048, .f32⟩ : BufTy).Contents (Elt F) → (⟨S4096x2048, .f32⟩ : BufTy).Contents (Elt F)) ]

theorem opsE5_good : ∀ op ∈ (opsE5 : List (HloOp τ sig (Elt F))), Good op := fun op h =>
  ⟨List.forall_iff_forall_mem.mp (show (opsE5 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 6's operations. -/
abbrev opsE6 : List (HloOp τ sig (Elt F)) :=
  [ unary main_arg1 main_v127 ((extractStridedSlice S1x2816x2048 ![6, 0, 0] · slices_S16x2816x2048_S1x2816x2048_6_0_0) : (⟨S16x2816x2048, .f32⟩ : BufTy).Contents (Elt F) → (⟨S1x2816x2048, .f32⟩ : BufTy).Contents (Elt F)),
    reshape main_v127 main_v128 rfl shapeCasts_S1x2816x2048_S2816x2048,
    unary main_v128 main_v129 ((transpose S2048x2816 [1, 0] · transposes_S2816x2048_S2048x2816_1_0) : (⟨S2816x2048, .f32⟩ : BufTy).Contents (Elt F) → (⟨S2048x2816, .f32⟩ : BufTy).Contents (Elt F)),
    binary main_arg0 main_v129 main_v130 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v130 main_v131 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v131) (TRef.of (T := ⟨S4096x1408, .f32⟩) main_call6_v0) Host.negf,
    TRef.unary (TRef.of (T := ⟨S4096x1408, .f32⟩) main_call6_v0) (TRef.of (T := ⟨S4096x1408, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S4096x1408, .f32⟩) main_call6_v2) (broadcastInDim S4096x1408 ![] bcast_S_S4096x1408),
    TRef.binary (TRef.of (T := ⟨S4096x1408, .f32⟩) main_call6_v2) (TRef.of (T := ⟨S4096x1408, .f32⟩) main_call6_v1) (TRef.of (T := ⟨S4096x1408, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S4096x1408, .f32⟩) main_call6_v4) (broadcastInDim S4096x1408 ![] bcast_S_S4096x1408),
    TRef.binary (TRef.of (T := ⟨S4096x1408, .f32⟩) main_call6_v4) (TRef.of (T := ⟨S4096x1408, .f32⟩) main_call6_v3) (TRef.of (T := ⟨S4096x1408, .f32⟩) main_call6_v5) Host.divf,
    TRef.binary (TRef.of (T := ⟨S4096x1408, .f32⟩) main_v131) (TRef.of (T := ⟨S4096x1408, .f32⟩) main_call6_v5) (TRef.of (T := ⟨S4096x1408, .f32⟩) main_v132) mulf,
    unary main_v130 main_v133 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v132 main_v133 main_v134 (mulf : (⟨S4096x1408, .f32⟩ : BufTy).Contents (Elt F) → (⟨S4096x1408, .f32⟩ : BufTy).Contents (Elt F) → (⟨S4096x1408, .f32⟩ : BufTy).Contents (Elt F)),
    unary main_arg2 main_v135 ((extractStridedSlice S1x2048x1408 ![6, 0, 0] · slices_S16x2048x1408_S1x2048x1408_6_0_0) : (⟨S16x2048x1408, .f32⟩ : BufTy).Contents (Elt F) → (⟨S1x2048x1408, .f32⟩ : BufTy).Contents (Elt F)),
    reshape main_v135 main_v136 rfl shapeCasts_S1x2048x1408_S2048x1408,
    unary main_v136 main_v137 ((transpose S1408x2048 [1, 0] · transposes_S2048x1408_S1408x2048_1_0) : (⟨S2048x1408, .f32⟩ : BufTy).Contents (Elt F) → (⟨S1408x2048, .f32⟩ : BufTy).Contents (Elt F)),
    binary main_v134 main_v137 main_v138 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_11 (constantI S_ 32 6#32),
    unary main_c_11 main_v139 (broadcastInDim S4096x2 ![] bcast_S_S4096x2 : (⟨S_, .i32⟩ : BufTy).Contents (Elt F) → (⟨S4096x2, .i32⟩ : BufTy).Contents (Elt F)),
    binary main_arg4 main_v139 main_v140 (cmpi .eq : (⟨S4096x2, .i32⟩ : BufTy).Contents (Elt F) → (⟨S4096x2, .i32⟩ : BufTy).Contents (Elt F) → (⟨S4096x2, .i1⟩ : BufTy).Contents (Elt F)),
    unary main_v140 main_v141 (uitofp .f32 : (⟨S4096x2, .i1⟩ : BufTy).Contents (Elt F) → (⟨S4096x2, .f32⟩ : BufTy).Contents (Elt F)),
    binary main_arg3 main_v141 main_v142 (mulf : (⟨S4096x2, .f32⟩ : BufTy).Contents (Elt F) → (⟨S4096x2, .f32⟩ : BufTy).Contents (Elt F) → (⟨S4096x2, .f32⟩ : BufTy).Contents (Elt F)),
    nullary main_cst_12 (constant S_ .f32 0x00000000#32),
    binary main_v142 main_cst_12 main_v143 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v143 main_v144 (broadcastInDim S4096x1 ![0] bcast_S4096_S4096x1_0 : (⟨S4096, .f32⟩ : BufTy).Contents (Elt F) → (⟨S4096x1, .f32⟩ : BufTy).Contents (Elt F)),
    unary main_v144 main_v145 (broadcastInDim S4096x2048 ![0, 1] bcast_S4096x1_S4096x2048_0_1 : (⟨S4096x1, .f32⟩ : BufTy).Contents (Elt F) → (⟨S4096x2048, .f32⟩ : BufTy).Contents (Elt F)),
    binary main_v145 main_v138 main_v146 (mulf : (⟨S4096x2048, .f32⟩ : BufTy).Contents (Elt F) → (⟨S4096x2048, .f32⟩ : BufTy).Contents (Elt F) → (⟨S4096x2048, .f32⟩ : BufTy).Contents (Elt F)),
    binary main_v126 main_v146 main_v147 (addf : (⟨S4096x2048, .f32⟩ : BufTy).Contents (Elt F) → (⟨S4096x2048, .f32⟩ : BufTy).Contents (Elt F) → (⟨S4096x2048, .f32⟩ : BufTy).Contents (Elt F)) ]

theorem opsE6_good : ∀ op ∈ (opsE6 : List (HloOp τ sig (Elt F))), Good op := fun op h =>
  ⟨List.forall_iff_forall_mem.mp (show (opsE6 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 7's operations. -/
abbrev opsE7 : List (HloOp τ sig (Elt F)) :=
  [ unary main_arg1 main_v148 ((extractStridedSlice S1x2816x2048 ![7, 0, 0] · slices_S16x2816x2048_S1x2816x2048_7_0_0) : (⟨S16x2816x2048, .f32⟩ : BufTy).Contents (Elt F) → (⟨S1x2816x2048, .f32⟩ : BufTy).Contents (Elt F)),
    reshape main_v148 main_v149 rfl shapeCasts_S1x2816x2048_S2816x2048,
    unary main_v149 main_v150 ((transpose S2048x2816 [1, 0] · transposes_S2816x2048_S2048x2816_1_0) : (⟨S2816x2048, .f32⟩ : BufTy).Contents (Elt F) → (⟨S2048x2816, .f32⟩ : BufTy).Contents (Elt F)),
    binary main_arg0 main_v150 main_v151 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v151 main_v152 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v152) (TRef.of (T := ⟨S4096x1408, .f32⟩) main_call7_v0) Host.negf,
    TRef.unary (TRef.of (T := ⟨S4096x1408, .f32⟩) main_call7_v0) (TRef.of (T := ⟨S4096x1408, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S4096x1408, .f32⟩) main_call7_v2) (broadcastInDim S4096x1408 ![] bcast_S_S4096x1408),
    TRef.binary (TRef.of (T := ⟨S4096x1408, .f32⟩) main_call7_v2) (TRef.of (T := ⟨S4096x1408, .f32⟩) main_call7_v1) (TRef.of (T := ⟨S4096x1408, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S4096x1408, .f32⟩) main_call7_v4) (broadcastInDim S4096x1408 ![] bcast_S_S4096x1408),
    TRef.binary (TRef.of (T := ⟨S4096x1408, .f32⟩) main_call7_v4) (TRef.of (T := ⟨S4096x1408, .f32⟩) main_call7_v3) (TRef.of (T := ⟨S4096x1408, .f32⟩) main_call7_v5) Host.divf,
    TRef.binary (TRef.of (T := ⟨S4096x1408, .f32⟩) main_v152) (TRef.of (T := ⟨S4096x1408, .f32⟩) main_call7_v5) (TRef.of (T := ⟨S4096x1408, .f32⟩) main_v153) mulf,
    unary main_v151 main_v154 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v153 main_v154 main_v155 (mulf : (⟨S4096x1408, .f32⟩ : BufTy).Contents (Elt F) → (⟨S4096x1408, .f32⟩ : BufTy).Contents (Elt F) → (⟨S4096x1408, .f32⟩ : BufTy).Contents (Elt F)),
    unary main_arg2 main_v156 ((extractStridedSlice S1x2048x1408 ![7, 0, 0] · slices_S16x2048x1408_S1x2048x1408_7_0_0) : (⟨S16x2048x1408, .f32⟩ : BufTy).Contents (Elt F) → (⟨S1x2048x1408, .f32⟩ : BufTy).Contents (Elt F)),
    reshape main_v156 main_v157 rfl shapeCasts_S1x2048x1408_S2048x1408,
    unary main_v157 main_v158 ((transpose S1408x2048 [1, 0] · transposes_S2048x1408_S1408x2048_1_0) : (⟨S2048x1408, .f32⟩ : BufTy).Contents (Elt F) → (⟨S1408x2048, .f32⟩ : BufTy).Contents (Elt F)),
    binary main_v155 main_v158 main_v159 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_13 (constantI S_ 32 7#32),
    unary main_c_13 main_v160 (broadcastInDim S4096x2 ![] bcast_S_S4096x2 : (⟨S_, .i32⟩ : BufTy).Contents (Elt F) → (⟨S4096x2, .i32⟩ : BufTy).Contents (Elt F)),
    binary main_arg4 main_v160 main_v161 (cmpi .eq : (⟨S4096x2, .i32⟩ : BufTy).Contents (Elt F) → (⟨S4096x2, .i32⟩ : BufTy).Contents (Elt F) → (⟨S4096x2, .i1⟩ : BufTy).Contents (Elt F)),
    unary main_v161 main_v162 (uitofp .f32 : (⟨S4096x2, .i1⟩ : BufTy).Contents (Elt F) → (⟨S4096x2, .f32⟩ : BufTy).Contents (Elt F)),
    binary main_arg3 main_v162 main_v163 (mulf : (⟨S4096x2, .f32⟩ : BufTy).Contents (Elt F) → (⟨S4096x2, .f32⟩ : BufTy).Contents (Elt F) → (⟨S4096x2, .f32⟩ : BufTy).Contents (Elt F)),
    nullary main_cst_14 (constant S_ .f32 0x00000000#32),
    binary main_v163 main_cst_14 main_v164 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v164 main_v165 (broadcastInDim S4096x1 ![0] bcast_S4096_S4096x1_0 : (⟨S4096, .f32⟩ : BufTy).Contents (Elt F) → (⟨S4096x1, .f32⟩ : BufTy).Contents (Elt F)),
    unary main_v165 main_v166 (broadcastInDim S4096x2048 ![0, 1] bcast_S4096x1_S4096x2048_0_1 : (⟨S4096x1, .f32⟩ : BufTy).Contents (Elt F) → (⟨S4096x2048, .f32⟩ : BufTy).Contents (Elt F)),
    binary main_v166 main_v159 main_v167 (mulf : (⟨S4096x2048, .f32⟩ : BufTy).Contents (Elt F) → (⟨S4096x2048, .f32⟩ : BufTy).Contents (Elt F) → (⟨S4096x2048, .f32⟩ : BufTy).Contents (Elt F)),
    binary main_v147 main_v167 main_v168 (addf : (⟨S4096x2048, .f32⟩ : BufTy).Contents (Elt F) → (⟨S4096x2048, .f32⟩ : BufTy).Contents (Elt F) → (⟨S4096x2048, .f32⟩ : BufTy).Contents (Elt F)) ]

theorem opsE7_good : ∀ op ∈ (opsE7 : List (HloOp τ sig (Elt F))), Good op := fun op h =>
  ⟨List.forall_iff_forall_mem.mp (show (opsE7 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 8's operations. -/
abbrev opsE8 : List (HloOp τ sig (Elt F)) :=
  [ unary main_arg1 main_v169 ((extractStridedSlice S1x2816x2048 ![8, 0, 0] · slices_S16x2816x2048_S1x2816x2048_8_0_0) : (⟨S16x2816x2048, .f32⟩ : BufTy).Contents (Elt F) → (⟨S1x2816x2048, .f32⟩ : BufTy).Contents (Elt F)),
    reshape main_v169 main_v170 rfl shapeCasts_S1x2816x2048_S2816x2048,
    unary main_v170 main_v171 ((transpose S2048x2816 [1, 0] · transposes_S2816x2048_S2048x2816_1_0) : (⟨S2816x2048, .f32⟩ : BufTy).Contents (Elt F) → (⟨S2048x2816, .f32⟩ : BufTy).Contents (Elt F)),
    binary main_arg0 main_v171 main_v172 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v172 main_v173 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v173) (TRef.of (T := ⟨S4096x1408, .f32⟩) main_call8_v0) Host.negf,
    TRef.unary (TRef.of (T := ⟨S4096x1408, .f32⟩) main_call8_v0) (TRef.of (T := ⟨S4096x1408, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S4096x1408, .f32⟩) main_call8_v2) (broadcastInDim S4096x1408 ![] bcast_S_S4096x1408),
    TRef.binary (TRef.of (T := ⟨S4096x1408, .f32⟩) main_call8_v2) (TRef.of (T := ⟨S4096x1408, .f32⟩) main_call8_v1) (TRef.of (T := ⟨S4096x1408, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S4096x1408, .f32⟩) main_call8_v4) (broadcastInDim S4096x1408 ![] bcast_S_S4096x1408),
    TRef.binary (TRef.of (T := ⟨S4096x1408, .f32⟩) main_call8_v4) (TRef.of (T := ⟨S4096x1408, .f32⟩) main_call8_v3) (TRef.of (T := ⟨S4096x1408, .f32⟩) main_call8_v5) Host.divf,
    TRef.binary (TRef.of (T := ⟨S4096x1408, .f32⟩) main_v173) (TRef.of (T := ⟨S4096x1408, .f32⟩) main_call8_v5) (TRef.of (T := ⟨S4096x1408, .f32⟩) main_v174) mulf,
    unary main_v172 main_v175 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v174 main_v175 main_v176 (mulf : (⟨S4096x1408, .f32⟩ : BufTy).Contents (Elt F) → (⟨S4096x1408, .f32⟩ : BufTy).Contents (Elt F) → (⟨S4096x1408, .f32⟩ : BufTy).Contents (Elt F)),
    unary main_arg2 main_v177 ((extractStridedSlice S1x2048x1408 ![8, 0, 0] · slices_S16x2048x1408_S1x2048x1408_8_0_0) : (⟨S16x2048x1408, .f32⟩ : BufTy).Contents (Elt F) → (⟨S1x2048x1408, .f32⟩ : BufTy).Contents (Elt F)),
    reshape main_v177 main_v178 rfl shapeCasts_S1x2048x1408_S2048x1408,
    unary main_v178 main_v179 ((transpose S1408x2048 [1, 0] · transposes_S2048x1408_S1408x2048_1_0) : (⟨S2048x1408, .f32⟩ : BufTy).Contents (Elt F) → (⟨S1408x2048, .f32⟩ : BufTy).Contents (Elt F)),
    binary main_v176 main_v179 main_v180 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_15 (constantI S_ 32 8#32),
    unary main_c_15 main_v181 (broadcastInDim S4096x2 ![] bcast_S_S4096x2 : (⟨S_, .i32⟩ : BufTy).Contents (Elt F) → (⟨S4096x2, .i32⟩ : BufTy).Contents (Elt F)),
    binary main_arg4 main_v181 main_v182 (cmpi .eq : (⟨S4096x2, .i32⟩ : BufTy).Contents (Elt F) → (⟨S4096x2, .i32⟩ : BufTy).Contents (Elt F) → (⟨S4096x2, .i1⟩ : BufTy).Contents (Elt F)),
    unary main_v182 main_v183 (uitofp .f32 : (⟨S4096x2, .i1⟩ : BufTy).Contents (Elt F) → (⟨S4096x2, .f32⟩ : BufTy).Contents (Elt F)),
    binary main_arg3 main_v183 main_v184 (mulf : (⟨S4096x2, .f32⟩ : BufTy).Contents (Elt F) → (⟨S4096x2, .f32⟩ : BufTy).Contents (Elt F) → (⟨S4096x2, .f32⟩ : BufTy).Contents (Elt F)),
    nullary main_cst_16 (constant S_ .f32 0x00000000#32),
    binary main_v184 main_cst_16 main_v185 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v185 main_v186 (broadcastInDim S4096x1 ![0] bcast_S4096_S4096x1_0 : (⟨S4096, .f32⟩ : BufTy).Contents (Elt F) → (⟨S4096x1, .f32⟩ : BufTy).Contents (Elt F)),
    unary main_v186 main_v187 (broadcastInDim S4096x2048 ![0, 1] bcast_S4096x1_S4096x2048_0_1 : (⟨S4096x1, .f32⟩ : BufTy).Contents (Elt F) → (⟨S4096x2048, .f32⟩ : BufTy).Contents (Elt F)),
    binary main_v187 main_v180 main_v188 (mulf : (⟨S4096x2048, .f32⟩ : BufTy).Contents (Elt F) → (⟨S4096x2048, .f32⟩ : BufTy).Contents (Elt F) → (⟨S4096x2048, .f32⟩ : BufTy).Contents (Elt F)),
    binary main_v168 main_v188 main_v189 (addf : (⟨S4096x2048, .f32⟩ : BufTy).Contents (Elt F) → (⟨S4096x2048, .f32⟩ : BufTy).Contents (Elt F) → (⟨S4096x2048, .f32⟩ : BufTy).Contents (Elt F)) ]

theorem opsE8_good : ∀ op ∈ (opsE8 : List (HloOp τ sig (Elt F))), Good op := fun op h =>
  ⟨List.forall_iff_forall_mem.mp (show (opsE8 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 9's operations. -/
abbrev opsE9 : List (HloOp τ sig (Elt F)) :=
  [ unary main_arg1 main_v190 ((extractStridedSlice S1x2816x2048 ![9, 0, 0] · slices_S16x2816x2048_S1x2816x2048_9_0_0) : (⟨S16x2816x2048, .f32⟩ : BufTy).Contents (Elt F) → (⟨S1x2816x2048, .f32⟩ : BufTy).Contents (Elt F)),
    reshape main_v190 main_v191 rfl shapeCasts_S1x2816x2048_S2816x2048,
    unary main_v191 main_v192 ((transpose S2048x2816 [1, 0] · transposes_S2816x2048_S2048x2816_1_0) : (⟨S2816x2048, .f32⟩ : BufTy).Contents (Elt F) → (⟨S2048x2816, .f32⟩ : BufTy).Contents (Elt F)),
    binary main_arg0 main_v192 main_v193 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v193 main_v194 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v194) (TRef.of (T := ⟨S4096x1408, .f32⟩) main_call9_v0) Host.negf,
    TRef.unary (TRef.of (T := ⟨S4096x1408, .f32⟩) main_call9_v0) (TRef.of (T := ⟨S4096x1408, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S4096x1408, .f32⟩) main_call9_v2) (broadcastInDim S4096x1408 ![] bcast_S_S4096x1408),
    TRef.binary (TRef.of (T := ⟨S4096x1408, .f32⟩) main_call9_v2) (TRef.of (T := ⟨S4096x1408, .f32⟩) main_call9_v1) (TRef.of (T := ⟨S4096x1408, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S4096x1408, .f32⟩) main_call9_v4) (broadcastInDim S4096x1408 ![] bcast_S_S4096x1408),
    TRef.binary (TRef.of (T := ⟨S4096x1408, .f32⟩) main_call9_v4) (TRef.of (T := ⟨S4096x1408, .f32⟩) main_call9_v3) (TRef.of (T := ⟨S4096x1408, .f32⟩) main_call9_v5) Host.divf,
    TRef.binary (TRef.of (T := ⟨S4096x1408, .f32⟩) main_v194) (TRef.of (T := ⟨S4096x1408, .f32⟩) main_call9_v5) (TRef.of (T := ⟨S4096x1408, .f32⟩) main_v195) mulf,
    unary main_v193 main_v196 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v195 main_v196 main_v197 (mulf : (⟨S4096x1408, .f32⟩ : BufTy).Contents (Elt F) → (⟨S4096x1408, .f32⟩ : BufTy).Contents (Elt F) → (⟨S4096x1408, .f32⟩ : BufTy).Contents (Elt F)),
    unary main_arg2 main_v198 ((extractStridedSlice S1x2048x1408 ![9, 0, 0] · slices_S16x2048x1408_S1x2048x1408_9_0_0) : (⟨S16x2048x1408, .f32⟩ : BufTy).Contents (Elt F) → (⟨S1x2048x1408, .f32⟩ : BufTy).Contents (Elt F)),
    reshape main_v198 main_v199 rfl shapeCasts_S1x2048x1408_S2048x1408,
    unary main_v199 main_v200 ((transpose S1408x2048 [1, 0] · transposes_S2048x1408_S1408x2048_1_0) : (⟨S2048x1408, .f32⟩ : BufTy).Contents (Elt F) → (⟨S1408x2048, .f32⟩ : BufTy).Contents (Elt F)),
    binary main_v197 main_v200 main_v201 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_17 (constantI S_ 32 9#32),
    unary main_c_17 main_v202 (broadcastInDim S4096x2 ![] bcast_S_S4096x2 : (⟨S_, .i32⟩ : BufTy).Contents (Elt F) → (⟨S4096x2, .i32⟩ : BufTy).Contents (Elt F)),
    binary main_arg4 main_v202 main_v203 (cmpi .eq : (⟨S4096x2, .i32⟩ : BufTy).Contents (Elt F) → (⟨S4096x2, .i32⟩ : BufTy).Contents (Elt F) → (⟨S4096x2, .i1⟩ : BufTy).Contents (Elt F)),
    unary main_v203 main_v204 (uitofp .f32 : (⟨S4096x2, .i1⟩ : BufTy).Contents (Elt F) → (⟨S4096x2, .f32⟩ : BufTy).Contents (Elt F)),
    binary main_arg3 main_v204 main_v205 (mulf : (⟨S4096x2, .f32⟩ : BufTy).Contents (Elt F) → (⟨S4096x2, .f32⟩ : BufTy).Contents (Elt F) → (⟨S4096x2, .f32⟩ : BufTy).Contents (Elt F)),
    nullary main_cst_18 (constant S_ .f32 0x00000000#32),
    binary main_v205 main_cst_18 main_v206 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v206 main_v207 (broadcastInDim S4096x1 ![0] bcast_S4096_S4096x1_0 : (⟨S4096, .f32⟩ : BufTy).Contents (Elt F) → (⟨S4096x1, .f32⟩ : BufTy).Contents (Elt F)),
    unary main_v207 main_v208 (broadcastInDim S4096x2048 ![0, 1] bcast_S4096x1_S4096x2048_0_1 : (⟨S4096x1, .f32⟩ : BufTy).Contents (Elt F) → (⟨S4096x2048, .f32⟩ : BufTy).Contents (Elt F)),
    binary main_v208 main_v201 main_v209 (mulf : (⟨S4096x2048, .f32⟩ : BufTy).Contents (Elt F) → (⟨S4096x2048, .f32⟩ : BufTy).Contents (Elt F) → (⟨S4096x2048, .f32⟩ : BufTy).Contents (Elt F)),
    binary main_v189 main_v209 main_v210 (addf : (⟨S4096x2048, .f32⟩ : BufTy).Contents (Elt F) → (⟨S4096x2048, .f32⟩ : BufTy).Contents (Elt F) → (⟨S4096x2048, .f32⟩ : BufTy).Contents (Elt F)) ]

theorem opsE9_good : ∀ op ∈ (opsE9 : List (HloOp τ sig (Elt F))), Good op := fun op h =>
  ⟨List.forall_iff_forall_mem.mp (show (opsE9 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 10's operations. -/
abbrev opsE10 : List (HloOp τ sig (Elt F)) :=
  [ unary main_arg1 main_v211 ((extractStridedSlice S1x2816x2048 ![10, 0, 0] · slices_S16x2816x2048_S1x2816x2048_10_0_0) : (⟨S16x2816x2048, .f32⟩ : BufTy).Contents (Elt F) → (⟨S1x2816x2048, .f32⟩ : BufTy).Contents (Elt F)),
    reshape main_v211 main_v212 rfl shapeCasts_S1x2816x2048_S2816x2048,
    unary main_v212 main_v213 ((transpose S2048x2816 [1, 0] · transposes_S2816x2048_S2048x2816_1_0) : (⟨S2816x2048, .f32⟩ : BufTy).Contents (Elt F) → (⟨S2048x2816, .f32⟩ : BufTy).Contents (Elt F)),
    binary main_arg0 main_v213 main_v214 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v214 main_v215 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v215) (TRef.of (T := ⟨S4096x1408, .f32⟩) main_call10_v0) Host.negf,
    TRef.unary (TRef.of (T := ⟨S4096x1408, .f32⟩) main_call10_v0) (TRef.of (T := ⟨S4096x1408, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S4096x1408, .f32⟩) main_call10_v2) (broadcastInDim S4096x1408 ![] bcast_S_S4096x1408),
    TRef.binary (TRef.of (T := ⟨S4096x1408, .f32⟩) main_call10_v2) (TRef.of (T := ⟨S4096x1408, .f32⟩) main_call10_v1) (TRef.of (T := ⟨S4096x1408, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S4096x1408, .f32⟩) main_call10_v4) (broadcastInDim S4096x1408 ![] bcast_S_S4096x1408),
    TRef.binary (TRef.of (T := ⟨S4096x1408, .f32⟩) main_call10_v4) (TRef.of (T := ⟨S4096x1408, .f32⟩) main_call10_v3) (TRef.of (T := ⟨S4096x1408, .f32⟩) main_call10_v5) Host.divf,
    TRef.binary (TRef.of (T := ⟨S4096x1408, .f32⟩) main_v215) (TRef.of (T := ⟨S4096x1408, .f32⟩) main_call10_v5) (TRef.of (T := ⟨S4096x1408, .f32⟩) main_v216) mulf,
    unary main_v214 main_v217 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v216 main_v217 main_v218 (mulf : (⟨S4096x1408, .f32⟩ : BufTy).Contents (Elt F) → (⟨S4096x1408, .f32⟩ : BufTy).Contents (Elt F) → (⟨S4096x1408, .f32⟩ : BufTy).Contents (Elt F)),
    unary main_arg2 main_v219 ((extractStridedSlice S1x2048x1408 ![10, 0, 0] · slices_S16x2048x1408_S1x2048x1408_10_0_0) : (⟨S16x2048x1408, .f32⟩ : BufTy).Contents (Elt F) → (⟨S1x2048x1408, .f32⟩ : BufTy).Contents (Elt F)),
    reshape main_v219 main_v220 rfl shapeCasts_S1x2048x1408_S2048x1408,
    unary main_v220 main_v221 ((transpose S1408x2048 [1, 0] · transposes_S2048x1408_S1408x2048_1_0) : (⟨S2048x1408, .f32⟩ : BufTy).Contents (Elt F) → (⟨S1408x2048, .f32⟩ : BufTy).Contents (Elt F)),
    binary main_v218 main_v221 main_v222 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_19 (constantI S_ 32 10#32),
    unary main_c_19 main_v223 (broadcastInDim S4096x2 ![] bcast_S_S4096x2 : (⟨S_, .i32⟩ : BufTy).Contents (Elt F) → (⟨S4096x2, .i32⟩ : BufTy).Contents (Elt F)),
    binary main_arg4 main_v223 main_v224 (cmpi .eq : (⟨S4096x2, .i32⟩ : BufTy).Contents (Elt F) → (⟨S4096x2, .i32⟩ : BufTy).Contents (Elt F) → (⟨S4096x2, .i1⟩ : BufTy).Contents (Elt F)),
    unary main_v224 main_v225 (uitofp .f32 : (⟨S4096x2, .i1⟩ : BufTy).Contents (Elt F) → (⟨S4096x2, .f32⟩ : BufTy).Contents (Elt F)),
    binary main_arg3 main_v225 main_v226 (mulf : (⟨S4096x2, .f32⟩ : BufTy).Contents (Elt F) → (⟨S4096x2, .f32⟩ : BufTy).Contents (Elt F) → (⟨S4096x2, .f32⟩ : BufTy).Contents (Elt F)),
    nullary main_cst_20 (constant S_ .f32 0x00000000#32),
    binary main_v226 main_cst_20 main_v227 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v227 main_v228 (broadcastInDim S4096x1 ![0] bcast_S4096_S4096x1_0 : (⟨S4096, .f32⟩ : BufTy).Contents (Elt F) → (⟨S4096x1, .f32⟩ : BufTy).Contents (Elt F)),
    unary main_v228 main_v229 (broadcastInDim S4096x2048 ![0, 1] bcast_S4096x1_S4096x2048_0_1 : (⟨S4096x1, .f32⟩ : BufTy).Contents (Elt F) → (⟨S4096x2048, .f32⟩ : BufTy).Contents (Elt F)),
    binary main_v229 main_v222 main_v230 (mulf : (⟨S4096x2048, .f32⟩ : BufTy).Contents (Elt F) → (⟨S4096x2048, .f32⟩ : BufTy).Contents (Elt F) → (⟨S4096x2048, .f32⟩ : BufTy).Contents (Elt F)),
    binary main_v210 main_v230 main_v231 (addf : (⟨S4096x2048, .f32⟩ : BufTy).Contents (Elt F) → (⟨S4096x2048, .f32⟩ : BufTy).Contents (Elt F) → (⟨S4096x2048, .f32⟩ : BufTy).Contents (Elt F)) ]

theorem opsE10_good : ∀ op ∈ (opsE10 : List (HloOp τ sig (Elt F))), Good op := fun op h =>
  ⟨List.forall_iff_forall_mem.mp (show (opsE10 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 11's operations. -/
abbrev opsE11 : List (HloOp τ sig (Elt F)) :=
  [ unary main_arg1 main_v232 ((extractStridedSlice S1x2816x2048 ![11, 0, 0] · slices_S16x2816x2048_S1x2816x2048_11_0_0) : (⟨S16x2816x2048, .f32⟩ : BufTy).Contents (Elt F) → (⟨S1x2816x2048, .f32⟩ : BufTy).Contents (Elt F)),
    reshape main_v232 main_v233 rfl shapeCasts_S1x2816x2048_S2816x2048,
    unary main_v233 main_v234 ((transpose S2048x2816 [1, 0] · transposes_S2816x2048_S2048x2816_1_0) : (⟨S2816x2048, .f32⟩ : BufTy).Contents (Elt F) → (⟨S2048x2816, .f32⟩ : BufTy).Contents (Elt F)),
    binary main_arg0 main_v234 main_v235 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v235 main_v236 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v236) (TRef.of (T := ⟨S4096x1408, .f32⟩) main_call11_v0) Host.negf,
    TRef.unary (TRef.of (T := ⟨S4096x1408, .f32⟩) main_call11_v0) (TRef.of (T := ⟨S4096x1408, .f32⟩) main_call11_v1) Host.exp,
    TRef.nullary (TRef.of (T := ⟨S_, .f32⟩) main_call11_cst) (constant S_ .f32 0x3F800000#32),
    TRef.unary (TRef.of (T := ⟨S_, .f32⟩) main_call11_cst) (TRef.of (T := ⟨S4096x1408, .f32⟩) main_call11_v2) (broadcastInDim S4096x1408 ![] bcast_S_S4096x1408),
    TRef.binary (TRef.of (T := ⟨S4096x1408, .f32⟩) main_call11_v2) (TRef.of (T := ⟨S4096x1408, .f32⟩) main_call11_v1) (TRef.of (T := ⟨S4096x1408, .f32⟩) main_call11_v3) addf,
    TRef.nullary (TRef.of (T := ⟨S_, .f32⟩) main_call11_cst_0) (constant S_ .f32 0x3F800000#32),
    TRef.unary (TRef.of (T := ⟨S_, .f32⟩) main_call11_cst_0) (TRef.of (T := ⟨S4096x1408, .f32⟩) main_call11_v4) (broadcastInDim S4096x1408 ![] bcast_S_S4096x1408),
    TRef.binary (TRef.of (T := ⟨S4096x1408, .f32⟩) main_call11_v4) (TRef.of (T := ⟨S4096x1408, .f32⟩) main_call11_v3) (TRef.of (T := ⟨S4096x1408, .f32⟩) main_call11_v5) Host.divf,
    TRef.binary (TRef.of (T := ⟨S4096x1408, .f32⟩) main_v236) (TRef.of (T := ⟨S4096x1408, .f32⟩) main_call11_v5) (TRef.of (T := ⟨S4096x1408, .f32⟩) main_v237) mulf,
    unary main_v235 main_v238 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v237 main_v238 main_v239 (mulf : (⟨S4096x1408, .f32⟩ : BufTy).Contents (Elt F) → (⟨S4096x1408, .f32⟩ : BufTy).Contents (Elt F) → (⟨S4096x1408, .f32⟩ : BufTy).Contents (Elt F)),
    unary main_arg2 main_v240 ((extractStridedSlice S1x2048x1408 ![11, 0, 0] · slices_S16x2048x1408_S1x2048x1408_11_0_0) : (⟨S16x2048x1408, .f32⟩ : BufTy).Contents (Elt F) → (⟨S1x2048x1408, .f32⟩ : BufTy).Contents (Elt F)),
    reshape main_v240 main_v241 rfl shapeCasts_S1x2048x1408_S2048x1408,
    unary main_v241 main_v242 ((transpose S1408x2048 [1, 0] · transposes_S2048x1408_S1408x2048_1_0) : (⟨S2048x1408, .f32⟩ : BufTy).Contents (Elt F) → (⟨S1408x2048, .f32⟩ : BufTy).Contents (Elt F)),
    binary main_v239 main_v242 main_v243 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_21 (constantI S_ 32 11#32),
    unary main_c_21 main_v244 (broadcastInDim S4096x2 ![] bcast_S_S4096x2 : (⟨S_, .i32⟩ : BufTy).Contents (Elt F) → (⟨S4096x2, .i32⟩ : BufTy).Contents (Elt F)),
    binary main_arg4 main_v244 main_v245 (cmpi .eq : (⟨S4096x2, .i32⟩ : BufTy).Contents (Elt F) → (⟨S4096x2, .i32⟩ : BufTy).Contents (Elt F) → (⟨S4096x2, .i1⟩ : BufTy).Contents (Elt F)),
    unary main_v245 main_v246 (uitofp .f32 : (⟨S4096x2, .i1⟩ : BufTy).Contents (Elt F) → (⟨S4096x2, .f32⟩ : BufTy).Contents (Elt F)),
    binary main_arg3 main_v246 main_v247 (mulf : (⟨S4096x2, .f32⟩ : BufTy).Contents (Elt F) → (⟨S4096x2, .f32⟩ : BufTy).Contents (Elt F) → (⟨S4096x2, .f32⟩ : BufTy).Contents (Elt F)),
    nullary main_cst_22 (constant S_ .f32 0x00000000#32),
    binary main_v247 main_cst_22 main_v248 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v248 main_v249 (broadcastInDim S4096x1 ![0] bcast_S4096_S4096x1_0 : (⟨S4096, .f32⟩ : BufTy).Contents (Elt F) → (⟨S4096x1, .f32⟩ : BufTy).Contents (Elt F)),
    unary main_v249 main_v250 (broadcastInDim S4096x2048 ![0, 1] bcast_S4096x1_S4096x2048_0_1 : (⟨S4096x1, .f32⟩ : BufTy).Contents (Elt F) → (⟨S4096x2048, .f32⟩ : BufTy).Contents (Elt F)),
    binary main_v250 main_v243 main_v251 (mulf : (⟨S4096x2048, .f32⟩ : BufTy).Contents (Elt F) → (⟨S4096x2048, .f32⟩ : BufTy).Contents (Elt F) → (⟨S4096x2048, .f32⟩ : BufTy).Contents (Elt F)),
    binary main_v231 main_v251 main_v252 (addf : (⟨S4096x2048, .f32⟩ : BufTy).Contents (Elt F) → (⟨S4096x2048, .f32⟩ : BufTy).Contents (Elt F) → (⟨S4096x2048, .f32⟩ : BufTy).Contents (Elt F)) ]

theorem opsE11_good : ∀ op ∈ (opsE11 : List (HloOp τ sig (Elt F))), Good op := fun op h =>
  ⟨List.forall_iff_forall_mem.mp (show (opsE11 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 12's operations. -/
abbrev opsE12 : List (HloOp τ sig (Elt F)) :=
  [ unary main_arg1 main_v253 ((extractStridedSlice S1x2816x2048 ![12, 0, 0] · slices_S16x2816x2048_S1x2816x2048_12_0_0) : (⟨S16x2816x2048, .f32⟩ : BufTy).Contents (Elt F) → (⟨S1x2816x2048, .f32⟩ : BufTy).Contents (Elt F)),
    reshape main_v253 main_v254 rfl shapeCasts_S1x2816x2048_S2816x2048,
    unary main_v254 main_v255 ((transpose S2048x2816 [1, 0] · transposes_S2816x2048_S2048x2816_1_0) : (⟨S2816x2048, .f32⟩ : BufTy).Contents (Elt F) → (⟨S2048x2816, .f32⟩ : BufTy).Contents (Elt F)),
    binary main_arg0 main_v255 main_v256 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v256 main_v257 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v257) (TRef.of (T := ⟨S4096x1408, .f32⟩) main_call12_v0) Host.negf,
    TRef.unary (TRef.of (T := ⟨S4096x1408, .f32⟩) main_call12_v0) (TRef.of (T := ⟨S4096x1408, .f32⟩) main_call12_v1) Host.exp,
    TRef.nullary (TRef.of (T := ⟨S_, .f32⟩) main_call12_cst) (constant S_ .f32 0x3F800000#32),
    TRef.unary (TRef.of (T := ⟨S_, .f32⟩) main_call12_cst) (TRef.of (T := ⟨S4096x1408, .f32⟩) main_call12_v2) (broadcastInDim S4096x1408 ![] bcast_S_S4096x1408),
    TRef.binary (TRef.of (T := ⟨S4096x1408, .f32⟩) main_call12_v2) (TRef.of (T := ⟨S4096x1408, .f32⟩) main_call12_v1) (TRef.of (T := ⟨S4096x1408, .f32⟩) main_call12_v3) addf,
    TRef.nullary (TRef.of (T := ⟨S_, .f32⟩) main_call12_cst_0) (constant S_ .f32 0x3F800000#32),
    TRef.unary (TRef.of (T := ⟨S_, .f32⟩) main_call12_cst_0) (TRef.of (T := ⟨S4096x1408, .f32⟩) main_call12_v4) (broadcastInDim S4096x1408 ![] bcast_S_S4096x1408),
    TRef.binary (TRef.of (T := ⟨S4096x1408, .f32⟩) main_call12_v4) (TRef.of (T := ⟨S4096x1408, .f32⟩) main_call12_v3) (TRef.of (T := ⟨S4096x1408, .f32⟩) main_call12_v5) Host.divf,
    TRef.binary (TRef.of (T := ⟨S4096x1408, .f32⟩) main_v257) (TRef.of (T := ⟨S4096x1408, .f32⟩) main_call12_v5) (TRef.of (T := ⟨S4096x1408, .f32⟩) main_v258) mulf,
    unary main_v256 main_v259 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v258 main_v259 main_v260 (mulf : (⟨S4096x1408, .f32⟩ : BufTy).Contents (Elt F) → (⟨S4096x1408, .f32⟩ : BufTy).Contents (Elt F) → (⟨S4096x1408, .f32⟩ : BufTy).Contents (Elt F)),
    unary main_arg2 main_v261 ((extractStridedSlice S1x2048x1408 ![12, 0, 0] · slices_S16x2048x1408_S1x2048x1408_12_0_0) : (⟨S16x2048x1408, .f32⟩ : BufTy).Contents (Elt F) → (⟨S1x2048x1408, .f32⟩ : BufTy).Contents (Elt F)),
    reshape main_v261 main_v262 rfl shapeCasts_S1x2048x1408_S2048x1408,
    unary main_v262 main_v263 ((transpose S1408x2048 [1, 0] · transposes_S2048x1408_S1408x2048_1_0) : (⟨S2048x1408, .f32⟩ : BufTy).Contents (Elt F) → (⟨S1408x2048, .f32⟩ : BufTy).Contents (Elt F)),
    binary main_v260 main_v263 main_v264 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_23 (constantI S_ 32 12#32),
    unary main_c_23 main_v265 (broadcastInDim S4096x2 ![] bcast_S_S4096x2 : (⟨S_, .i32⟩ : BufTy).Contents (Elt F) → (⟨S4096x2, .i32⟩ : BufTy).Contents (Elt F)),
    binary main_arg4 main_v265 main_v266 (cmpi .eq : (⟨S4096x2, .i32⟩ : BufTy).Contents (Elt F) → (⟨S4096x2, .i32⟩ : BufTy).Contents (Elt F) → (⟨S4096x2, .i1⟩ : BufTy).Contents (Elt F)),
    unary main_v266 main_v267 (uitofp .f32 : (⟨S4096x2, .i1⟩ : BufTy).Contents (Elt F) → (⟨S4096x2, .f32⟩ : BufTy).Contents (Elt F)),
    binary main_arg3 main_v267 main_v268 (mulf : (⟨S4096x2, .f32⟩ : BufTy).Contents (Elt F) → (⟨S4096x2, .f32⟩ : BufTy).Contents (Elt F) → (⟨S4096x2, .f32⟩ : BufTy).Contents (Elt F)),
    nullary main_cst_24 (constant S_ .f32 0x00000000#32),
    binary main_v268 main_cst_24 main_v269 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v269 main_v270 (broadcastInDim S4096x1 ![0] bcast_S4096_S4096x1_0 : (⟨S4096, .f32⟩ : BufTy).Contents (Elt F) → (⟨S4096x1, .f32⟩ : BufTy).Contents (Elt F)),
    unary main_v270 main_v271 (broadcastInDim S4096x2048 ![0, 1] bcast_S4096x1_S4096x2048_0_1 : (⟨S4096x1, .f32⟩ : BufTy).Contents (Elt F) → (⟨S4096x2048, .f32⟩ : BufTy).Contents (Elt F)),
    binary main_v271 main_v264 main_v272 (mulf : (⟨S4096x2048, .f32⟩ : BufTy).Contents (Elt F) → (⟨S4096x2048, .f32⟩ : BufTy).Contents (Elt F) → (⟨S4096x2048, .f32⟩ : BufTy).Contents (Elt F)),
    binary main_v252 main_v272 main_v273 (addf : (⟨S4096x2048, .f32⟩ : BufTy).Contents (Elt F) → (⟨S4096x2048, .f32⟩ : BufTy).Contents (Elt F) → (⟨S4096x2048, .f32⟩ : BufTy).Contents (Elt F)) ]

theorem opsE12_good : ∀ op ∈ (opsE12 : List (HloOp τ sig (Elt F))), Good op := fun op h =>
  ⟨List.forall_iff_forall_mem.mp (show (opsE12 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 13's operations. -/
abbrev opsE13 : List (HloOp τ sig (Elt F)) :=
  [ unary main_arg1 main_v274 ((extractStridedSlice S1x2816x2048 ![13, 0, 0] · slices_S16x2816x2048_S1x2816x2048_13_0_0) : (⟨S16x2816x2048, .f32⟩ : BufTy).Contents (Elt F) → (⟨S1x2816x2048, .f32⟩ : BufTy).Contents (Elt F)),
    reshape main_v274 main_v275 rfl shapeCasts_S1x2816x2048_S2816x2048,
    unary main_v275 main_v276 ((transpose S2048x2816 [1, 0] · transposes_S2816x2048_S2048x2816_1_0) : (⟨S2816x2048, .f32⟩ : BufTy).Contents (Elt F) → (⟨S2048x2816, .f32⟩ : BufTy).Contents (Elt F)),
    binary main_arg0 main_v276 main_v277 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v277 main_v278 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v278) (TRef.of (T := ⟨S4096x1408, .f32⟩) main_call13_v0) Host.negf,
    TRef.unary (TRef.of (T := ⟨S4096x1408, .f32⟩) main_call13_v0) (TRef.of (T := ⟨S4096x1408, .f32⟩) main_call13_v1) Host.exp,
    TRef.nullary (TRef.of (T := ⟨S_, .f32⟩) main_call13_cst) (constant S_ .f32 0x3F800000#32),
    TRef.unary (TRef.of (T := ⟨S_, .f32⟩) main_call13_cst) (TRef.of (T := ⟨S4096x1408, .f32⟩) main_call13_v2) (broadcastInDim S4096x1408 ![] bcast_S_S4096x1408),
    TRef.binary (TRef.of (T := ⟨S4096x1408, .f32⟩) main_call13_v2) (TRef.of (T := ⟨S4096x1408, .f32⟩) main_call13_v1) (TRef.of (T := ⟨S4096x1408, .f32⟩) main_call13_v3) addf,
    TRef.nullary (TRef.of (T := ⟨S_, .f32⟩) main_call13_cst_0) (constant S_ .f32 0x3F800000#32),
    TRef.unary (TRef.of (T := ⟨S_, .f32⟩) main_call13_cst_0) (TRef.of (T := ⟨S4096x1408, .f32⟩) main_call13_v4) (broadcastInDim S4096x1408 ![] bcast_S_S4096x1408),
    TRef.binary (TRef.of (T := ⟨S4096x1408, .f32⟩) main_call13_v4) (TRef.of (T := ⟨S4096x1408, .f32⟩) main_call13_v3) (TRef.of (T := ⟨S4096x1408, .f32⟩) main_call13_v5) Host.divf,
    TRef.binary (TRef.of (T := ⟨S4096x1408, .f32⟩) main_v278) (TRef.of (T := ⟨S4096x1408, .f32⟩) main_call13_v5) (TRef.of (T := ⟨S4096x1408, .f32⟩) main_v279) mulf,
    unary main_v277 main_v280 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v279 main_v280 main_v281 (mulf : (⟨S4096x1408, .f32⟩ : BufTy).Contents (Elt F) → (⟨S4096x1408, .f32⟩ : BufTy).Contents (Elt F) → (⟨S4096x1408, .f32⟩ : BufTy).Contents (Elt F)),
    unary main_arg2 main_v282 ((extractStridedSlice S1x2048x1408 ![13, 0, 0] · slices_S16x2048x1408_S1x2048x1408_13_0_0) : (⟨S16x2048x1408, .f32⟩ : BufTy).Contents (Elt F) → (⟨S1x2048x1408, .f32⟩ : BufTy).Contents (Elt F)),
    reshape main_v282 main_v283 rfl shapeCasts_S1x2048x1408_S2048x1408,
    unary main_v283 main_v284 ((transpose S1408x2048 [1, 0] · transposes_S2048x1408_S1408x2048_1_0) : (⟨S2048x1408, .f32⟩ : BufTy).Contents (Elt F) → (⟨S1408x2048, .f32⟩ : BufTy).Contents (Elt F)),
    binary main_v281 main_v284 main_v285 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_25 (constantI S_ 32 13#32),
    unary main_c_25 main_v286 (broadcastInDim S4096x2 ![] bcast_S_S4096x2 : (⟨S_, .i32⟩ : BufTy).Contents (Elt F) → (⟨S4096x2, .i32⟩ : BufTy).Contents (Elt F)),
    binary main_arg4 main_v286 main_v287 (cmpi .eq : (⟨S4096x2, .i32⟩ : BufTy).Contents (Elt F) → (⟨S4096x2, .i32⟩ : BufTy).Contents (Elt F) → (⟨S4096x2, .i1⟩ : BufTy).Contents (Elt F)),
    unary main_v287 main_v288 (uitofp .f32 : (⟨S4096x2, .i1⟩ : BufTy).Contents (Elt F) → (⟨S4096x2, .f32⟩ : BufTy).Contents (Elt F)),
    binary main_arg3 main_v288 main_v289 (mulf : (⟨S4096x2, .f32⟩ : BufTy).Contents (Elt F) → (⟨S4096x2, .f32⟩ : BufTy).Contents (Elt F) → (⟨S4096x2, .f32⟩ : BufTy).Contents (Elt F)),
    nullary main_cst_26 (constant S_ .f32 0x00000000#32),
    binary main_v289 main_cst_26 main_v290 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v290 main_v291 (broadcastInDim S4096x1 ![0] bcast_S4096_S4096x1_0 : (⟨S4096, .f32⟩ : BufTy).Contents (Elt F) → (⟨S4096x1, .f32⟩ : BufTy).Contents (Elt F)),
    unary main_v291 main_v292 (broadcastInDim S4096x2048 ![0, 1] bcast_S4096x1_S4096x2048_0_1 : (⟨S4096x1, .f32⟩ : BufTy).Contents (Elt F) → (⟨S4096x2048, .f32⟩ : BufTy).Contents (Elt F)),
    binary main_v292 main_v285 main_v293 (mulf : (⟨S4096x2048, .f32⟩ : BufTy).Contents (Elt F) → (⟨S4096x2048, .f32⟩ : BufTy).Contents (Elt F) → (⟨S4096x2048, .f32⟩ : BufTy).Contents (Elt F)),
    binary main_v273 main_v293 main_v294 (addf : (⟨S4096x2048, .f32⟩ : BufTy).Contents (Elt F) → (⟨S4096x2048, .f32⟩ : BufTy).Contents (Elt F) → (⟨S4096x2048, .f32⟩ : BufTy).Contents (Elt F)) ]

theorem opsE13_good : ∀ op ∈ (opsE13 : List (HloOp τ sig (Elt F))), Good op := fun op h =>
  ⟨List.forall_iff_forall_mem.mp (show (opsE13 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 14's operations. -/
abbrev opsE14 : List (HloOp τ sig (Elt F)) :=
  [ unary main_arg1 main_v295 ((extractStridedSlice S1x2816x2048 ![14, 0, 0] · slices_S16x2816x2048_S1x2816x2048_14_0_0) : (⟨S16x2816x2048, .f32⟩ : BufTy).Contents (Elt F) → (⟨S1x2816x2048, .f32⟩ : BufTy).Contents (Elt F)),
    reshape main_v295 main_v296 rfl shapeCasts_S1x2816x2048_S2816x2048,
    unary main_v296 main_v297 ((transpose S2048x2816 [1, 0] · transposes_S2816x2048_S2048x2816_1_0) : (⟨S2816x2048, .f32⟩ : BufTy).Contents (Elt F) → (⟨S2048x2816, .f32⟩ : BufTy).Contents (Elt F)),
    binary main_arg0 main_v297 main_v298 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v298 main_v299 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v299) (TRef.of (T := ⟨S4096x1408, .f32⟩) main_call14_v0) Host.negf,
    TRef.unary (TRef.of (T := ⟨S4096x1408, .f32⟩) main_call14_v0) (TRef.of (T := ⟨S4096x1408, .f32⟩) main_call14_v1) Host.exp,
    TRef.nullary (TRef.of (T := ⟨S_, .f32⟩) main_call14_cst) (constant S_ .f32 0x3F800000#32),
    TRef.unary (TRef.of (T := ⟨S_, .f32⟩) main_call14_cst) (TRef.of (T := ⟨S4096x1408, .f32⟩) main_call14_v2) (broadcastInDim S4096x1408 ![] bcast_S_S4096x1408),
    TRef.binary (TRef.of (T := ⟨S4096x1408, .f32⟩) main_call14_v2) (TRef.of (T := ⟨S4096x1408, .f32⟩) main_call14_v1) (TRef.of (T := ⟨S4096x1408, .f32⟩) main_call14_v3) addf,
    TRef.nullary (TRef.of (T := ⟨S_, .f32⟩) main_call14_cst_0) (constant S_ .f32 0x3F800000#32),
    TRef.unary (TRef.of (T := ⟨S_, .f32⟩) main_call14_cst_0) (TRef.of (T := ⟨S4096x1408, .f32⟩) main_call14_v4) (broadcastInDim S4096x1408 ![] bcast_S_S4096x1408),
    TRef.binary (TRef.of (T := ⟨S4096x1408, .f32⟩) main_call14_v4) (TRef.of (T := ⟨S4096x1408, .f32⟩) main_call14_v3) (TRef.of (T := ⟨S4096x1408, .f32⟩) main_call14_v5) Host.divf,
    TRef.binary (TRef.of (T := ⟨S4096x1408, .f32⟩) main_v299) (TRef.of (T := ⟨S4096x1408, .f32⟩) main_call14_v5) (TRef.of (T := ⟨S4096x1408, .f32⟩) main_v300) mulf,
    unary main_v298 main_v301 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v300 main_v301 main_v302 (mulf : (⟨S4096x1408, .f32⟩ : BufTy).Contents (Elt F) → (⟨S4096x1408, .f32⟩ : BufTy).Contents (Elt F) → (⟨S4096x1408, .f32⟩ : BufTy).Contents (Elt F)),
    unary main_arg2 main_v303 ((extractStridedSlice S1x2048x1408 ![14, 0, 0] · slices_S16x2048x1408_S1x2048x1408_14_0_0) : (⟨S16x2048x1408, .f32⟩ : BufTy).Contents (Elt F) → (⟨S1x2048x1408, .f32⟩ : BufTy).Contents (Elt F)),
    reshape main_v303 main_v304 rfl shapeCasts_S1x2048x1408_S2048x1408,
    unary main_v304 main_v305 ((transpose S1408x2048 [1, 0] · transposes_S2048x1408_S1408x2048_1_0) : (⟨S2048x1408, .f32⟩ : BufTy).Contents (Elt F) → (⟨S1408x2048, .f32⟩ : BufTy).Contents (Elt F)),
    binary main_v302 main_v305 main_v306 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_27 (constantI S_ 32 14#32),
    unary main_c_27 main_v307 (broadcastInDim S4096x2 ![] bcast_S_S4096x2 : (⟨S_, .i32⟩ : BufTy).Contents (Elt F) → (⟨S4096x2, .i32⟩ : BufTy).Contents (Elt F)),
    binary main_arg4 main_v307 main_v308 (cmpi .eq : (⟨S4096x2, .i32⟩ : BufTy).Contents (Elt F) → (⟨S4096x2, .i32⟩ : BufTy).Contents (Elt F) → (⟨S4096x2, .i1⟩ : BufTy).Contents (Elt F)),
    unary main_v308 main_v309 (uitofp .f32 : (⟨S4096x2, .i1⟩ : BufTy).Contents (Elt F) → (⟨S4096x2, .f32⟩ : BufTy).Contents (Elt F)),
    binary main_arg3 main_v309 main_v310 (mulf : (⟨S4096x2, .f32⟩ : BufTy).Contents (Elt F) → (⟨S4096x2, .f32⟩ : BufTy).Contents (Elt F) → (⟨S4096x2, .f32⟩ : BufTy).Contents (Elt F)),
    nullary main_cst_28 (constant S_ .f32 0x00000000#32),
    binary main_v310 main_cst_28 main_v311 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v311 main_v312 (broadcastInDim S4096x1 ![0] bcast_S4096_S4096x1_0 : (⟨S4096, .f32⟩ : BufTy).Contents (Elt F) → (⟨S4096x1, .f32⟩ : BufTy).Contents (Elt F)),
    unary main_v312 main_v313 (broadcastInDim S4096x2048 ![0, 1] bcast_S4096x1_S4096x2048_0_1 : (⟨S4096x1, .f32⟩ : BufTy).Contents (Elt F) → (⟨S4096x2048, .f32⟩ : BufTy).Contents (Elt F)),
    binary main_v313 main_v306 main_v314 (mulf : (⟨S4096x2048, .f32⟩ : BufTy).Contents (Elt F) → (⟨S4096x2048, .f32⟩ : BufTy).Contents (Elt F) → (⟨S4096x2048, .f32⟩ : BufTy).Contents (Elt F)),
    binary main_v294 main_v314 main_v315 (addf : (⟨S4096x2048, .f32⟩ : BufTy).Contents (Elt F) → (⟨S4096x2048, .f32⟩ : BufTy).Contents (Elt F) → (⟨S4096x2048, .f32⟩ : BufTy).Contents (Elt F)) ]

theorem opsE14_good : ∀ op ∈ (opsE14 : List (HloOp τ sig (Elt F))), Good op := fun op h =>
  ⟨List.forall_iff_forall_mem.mp (show (opsE14 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

/-- Expert 15's operations. -/
abbrev opsE15 : List (HloOp τ sig (Elt F)) :=
  [ unary main_arg1 main_v316 ((extractStridedSlice S1x2816x2048 ![15, 0, 0] · slices_S16x2816x2048_S1x2816x2048_15_0_0) : (⟨S16x2816x2048, .f32⟩ : BufTy).Contents (Elt F) → (⟨S1x2816x2048, .f32⟩ : BufTy).Contents (Elt F)),
    reshape main_v316 main_v317 rfl shapeCasts_S1x2816x2048_S2816x2048,
    unary main_v317 main_v318 ((transpose S2048x2816 [1, 0] · transposes_S2816x2048_S2048x2816_1_0) : (⟨S2816x2048, .f32⟩ : BufTy).Contents (Elt F) → (⟨S2048x2816, .f32⟩ : BufTy).Contents (Elt F)),
    binary main_arg0 main_v318 main_v319 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v319 main_v320 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v320) (TRef.of (T := ⟨S4096x1408, .f32⟩) main_call15_v0) Host.negf,
    TRef.unary (TRef.of (T := ⟨S4096x1408, .f32⟩) main_call15_v0) (TRef.of (T := ⟨S4096x1408, .f32⟩) main_call15_v1) Host.exp,
    TRef.nullary (TRef.of (T := ⟨S_, .f32⟩) main_call15_cst) (constant S_ .f32 0x3F800000#32),
    TRef.unary (TRef.of (T := ⟨S_, .f32⟩) main_call15_cst) (TRef.of (T := ⟨S4096x1408, .f32⟩) main_call15_v2) (broadcastInDim S4096x1408 ![] bcast_S_S4096x1408),
    TRef.binary (TRef.of (T := ⟨S4096x1408, .f32⟩) main_call15_v2) (TRef.of (T := ⟨S4096x1408, .f32⟩) main_call15_v1) (TRef.of (T := ⟨S4096x1408, .f32⟩) main_call15_v3) addf,
    TRef.nullary (TRef.of (T := ⟨S_, .f32⟩) main_call15_cst_0) (constant S_ .f32 0x3F800000#32),
    TRef.unary (TRef.of (T := ⟨S_, .f32⟩) main_call15_cst_0) (TRef.of (T := ⟨S4096x1408, .f32⟩) main_call15_v4) (broadcastInDim S4096x1408 ![] bcast_S_S4096x1408),
    TRef.binary (TRef.of (T := ⟨S4096x1408, .f32⟩) main_call15_v4) (TRef.of (T := ⟨S4096x1408, .f32⟩) main_call15_v3) (TRef.of (T := ⟨S4096x1408, .f32⟩) main_call15_v5) Host.divf,
    TRef.binary (TRef.of (T := ⟨S4096x1408, .f32⟩) main_v320) (TRef.of (T := ⟨S4096x1408, .f32⟩) main_call15_v5) (TRef.of (T := ⟨S4096x1408, .f32⟩) main_v321) mulf,
    unary main_v319 main_v322 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v321 main_v322 main_v323 (mulf : (⟨S4096x1408, .f32⟩ : BufTy).Contents (Elt F) → (⟨S4096x1408, .f32⟩ : BufTy).Contents (Elt F) → (⟨S4096x1408, .f32⟩ : BufTy).Contents (Elt F)),
    unary main_arg2 main_v324 ((extractStridedSlice S1x2048x1408 ![15, 0, 0] · slices_S16x2048x1408_S1x2048x1408_15_0_0) : (⟨S16x2048x1408, .f32⟩ : BufTy).Contents (Elt F) → (⟨S1x2048x1408, .f32⟩ : BufTy).Contents (Elt F)),
    reshape main_v324 main_v325 rfl shapeCasts_S1x2048x1408_S2048x1408,
    unary main_v325 main_v326 ((transpose S1408x2048 [1, 0] · transposes_S2048x1408_S1408x2048_1_0) : (⟨S2048x1408, .f32⟩ : BufTy).Contents (Elt F) → (⟨S1408x2048, .f32⟩ : BufTy).Contents (Elt F)),
    binary main_v323 main_v326 main_v327 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_29 (constantI S_ 32 15#32),
    unary main_c_29 main_v328 (broadcastInDim S4096x2 ![] bcast_S_S4096x2 : (⟨S_, .i32⟩ : BufTy).Contents (Elt F) → (⟨S4096x2, .i32⟩ : BufTy).Contents (Elt F)),
    binary main_arg4 main_v328 main_v329 (cmpi .eq : (⟨S4096x2, .i32⟩ : BufTy).Contents (Elt F) → (⟨S4096x2, .i32⟩ : BufTy).Contents (Elt F) → (⟨S4096x2, .i1⟩ : BufTy).Contents (Elt F)),
    unary main_v329 main_v330 (uitofp .f32 : (⟨S4096x2, .i1⟩ : BufTy).Contents (Elt F) → (⟨S4096x2, .f32⟩ : BufTy).Contents (Elt F)),
    binary main_arg3 main_v330 main_v331 (mulf : (⟨S4096x2, .f32⟩ : BufTy).Contents (Elt F) → (⟨S4096x2, .f32⟩ : BufTy).Contents (Elt F) → (⟨S4096x2, .f32⟩ : BufTy).Contents (Elt F)),
    nullary main_cst_30 (constant S_ .f32 0x00000000#32),
    binary main_v331 main_cst_30 main_v332 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v332 main_v333 (broadcastInDim S4096x1 ![0] bcast_S4096_S4096x1_0 : (⟨S4096, .f32⟩ : BufTy).Contents (Elt F) → (⟨S4096x1, .f32⟩ : BufTy).Contents (Elt F)),
    unary main_v333 main_v334 (broadcastInDim S4096x2048 ![0, 1] bcast_S4096x1_S4096x2048_0_1 : (⟨S4096x1, .f32⟩ : BufTy).Contents (Elt F) → (⟨S4096x2048, .f32⟩ : BufTy).Contents (Elt F)),
    binary main_v334 main_v327 main_v335 (mulf : (⟨S4096x2048, .f32⟩ : BufTy).Contents (Elt F) → (⟨S4096x2048, .f32⟩ : BufTy).Contents (Elt F) → (⟨S4096x2048, .f32⟩ : BufTy).Contents (Elt F)),
    binary main_v315 main_v335 main_v336 (addf : (⟨S4096x2048, .f32⟩ : BufTy).Contents (Elt F) → (⟨S4096x2048, .f32⟩ : BufTy).Contents (Elt F) → (⟨S4096x2048, .f32⟩ : BufTy).Contents (Elt F)) ]

theorem opsE15_good : ∀ op ∈ (opsE15 : List (HloOp τ sig (Elt F))), Good op := fun op h =>
  ⟨List.forall_iff_forall_mem.mp (show (opsE15 : List (HloOp τ sig (Elt F))).Forall fun op => op.bufs ⊆ tcRefs τ sig from
      ⟨unary_bufs_sub .., reshape_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., unary_bufs_sub .., reshape_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩) op h,
    by revert op; intro _ h; (repeat (cases h with | head => rfl | tail _ h => ?_)); exact nomatch h⟩

end Cert.Moe.RefRun

end
-- ==== Proof.RefParts.lean ====
/-
  The reference program window by window.

  The program is printed in seven windows of sixty statements; each window is the straight line of its host
  operations (a call of the `silu` function stands for the nine operations of its body), `P0 … P6` in program order.
-/
import proofs.«156857_j4587025072789_1_alg».proof.ReferenceIdeal
import proofs.«156857_j4587025072789_1_alg».proof.Proof.Gen.ReferenceIdeal
import Idealize.ShloMosaic.Lib.StableHlo.Run

noncomputable section

namespace Cert.Moe.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0's operations. -/
abbrev P0 : List (HloOp τ sig (Elt F)) :=
  [ nullary main_cst (constant S_ .f32 0x00000000#32),
    unary main_cst main_v0 (broadcastInDim S4096x2048 ![] bcast_S_S4096x2048 : (⟨S_, .f32⟩ : BufTy).Contents (Elt F) → (⟨S4096x2048, .f32⟩ : BufTy).Contents (Elt F)),
    unary main_arg1 main_v1 ((extractStridedSlice S1x2816x2048 ![0, 0, 0] · slices_S16x2816x2048_S1x2816x2048_0_0_0) : (⟨S16x2816x2048, .f32⟩ : BufTy).Contents (Elt F) → (⟨S1x2816x2048, .f32⟩ : BufTy).Contents (Elt F)),
    reshape main_v1 main_v2 rfl shapeCasts_S1x2816x2048_S2816x2048,
    unary main_v2 main_v3 ((transpose S2048x2816 [1, 0] · transposes_S2816x2048_S2048x2816_1_0) : (⟨S2816x2048, .f32⟩ : BufTy).Contents (Elt F) → (⟨S2048x2816, .f32⟩ : BufTy).Contents (Elt F)),
    binary main_arg0 main_v3 main_v4 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v4 main_v5 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v5) (TRef.of (T := ⟨S4096x1408, .f32⟩) main_call0_v0) Host.negf,
    TRef.unary (TRef.of (T := ⟨S4096x1408, .f32⟩) main_call0_v0) (TRef.of (T := ⟨S4096x1408, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x1408, .f32⟩) main_call0_v2) (broadcastInDim S4096x1408 ![] bcast_S_S4096x1408),
    TRef.binary (TRef.of (T := ⟨S4096x1408, .f32⟩) main_call0_v2) (TRef.of (T := ⟨S4096x1408, .f32⟩) main_call0_v1) (TRef.of (T := ⟨S4096x1408, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x1408, .f32⟩) main_call0_v4) (broadcastInDim S4096x1408 ![] bcast_S_S4096x1408),
    TRef.binary (TRef.of (T := ⟨S4096x1408, .f32⟩) main_call0_v4) (TRef.of (T := ⟨S4096x1408, .f32⟩) main_call0_v3) (TRef.of (T := ⟨S4096x1408, .f32⟩) main_call0_v5) Host.divf,
    TRef.binary (TRef.of (T := ⟨S4096x1408, .f32⟩) main_v5) (TRef.of (T := ⟨S4096x1408, .f32⟩) main_call0_v5) (TRef.of (T := ⟨S4096x1408, .f32⟩) main_v6) mulf,
    unary main_v4 main_v7 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v6 main_v7 main_v8 (mulf : (⟨S4096x1408, .f32⟩ : BufTy).Contents (Elt F) → (⟨S4096x1408, .f32⟩ : BufTy).Contents (Elt F) → (⟨S4096x1408, .f32⟩ : BufTy).Contents (Elt F)),
    unary main_arg2 main_v9 ((extractStridedSlice S1x2048x1408 ![0, 0, 0] · slices_S16x2048x1408_S1x2048x1408_0_0_0) : (⟨S16x2048x1408, .f32⟩ : BufTy).Contents (Elt F) → (⟨S1x2048x1408, .f32⟩ : BufTy).Contents (Elt F)),
    reshape main_v9 main_v10 rfl shapeCasts_S1x2048x1408_S2048x1408,
    unary main_v10 main_v11 ((transpose S1408x2048 [1, 0] · transposes_S2048x1408_S1408x2048_1_0) : (⟨S2048x1408, .f32⟩ : BufTy).Contents (Elt F) → (⟨S1408x2048, .f32⟩ : BufTy).Contents (Elt F)),
    binary main_v8 main_v11 main_v12 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c (constantI S_ 32 0#32),
    unary main_c main_v13 (broadcastInDim S4096x2 ![] bcast_S_S4096x2 : (⟨S_, .i32⟩ : BufTy).Contents (Elt F) → (⟨S4096x2, .i32⟩ : BufTy).Contents (Elt F)),
    binary main_arg4 main_v13 main_v14 (cmpi .eq : (⟨S4096x2, .i32⟩ : BufTy).Contents (Elt F) → (⟨S4096x2, .i32⟩ : BufTy).Contents (Elt F) → (⟨S4096x2, .i1⟩ : BufTy).Contents (Elt F)),
    unary main_v14 main_v15 (uitofp .f32 : (⟨S4096x2, .i1⟩ : BufTy).Contents (Elt F) → (⟨S4096x2, .f32⟩ : BufTy).Contents (Elt F)),
    binary main_arg3 main_v15 main_v16 (mulf : (⟨S4096x2, .f32⟩ : BufTy).Contents (Elt F) → (⟨S4096x2, .f32⟩ : BufTy).Contents (Elt F) → (⟨S4096x2, .f32⟩ : BufTy).Contents (Elt F)),
    nullary main_cst_0 (constant S_ .f32 0x00000000#32),
    binary main_v16 main_cst_0 main_v17 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (broadcastInDim S4096x2048 ![0, 1] bcast_S4096x1_S4096x2048_0_1 : (⟨S4096x1, .f32⟩ : BufTy).Contents (Elt F) → (⟨S4096x2048, .f32⟩ : BufTy).Contents (Elt F)),
    binary main_v19 main_v12 main_v20 (mulf : (⟨S4096x2048, .f32⟩ : BufTy).Contents (Elt F) → (⟨S4096x2048, .f32⟩ : BufTy).Contents (Elt F) → (⟨S4096x2048, .f32⟩ : BufTy).Contents (Elt F)),
    binary main_v0 main_v20 main_v21 (addf : (⟨S4096x2048, .f32⟩ : BufTy).Contents (Elt F) → (⟨S4096x2048, .f32⟩ : BufTy).Contents (Elt F) → (⟨S4096x2048, .f32⟩ : BufTy).Contents (Elt F)),
    unary main_arg1 main_v22 ((extractStridedSlice S1x2816x2048 ![1, 0, 0] · slices_S16x2816x2048_S1x2816x2048_1_0_0) : (⟨S16x2816x2048, .f32⟩ : BufTy).Contents (Elt F) → (⟨S1x2816x2048, .f32⟩ : BufTy).Contents (Elt F)),
    reshape main_v22 main_v23 rfl shapeCasts_S1x2816x2048_S2816x2048,
    unary main_v23 main_v24 ((transpose S2048x2816 [1, 0] · transposes_S2816x2048_S2048x2816_1_0) : (⟨S2816x2048, .f32⟩ : BufTy).Contents (Elt F) → (⟨S2048x2816, .f32⟩ : BufTy).Contents (Elt F)),
    binary main_arg0 main_v24 main_v25 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v25 main_v26 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v26) (TRef.of (T := ⟨S4096x1408, .f32⟩) main_call1_v0) Host.negf,
    TRef.unary (TRef.of (T := ⟨S4096x1408, .f32⟩) main_call1_v0) (TRef.of (T := ⟨S4096x1408, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4096x1408, .f32⟩) main_call1_v2) (broadcastInDim S4096x1408 ![] bcast_S_S4096x1408),
    TRef.binary (TRef.of (T := ⟨S4096x1408, .f32⟩) main_call1_v2) (TRef.of (T := ⟨S4096x1408, .f32⟩) main_call1_v1) (TRef.of (T := ⟨S4096x1408, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4096x1408, .f32⟩) main_call1_v4) (broadcastInDim S4096x1408 ![] bcast_S_S4096x1408),
    TRef.binary (TRef.of (T := ⟨S4096x1408, .f32⟩) main_call1_v4) (TRef.of (T := ⟨S4096x1408, .f32⟩) main_call1_v3) (TRef.of (T := ⟨S4096x1408, .f32⟩) main_call1_v5) Host.divf,
    TRef.binary (TRef.of (T := ⟨S4096x1408, .f32⟩) main_v26) (TRef.of (T := ⟨S4096x1408, .f32⟩) main_call1_v5) (TRef.of (T := ⟨S4096x1408, .f32⟩) main_v27) mulf,
    unary main_v25 main_v28 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v27 main_v28 main_v29 (mulf : (⟨S4096x1408, .f32⟩ : BufTy).Contents (Elt F) → (⟨S4096x1408, .f32⟩ : BufTy).Contents (Elt F) → (⟨S4096x1408, .f32⟩ : BufTy).Contents (Elt F)),
    unary main_arg2 main_v30 ((extractStridedSlice S1x2048x1408 ![1, 0, 0] · slices_S16x2048x1408_S1x2048x1408_1_0_0) : (⟨S16x2048x1408, .f32⟩ : BufTy).Contents (Elt F) → (⟨S1x2048x1408, .f32⟩ : BufTy).Contents (Elt F)),
    reshape main_v30 main_v31 rfl shapeCasts_S1x2048x1408_S2048x1408,
    unary main_v31 main_v32 ((transpose S1408x2048 [1, 0] · transposes_S2048x1408_S1408x2048_1_0) : (⟨S2048x1408, .f32⟩ : BufTy).Contents (Elt F) → (⟨S1408x2048, .f32⟩ : BufTy).Contents (Elt F)),
    binary main_v29 main_v32 main_v33 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_1 (constantI S_ 32 1#32),
    unary main_c_1 main_v34 (broadcastInDim S4096x2 ![] bcast_S_S4096x2 : (⟨S_, .i32⟩ : BufTy).Contents (Elt F) → (⟨S4096x2, .i32⟩ : BufTy).Contents (Elt F)),
    binary main_arg4 main_v34 main_v35 (cmpi .eq : (⟨S4096x2, .i32⟩ : BufTy).Contents (Elt F) → (⟨S4096x2, .i32⟩ : BufTy).Contents (Elt F) → (⟨S4096x2, .i1⟩ : BufTy).Contents (Elt F)),
    unary main_v35 main_v36 (uitofp .f32 : (⟨S4096x2, .i1⟩ : BufTy).Contents (Elt F) → (⟨S4096x2, .f32⟩ : BufTy).Contents (Elt F)),
    binary main_arg3 main_v36 main_v37 (mulf : (⟨S4096x2, .f32⟩ : BufTy).Contents (Elt F) → (⟨S4096x2, .f32⟩ : BufTy).Contents (Elt F) → (⟨S4096x2, .f32⟩ : BufTy).Contents (Elt F)),
    nullary main_cst_2 (constant S_ .f32 0x00000000#32),
    binary main_v37 main_cst_2 main_v38 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v38 main_v39 (broadcastInDim S4096x1 ![0] bcast_S4096_S4096x1_0 : (⟨S4096, .f32⟩ : BufTy).Contents (Elt F) → (⟨S4096x1, .f32⟩ : BufTy).Contents (Elt F)),
    unary main_v39 main_v40 (broadcastInDim S4096x2048 ![0, 1] bcast_S4096x1_S4096x2048_0_1 : (⟨S4096x1, .f32⟩ : BufTy).Contents (Elt F) → (⟨S4096x2048, .f32⟩ : BufTy).Contents (Elt F)),
    binary main_v40 main_v33 main_v41 (mulf : (⟨S4096x2048, .f32⟩ : BufTy).Contents (Elt F) → (⟨S4096x2048, .f32⟩ : BufTy).Contents (Elt F) → (⟨S4096x2048, .f32⟩ : BufTy).Contents (Elt F)),
    binary main_v21 main_v41 main_v42 (addf : (⟨S4096x2048, .f32⟩ : BufTy).Contents (Elt F) → (⟨S4096x2048, .f32⟩ : BufTy).Contents (Elt F) → (⟨S4096x2048, .f32⟩ : BufTy).Contents (Elt F)),
    unary main_arg1 main_v43 ((extractStridedSlice S1x2816x2048 ![2, 0, 0] · slices_S16x2816x2048_S1x2816x2048_2_0_0) : (⟨S16x2816x2048, .f32⟩ : BufTy).Contents (Elt F) → (⟨S1x2816x2048, .f32⟩ : BufTy).Contents (Elt F)),
    reshape main_v43 main_v44 rfl shapeCasts_S1x2816x2048_S2816x2048,
    unary main_v44 main_v45 ((transpose S2048x2816 [1, 0] · transposes_S2816x2048_S2048x2816_1_0) : (⟨S2816x2048, .f32⟩ : BufTy).Contents (Elt F) → (⟨S2048x2816, .f32⟩ : BufTy).Contents (Elt F)),
    binary main_arg0 main_v45 main_v46 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v46 main_v47 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v47) (TRef.of (T := ⟨S4096x1408, .f32⟩) main_call2_v0) Host.negf,
    TRef.unary (TRef.of (T := ⟨S4096x1408, .f32⟩) main_call2_v0) (TRef.of (T := ⟨S4096x1408, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4096x1408, .f32⟩) main_call2_v2) (broadcastInDim S4096x1408 ![] bcast_S_S4096x1408),
    TRef.binary (TRef.of (T := ⟨S4096x1408, .f32⟩) main_call2_v2) (TRef.of (T := ⟨S4096x1408, .f32⟩) main_call2_v1) (TRef.of (T := ⟨S4096x1408, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4096x1408, .f32⟩) main_call2_v4) (broadcastInDim S4096x1408 ![] bcast_S_S4096x1408),
    TRef.binary (TRef.of (T := ⟨S4096x1408, .f32⟩) main_call2_v4) (TRef.of (T := ⟨S4096x1408, .f32⟩) main_call2_v3) (TRef.of (T := ⟨S4096x1408, .f32⟩) main_call2_v5) Host.divf,
    TRef.binary (TRef.of (T := ⟨S4096x1408, .f32⟩) main_v47) (TRef.of (T := ⟨S4096x1408, .f32⟩) main_call2_v5) (TRef.of (T := ⟨S4096x1408, .f32⟩) main_v48) mulf,
    unary main_v46 main_v49 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v48 main_v49 main_v50 (mulf : (⟨S4096x1408, .f32⟩ : BufTy).Contents (Elt F) → (⟨S4096x1408, .f32⟩ : BufTy).Contents (Elt F) → (⟨S4096x1408, .f32⟩ : BufTy).Contents (Elt F)),
    unary main_arg2 main_v51 ((extractStridedSlice S1x2048x1408 ![2, 0, 0] · slices_S16x2048x1408_S1x2048x1408_2_0_0) : (⟨S16x2048x1408, .f32⟩ : BufTy).Contents (Elt F) → (⟨S1x2048x1408, .f32⟩ : BufTy).Contents (Elt F)),
    reshape main_v51 main_v52 rfl shapeCasts_S1x2048x1408_S2048x1408,
    unary main_v52 main_v53 ((transpose S1408x2048 [1, 0] · transposes_S2048x1408_S1408x2048_1_0) : (⟨S2048x1408, .f32⟩ : BufTy).Contents (Elt F) → (⟨S1408x2048, .f32⟩ : BufTy).Contents (Elt F)),
    binary main_v50 main_v53 main_v54 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)) ]

set_option maxRecDepth 8192 in
set_option maxHeartbeats 4000000 in
theorem part0_eq (c : Dev nD) : main_part0 (F := F) c = seq (P0 (F := F)) := rfl

/-- Window 1's operations. -/
abbrev P1 : List (HloOp τ sig (Elt F)) :=
  [ nullary main_c_3 (constantI S_ 32 2#32),
    unary main_c_3 main_v55 (broadcastInDim S4096x2 ![] bcast_S_S4096x2 : (⟨S_, .i32⟩ : BufTy).Contents (Elt F) → (⟨S4096x2, .i32⟩ : BufTy).Contents (Elt F)),
    binary main_arg4 main_v55 main_v56 (cmpi .eq : (⟨S4096x2, .i32⟩ : BufTy).Contents (Elt F) → (⟨S4096x2, .i32⟩ : BufTy).Contents (Elt F) → (⟨S4096x2, .i1⟩ : BufTy).Contents (Elt F)),
    unary main_v56 main_v57 (uitofp .f32 : (⟨S4096x2, .i1⟩ : BufTy).Contents (Elt F) → (⟨S4096x2, .f32⟩ : BufTy).Contents (Elt F)),
    binary main_arg3 main_v57 main_v58 (mulf : (⟨S4096x2, .f32⟩ : BufTy).Contents (Elt F) → (⟨S4096x2, .f32⟩ : BufTy).Contents (Elt F) → (⟨S4096x2, .f32⟩ : BufTy).Contents (Elt F)),
    nullary main_cst_4 (constant S_ .f32 0x00000000#32),
    binary main_v58 main_cst_4 main_v59 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v59 main_v60 (broadcastInDim S4096x1 ![0] bcast_S4096_S4096x1_0 : (⟨S4096, .f32⟩ : BufTy).Contents (Elt F) → (⟨S4096x1, .f32⟩ : BufTy).Contents (Elt F)),
    unary main_v60 main_v61 (broadcastInDim S4096x2048 ![0, 1] bcast_S4096x1_S4096x2048_0_1 : (⟨S4096x1, .f32⟩ : BufTy).Contents (Elt F) → (⟨S4096x2048, .f32⟩ : BufTy).Contents (Elt F)),
    binary main_v61 main_v54 main_v62 (mulf : (⟨S4096x2048, .f32⟩ : BufTy).Contents (Elt F) → (⟨S4096x2048, .f32⟩ : BufTy).Contents (Elt F) → (⟨S4096x2048, .f32⟩ : BufTy).Contents (Elt F)),
    binary main_v42 main_v62 main_v63 (addf : (⟨S4096x2048, .f32⟩ : BufTy).Contents (Elt F) → (⟨S4096x2048, .f32⟩ : BufTy).Contents (Elt F) → (⟨S4096x2048, .f32⟩ : BufTy).Contents (Elt F)),
    unary main_arg1 main_v64 ((extractStridedSlice S1x2816x2048 ![3, 0, 0] · slices_S16x2816x2048_S1x2816x2048_3_0_0) : (⟨S16x2816x2048, .f32⟩ : BufTy).Contents (Elt F) → (⟨S1x2816x2048, .f32⟩ : BufTy).Contents (Elt F)),
    reshape main_v64 main_v65 rfl shapeCasts_S1x2816x2048_S2816x2048,
    unary main_v65 main_v66 ((transpose S2048x2816 [1, 0] · transposes_S2816x2048_S2048x2816_1_0) : (⟨S2816x2048, .f32⟩ : BufTy).Contents (Elt F) → (⟨S2048x2816, .f32⟩ : BufTy).Contents (Elt F)),
    binary main_arg0 main_v66 main_v67 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v67 main_v68 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v68) (TRef.of (T := ⟨S4096x1408, .f32⟩) main_call3_v0) Host.negf,
    TRef.unary (TRef.of (T := ⟨S4096x1408, .f32⟩) main_call3_v0) (TRef.of (T := ⟨S4096x1408, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4096x1408, .f32⟩) main_call3_v2) (broadcastInDim S4096x1408 ![] bcast_S_S4096x1408),
    TRef.binary (TRef.of (T := ⟨S4096x1408, .f32⟩) main_call3_v2) (TRef.of (T := ⟨S4096x1408, .f32⟩) main_call3_v1) (TRef.of (T := ⟨S4096x1408, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4096x1408, .f32⟩) main_call3_v4) (broadcastInDim S4096x1408 ![] bcast_S_S4096x1408),
    TRef.binary (TRef.of (T := ⟨S4096x1408, .f32⟩) main_call3_v4) (TRef.of (T := ⟨S4096x1408, .f32⟩) main_call3_v3) (TRef.of (T := ⟨S4096x1408, .f32⟩) main_call3_v5) Host.divf,
    TRef.binary (TRef.of (T := ⟨S4096x1408, .f32⟩) main_v68) (TRef.of (T := ⟨S4096x1408, .f32⟩) main_call3_v5) (TRef.of (T := ⟨S4096x1408, .f32⟩) main_v69) mulf,
    unary main_v67 main_v70 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v69 main_v70 main_v71 (mulf : (⟨S4096x1408, .f32⟩ : BufTy).Contents (Elt F) → (⟨S4096x1408, .f32⟩ : BufTy).Contents (Elt F) → (⟨S4096x1408, .f32⟩ : BufTy).Contents (Elt F)),
    unary main_arg2 main_v72 ((extractStridedSlice S1x2048x1408 ![3, 0, 0] · slices_S16x2048x1408_S1x2048x1408_3_0_0) : (⟨S16x2048x1408, .f32⟩ : BufTy).Contents (Elt F) → (⟨S1x2048x1408, .f32⟩ : BufTy).Contents (Elt F)),
    reshape main_v72 main_v73 rfl shapeCasts_S1x2048x1408_S2048x1408,
    unary main_v73 main_v74 ((transpose S1408x2048 [1, 0] · transposes_S2048x1408_S1408x2048_1_0) : (⟨S2048x1408, .f32⟩ : BufTy).Contents (Elt F) → (⟨S1408x2048, .f32⟩ : BufTy).Contents (Elt F)),
    binary main_v71 main_v74 main_v75 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_5 (constantI S_ 32 3#32),
    unary main_c_5 main_v76 (broadcastInDim S4096x2 ![] bcast_S_S4096x2 : (⟨S_, .i32⟩ : BufTy).Contents (Elt F) → (⟨S4096x2, .i32⟩ : BufTy).Contents (Elt F)),
    binary main_arg4 main_v76 main_v77 (cmpi .eq : (⟨S4096x2, .i32⟩ : BufTy).Contents (Elt F) → (⟨S4096x2, .i32⟩ : BufTy).Contents (Elt F) → (⟨S4096x2, .i1⟩ : BufTy).Contents (Elt F)),
    unary main_v77 main_v78 (uitofp .f32 : (⟨S4096x2, .i1⟩ : BufTy).Contents (Elt F) → (⟨S4096x2, .f32⟩ : BufTy).Contents (Elt F)),
    binary main_arg3 main_v78 main_v79 (mulf : (⟨S4096x2, .f32⟩ : BufTy).Contents (Elt F) → (⟨S4096x2, .f32⟩ : BufTy).Contents (Elt F) → (⟨S4096x2, .f32⟩ : BufTy).Contents (Elt F)),
    nullary main_cst_6 (constant S_ .f32 0x00000000#32),
    binary main_v79 main_cst_6 main_v80 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v80 main_v81 (broadcastInDim S4096x1 ![0] bcast_S4096_S4096x1_0 : (⟨S4096, .f32⟩ : BufTy).Contents (Elt F) → (⟨S4096x1, .f32⟩ : BufTy).Contents (Elt F)),
    unary main_v81 main_v82 (broadcastInDim S4096x2048 ![0, 1] bcast_S4096x1_S4096x2048_0_1 : (⟨S4096x1, .f32⟩ : BufTy).Contents (Elt F) → (⟨S4096x2048, .f32⟩ : BufTy).Contents (Elt F)),
    binary main_v82 main_v75 main_v83 (mulf : (⟨S4096x2048, .f32⟩ : BufTy).Contents (Elt F) → (⟨S4096x2048, .f32⟩ : BufTy).Contents (Elt F) → (⟨S4096x2048, .f32⟩ : BufTy).Contents (Elt F)),
    binary main_v63 main_v83 main_v84 (addf : (⟨S4096x2048, .f32⟩ : BufTy).Contents (Elt F) → (⟨S4096x2048, .f32⟩ : BufTy).Contents (Elt F) → (⟨S4096x2048, .f32⟩ : BufTy).Contents (Elt F)),
    unary main_arg1 main_v85 ((extractStridedSlice S1x2816x2048 ![4, 0, 0] · slices_S16x2816x2048_S1x2816x2048_4_0_0) : (⟨S16x2816x2048, .f32⟩ : BufTy).Contents (Elt F) → (⟨S1x2816x2048, .f32⟩ : BufTy).Contents (Elt F)),
    reshape main_v85 main_v86 rfl shapeCasts_S1x2816x2048_S2816x2048,
    unary main_v86 main_v87 ((transpose S2048x2816 [1, 0] · transposes_S2816x2048_S2048x2816_1_0) : (⟨S2816x2048, .f32⟩ : BufTy).Contents (Elt F) → (⟨S2048x2816, .f32⟩ : BufTy).Contents (Elt F)),
    binary main_arg0 main_v87 main_v88 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v88 main_v89 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v89) (TRef.of (T := ⟨S4096x1408, .f32⟩) main_call4_v0) Host.negf,
    TRef.unary (TRef.of (T := ⟨S4096x1408, .f32⟩) main_call4_v0) (TRef.of (T := ⟨S4096x1408, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4096x1408, .f32⟩) main_call4_v2) (broadcastInDim S4096x1408 ![] bcast_S_S4096x1408),
    TRef.binary (TRef.of (T := ⟨S4096x1408, .f32⟩) main_call4_v2) (TRef.of (T := ⟨S4096x1408, .f32⟩) main_call4_v1) (TRef.of (T := ⟨S4096x1408, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4096x1408, .f32⟩) main_call4_v4) (broadcastInDim S4096x1408 ![] bcast_S_S4096x1408),
    TRef.binary (TRef.of (T := ⟨S4096x1408, .f32⟩) main_call4_v4) (TRef.of (T := ⟨S4096x1408, .f32⟩) main_call4_v3) (TRef.of (T := ⟨S4096x1408, .f32⟩) main_call4_v5) Host.divf,
    TRef.binary (TRef.of (T := ⟨S4096x1408, .f32⟩) main_v89) (TRef.of (T := ⟨S4096x1408, .f32⟩) main_call4_v5) (TRef.of (T := ⟨S4096x1408, .f32⟩) main_v90) mulf,
    unary main_v88 main_v91 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v90 main_v91 main_v92 (mulf : (⟨S4096x1408, .f32⟩ : BufTy).Contents (Elt F) → (⟨S4096x1408, .f32⟩ : BufTy).Contents (Elt F) → (⟨S4096x1408, .f32⟩ : BufTy).Contents (Elt F)),
    unary main_arg2 main_v93 ((extractStridedSlice S1x2048x1408 ![4, 0, 0] · slices_S16x2048x1408_S1x2048x1408_4_0_0) : (⟨S16x2048x1408, .f32⟩ : BufTy).Contents (Elt F) → (⟨S1x2048x1408, .f32⟩ : BufTy).Contents (Elt F)),
    reshape main_v93 main_v94 rfl shapeCasts_S1x2048x1408_S2048x1408,
    unary main_v94 main_v95 ((transpose S1408x2048 [1, 0] · transposes_S2048x1408_S1408x2048_1_0) : (⟨S2048x1408, .f32⟩ : BufTy).Contents (Elt F) → (⟨S1408x2048, .f32⟩ : BufTy).Contents (Elt F)),
    binary main_v92 main_v95 main_v96 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_7 (constantI S_ 32 4#32),
    unary main_c_7 main_v97 (broadcastInDim S4096x2 ![] bcast_S_S4096x2 : (⟨S_, .i32⟩ : BufTy).Contents (Elt F) → (⟨S4096x2, .i32⟩ : BufTy).Contents (Elt F)),
    binary main_arg4 main_v97 main_v98 (cmpi .eq : (⟨S4096x2, .i32⟩ : BufTy).Contents (Elt F) → (⟨S4096x2, .i32⟩ : BufTy).Contents (Elt F) → (⟨S4096x2, .i1⟩ : BufTy).Contents (Elt F)),
    unary main_v98 main_v99 (uitofp .f32 : (⟨S4096x2, .i1⟩ : BufTy).Contents (Elt F) → (⟨S4096x2, .f32⟩ : BufTy).Contents (Elt F)),
    binary main_arg3 main_v99 main_v100 (mulf : (⟨S4096x2, .f32⟩ : BufTy).Contents (Elt F) → (⟨S4096x2, .f32⟩ : BufTy).Contents (Elt F) → (⟨S4096x2, .f32⟩ : BufTy).Contents (Elt F)),
    nullary main_cst_8 (constant S_ .f32 0x00000000#32),
    binary main_v100 main_cst_8 main_v101 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v101 main_v102 (broadcastInDim S4096x1 ![0] bcast_S4096_S4096x1_0 : (⟨S4096, .f32⟩ : BufTy).Contents (Elt F) → (⟨S4096x1, .f32⟩ : BufTy).Contents (Elt F)),
    unary main_v102 main_v103 (broadcastInDim S4096x2048 ![0, 1] bcast_S4096x1_S4096x2048_0_1 : (⟨S4096x1, .f32⟩ : BufTy).Contents (Elt F) → (⟨S4096x2048, .f32⟩ : BufTy).Contents (Elt F)),
    binary main_v103 main_v96 main_v104 (mulf : (⟨S4096x2048, .f32⟩ : BufTy).Contents (Elt F) → (⟨S4096x2048, .f32⟩ : BufTy).Contents (Elt F) → (⟨S4096x2048, .f32⟩ : BufTy).Contents (Elt F)),
    binary main_v84 main_v104 main_v105 (addf : (⟨S4096x2048, .f32⟩ : BufTy).Contents (Elt F) → (⟨S4096x2048, .f32⟩ : BufTy).Contents (Elt F) → (⟨S4096x2048, .f32⟩ : BufTy).Contents (Elt F)),
    unary main_arg1 main_v106 ((extractStridedSlice S1x2816x2048 ![5, 0, 0] · slices_S16x2816x2048_S1x2816x2048_5_0_0) : (⟨S16x2816x2048, .f32⟩ : BufTy).Contents (Elt F) → (⟨S1x2816x2048, .f32⟩ : BufTy).Contents (Elt F)),
    reshape main_v106 main_v107 rfl shapeCasts_S1x2816x2048_S2816x2048,
    unary main_v107 main_v108 ((transpose S2048x2816 [1, 0] · transposes_S2816x2048_S2048x2816_1_0) : (⟨S2816x2048, .f32⟩ : BufTy).Contents (Elt F) → (⟨S2048x2816, .f32⟩ : BufTy).Contents (Elt F)) ]

set_option maxRecDepth 8192 in
set_option maxHeartbeats 4000000 in
theorem part1_eq (c : Dev nD) : main_part1 (F := F) c = seq (P1 (F := F)) := rfl

/-- Window 2's operations. -/
abbrev P2 : List (HloOp τ sig (Elt F)) :=
  [ binary main_arg0 main_v108 main_v109 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v109 main_v110 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v110) (TRef.of (T := ⟨S4096x1408, .f32⟩) main_call5_v0) Host.negf,
    TRef.unary (TRef.of (T := ⟨S4096x1408, .f32⟩) main_call5_v0) (TRef.of (T := ⟨S4096x1408, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S4096x1408, .f32⟩) main_call5_v2) (broadcastInDim S4096x1408 ![] bcast_S_S4096x1408),
    TRef.binary (TRef.of (T := ⟨S4096x1408, .f32⟩) main_call5_v2) (TRef.of (T := ⟨S4096x1408, .f32⟩) main_call5_v1) (TRef.of (T := ⟨S4096x1408, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S4096x1408, .f32⟩) main_call5_v4) (broadcastInDim S4096x1408 ![] bcast_S_S4096x1408),
    TRef.binary (TRef.of (T := ⟨S4096x1408, .f32⟩) main_call5_v4) (TRef.of (T := ⟨S4096x1408, .f32⟩) main_call5_v3) (TRef.of (T := ⟨S4096x1408, .f32⟩) main_call5_v5) Host.divf,
    TRef.binary (TRef.of (T := ⟨S4096x1408, .f32⟩) main_v110) (TRef.of (T := ⟨S4096x1408, .f32⟩) main_call5_v5) (TRef.of (T := ⟨S4096x1408, .f32⟩) main_v111) mulf,
    unary main_v109 main_v112 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v111 main_v112 main_v113 (mulf : (⟨S4096x1408, .f32⟩ : BufTy).Contents (Elt F) → (⟨S4096x1408, .f32⟩ : BufTy).Contents (Elt F) → (⟨S4096x1408, .f32⟩ : BufTy).Contents (Elt F)),
    unary main_arg2 main_v114 ((extractStridedSlice S1x2048x1408 ![5, 0, 0] · slices_S16x2048x1408_S1x2048x1408_5_0_0) : (⟨S16x2048x1408, .f32⟩ : BufTy).Contents (Elt F) → (⟨S1x2048x1408, .f32⟩ : BufTy).Contents (Elt F)),
    reshape main_v114 main_v115 rfl shapeCasts_S1x2048x1408_S2048x1408,
    unary main_v115 main_v116 ((transpose S1408x2048 [1, 0] · transposes_S2048x1408_S1408x2048_1_0) : (⟨S2048x1408, .f32⟩ : BufTy).Contents (Elt F) → (⟨S1408x2048, .f32⟩ : BufTy).Contents (Elt F)),
    binary main_v113 main_v116 main_v117 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_9 (constantI S_ 32 5#32),
    unary main_c_9 main_v118 (broadcastInDim S4096x2 ![] bcast_S_S4096x2 : (⟨S_, .i32⟩ : BufTy).Contents (Elt F) → (⟨S4096x2, .i32⟩ : BufTy).Contents (Elt F)),
    binary main_arg4 main_v118 main_v119 (cmpi .eq : (⟨S4096x2, .i32⟩ : BufTy).Contents (Elt F) → (⟨S4096x2, .i32⟩ : BufTy).Contents (Elt F) → (⟨S4096x2, .i1⟩ : BufTy).Contents (Elt F)),
    unary main_v119 main_v120 (uitofp .f32 : (⟨S4096x2, .i1⟩ : BufTy).Contents (Elt F) → (⟨S4096x2, .f32⟩ : BufTy).Contents (Elt F)),
    binary main_arg3 main_v120 main_v121 (mulf : (⟨S4096x2, .f32⟩ : BufTy).Contents (Elt F) → (⟨S4096x2, .f32⟩ : BufTy).Contents (Elt F) → (⟨S4096x2, .f32⟩ : BufTy).Contents (Elt F)),
    nullary main_cst_10 (constant S_ .f32 0x00000000#32),
    binary main_v121 main_cst_10 main_v122 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v122 main_v123 (broadcastInDim S4096x1 ![0] bcast_S4096_S4096x1_0 : (⟨S4096, .f32⟩ : BufTy).Contents (Elt F) → (⟨S4096x1, .f32⟩ : BufTy).Contents (Elt F)),
    unary main_v123 main_v124 (broadcastInDim S4096x2048 ![0, 1] bcast_S4096x1_S4096x2048_0_1 : (⟨S4096x1, .f32⟩ : BufTy).Contents (Elt F) → (⟨S4096x2048, .f32⟩ : BufTy).Contents (Elt F)),
    binary main_v124 main_v117 main_v125 (mulf : (⟨S4096x2048, .f32⟩ : BufTy).Contents (Elt F) → (⟨S4096x2048, .f32⟩ : BufTy).Contents (Elt F) → (⟨S4096x2048, .f32⟩ : BufTy).Contents (Elt F)),
    binary main_v105 main_v125 main_v126 (addf : (⟨S4096x2048, .f32⟩ : BufTy).Contents (Elt F) → (⟨S4096x2048, .f32⟩ : BufTy).Contents (Elt F) → (⟨S4096x2048, .f32⟩ : BufTy).Contents (Elt F)),
    unary main_arg1 main_v127 ((extractStridedSlice S1x2816x2048 ![6, 0, 0] · slices_S16x2816x2048_S1x2816x2048_6_0_0) : (⟨S16x2816x2048, .f32⟩ : BufTy).Contents (Elt F) → (⟨S1x2816x2048, .f32⟩ : BufTy).Contents (Elt F)),
    reshape main_v127 main_v128 rfl shapeCasts_S1x2816x2048_S2816x2048,
    unary main_v128 main_v129 ((transpose S2048x2816 [1, 0] · transposes_S2816x2048_S2048x2816_1_0) : (⟨S2816x2048, .f32⟩ : BufTy).Contents (Elt F) → (⟨S2048x2816, .f32⟩ : BufTy).Contents (Elt F)),
    binary main_arg0 main_v129 main_v130 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v130 main_v131 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v131) (TRef.of (T := ⟨S4096x1408, .f32⟩) main_call6_v0) Host.negf,
    TRef.unary (TRef.of (T := ⟨S4096x1408, .f32⟩) main_call6_v0) (TRef.of (T := ⟨S4096x1408, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S4096x1408, .f32⟩) main_call6_v2) (broadcastInDim S4096x1408 ![] bcast_S_S4096x1408),
    TRef.binary (TRef.of (T := ⟨S4096x1408, .f32⟩) main_call6_v2) (TRef.of (T := ⟨S4096x1408, .f32⟩) main_call6_v1) (TRef.of (T := ⟨S4096x1408, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S4096x1408, .f32⟩) main_call6_v4) (broadcastInDim S4096x1408 ![] bcast_S_S4096x1408),
    TRef.binary (TRef.of (T := ⟨S4096x1408, .f32⟩) main_call6_v4) (TRef.of (T := ⟨S4096x1408, .f32⟩) main_call6_v3) (TRef.of (T := ⟨S4096x1408, .f32⟩) main_call6_v5) Host.divf,
    TRef.binary (TRef.of (T := ⟨S4096x1408, .f32⟩) main_v131) (TRef.of (T := ⟨S4096x1408, .f32⟩) main_call6_v5) (TRef.of (T := ⟨S4096x1408, .f32⟩) main_v132) mulf,
    unary main_v130 main_v133 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v132 main_v133 main_v134 (mulf : (⟨S4096x1408, .f32⟩ : BufTy).Contents (Elt F) → (⟨S4096x1408, .f32⟩ : BufTy).Contents (Elt F) → (⟨S4096x1408, .f32⟩ : BufTy).Contents (Elt F)),
    unary main_arg2 main_v135 ((extractStridedSlice S1x2048x1408 ![6, 0, 0] · slices_S16x2048x1408_S1x2048x1408_6_0_0) : (⟨S16x2048x1408, .f32⟩ : BufTy).Contents (Elt F) → (⟨S1x2048x1408, .f32⟩ : BufTy).Contents (Elt F)),
    reshape main_v135 main_v136 rfl shapeCasts_S1x2048x1408_S2048x1408,
    unary main_v136 main_v137 ((transpose S1408x2048 [1, 0] · transposes_S2048x1408_S1408x2048_1_0) : (⟨S2048x1408, .f32⟩ : BufTy).Contents (Elt F) → (⟨S1408x2048, .f32⟩ : BufTy).Contents (Elt F)),
    binary main_v134 main_v137 main_v138 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_11 (constantI S_ 32 6#32),
    unary main_c_11 main_v139 (broadcastInDim S4096x2 ![] bcast_S_S4096x2 : (⟨S_, .i32⟩ : BufTy).Contents (Elt F) → (⟨S4096x2, .i32⟩ : BufTy).Contents (Elt F)),
    binary main_arg4 main_v139 main_v140 (cmpi .eq : (⟨S4096x2, .i32⟩ : BufTy).Contents (Elt F) → (⟨S4096x2, .i32⟩ : BufTy).Contents (Elt F) → (⟨S4096x2, .i1⟩ : BufTy).Contents (Elt F)),
    unary main_v140 main_v141 (uitofp .f32 : (⟨S4096x2, .i1⟩ : BufTy).Contents (Elt F) → (⟨S4096x2, .f32⟩ : BufTy).Contents (Elt F)),
    binary main_arg3 main_v141 main_v142 (mulf : (⟨S4096x2, .f32⟩ : BufTy).Contents (Elt F) → (⟨S4096x2, .f32⟩ : BufTy).Contents (Elt F) → (⟨S4096x2, .f32⟩ : BufTy).Contents (Elt F)),
    nullary main_cst_12 (constant S_ .f32 0x00000000#32),
    binary main_v142 main_cst_12 main_v143 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v143 main_v144 (broadcastInDim S4096x1 ![0] bcast_S4096_S4096x1_0 : (⟨S4096, .f32⟩ : BufTy).Contents (Elt F) → (⟨S4096x1, .f32⟩ : BufTy).Contents (Elt F)),
    unary main_v144 main_v145 (broadcastInDim S4096x2048 ![0, 1] bcast_S4096x1_S4096x2048_0_1 : (⟨S4096x1, .f32⟩ : BufTy).Contents (Elt F) → (⟨S4096x2048, .f32⟩ : BufTy).Contents (Elt F)),
    binary main_v145 main_v138 main_v146 (mulf : (⟨S4096x2048, .f32⟩ : BufTy).Contents (Elt F) → (⟨S4096x2048, .f32⟩ : BufTy).Contents (Elt F) → (⟨S4096x2048, .f32⟩ : BufTy).Contents (Elt F)),
    binary main_v126 main_v146 main_v147 (addf : (⟨S4096x2048, .f32⟩ : BufTy).Contents (Elt F) → (⟨S4096x2048, .f32⟩ : BufTy).Contents (Elt F) → (⟨S4096x2048, .f32⟩ : BufTy).Contents (Elt F)),
    unary main_arg1 main_v148 ((extractStridedSlice S1x2816x2048 ![7, 0, 0] · slices_S16x2816x2048_S1x2816x2048_7_0_0) : (⟨S16x2816x2048, .f32⟩ : BufTy).Contents (Elt F) → (⟨S1x2816x2048, .f32⟩ : BufTy).Contents (Elt F)),
    reshape main_v148 main_v149 rfl shapeCasts_S1x2816x2048_S2816x2048,
    unary main_v149 main_v150 ((transpose S2048x2816 [1, 0] · transposes_S2816x2048_S2048x2816_1_0) : (⟨S2816x2048, .f32⟩ : BufTy).Contents (Elt F) → (⟨S2048x2816, .f32⟩ : BufTy).Contents (Elt F)),
    binary main_arg0 main_v150 main_v151 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v151 main_v152 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v152) (TRef.of (T := ⟨S4096x1408, .f32⟩) main_call7_v0) Host.negf,
    TRef.unary (TRef.of (T := ⟨S4096x1408, .f32⟩) main_call7_v0) (TRef.of (T := ⟨S4096x1408, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S4096x1408, .f32⟩) main_call7_v2) (broadcastInDim S4096x1408 ![] bcast_S_S4096x1408),
    TRef.binary (TRef.of (T := ⟨S4096x1408, .f32⟩) main_call7_v2) (TRef.of (T := ⟨S4096x1408, .f32⟩) main_call7_v1) (TRef.of (T := ⟨S4096x1408, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S4096x1408, .f32⟩) main_call7_v4) (broadcastInDim S4096x1408 ![] bcast_S_S4096x1408),
    TRef.binary (TRef.of (T := ⟨S4096x1408, .f32⟩) main_call7_v4) (TRef.of (T := ⟨S4096x1408, .f32⟩) main_call7_v3) (TRef.of (T := ⟨S4096x1408, .f32⟩) main_call7_v5) Host.divf,
    TRef.binary (TRef.of (T := ⟨S4096x1408, .f32⟩) main_v152) (TRef.of (T := ⟨S4096x1408, .f32⟩) main_call7_v5) (TRef.of (T := ⟨S4096x1408, .f32⟩) main_v153) mulf,
    unary main_v151 main_v154 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v153 main_v154 main_v155 (mulf : (⟨S4096x1408, .f32⟩ : BufTy).Contents (Elt F) → (⟨S4096x1408, .f32⟩ : BufTy).Contents (Elt F) → (⟨S4096x1408, .f32⟩ : BufTy).Contents (Elt F)),
    unary main_arg2 main_v156 ((extractStridedSlice S1x2048x1408 ![7, 0, 0] · slices_S16x2048x1408_S1x2048x1408_7_0_0) : (⟨S16x2048x1408, .f32⟩ : BufTy).Contents (Elt F) → (⟨S1x2048x1408, .f32⟩ : BufTy).Contents (Elt F)),
    reshape main_v156 main_v157 rfl shapeCasts_S1x2048x1408_S2048x1408,
    unary main_v157 main_v158 ((transpose S1408x2048 [1, 0] · transposes_S2048x1408_S1408x2048_1_0) : (⟨S2048x1408, .f32⟩ : BufTy).Contents (Elt F) → (⟨S1408x2048, .f32⟩ : BufTy).Contents (Elt F)),
    binary main_v155 main_v158 main_v159 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_13 (constantI S_ 32 7#32),
    unary main_c_13 main_v160 (broadcastInDim S4096x2 ![] bcast_S_S4096x2 : (⟨S_, .i32⟩ : BufTy).Contents (Elt F) → (⟨S4096x2, .i32⟩ : BufTy).Contents (Elt F)),
    binary main_arg4 main_v160 main_v161 (cmpi .eq : (⟨S4096x2, .i32⟩ : BufTy).Contents (Elt F) → (⟨S4096x2, .i32⟩ : BufTy).Contents (Elt F) → (⟨S4096x2, .i1⟩ : BufTy).Contents (Elt F)),
    unary main_v161 main_v162 (uitofp .f32 : (⟨S4096x2, .i1⟩ : BufTy).Contents (Elt F) → (⟨S4096x2, .f32⟩ : BufTy).Contents (Elt F)),
    binary main_arg3 main_v162 main_v163 (mulf : (⟨S4096x2, .f32⟩ : BufTy).Contents (Elt F) → (⟨S4096x2, .f32⟩ : BufTy).Contents (Elt F) → (⟨S4096x2, .f32⟩ : BufTy).Contents (Elt F)) ]

set_option maxRecDepth 8192 in
set_option maxHeartbeats 4000000 in
theorem part2_eq (c : Dev nD) : main_part2 (F := F) c = seq (P2 (F := F)) := rfl

/-- Window 3's operations. -/
abbrev P3 : List (HloOp τ sig (Elt F)) :=
  [ nullary main_cst_14 (constant S_ .f32 0x00000000#32),
    binary main_v163 main_cst_14 main_v164 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v164 main_v165 (broadcastInDim S4096x1 ![0] bcast_S4096_S4096x1_0 : (⟨S4096, .f32⟩ : BufTy).Contents (Elt F) → (⟨S4096x1, .f32⟩ : BufTy).Contents (Elt F)),
    unary main_v165 main_v166 (broadcastInDim S4096x2048 ![0, 1] bcast_S4096x1_S4096x2048_0_1 : (⟨S4096x1, .f32⟩ : BufTy).Contents (Elt F) → (⟨S4096x2048, .f32⟩ : BufTy).Contents (Elt F)),
    binary main_v166 main_v159 main_v167 (mulf : (⟨S4096x2048, .f32⟩ : BufTy).Contents (Elt F) → (⟨S4096x2048, .f32⟩ : BufTy).Contents (Elt F) → (⟨S4096x2048, .f32⟩ : BufTy).Contents (Elt F)),
    binary main_v147 main_v167 main_v168 (addf : (⟨S4096x2048, .f32⟩ : BufTy).Contents (Elt F) → (⟨S4096x2048, .f32⟩ : BufTy).Contents (Elt F) → (⟨S4096x2048, .f32⟩ : BufTy).Contents (Elt F)),
    unary main_arg1 main_v169 ((extractStridedSlice S1x2816x2048 ![8, 0, 0] · slices_S16x2816x2048_S1x2816x2048_8_0_0) : (⟨S16x2816x2048, .f32⟩ : BufTy).Contents (Elt F) → (⟨S1x2816x2048, .f32⟩ : BufTy).Contents (Elt F)),
    reshape main_v169 main_v170 rfl shapeCasts_S1x2816x2048_S2816x2048,
    unary main_v170 main_v171 ((transpose S2048x2816 [1, 0] · transposes_S2816x2048_S2048x2816_1_0) : (⟨S2816x2048, .f32⟩ : BufTy).Contents (Elt F) → (⟨S2048x2816, .f32⟩ : BufTy).Contents (Elt F)),
    binary main_arg0 main_v171 main_v172 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v172 main_v173 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v173) (TRef.of (T := ⟨S4096x1408, .f32⟩) main_call8_v0) Host.negf,
    TRef.unary (TRef.of (T := ⟨S4096x1408, .f32⟩) main_call8_v0) (TRef.of (T := ⟨S4096x1408, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S4096x1408, .f32⟩) main_call8_v2) (broadcastInDim S4096x1408 ![] bcast_S_S4096x1408),
    TRef.binary (TRef.of (T := ⟨S4096x1408, .f32⟩) main_call8_v2) (TRef.of (T := ⟨S4096x1408, .f32⟩) main_call8_v1) (TRef.of (T := ⟨S4096x1408, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S4096x1408, .f32⟩) main_call8_v4) (broadcastInDim S4096x1408 ![] bcast_S_S4096x1408),
    TRef.binary (TRef.of (T := ⟨S4096x1408, .f32⟩) main_call8_v4) (TRef.of (T := ⟨S4096x1408, .f32⟩) main_call8_v3) (TRef.of (T := ⟨S4096x1408, .f32⟩) main_call8_v5) Host.divf,
    TRef.binary (TRef.of (T := ⟨S4096x1408, .f32⟩) main_v173) (TRef.of (T := ⟨S4096x1408, .f32⟩) main_call8_v5) (TRef.of (T := ⟨S4096x1408, .f32⟩) main_v174) mulf,
    unary main_v172 main_v175 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v174 main_v175 main_v176 (mulf : (⟨S4096x1408, .f32⟩ : BufTy).Contents (Elt F) → (⟨S4096x1408, .f32⟩ : BufTy).Contents (Elt F) → (⟨S4096x1408, .f32⟩ : BufTy).Contents (Elt F)),
    unary main_arg2 main_v177 ((extractStridedSlice S1x2048x1408 ![8, 0, 0] · slices_S16x2048x1408_S1x2048x1408_8_0_0) : (⟨S16x2048x1408, .f32⟩ : BufTy).Contents (Elt F) → (⟨S1x2048x1408, .f32⟩ : BufTy).Contents (Elt F)),
    reshape main_v177 main_v178 rfl shapeCasts_S1x2048x1408_S2048x1408,
    unary main_v178 main_v179 ((transpose S1408x2048 [1, 0] · transposes_S2048x1408_S1408x2048_1_0) : (⟨S2048x1408, .f32⟩ : BufTy).Contents (Elt F) → (⟨S1408x2048, .f32⟩ : BufTy).Contents (Elt F)),
    binary main_v176 main_v179 main_v180 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_15 (constantI S_ 32 8#32),
    unary main_c_15 main_v181 (broadcastInDim S4096x2 ![] bcast_S_S4096x2 : (⟨S_, .i32⟩ : BufTy).Contents (Elt F) → (⟨S4096x2, .i32⟩ : BufTy).Contents (Elt F)),
    binary main_arg4 main_v181 main_v182 (cmpi .eq : (⟨S4096x2, .i32⟩ : BufTy).Contents (Elt F) → (⟨S4096x2, .i32⟩ : BufTy).Contents (Elt F) → (⟨S4096x2, .i1⟩ : BufTy).Contents (Elt F)),
    unary main_v182 main_v183 (uitofp .f32 : (⟨S4096x2, .i1⟩ : BufTy).Contents (Elt F) → (⟨S4096x2, .f32⟩ : BufTy).Contents (Elt F)),
    binary main_arg3 main_v183 main_v184 (mulf : (⟨S4096x2, .f32⟩ : BufTy).Contents (Elt F) → (⟨S4096x2, .f32⟩ : BufTy).Contents (Elt F) → (⟨S4096x2, .f32⟩ : BufTy).Contents (Elt F)),
    nullary main_cst_16 (constant S_ .f32 0x00000000#32),
    binary main_v184 main_cst_16 main_v185 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v185 main_v186 (broadcastInDim S4096x1 ![0] bcast_S4096_S4096x1_0 : (⟨S4096, .f32⟩ : BufTy).Contents (Elt F) → (⟨S4096x1, .f32⟩ : BufTy).Contents (Elt F)),
    unary main_v186 main_v187 (broadcastInDim S4096x2048 ![0, 1] bcast_S4096x1_S4096x2048_0_1 : (⟨S4096x1, .f32⟩ : BufTy).Contents (Elt F) → (⟨S4096x2048, .f32⟩ : BufTy).Contents (Elt F)),
    binary main_v187 main_v180 main_v188 (mulf : (⟨S4096x2048, .f32⟩ : BufTy).Contents (Elt F) → (⟨S4096x2048, .f32⟩ : BufTy).Contents (Elt F) → (⟨S4096x2048, .f32⟩ : BufTy).Contents (Elt F)),
    binary main_v168 main_v188 main_v189 (addf : (⟨S4096x2048, .f32⟩ : BufTy).Contents (Elt F) → (⟨S4096x2048, .f32⟩ : BufTy).Contents (Elt F) → (⟨S4096x2048, .f32⟩ : BufTy).Contents (Elt F)),
    unary main_arg1 main_v190 ((extractStridedSlice S1x2816x2048 ![9, 0, 0] · slices_S16x2816x2048_S1x2816x2048_9_0_0) : (⟨S16x2816x2048, .f32⟩ : BufTy).Contents (Elt F) → (⟨S1x2816x2048, .f32⟩ : BufTy).Contents (Elt F)),
    reshape main_v190 main_v191 rfl shapeCasts_S1x2816x2048_S2816x2048,
    unary main_v191 main_v192 ((transpose S2048x2816 [1, 0] · transposes_S2816x2048_S2048x2816_1_0) : (⟨S2816x2048, .f32⟩ : BufTy).Contents (Elt F) → (⟨S2048x2816, .f32⟩ : BufTy).Contents (Elt F)),
    binary main_arg0 main_v192 main_v193 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v193 main_v194 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v194) (TRef.of (T := ⟨S4096x1408, .f32⟩) main_call9_v0) Host.negf,
    TRef.unary (TRef.of (T := ⟨S4096x1408, .f32⟩) main_call9_v0) (TRef.of (T := ⟨S4096x1408, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S4096x1408, .f32⟩) main_call9_v2) (broadcastInDim S4096x1408 ![] bcast_S_S4096x1408),
    TRef.binary (TRef.of (T := ⟨S4096x1408, .f32⟩) main_call9_v2) (TRef.of (T := ⟨S4096x1408, .f32⟩) main_call9_v1) (TRef.of (T := ⟨S4096x1408, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S4096x1408, .f32⟩) main_call9_v4) (broadcastInDim S4096x1408 ![] bcast_S_S4096x1408),
    TRef.binary (TRef.of (T := ⟨S4096x1408, .f32⟩) main_call9_v4) (TRef.of (T := ⟨S4096x1408, .f32⟩) main_call9_v3) (TRef.of (T := ⟨S4096x1408, .f32⟩) main_call9_v5) Host.divf,
    TRef.binary (TRef.of (T := ⟨S4096x1408, .f32⟩) main_v194) (TRef.of (T := ⟨S4096x1408, .f32⟩) main_call9_v5) (TRef.of (T := ⟨S4096x1408, .f32⟩) main_v195) mulf,
    unary main_v193 main_v196 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v195 main_v196 main_v197 (mulf : (⟨S4096x1408, .f32⟩ : BufTy).Contents (Elt F) → (⟨S4096x1408, .f32⟩ : BufTy).Contents (Elt F) → (⟨S4096x1408, .f32⟩ : BufTy).Contents (Elt F)),
    unary main_arg2 main_v198 ((extractStridedSlice S1x2048x1408 ![9, 0, 0] · slices_S16x2048x1408_S1x2048x1408_9_0_0) : (⟨S16x2048x1408, .f32⟩ : BufTy).Contents (Elt F) → (⟨S1x2048x1408, .f32⟩ : BufTy).Contents (Elt F)),
    reshape main_v198 main_v199 rfl shapeCasts_S1x2048x1408_S2048x1408,
    unary main_v199 main_v200 ((transpose S1408x2048 [1, 0] · transposes_S2048x1408_S1408x2048_1_0) : (⟨S2048x1408, .f32⟩ : BufTy).Contents (Elt F) → (⟨S1408x2048, .f32⟩ : BufTy).Contents (Elt F)),
    binary main_v197 main_v200 main_v201 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_17 (constantI S_ 32 9#32),
    unary main_c_17 main_v202 (broadcastInDim S4096x2 ![] bcast_S_S4096x2 : (⟨S_, .i32⟩ : BufTy).Contents (Elt F) → (⟨S4096x2, .i32⟩ : BufTy).Contents (Elt F)),
    binary main_arg4 main_v202 main_v203 (cmpi .eq : (⟨S4096x2, .i32⟩ : BufTy).Contents (Elt F) → (⟨S4096x2, .i32⟩ : BufTy).Contents (Elt F) → (⟨S4096x2, .i1⟩ : BufTy).Contents (Elt F)),
    unary main_v203 main_v204 (uitofp .f32 : (⟨S4096x2, .i1⟩ : BufTy).Contents (Elt F) → (⟨S4096x2, .f32⟩ : BufTy).Contents (Elt F)),
    binary main_arg3 main_v204 main_v205 (mulf : (⟨S4096x2, .f32⟩ : BufTy).Contents (Elt F) → (⟨S4096x2, .f32⟩ : BufTy).Contents (Elt F) → (⟨S4096x2, .f32⟩ : BufTy).Contents (Elt F)),
    nullary main_cst_18 (constant S_ .f32 0x00000000#32),
    binary main_v205 main_cst_18 main_v206 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v206 main_v207 (broadcastInDim S4096x1 ![0] bcast_S4096_S4096x1_0 : (⟨S4096, .f32⟩ : BufTy).Contents (Elt F) → (⟨S4096x1, .f32⟩ : BufTy).Contents (Elt F)),
    unary main_v207 main_v208 (broadcastInDim S4096x2048 ![0, 1] bcast_S4096x1_S4096x2048_0_1 : (⟨S4096x1, .f32⟩ : BufTy).Contents (Elt F) → (⟨S4096x2048, .f32⟩ : BufTy).Contents (Elt F)),
    binary main_v208 main_v201 main_v209 (mulf : (⟨S4096x2048, .f32⟩ : BufTy).Contents (Elt F) → (⟨S4096x2048, .f32⟩ : BufTy).Contents (Elt F) → (⟨S4096x2048, .f32⟩ : BufTy).Contents (Elt F)),
    binary main_v189 main_v209 main_v210 (addf : (⟨S4096x2048, .f32⟩ : BufTy).Contents (Elt F) → (⟨S4096x2048, .f32⟩ : BufTy).Contents (Elt F) → (⟨S4096x2048, .f32⟩ : BufTy).Contents (Elt F)),
    unary main_arg1 main_v211 ((extractStridedSlice S1x2816x2048 ![10, 0, 0] · slices_S16x2816x2048_S1x2816x2048_10_0_0) : (⟨S16x2816x2048, .f32⟩ : BufTy).Contents (Elt F) → (⟨S1x2816x2048, .f32⟩ : BufTy).Contents (Elt F)),
    reshape main_v211 main_v212 rfl shapeCasts_S1x2816x2048_S2816x2048,
    unary main_v212 main_v213 ((transpose S2048x2816 [1, 0] · transposes_S2816x2048_S2048x2816_1_0) : (⟨S2816x2048, .f32⟩ : BufTy).Contents (Elt F) → (⟨S2048x2816, .f32⟩ : BufTy).Contents (Elt F)),
    binary main_arg0 main_v213 main_v214 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v214 main_v215 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v215) (TRef.of (T := ⟨S4096x1408, .f32⟩) main_call10_v0) Host.negf,
    TRef.unary (TRef.of (T := ⟨S4096x1408, .f32⟩) main_call10_v0) (TRef.of (T := ⟨S4096x1408, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S4096x1408, .f32⟩) main_call10_v2) (broadcastInDim S4096x1408 ![] bcast_S_S4096x1408),
    TRef.binary (TRef.of (T := ⟨S4096x1408, .f32⟩) main_call10_v2) (TRef.of (T := ⟨S4096x1408, .f32⟩) main_call10_v1) (TRef.of (T := ⟨S4096x1408, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S4096x1408, .f32⟩) main_call10_v4) (broadcastInDim S4096x1408 ![] bcast_S_S4096x1408),
    TRef.binary (TRef.of (T := ⟨S4096x1408, .f32⟩) main_call10_v4) (TRef.of (T := ⟨S4096x1408, .f32⟩) main_call10_v3) (TRef.of (T := ⟨S4096x1408, .f32⟩) main_call10_v5) Host.divf,
    TRef.binary (TRef.of (T := ⟨S4096x1408, .f32⟩) main_v215) (TRef.of (T := ⟨S4096x1408, .f32⟩) main_call10_v5) (TRef.of (T := ⟨S4096x1408, .f32⟩) main_v216) mulf,
    unary main_v214 main_v217 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v216 main_v217 main_v218 (mulf : (⟨S4096x1408, .f32⟩ : BufTy).Contents (Elt F) → (⟨S4096x1408, .f32⟩ : BufTy).Contents (Elt F) → (⟨S4096x1408, .f32⟩ : BufTy).Contents (Elt F)) ]

set_option maxRecDepth 8192 in
set_option maxHeartbeats 4000000 in
theorem part3_eq (c : Dev nD) : main_part3 (F := F) c = seq (P3 (F := F)) := rfl

/-- Window 4's operations. -/
abbrev P4 : List (HloOp τ sig (Elt F)) :=
  [ unary main_arg2 main_v219 ((extractStridedSlice S1x2048x1408 ![10, 0, 0] · slices_S16x2048x1408_S1x2048x1408_10_0_0) : (⟨S16x2048x1408, .f32⟩ : BufTy).Contents (Elt F) → (⟨S1x2048x1408, .f32⟩ : BufTy).Contents (Elt F)),
    reshape main_v219 main_v220 rfl shapeCasts_S1x2048x1408_S2048x1408,
    unary main_v220 main_v221 ((transpose S1408x2048 [1, 0] · transposes_S2048x1408_S1408x2048_1_0) : (⟨S2048x1408, .f32⟩ : BufTy).Contents (Elt F) → (⟨S1408x2048, .f32⟩ : BufTy).Contents (Elt F)),
    binary main_v218 main_v221 main_v222 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_19 (constantI S_ 32 10#32),
    unary main_c_19 main_v223 (broadcastInDim S4096x2 ![] bcast_S_S4096x2 : (⟨S_, .i32⟩ : BufTy).Contents (Elt F) → (⟨S4096x2, .i32⟩ : BufTy).Contents (Elt F)),
    binary main_arg4 main_v223 main_v224 (cmpi .eq : (⟨S4096x2, .i32⟩ : BufTy).Contents (Elt F) → (⟨S4096x2, .i32⟩ : BufTy).Contents (Elt F) → (⟨S4096x2, .i1⟩ : BufTy).Contents (Elt F)),
    unary main_v224 main_v225 (uitofp .f32 : (⟨S4096x2, .i1⟩ : BufTy).Contents (Elt F) → (⟨S4096x2, .f32⟩ : BufTy).Contents (Elt F)),
    binary main_arg3 main_v225 main_v226 (mulf : (⟨S4096x2, .f32⟩ : BufTy).Contents (Elt F) → (⟨S4096x2, .f32⟩ : BufTy).Contents (Elt F) → (⟨S4096x2, .f32⟩ : BufTy).Contents (Elt F)),
    nullary main_cst_20 (constant S_ .f32 0x00000000#32),
    binary main_v226 main_cst_20 main_v227 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v227 main_v228 (broadcastInDim S4096x1 ![0] bcast_S4096_S4096x1_0 : (⟨S4096, .f32⟩ : BufTy).Contents (Elt F) → (⟨S4096x1, .f32⟩ : BufTy).Contents (Elt F)),
    unary main_v228 main_v229 (broadcastInDim S4096x2048 ![0, 1] bcast_S4096x1_S4096x2048_0_1 : (⟨S4096x1, .f32⟩ : BufTy).Contents (Elt F) → (⟨S4096x2048, .f32⟩ : BufTy).Contents (Elt F)),
    binary main_v229 main_v222 main_v230 (mulf : (⟨S4096x2048, .f32⟩ : BufTy).Contents (Elt F) → (⟨S4096x2048, .f32⟩ : BufTy).Contents (Elt F) → (⟨S4096x2048, .f32⟩ : BufTy).Contents (Elt F)),
    binary main_v210 main_v230 main_v231 (addf : (⟨S4096x2048, .f32⟩ : BufTy).Contents (Elt F) → (⟨S4096x2048, .f32⟩ : BufTy).Contents (Elt F) → (⟨S4096x2048, .f32⟩ : BufTy).Contents (Elt F)),
    unary main_arg1 main_v232 ((extractStridedSlice S1x2816x2048 ![11, 0, 0] · slices_S16x2816x2048_S1x2816x2048_11_0_0) : (⟨S16x2816x2048, .f32⟩ : BufTy).Contents (Elt F) → (⟨S1x2816x2048, .f32⟩ : BufTy).Contents (Elt F)),
    reshape main_v232 main_v233 rfl shapeCasts_S1x2816x2048_S2816x2048,
    unary main_v233 main_v234 ((transpose S2048x2816 [1, 0] · transposes_S2816x2048_S2048x2816_1_0) : (⟨S2816x2048, .f32⟩ : BufTy).Contents (Elt F) → (⟨S2048x2816, .f32⟩ : BufTy).Contents (Elt F)),
    binary main_arg0 main_v234 main_v235 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v235 main_v236 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v236) (TRef.of (T := ⟨S4096x1408, .f32⟩) main_call11_v0) Host.negf,
    TRef.unary (TRef.of (T := ⟨S4096x1408, .f32⟩) main_call11_v0) (TRef.of (T := ⟨S4096x1408, .f32⟩) main_call11_v1) Host.exp,
    TRef.nullary (TRef.of (T := ⟨S_, .f32⟩) main_call11_cst) (constant S_ .f32 0x3F800000#32),
    TRef.unary (TRef.of (T := ⟨S_, .f32⟩) main_call11_cst) (TRef.of (T := ⟨S4096x1408, .f32⟩) main_call11_v2) (broadcastInDim S4096x1408 ![] bcast_S_S4096x1408),
    TRef.binary (TRef.of (T := ⟨S4096x1408, .f32⟩) main_call11_v2) (TRef.of (T := ⟨S4096x1408, .f32⟩) main_call11_v1) (TRef.of (T := ⟨S4096x1408, .f32⟩) main_call11_v3) addf,
    TRef.nullary (TRef.of (T := ⟨S_, .f32⟩) main_call11_cst_0) (constant S_ .f32 0x3F800000#32),
    TRef.unary (TRef.of (T := ⟨S_, .f32⟩) main_call11_cst_0) (TRef.of (T := ⟨S4096x1408, .f32⟩) main_call11_v4) (broadcastInDim S4096x1408 ![] bcast_S_S4096x1408),
    TRef.binary (TRef.of (T := ⟨S4096x1408, .f32⟩) main_call11_v4) (TRef.of (T := ⟨S4096x1408, .f32⟩) main_call11_v3) (TRef.of (T := ⟨S4096x1408, .f32⟩) main_call11_v5) Host.divf,
    TRef.binary (TRef.of (T := ⟨S4096x1408, .f32⟩) main_v236) (TRef.of (T := ⟨S4096x1408, .f32⟩) main_call11_v5) (TRef.of (T := ⟨S4096x1408, .f32⟩) main_v237) mulf,
    unary main_v235 main_v238 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v237 main_v238 main_v239 (mulf : (⟨S4096x1408, .f32⟩ : BufTy).Contents (Elt F) → (⟨S4096x1408, .f32⟩ : BufTy).Contents (Elt F) → (⟨S4096x1408, .f32⟩ : BufTy).Contents (Elt F)),
    unary main_arg2 main_v240 ((extractStridedSlice S1x2048x1408 ![11, 0, 0] · slices_S16x2048x1408_S1x2048x1408_11_0_0) : (⟨S16x2048x1408, .f32⟩ : BufTy).Contents (Elt F) → (⟨S1x2048x1408, .f32⟩ : BufTy).Contents (Elt F)),
    reshape main_v240 main_v241 rfl shapeCasts_S1x2048x1408_S2048x1408,
    unary main_v241 main_v242 ((transpose S1408x2048 [1, 0] · transposes_S2048x1408_S1408x2048_1_0) : (⟨S2048x1408, .f32⟩ : BufTy).Contents (Elt F) → (⟨S1408x2048, .f32⟩ : BufTy).Contents (Elt F)),
    binary main_v239 main_v242 main_v243 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_21 (constantI S_ 32 11#32),
    unary main_c_21 main_v244 (broadcastInDim S4096x2 ![] bcast_S_S4096x2 : (⟨S_, .i32⟩ : BufTy).Contents (Elt F) → (⟨S4096x2, .i32⟩ : BufTy).Contents (Elt F)),
    binary main_arg4 main_v244 main_v245 (cmpi .eq : (⟨S4096x2, .i32⟩ : BufTy).Contents (Elt F) → (⟨S4096x2, .i32⟩ : BufTy).Contents (Elt F) → (⟨S4096x2, .i1⟩ : BufTy).Contents (Elt F)),
    unary main_v245 main_v246 (uitofp .f32 : (⟨S4096x2, .i1⟩ : BufTy).Contents (Elt F) → (⟨S4096x2, .f32⟩ : BufTy).Contents (Elt F)),
    binary main_arg3 main_v246 main_v247 (mulf : (⟨S4096x2, .f32⟩ : BufTy).Contents (Elt F) → (⟨S4096x2, .f32⟩ : BufTy).Contents (Elt F) → (⟨S4096x2, .f32⟩ : BufTy).Contents (Elt F)),
    nullary main_cst_22 (constant S_ .f32 0x00000000#32),
    binary main_v247 main_cst_22 main_v248 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v248 main_v249 (broadcastInDim S4096x1 ![0] bcast_S4096_S4096x1_0 : (⟨S4096, .f32⟩ : BufTy).Contents (Elt F) → (⟨S4096x1, .f32⟩ : BufTy).Contents (Elt F)),
    unary main_v249 main_v250 (broadcastInDim S4096x2048 ![0, 1] bcast_S4096x1_S4096x2048_0_1 : (⟨S4096x1, .f32⟩ : BufTy).Contents (Elt F) → (⟨S4096x2048, .f32⟩ : BufTy).Contents (Elt F)),
    binary main_v250 main_v243 main_v251 (mulf : (⟨S4096x2048, .f32⟩ : BufTy).Contents (Elt F) → (⟨S4096x2048, .f32⟩ : BufTy).Contents (Elt F) → (⟨S4096x2048, .f32⟩ : BufTy).Contents (Elt F)),
    binary main_v231 main_v251 main_v252 (addf : (⟨S4096x2048, .f32⟩ : BufTy).Contents (Elt F) → (⟨S4096x2048, .f32⟩ : BufTy).Contents (Elt F) → (⟨S4096x2048, .f32⟩ : BufTy).Contents (Elt F)),
    unary main_arg1 main_v253 ((extractStridedSlice S1x2816x2048 ![12, 0, 0] · slices_S16x2816x2048_S1x2816x2048_12_0_0) : (⟨S16x2816x2048, .f32⟩ : BufTy).Contents (Elt F) → (⟨S1x2816x2048, .f32⟩ : BufTy).Contents (Elt F)),
    reshape main_v253 main_v254 rfl shapeCasts_S1x2816x2048_S2816x2048,
    unary main_v254 main_v255 ((transpose S2048x2816 [1, 0] · transposes_S2816x2048_S2048x2816_1_0) : (⟨S2816x2048, .f32⟩ : BufTy).Contents (Elt F) → (⟨S2048x2816, .f32⟩ : BufTy).Contents (Elt F)),
    binary main_arg0 main_v255 main_v256 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v256 main_v257 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v257) (TRef.of (T := ⟨S4096x1408, .f32⟩) main_call12_v0) Host.negf,
    TRef.unary (TRef.of (T := ⟨S4096x1408, .f32⟩) main_call12_v0) (TRef.of (T := ⟨S4096x1408, .f32⟩) main_call12_v1) Host.exp,
    TRef.nullary (TRef.of (T := ⟨S_, .f32⟩) main_call12_cst) (constant S_ .f32 0x3F800000#32),
    TRef.unary (TRef.of (T := ⟨S_, .f32⟩) main_call12_cst) (TRef.of (T := ⟨S4096x1408, .f32⟩) main_call12_v2) (broadcastInDim S4096x1408 ![] bcast_S_S4096x1408),
    TRef.binary (TRef.of (T := ⟨S4096x1408, .f32⟩) main_call12_v2) (TRef.of (T := ⟨S4096x1408, .f32⟩) main_call12_v1) (TRef.of (T := ⟨S4096x1408, .f32⟩) main_call12_v3) addf,
    TRef.nullary (TRef.of (T := ⟨S_, .f32⟩) main_call12_cst_0) (constant S_ .f32 0x3F800000#32),
    TRef.unary (TRef.of (T := ⟨S_, .f32⟩) main_call12_cst_0) (TRef.of (T := ⟨S4096x1408, .f32⟩) main_call12_v4) (broadcastInDim S4096x1408 ![] bcast_S_S4096x1408),
    TRef.binary (TRef.of (T := ⟨S4096x1408, .f32⟩) main_call12_v4) (TRef.of (T := ⟨S4096x1408, .f32⟩) main_call12_v3) (TRef.of (T := ⟨S4096x1408, .f32⟩) main_call12_v5) Host.divf,
    TRef.binary (TRef.of (T := ⟨S4096x1408, .f32⟩) main_v257) (TRef.of (T := ⟨S4096x1408, .f32⟩) main_call12_v5) (TRef.of (T := ⟨S4096x1408, .f32⟩) main_v258) mulf,
    unary main_v256 main_v259 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v258 main_v259 main_v260 (mulf : (⟨S4096x1408, .f32⟩ : BufTy).Contents (Elt F) → (⟨S4096x1408, .f32⟩ : BufTy).Contents (Elt F) → (⟨S4096x1408, .f32⟩ : BufTy).Contents (Elt F)),
    unary main_arg2 main_v261 ((extractStridedSlice S1x2048x1408 ![12, 0, 0] · slices_S16x2048x1408_S1x2048x1408_12_0_0) : (⟨S16x2048x1408, .f32⟩ : BufTy).Contents (Elt F) → (⟨S1x2048x1408, .f32⟩ : BufTy).Contents (Elt F)),
    reshape main_v261 main_v262 rfl shapeCasts_S1x2048x1408_S2048x1408,
    unary main_v262 main_v263 ((transpose S1408x2048 [1, 0] · transposes_S2048x1408_S1408x2048_1_0) : (⟨S2048x1408, .f32⟩ : BufTy).Contents (Elt F) → (⟨S1408x2048, .f32⟩ : BufTy).Contents (Elt F)),
    binary main_v260 main_v263 main_v264 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_23 (constantI S_ 32 12#32),
    unary main_c_23 main_v265 (broadcastInDim S4096x2 ![] bcast_S_S4096x2 : (⟨S_, .i32⟩ : BufTy).Contents (Elt F) → (⟨S4096x2, .i32⟩ : BufTy).Contents (Elt F)),
    binary main_arg4 main_v265 main_v266 (cmpi .eq : (⟨S4096x2, .i32⟩ : BufTy).Contents (Elt F) → (⟨S4096x2, .i32⟩ : BufTy).Contents (Elt F) → (⟨S4096x2, .i1⟩ : BufTy).Contents (Elt F)),
    unary main_v266 main_v267 (uitofp .f32 : (⟨S4096x2, .i1⟩ : BufTy).Contents (Elt F) → (⟨S4096x2, .f32⟩ : BufTy).Contents (Elt F)),
    binary main_arg3 main_v267 main_v268 (mulf : (⟨S4096x2, .f32⟩ : BufTy).Contents (Elt F) → (⟨S4096x2, .f32⟩ : BufTy).Contents (Elt F) → (⟨S4096x2, .f32⟩ : BufTy).Contents (Elt F)),
    nullary main_cst_24 (constant S_ .f32 0x00000000#32),
    binary main_v268 main_cst_24 main_v269 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v269 main_v270 (broadcastInDim S4096x1 ![0] bcast_S4096_S4096x1_0 : (⟨S4096, .f32⟩ : BufTy).Contents (Elt F) → (⟨S4096x1, .f32⟩ : BufTy).Contents (Elt F)),
    unary main_v270 main_v271 (broadcastInDim S4096x2048 ![0, 1] bcast_S4096x1_S4096x2048_0_1 : (⟨S4096x1, .f32⟩ : BufTy).Contents (Elt F) → (⟨S4096x2048, .f32⟩ : BufTy).Contents (Elt F)),
    binary main_v271 main_v264 main_v272 (mulf : (⟨S4096x2048, .f32⟩ : BufTy).Contents (Elt F) → (⟨S4096x2048, .f32⟩ : BufTy).Contents (Elt F) → (⟨S4096x2048, .f32⟩ : BufTy).Contents (Elt F)) ]

set_option maxRecDepth 8192 in
set_option maxHeartbeats 4000000 in
theorem part4_eq (c : Dev nD) : main_part4 (F := F) c = seq (P4 (F := F)) := rfl

/-- Window 5's operations. -/
abbrev P5 : List (HloOp τ sig (Elt F)) :=
  [ binary main_v252 main_v272 main_v273 (addf : (⟨S4096x2048, .f32⟩ : BufTy).Contents (Elt F) → (⟨S4096x2048, .f32⟩ : BufTy).Contents (Elt F) → (⟨S4096x2048, .f32⟩ : BufTy).Contents (Elt F)),
    unary main_arg1 main_v274 ((extractStridedSlice S1x2816x2048 ![13, 0, 0] · slices_S16x2816x2048_S1x2816x2048_13_0_0) : (⟨S16x2816x2048, .f32⟩ : BufTy).Contents (Elt F) → (⟨S1x2816x2048, .f32⟩ : BufTy).Contents (Elt F)),
    reshape main_v274 main_v275 rfl shapeCasts_S1x2816x2048_S2816x2048,
    unary main_v275 main_v276 ((transpose S2048x2816 [1, 0] · transposes_S2816x2048_S2048x2816_1_0) : (⟨S2816x2048, .f32⟩ : BufTy).Contents (Elt F) → (⟨S2048x2816, .f32⟩ : BufTy).Contents (Elt F)),
    binary main_arg0 main_v276 main_v277 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v277 main_v278 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v278) (TRef.of (T := ⟨S4096x1408, .f32⟩) main_call13_v0) Host.negf,
    TRef.unary (TRef.of (T := ⟨S4096x1408, .f32⟩) main_call13_v0) (TRef.of (T := ⟨S4096x1408, .f32⟩) main_call13_v1) Host.exp,
    TRef.nullary (TRef.of (T := ⟨S_, .f32⟩) main_call13_cst) (constant S_ .f32 0x3F800000#32),
    TRef.unary (TRef.of (T := ⟨S_, .f32⟩) main_call13_cst) (TRef.of (T := ⟨S4096x1408, .f32⟩) main_call13_v2) (broadcastInDim S4096x1408 ![] bcast_S_S4096x1408),
    TRef.binary (TRef.of (T := ⟨S4096x1408, .f32⟩) main_call13_v2) (TRef.of (T := ⟨S4096x1408, .f32⟩) main_call13_v1) (TRef.of (T := ⟨S4096x1408, .f32⟩) main_call13_v3) addf,
    TRef.nullary (TRef.of (T := ⟨S_, .f32⟩) main_call13_cst_0) (constant S_ .f32 0x3F800000#32),
    TRef.unary (TRef.of (T := ⟨S_, .f32⟩) main_call13_cst_0) (TRef.of (T := ⟨S4096x1408, .f32⟩) main_call13_v4) (broadcastInDim S4096x1408 ![] bcast_S_S4096x1408),
    TRef.binary (TRef.of (T := ⟨S4096x1408, .f32⟩) main_call13_v4) (TRef.of (T := ⟨S4096x1408, .f32⟩) main_call13_v3) (TRef.of (T := ⟨S4096x1408, .f32⟩) main_call13_v5) Host.divf,
    TRef.binary (TRef.of (T := ⟨S4096x1408, .f32⟩) main_v278) (TRef.of (T := ⟨S4096x1408, .f32⟩) main_call13_v5) (TRef.of (T := ⟨S4096x1408, .f32⟩) main_v279) mulf,
    unary main_v277 main_v280 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v279 main_v280 main_v281 (mulf : (⟨S4096x1408, .f32⟩ : BufTy).Contents (Elt F) → (⟨S4096x1408, .f32⟩ : BufTy).Contents (Elt F) → (⟨S4096x1408, .f32⟩ : BufTy).Contents (Elt F)),
    unary main_arg2 main_v282 ((extractStridedSlice S1x2048x1408 ![13, 0, 0] · slices_S16x2048x1408_S1x2048x1408_13_0_0) : (⟨S16x2048x1408, .f32⟩ : BufTy).Contents (Elt F) → (⟨S1x2048x1408, .f32⟩ : BufTy).Contents (Elt F)),
    reshape main_v282 main_v283 rfl shapeCasts_S1x2048x1408_S2048x1408,
    unary main_v283 main_v284 ((transpose S1408x2048 [1, 0] · transposes_S2048x1408_S1408x2048_1_0) : (⟨S2048x1408, .f32⟩ : BufTy).Contents (Elt F) → (⟨S1408x2048, .f32⟩ : BufTy).Contents (Elt F)),
    binary main_v281 main_v284 main_v285 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_25 (constantI S_ 32 13#32),
    unary main_c_25 main_v286 (broadcastInDim S4096x2 ![] bcast_S_S4096x2 : (⟨S_, .i32⟩ : BufTy).Contents (Elt F) → (⟨S4096x2, .i32⟩ : BufTy).Contents (Elt F)),
    binary main_arg4 main_v286 main_v287 (cmpi .eq : (⟨S4096x2, .i32⟩ : BufTy).Contents (Elt F) → (⟨S4096x2, .i32⟩ : BufTy).Contents (Elt F) → (⟨S4096x2, .i1⟩ : BufTy).Contents (Elt F)),
    unary main_v287 main_v288 (uitofp .f32 : (⟨S4096x2, .i1⟩ : BufTy).Contents (Elt F) → (⟨S4096x2, .f32⟩ : BufTy).Contents (Elt F)),
    binary main_arg3 main_v288 main_v289 (mulf : (⟨S4096x2, .f32⟩ : BufTy).Contents (Elt F) → (⟨S4096x2, .f32⟩ : BufTy).Contents (Elt F) → (⟨S4096x2, .f32⟩ : BufTy).Contents (Elt F)),
    nullary main_cst_26 (constant S_ .f32 0x00000000#32),
    binary main_v289 main_cst_26 main_v290 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v290 main_v291 (broadcastInDim S4096x1 ![0] bcast_S4096_S4096x1_0 : (⟨S4096, .f32⟩ : BufTy).Contents (Elt F) → (⟨S4096x1, .f32⟩ : BufTy).Contents (Elt F)),
    unary main_v291 main_v292 (broadcastInDim S4096x2048 ![0, 1] bcast_S4096x1_S4096x2048_0_1 : (⟨S4096x1, .f32⟩ : BufTy).Contents (Elt F) → (⟨S4096x2048, .f32⟩ : BufTy).Contents (Elt F)),
    binary main_v292 main_v285 main_v293 (mulf : (⟨S4096x2048, .f32⟩ : BufTy).Contents (Elt F) → (⟨S4096x2048, .f32⟩ : BufTy).Contents (Elt F) → (⟨S4096x2048, .f32⟩ : BufTy).Contents (Elt F)),
    binary main_v273 main_v293 main_v294 (addf : (⟨S4096x2048, .f32⟩ : BufTy).Contents (Elt F) → (⟨S4096x2048, .f32⟩ : BufTy).Contents (Elt F) → (⟨S4096x2048, .f32⟩ : BufTy).Contents (Elt F)),
    unary main_arg1 main_v295 ((extractStridedSlice S1x2816x2048 ![14, 0, 0] · slices_S16x2816x2048_S1x2816x2048_14_0_0) : (⟨S16x2816x2048, .f32⟩ : BufTy).Contents (Elt F) → (⟨S1x2816x2048, .f32⟩ : BufTy).Contents (Elt F)),
    reshape main_v295 main_v296 rfl shapeCasts_S1x2816x2048_S2816x2048,
    unary main_v296 main_v297 ((transpose S2048x2816 [1, 0] · transposes_S2816x2048_S2048x2816_1_0) : (⟨S2816x2048, .f32⟩ : BufTy).Contents (Elt F) → (⟨S2048x2816, .f32⟩ : BufTy).Contents (Elt F)),
    binary main_arg0 main_v297 main_v298 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v298 main_v299 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v299) (TRef.of (T := ⟨S4096x1408, .f32⟩) main_call14_v0) Host.negf,
    TRef.unary (TRef.of (T := ⟨S4096x1408, .f32⟩) main_call14_v0) (TRef.of (T := ⟨S4096x1408, .f32⟩) main_call14_v1) Host.exp,
    TRef.nullary (TRef.of (T := ⟨S_, .f32⟩) main_call14_cst) (constant S_ .f32 0x3F800000#32),
    TRef.unary (TRef.of (T := ⟨S_, .f32⟩) main_call14_cst) (TRef.of (T := ⟨S4096x1408, .f32⟩) main_call14_v2) (broadcastInDim S4096x1408 ![] bcast_S_S4096x1408),
    TRef.binary (TRef.of (T := ⟨S4096x1408, .f32⟩) main_call14_v2) (TRef.of (T := ⟨S4096x1408, .f32⟩) main_call14_v1) (TRef.of (T := ⟨S4096x1408, .f32⟩) main_call14_v3) addf,
    TRef.nullary (TRef.of (T := ⟨S_, .f32⟩) main_call14_cst_0) (constant S_ .f32 0x3F800000#32),
    TRef.unary (TRef.of (T := ⟨S_, .f32⟩) main_call14_cst_0) (TRef.of (T := ⟨S4096x1408, .f32⟩) main_call14_v4) (broadcastInDim S4096x1408 ![] bcast_S_S4096x1408),
    TRef.binary (TRef.of (T := ⟨S4096x1408, .f32⟩) main_call14_v4) (TRef.of (T := ⟨S4096x1408, .f32⟩) main_call14_v3) (TRef.of (T := ⟨S4096x1408, .f32⟩) main_call14_v5) Host.divf,
    TRef.binary (TRef.of (T := ⟨S4096x1408, .f32⟩) main_v299) (TRef.of (T := ⟨S4096x1408, .f32⟩) main_call14_v5) (TRef.of (T := ⟨S4096x1408, .f32⟩) main_v300) mulf,
    unary main_v298 main_v301 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v300 main_v301 main_v302 (mulf : (⟨S4096x1408, .f32⟩ : BufTy).Contents (Elt F) → (⟨S4096x1408, .f32⟩ : BufTy).Contents (Elt F) → (⟨S4096x1408, .f32⟩ : BufTy).Contents (Elt F)),
    unary main_arg2 main_v303 ((extractStridedSlice S1x2048x1408 ![14, 0, 0] · slices_S16x2048x1408_S1x2048x1408_14_0_0) : (⟨S16x2048x1408, .f32⟩ : BufTy).Contents (Elt F) → (⟨S1x2048x1408, .f32⟩ : BufTy).Contents (Elt F)),
    reshape main_v303 main_v304 rfl shapeCasts_S1x2048x1408_S2048x1408,
    unary main_v304 main_v305 ((transpose S1408x2048 [1, 0] · transposes_S2048x1408_S1408x2048_1_0) : (⟨S2048x1408, .f32⟩ : BufTy).Contents (Elt F) → (⟨S1408x2048, .f32⟩ : BufTy).Contents (Elt F)),
    binary main_v302 main_v305 main_v306 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_27 (constantI S_ 32 14#32),
    unary main_c_27 main_v307 (broadcastInDim S4096x2 ![] bcast_S_S4096x2 : (⟨S_, .i32⟩ : BufTy).Contents (Elt F) → (⟨S4096x2, .i32⟩ : BufTy).Contents (Elt F)),
    binary main_arg4 main_v307 main_v308 (cmpi .eq : (⟨S4096x2, .i32⟩ : BufTy).Contents (Elt F) → (⟨S4096x2, .i32⟩ : BufTy).Contents (Elt F) → (⟨S4096x2, .i1⟩ : BufTy).Contents (Elt F)),
    unary main_v308 main_v309 (uitofp .f32 : (⟨S4096x2, .i1⟩ : BufTy).Contents (Elt F) → (⟨S4096x2, .f32⟩ : BufTy).Contents (Elt F)),
    binary main_arg3 main_v309 main_v310 (mulf : (⟨S4096x2, .f32⟩ : BufTy).Contents (Elt F) → (⟨S4096x2, .f32⟩ : BufTy).Contents (Elt F) → (⟨S4096x2, .f32⟩ : BufTy).Contents (Elt F)),
    nullary main_cst_28 (constant S_ .f32 0x00000000#32),
    binary main_v310 main_cst_28 main_v311 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v311 main_v312 (broadcastInDim S4096x1 ![0] bcast_S4096_S4096x1_0 : (⟨S4096, .f32⟩ : BufTy).Contents (Elt F) → (⟨S4096x1, .f32⟩ : BufTy).Contents (Elt F)),
    unary main_v312 main_v313 (broadcastInDim S4096x2048 ![0, 1] bcast_S4096x1_S4096x2048_0_1 : (⟨S4096x1, .f32⟩ : BufTy).Contents (Elt F) → (⟨S4096x2048, .f32⟩ : BufTy).Contents (Elt F)),
    binary main_v313 main_v306 main_v314 (mulf : (⟨S4096x2048, .f32⟩ : BufTy).Contents (Elt F) → (⟨S4096x2048, .f32⟩ : BufTy).Contents (Elt F) → (⟨S4096x2048, .f32⟩ : BufTy).Contents (Elt F)),
    binary main_v294 main_v314 main_v315 (addf : (⟨S4096x2048, .f32⟩ : BufTy).Contents (Elt F) → (⟨S4096x2048, .f32⟩ : BufTy).Contents (Elt F) → (⟨S4096x2048, .f32⟩ : BufTy).Contents (Elt F)),
    unary main_arg1 main_v316 ((extractStridedSlice S1x2816x2048 ![15, 0, 0] · slices_S16x2816x2048_S1x2816x2048_15_0_0) : (⟨S16x2816x2048, .f32⟩ : BufTy).Contents (Elt F) → (⟨S1x2816x2048, .f32⟩ : BufTy).Contents (Elt F)),
    reshape main_v316 main_v317 rfl shapeCasts_S1x2816x2048_S2816x2048,
    unary main_v317 main_v318 ((transpose S2048x2816 [1, 0] · transposes_S2816x2048_S2048x2816_1_0) : (⟨S2816x2048, .f32⟩ : BufTy).Contents (Elt F) → (⟨S2048x2816, .f32⟩ : BufTy).Contents (Elt F)),
    binary main_arg0 main_v318 main_v319 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v319 main_v320 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v320) (TRef.of (T := ⟨S4096x1408, .f32⟩) main_call15_v0) Host.negf,
    TRef.unary (TRef.of (T := ⟨S4096x1408, .f32⟩) main_call15_v0) (TRef.of (T := ⟨S4096x1408, .f32⟩) main_call15_v1) Host.exp,
    TRef.nullary (TRef.of (T := ⟨S_, .f32⟩) main_call15_cst) (constant S_ .f32 0x3F800000#32),
    TRef.unary (TRef.of (T := ⟨S_, .f32⟩) main_call15_cst) (TRef.of (T := ⟨S4096x1408, .f32⟩) main_call15_v2) (broadcastInDim S4096x1408 ![] bcast_S_S4096x1408),
    TRef.binary (TRef.of (T := ⟨S4096x1408, .f32⟩) main_call15_v2) (TRef.of (T := ⟨S4096x1408, .f32⟩) main_call15_v1) (TRef.of (T := ⟨S4096x1408, .f32⟩) main_call15_v3) addf,
    TRef.nullary (TRef.of (T := ⟨S_, .f32⟩) main_call15_cst_0) (constant S_ .f32 0x3F800000#32),
    TRef.unary (TRef.of (T := ⟨S_, .f32⟩) main_call15_cst_0) (TRef.of (T := ⟨S4096x1408, .f32⟩) main_call15_v4) (broadcastInDim S4096x1408 ![] bcast_S_S4096x1408),
    TRef.binary (TRef.of (T := ⟨S4096x1408, .f32⟩) main_call15_v4) (TRef.of (T := ⟨S4096x1408, .f32⟩) main_call15_v3) (TRef.of (T := ⟨S4096x1408, .f32⟩) main_call15_v5) Host.divf,
    TRef.binary (TRef.of (T := ⟨S4096x1408, .f32⟩) main_v320) (TRef.of (T := ⟨S4096x1408, .f32⟩) main_call15_v5) (TRef.of (T := ⟨S4096x1408, .f32⟩) main_v321) mulf,
    unary main_v319 main_v322 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v321 main_v322 main_v323 (mulf : (⟨S4096x1408, .f32⟩ : BufTy).Contents (Elt F) → (⟨S4096x1408, .f32⟩ : BufTy).Contents (Elt F) → (⟨S4096x1408, .f32⟩ : BufTy).Contents (Elt F)),
    unary main_arg2 main_v324 ((extractStridedSlice S1x2048x1408 ![15, 0, 0] · slices_S16x2048x1408_S1x2048x1408_15_0_0) : (⟨S16x2048x1408, .f32⟩ : BufTy).Contents (Elt F) → (⟨S1x2048x1408, .f32⟩ : BufTy).Contents (Elt F)),
    reshape main_v324 main_v325 rfl shapeCasts_S1x2048x1408_S2048x1408,
    unary main_v325 main_v326 ((transpose S1408x2048 [1, 0] · transposes_S2048x1408_S1408x2048_1_0) : (⟨S2048x1408, .f32⟩ : BufTy).Contents (Elt F) → (⟨S1408x2048, .f32⟩ : BufTy).Contents (Elt F)),
    binary main_v323 main_v326 main_v327 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_29 (constantI S_ 32 15#32) ]

set_option maxRecDepth 8192 in
set_option maxHeartbeats 4000000 in
theorem part5_eq (c : Dev nD) : main_part5 (F := F) c = seq (P5 (F := F)) := rfl

/-- Window 6's operations. -/
abbrev P6 : List (HloOp τ sig (Elt F)) :=
  [ unary main_c_29 main_v328 (broadcastInDim S4096x2 ![] bcast_S_S4096x2 : (⟨S_, .i32⟩ : BufTy).Contents (Elt F) → (⟨S4096x2, .i32⟩ : BufTy).Contents (Elt F)),
    binary main_arg4 main_v328 main_v329 (cmpi .eq : (⟨S4096x2, .i32⟩ : BufTy).Contents (Elt F) → (⟨S4096x2, .i32⟩ : BufTy).Contents (Elt F) → (⟨S4096x2, .i1⟩ : BufTy).Contents (Elt F)),
    unary main_v329 main_v330 (uitofp .f32 : (⟨S4096x2, .i1⟩ : BufTy).Contents (Elt F) → (⟨S4096x2, .f32⟩ : BufTy).Contents (Elt F)),
    binary main_arg3 main_v330 main_v331 (mulf : (⟨S4096x2, .f32⟩ : BufTy).Contents (Elt F) → (⟨S4096x2, .f32⟩ : BufTy).Contents (Elt F) → (⟨S4096x2, .f32⟩ : BufTy).Contents (Elt F)),
    nullary main_cst_30 (constant S_ .f32 0x00000000#32),
    binary main_v331 main_cst_30 main_v332 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v332 main_v333 (broadcastInDim S4096x1 ![0] bcast_S4096_S4096x1_0 : (⟨S4096, .f32⟩ : BufTy).Contents (Elt F) → (⟨S4096x1, .f32⟩ : BufTy).Contents (Elt F)),
    unary main_v333 main_v334 (broadcastInDim S4096x2048 ![0, 1] bcast_S4096x1_S4096x2048_0_1 : (⟨S4096x1, .f32⟩ : BufTy).Contents (Elt F) → (⟨S4096x2048, .f32⟩ : BufTy).Contents (Elt F)),
    binary main_v334 main_v327 main_v335 (mulf : (⟨S4096x2048, .f32⟩ : BufTy).Contents (Elt F) → (⟨S4096x2048, .f32⟩ : BufTy).Contents (Elt F) → (⟨S4096x2048, .f32⟩ : BufTy).Contents (Elt F)),
    binary main_v315 main_v335 main_v336 (addf : (⟨S4096x2048, .f32⟩ : BufTy).Contents (Elt F) → (⟨S4096x2048, .f32⟩ : BufTy).Contents (Elt F) → (⟨S4096x2048, .f32⟩ : BufTy).Contents (Elt F)) ]

set_option maxRecDepth 8192 in
set_option maxHeartbeats 4000000 in
theorem part6_eq (c : Dev nD) : main_part6 (F := F) c = seq (P6 (F := F)) := rfl

end Cert.Moe.RefRun

end
-- ==== Proof.RefMain.lean ====
/-
  The reference program is the straight line of its operations, and its run is their fold.

  The program is printed in seven windows; the specification of its run is stated expert by expert.  The two cuts of
  the same straight line are reconciled piece by piece: each window is some whole experts' stretches, preceded and
  followed by the halves (`E·a`, `E·b`) of the experts a window boundary cuts, and the rest is the associativity of
  concatenation.  So the printed program is `seq whole`, with `whole` the zero array's operations followed by the experts' stretches
  (`R k`: experts `k` to 15, nested to the right), and every weakly fair execution of it terminates with each
  buffer at the fold of those operations over the launch contents.
-/
import proofs.«156857_j4587025072789_1_alg».proof.Proof.RefOps
import proofs.«156857_j4587025072789_1_alg».proof.Proof.RefParts

noncomputable section

namespace Cert.Moe.RefRun

open Cert.ReferenceIdeal Cert.ReferenceIdeal.Gen Idealize.ShloMosaic Idealize.ShloMosaic.TcCoe Idealize.SL.Sem Idealize.ShloMosaic.StableHlo

variable {F : FTy → Type} [FloatOps F]

/-! ## The experts a window boundary cuts, in their two halves -/

abbrev E2a : List (HloOp τ sig (Elt F)) :=
  [ unary main_arg1 main_v43 ((extractStridedSlice S1x2816x2048 ![2, 0, 0] · slices_S16x2816x2048_S1x2816x2048_2_0_0) : (⟨S16x2816x2048, .f32⟩ : BufTy).Contents (Elt F) → (⟨S1x2816x2048, .f32⟩ : BufTy).Contents (Elt F)),
    reshape main_v43 main_v44 rfl shapeCasts_S1x2816x2048_S2816x2048,
    unary main_v44 main_v45 ((transpose S2048x2816 [1, 0] · transposes_S2816x2048_S2048x2816_1_0) : (⟨S2816x2048, .f32⟩ : BufTy).Contents (Elt F) → (⟨S2048x2816, .f32⟩ : BufTy).Contents (Elt F)),
    binary main_arg0 main_v45 main_v46 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v46 main_v47 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v47) (TRef.of (T := ⟨S4096x1408, .f32⟩) main_call2_v0) Host.negf,
    TRef.unary (TRef.of (T := ⟨S4096x1408, .f32⟩) main_call2_v0) (TRef.of (T := ⟨S4096x1408, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4096x1408, .f32⟩) main_call2_v2) (broadcastInDim S4096x1408 ![] bcast_S_S4096x1408),
    TRef.binary (TRef.of (T := ⟨S4096x1408, .f32⟩) main_call2_v2) (TRef.of (T := ⟨S4096x1408, .f32⟩) main_call2_v1) (TRef.of (T := ⟨S4096x1408, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4096x1408, .f32⟩) main_call2_v4) (broadcastInDim S4096x1408 ![] bcast_S_S4096x1408),
    TRef.binary (TRef.of (T := ⟨S4096x1408, .f32⟩) main_call2_v4) (TRef.of (T := ⟨S4096x1408, .f32⟩) main_call2_v3) (TRef.of (T := ⟨S4096x1408, .f32⟩) main_call2_v5) Host.divf,
    TRef.binary (TRef.of (T := ⟨S4096x1408, .f32⟩) main_v47) (TRef.of (T := ⟨S4096x1408, .f32⟩) main_call2_v5) (TRef.of (T := ⟨S4096x1408, .f32⟩) main_v48) mulf,
    unary main_v46 main_v49 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v48 main_v49 main_v50 (mulf : (⟨S4096x1408, .f32⟩ : BufTy).Contents (Elt F) → (⟨S4096x1408, .f32⟩ : BufTy).Contents (Elt F) → (⟨S4096x1408, .f32⟩ : BufTy).Contents (Elt F)),
    unary main_arg2 main_v51 ((extractStridedSlice S1x2048x1408 ![2, 0, 0] · slices_S16x2048x1408_S1x2048x1408_2_0_0) : (⟨S16x2048x1408, .f32⟩ : BufTy).Contents (Elt F) → (⟨S1x2048x1408, .f32⟩ : BufTy).Contents (Elt F)),
    reshape main_v51 main_v52 rfl shapeCasts_S1x2048x1408_S2048x1408,
    unary main_v52 main_v53 ((transpose S1408x2048 [1, 0] · transposes_S2048x1408_S1408x2048_1_0) : (⟨S2048x1408, .f32⟩ : BufTy).Contents (Elt F) → (⟨S1408x2048, .f32⟩ : BufTy).Contents (Elt F)),
    binary main_v50 main_v53 main_v54 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)) ]
abbrev E2b : List (HloOp τ sig (Elt F)) :=
  [ nullary main_c_3 (constantI S_ 32 2#32),
    unary main_c_3 main_v55 (broadcastInDim S4096x2 ![] bcast_S_S4096x2 : (⟨S_, .i32⟩ : BufTy).Contents (Elt F) → (⟨S4096x2, .i32⟩ : BufTy).Contents (Elt F)),
    binary main_arg4 main_v55 main_v56 (cmpi .eq : (⟨S4096x2, .i32⟩ : BufTy).Contents (Elt F) → (⟨S4096x2, .i32⟩ : BufTy).Contents (Elt F) → (⟨S4096x2, .i1⟩ : BufTy).Contents (Elt F)),
    unary main_v56 main_v57 (uitofp .f32 : (⟨S4096x2, .i1⟩ : BufTy).Contents (Elt F) → (⟨S4096x2, .f32⟩ : BufTy).Contents (Elt F)),
    binary main_arg3 main_v57 main_v58 (mulf : (⟨S4096x2, .f32⟩ : BufTy).Contents (Elt F) → (⟨S4096x2, .f32⟩ : BufTy).Contents (Elt F) → (⟨S4096x2, .f32⟩ : BufTy).Contents (Elt F)),
    nullary main_cst_4 (constant S_ .f32 0x00000000#32),
    binary main_v58 main_cst_4 main_v59 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v59 main_v60 (broadcastInDim S4096x1 ![0] bcast_S4096_S4096x1_0 : (⟨S4096, .f32⟩ : BufTy).Contents (Elt F) → (⟨S4096x1, .f32⟩ : BufTy).Contents (Elt F)),
    unary main_v60 main_v61 (broadcastInDim S4096x2048 ![0, 1] bcast_S4096x1_S4096x2048_0_1 : (⟨S4096x1, .f32⟩ : BufTy).Contents (Elt F) → (⟨S4096x2048, .f32⟩ : BufTy).Contents (Elt F)),
    binary main_v61 main_v54 main_v62 (mulf : (⟨S4096x2048, .f32⟩ : BufTy).Contents (Elt F) → (⟨S4096x2048, .f32⟩ : BufTy).Contents (Elt F) → (⟨S4096x2048, .f32⟩ : BufTy).Contents (Elt F)),
    binary main_v42 main_v62 main_v63 (addf : (⟨S4096x2048, .f32⟩ : BufTy).Contents (Elt F) → (⟨S4096x2048, .f32⟩ : BufTy).Contents (Elt F) → (⟨S4096x2048, .f32⟩ : BufTy).Contents (Elt F)) ]
theorem E2_split : (opsE2 : List (HloOp τ sig (Elt F))) = E2a ++ E2b := rfl

abbrev E5a : List (HloOp τ sig (Elt F)) :=
  [ unary main_arg1 main_v106 ((extractStridedSlice S1x2816x2048 ![5, 0, 0] · slices_S16x2816x2048_S1x2816x2048_5_0_0) : (⟨S16x2816x2048, .f32⟩ : BufTy).Contents (Elt F) → (⟨S1x2816x2048, .f32⟩ : BufTy).Contents (Elt F)),
    reshape main_v106 main_v107 rfl shapeCasts_S1x2816x2048_S2816x2048,
    unary main_v107 main_v108 ((transpose S2048x2816 [1, 0] · transposes_S2816x2048_S2048x2816_1_0) : (⟨S2816x2048, .f32⟩ : BufTy).Contents (Elt F) → (⟨S2048x2816, .f32⟩ : BufTy).Contents (Elt F)) ]
abbrev E5b : List (HloOp τ sig (Elt F)) :=
  [ binary main_arg0 main_v108 main_v109 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v109 main_v110 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v110) (TRef.of (T := ⟨S4096x1408, .f32⟩) main_call5_v0) Host.negf,
    TRef.unary (TRef.of (T := ⟨S4096x1408, .f32⟩) main_call5_v0) (TRef.of (T := ⟨S4096x1408, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S4096x1408, .f32⟩) main_call5_v2) (broadcastInDim S4096x1408 ![] bcast_S_S4096x1408),
    TRef.binary (TRef.of (T := ⟨S4096x1408, .f32⟩) main_call5_v2) (TRef.of (T := ⟨S4096x1408, .f32⟩) main_call5_v1) (TRef.of (T := ⟨S4096x1408, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S4096x1408, .f32⟩) main_call5_v4) (broadcastInDim S4096x1408 ![] bcast_S_S4096x1408),
    TRef.binary (TRef.of (T := ⟨S4096x1408, .f32⟩) main_call5_v4) (TRef.of (T := ⟨S4096x1408, .f32⟩) main_call5_v3) (TRef.of (T := ⟨S4096x1408, .f32⟩) main_call5_v5) Host.divf,
    TRef.binary (TRef.of (T := ⟨S4096x1408, .f32⟩) main_v110) (TRef.of (T := ⟨S4096x1408, .f32⟩) main_call5_v5) (TRef.of (T := ⟨S4096x1408, .f32⟩) main_v111) mulf,
    unary main_v109 main_v112 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v111 main_v112 main_v113 (mulf : (⟨S4096x1408, .f32⟩ : BufTy).Contents (Elt F) → (⟨S4096x1408, .f32⟩ : BufTy).Contents (Elt F) → (⟨S4096x1408, .f32⟩ : BufTy).Contents (Elt F)),
    unary main_arg2 main_v114 ((extractStridedSlice S1x2048x1408 ![5, 0, 0] · slices_S16x2048x1408_S1x2048x1408_5_0_0) : (⟨S16x2048x1408, .f32⟩ : BufTy).Contents (Elt F) → (⟨S1x2048x1408, .f32⟩ : BufTy).Contents (Elt F)),
    reshape main_v114 main_v115 rfl shapeCasts_S1x2048x1408_S2048x1408,
    unary main_v115 main_v116 ((transpose S1408x2048 [1, 0] · transposes_S2048x1408_S1408x2048_1_0) : (⟨S2048x1408, .f32⟩ : BufTy).Contents (Elt F) → (⟨S1408x2048, .f32⟩ : BufTy).Contents (Elt F)),
    binary main_v113 main_v116 main_v117 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_9 (constantI S_ 32 5#32),
    unary main_c_9 main_v118 (broadcastInDim S4096x2 ![] bcast_S_S4096x2 : (⟨S_, .i32⟩ : BufTy).Contents (Elt F) → (⟨S4096x2, .i32⟩ : BufTy).Contents (Elt F)),
    binary main_arg4 main_v118 main_v119 (cmpi .eq : (⟨S4096x2, .i32⟩ : BufTy).Contents (Elt F) → (⟨S4096x2, .i32⟩ : BufTy).Contents (Elt F) → (⟨S4096x2, .i1⟩ : BufTy).Contents (Elt F)),
    unary main_v119 main_v120 (uitofp .f32 : (⟨S4096x2, .i1⟩ : BufTy).Contents (Elt F) → (⟨S4096x2, .f32⟩ : BufTy).Contents (Elt F)),
    binary main_arg3 main_v120 main_v121 (mulf : (⟨S4096x2, .f32⟩ : BufTy).Contents (Elt F) → (⟨S4096x2, .f32⟩ : BufTy).Contents (Elt F) → (⟨S4096x2, .f32⟩ : BufTy).Contents (Elt F)),
    nullary main_cst_10 (constant S_ .f32 0x00000000#32),
    binary main_v121 main_cst_10 main_v122 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v122 main_v123 (broadcastInDim S4096x1 ![0] bcast_S4096_S4096x1_0 : (⟨S4096, .f32⟩ : BufTy).Contents (Elt F) → (⟨S4096x1, .f32⟩ : BufTy).Contents (Elt F)),
    unary main_v123 main_v124 (broadcastInDim S4096x2048 ![0, 1] bcast_S4096x1_S4096x2048_0_1 : (⟨S4096x1, .f32⟩ : BufTy).Contents (Elt F) → (⟨S4096x2048, .f32⟩ : BufTy).Contents (Elt F)),
    binary main_v124 main_v117 main_v125 (mulf : (⟨S4096x2048, .f32⟩ : BufTy).Contents (Elt F) → (⟨S4096x2048, .f32⟩ : BufTy).Contents (Elt F) → (⟨S4096x2048, .f32⟩ : BufTy).Contents (Elt F)),
    binary main_v105 main_v125 main_v126 (addf : (⟨S4096x2048, .f32⟩ : BufTy).Contents (Elt F) → (⟨S4096x2048, .f32⟩ : BufTy).Contents (Elt F) → (⟨S4096x2048, .f32⟩ : BufTy).Contents (Elt F)) ]
theorem E5_split : (opsE5 : List (HloOp τ sig (Elt F))) = E5a ++ E5b := rfl

abbrev E7a : List (HloOp τ sig (Elt F)) :=
  [ unary main_arg1 main_v148 ((extractStridedSlice S1x2816x2048 ![7, 0, 0] · slices_S16x2816x2048_S1x2816x2048_7_0_0) : (⟨S16x2816x2048, .f32⟩ : BufTy).Contents (Elt F) → (⟨S1x2816x2048, .f32⟩ : BufTy).Contents (Elt F)),
    reshape main_v148 main_v149 rfl shapeCasts_S1x2816x2048_S2816x2048,
    unary main_v149 main_v150 ((transpose S2048x2816 [1, 0] · transposes_S2816x2048_S2048x2816_1_0) : (⟨S2816x2048, .f32⟩ : BufTy).Contents (Elt F) → (⟨S2048x2816, .f32⟩ : BufTy).Contents (Elt F)),
    binary main_arg0 main_v150 main_v151 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v151 main_v152 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v152) (TRef.of (T := ⟨S4096x1408, .f32⟩) main_call7_v0) Host.negf,
    TRef.unary (TRef.of (T := ⟨S4096x1408, .f32⟩) main_call7_v0) (TRef.of (T := ⟨S4096x1408, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S4096x1408, .f32⟩) main_call7_v2) (broadcastInDim S4096x1408 ![] bcast_S_S4096x1408),
    TRef.binary (TRef.of (T := ⟨S4096x1408, .f32⟩) main_call7_v2) (TRef.of (T := ⟨S4096x1408, .f32⟩) main_call7_v1) (TRef.of (T := ⟨S4096x1408, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S4096x1408, .f32⟩) main_call7_v4) (broadcastInDim S4096x1408 ![] bcast_S_S4096x1408),
    TRef.binary (TRef.of (T := ⟨S4096x1408, .f32⟩) main_call7_v4) (TRef.of (T := ⟨S4096x1408, .f32⟩) main_call7_v3) (TRef.of (T := ⟨S4096x1408, .f32⟩) main_call7_v5) Host.divf,
    TRef.binary (TRef.of (T := ⟨S4096x1408, .f32⟩) main_v152) (TRef.of (T := ⟨S4096x1408, .f32⟩) main_call7_v5) (TRef.of (T := ⟨S4096x1408, .f32⟩) main_v153) mulf,
    unary main_v151 main_v154 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v153 main_v154 main_v155 (mulf : (⟨S4096x1408, .f32⟩ : BufTy).Contents (Elt F) → (⟨S4096x1408, .f32⟩ : BufTy).Contents (Elt F) → (⟨S4096x1408, .f32⟩ : BufTy).Contents (Elt F)),
    unary main_arg2 main_v156 ((extractStridedSlice S1x2048x1408 ![7, 0, 0] · slices_S16x2048x1408_S1x2048x1408_7_0_0) : (⟨S16x2048x1408, .f32⟩ : BufTy).Contents (Elt F) → (⟨S1x2048x1408, .f32⟩ : BufTy).Contents (Elt F)),
    reshape main_v156 main_v157 rfl shapeCasts_S1x2048x1408_S2048x1408,
    unary main_v157 main_v158 ((transpose S1408x2048 [1, 0] · transposes_S2048x1408_S1408x2048_1_0) : (⟨S2048x1408, .f32⟩ : BufTy).Contents (Elt F) → (⟨S1408x2048, .f32⟩ : BufTy).Contents (Elt F)),
    binary main_v155 main_v158 main_v159 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_13 (constantI S_ 32 7#32),
    unary main_c_13 main_v160 (broadcastInDim S4096x2 ![] bcast_S_S4096x2 : (⟨S_, .i32⟩ : BufTy).Contents (Elt F) → (⟨S4096x2, .i32⟩ : BufTy).Contents (Elt F)),
    binary main_arg4 main_v160 main_v161 (cmpi .eq : (⟨S4096x2, .i32⟩ : BufTy).Contents (Elt F) → (⟨S4096x2, .i32⟩ : BufTy).Contents (Elt F) → (⟨S4096x2, .i1⟩ : BufTy).Contents (Elt F)),
    unary main_v161 main_v162 (uitofp .f32 : (⟨S4096x2, .i1⟩ : BufTy).Contents (Elt F) → (⟨S4096x2, .f32⟩ : BufTy).Contents (Elt F)),
    binary main_arg3 main_v162 main_v163 (mulf : (⟨S4096x2, .f32⟩ : BufTy).Contents (Elt F) → (⟨S4096x2, .f32⟩ : BufTy).Contents (Elt F) → (⟨S4096x2, .f32⟩ : BufTy).Contents (Elt F)) ]
abbrev E7b : List (HloOp τ sig (Elt F)) :=
  [ nullary main_cst_14 (constant S_ .f32 0x00000000#32),
    binary main_v163 main_cst_14 main_v164 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v164 main_v165 (broadcastInDim S4096x1 ![0] bcast_S4096_S4096x1_0 : (⟨S4096, .f32⟩ : BufTy).Contents (Elt F) → (⟨S4096x1, .f32⟩ : BufTy).Contents (Elt F)),
    unary main_v165 main_v166 (broadcastInDim S4096x2048 ![0, 1] bcast_S4096x1_S4096x2048_0_1 : (⟨S4096x1, .f32⟩ : BufTy).Contents (Elt F) → (⟨S4096x2048, .f32⟩ : BufTy).Contents (Elt F)),
    binary main_v166 main_v159 main_v167 (mulf : (⟨S4096x2048, .f32⟩ : BufTy).Contents (Elt F) → (⟨S4096x2048, .f32⟩ : BufTy).Contents (Elt F) → (⟨S4096x2048, .f32⟩ : BufTy).Contents (Elt F)),
    binary main_v147 main_v167 main_v168 (addf : (⟨S4096x2048, .f32⟩ : BufTy).Contents (Elt F) → (⟨S4096x2048, .f32⟩ : BufTy).Contents (Elt F) → (⟨S4096x2048, .f32⟩ : BufTy).Contents (Elt F)) ]
theorem E7_split : (opsE7 : List (HloOp τ sig (Elt F))) = E7a ++ E7b := rfl

abbrev E10a : List (HloOp τ sig (Elt F)) :=
  [ unary main_arg1 main_v211 ((extractStridedSlice S1x2816x2048 ![10, 0, 0] · slices_S16x2816x2048_S1x2816x2048_10_0_0) : (⟨S16x2816x2048, .f32⟩ : BufTy).Contents (Elt F) → (⟨S1x2816x2048, .f32⟩ : BufTy).Contents (Elt F)),
    reshape main_v211 main_v212 rfl shapeCasts_S1x2816x2048_S2816x2048,
    unary main_v212 main_v213 ((transpose S2048x2816 [1, 0] · transposes_S2816x2048_S2048x2816_1_0) : (⟨S2816x2048, .f32⟩ : BufTy).Contents (Elt F) → (⟨S2048x2816, .f32⟩ : BufTy).Contents (Elt F)),
    binary main_arg0 main_v213 main_v214 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v214 main_v215 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v215) (TRef.of (T := ⟨S4096x1408, .f32⟩) main_call10_v0) Host.negf,
    TRef.unary (TRef.of (T := ⟨S4096x1408, .f32⟩) main_call10_v0) (TRef.of (T := ⟨S4096x1408, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S4096x1408, .f32⟩) main_call10_v2) (broadcastInDim S4096x1408 ![] bcast_S_S4096x1408),
    TRef.binary (TRef.of (T := ⟨S4096x1408, .f32⟩) main_call10_v2) (TRef.of (T := ⟨S4096x1408, .f32⟩) main_call10_v1) (TRef.of (T := ⟨S4096x1408, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S4096x1408, .f32⟩) main_call10_v4) (broadcastInDim S4096x1408 ![] bcast_S_S4096x1408),
    TRef.binary (TRef.of (T := ⟨S4096x1408, .f32⟩) main_call10_v4) (TRef.of (T := ⟨S4096x1408, .f32⟩) main_call10_v3) (TRef.of (T := ⟨S4096x1408, .f32⟩) main_call10_v5) Host.divf,
    TRef.binary (TRef.of (T := ⟨S4096x1408, .f32⟩) main_v215) (TRef.of (T := ⟨S4096x1408, .f32⟩) main_call10_v5) (TRef.of (T := ⟨S4096x1408, .f32⟩) main_v216) mulf,
    unary main_v214 main_v217 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v216 main_v217 main_v218 (mulf : (⟨S4096x1408, .f32⟩ : BufTy).Contents (Elt F) → (⟨S4096x1408, .f32⟩ : BufTy).Contents (Elt F) → (⟨S4096x1408, .f32⟩ : BufTy).Contents (Elt F)) ]
abbrev E10b : List (HloOp τ sig (Elt F)) :=
  [ unary main_arg2 main_v219 ((extractStridedSlice S1x2048x1408 ![10, 0, 0] · slices_S16x2048x1408_S1x2048x1408_10_0_0) : (⟨S16x2048x1408, .f32⟩ : BufTy).Contents (Elt F) → (⟨S1x2048x1408, .f32⟩ : BufTy).Contents (Elt F)),
    reshape main_v219 main_v220 rfl shapeCasts_S1x2048x1408_S2048x1408,
    unary main_v220 main_v221 ((transpose S1408x2048 [1, 0] · transposes_S2048x1408_S1408x2048_1_0) : (⟨S2048x1408, .f32⟩ : BufTy).Contents (Elt F) → (⟨S1408x2048, .f32⟩ : BufTy).Contents (Elt F)),
    binary main_v218 main_v221 main_v222 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_19 (constantI S_ 32 10#32),
    unary main_c_19 main_v223 (broadcastInDim S4096x2 ![] bcast_S_S4096x2 : (⟨S_, .i32⟩ : BufTy).Contents (Elt F) → (⟨S4096x2, .i32⟩ : BufTy).Contents (Elt F)),
    binary main_arg4 main_v223 main_v224 (cmpi .eq : (⟨S4096x2, .i32⟩ : BufTy).Contents (Elt F) → (⟨S4096x2, .i32⟩ : BufTy).Contents (Elt F) → (⟨S4096x2, .i1⟩ : BufTy).Contents (Elt F)),
    unary main_v224 main_v225 (uitofp .f32 : (⟨S4096x2, .i1⟩ : BufTy).Contents (Elt F) → (⟨S4096x2, .f32⟩ : BufTy).Contents (Elt F)),
    binary main_arg3 main_v225 main_v226 (mulf : (⟨S4096x2, .f32⟩ : BufTy).Contents (Elt F) → (⟨S4096x2, .f32⟩ : BufTy).Contents (Elt F) → (⟨S4096x2, .f32⟩ : BufTy).Contents (Elt F)),
    nullary main_cst_20 (constant S_ .f32 0x00000000#32),
    binary main_v226 main_cst_20 main_v227 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v227 main_v228 (broadcastInDim S4096x1 ![0] bcast_S4096_S4096x1_0 : (⟨S4096, .f32⟩ : BufTy).Contents (Elt F) → (⟨S4096x1, .f32⟩ : BufTy).Contents (Elt F)),
    unary main_v228 main_v229 (broadcastInDim S4096x2048 ![0, 1] bcast_S4096x1_S4096x2048_0_1 : (⟨S4096x1, .f32⟩ : BufTy).Contents (Elt F) → (⟨S4096x2048, .f32⟩ : BufTy).Contents (Elt F)),
    binary main_v229 main_v222 main_v230 (mulf : (⟨S4096x2048, .f32⟩ : BufTy).Contents (Elt F) → (⟨S4096x2048, .f32⟩ : BufTy).Contents (Elt F) → (⟨S4096x2048, .f32⟩ : BufTy).Contents (Elt F)),
    binary main_v210 main_v230 main_v231 (addf : (⟨S4096x2048, .f32⟩ : BufTy).Contents (Elt F) → (⟨S4096x2048, .f32⟩ : BufTy).Contents (Elt F) → (⟨S4096x2048, .f32⟩ : BufTy).Contents (Elt F)) ]
theorem E10_split : (opsE10 : List (HloOp τ sig (Elt F))) = E10a ++ E10b := rfl

abbrev E12a : List (HloOp τ sig (Elt F)) :=
  [ unary main_arg1 main_v253 ((extractStridedSlice S1x2816x2048 ![12, 0, 0] · slices_S16x2816x2048_S1x2816x2048_12_0_0) : (⟨S16x2816x2048, .f32⟩ : BufTy).Contents (Elt F) → (⟨S1x2816x2048, .f32⟩ : BufTy).Contents (Elt F)),
    reshape main_v253 main_v254 rfl shapeCasts_S1x2816x2048_S2816x2048,
    unary main_v254 main_v255 ((transpose S2048x2816 [1, 0] · transposes_S2816x2048_S2048x2816_1_0) : (⟨S2816x2048, .f32⟩ : BufTy).Contents (Elt F) → (⟨S2048x2816, .f32⟩ : BufTy).Contents (Elt F)),
    binary main_arg0 main_v255 main_v256 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v256 main_v257 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v257) (TRef.of (T := ⟨S4096x1408, .f32⟩) main_call12_v0) Host.negf,
    TRef.unary (TRef.of (T := ⟨S4096x1408, .f32⟩) main_call12_v0) (TRef.of (T := ⟨S4096x1408, .f32⟩) main_call12_v1) Host.exp,
    TRef.nullary (TRef.of (T := ⟨S_, .f32⟩) main_call12_cst) (constant S_ .f32 0x3F800000#32),
    TRef.unary (TRef.of (T := ⟨S_, .f32⟩) main_call12_cst) (TRef.of (T := ⟨S4096x1408, .f32⟩) main_call12_v2) (broadcastInDim S4096x1408 ![] bcast_S_S4096x1408),
    TRef.binary (TRef.of (T := ⟨S4096x1408, .f32⟩) main_call12_v2) (TRef.of (T := ⟨S4096x1408, .f32⟩) main_call12_v1) (TRef.of (T := ⟨S4096x1408, .f32⟩) main_call12_v3) addf,
    TRef.nullary (TRef.of (T := ⟨S_, .f32⟩) main_call12_cst_0) (constant S_ .f32 0x3F800000#32),
    TRef.unary (TRef.of (T := ⟨S_, .f32⟩) main_call12_cst_0) (TRef.of (T := ⟨S4096x1408, .f32⟩) main_call12_v4) (broadcastInDim S4096x1408 ![] bcast_S_S4096x1408),
    TRef.binary (TRef.of (T := ⟨S4096x1408, .f32⟩) main_call12_v4) (TRef.of (T := ⟨S4096x1408, .f32⟩) main_call12_v3) (TRef.of (T := ⟨S4096x1408, .f32⟩) main_call12_v5) Host.divf,
    TRef.binary (TRef.of (T := ⟨S4096x1408, .f32⟩) main_v257) (TRef.of (T := ⟨S4096x1408, .f32⟩) main_call12_v5) (TRef.of (T := ⟨S4096x1408, .f32⟩) main_v258) mulf,
    unary main_v256 main_v259 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v258 main_v259 main_v260 (mulf : (⟨S4096x1408, .f32⟩ : BufTy).Contents (Elt F) → (⟨S4096x1408, .f32⟩ : BufTy).Contents (Elt F) → (⟨S4096x1408, .f32⟩ : BufTy).Contents (Elt F)),
    unary main_arg2 main_v261 ((extractStridedSlice S1x2048x1408 ![12, 0, 0] · slices_S16x2048x1408_S1x2048x1408_12_0_0) : (⟨S16x2048x1408, .f32⟩ : BufTy).Contents (Elt F) → (⟨S1x2048x1408, .f32⟩ : BufTy).Contents (Elt F)),
    reshape main_v261 main_v262 rfl shapeCasts_S1x2048x1408_S2048x1408,
    unary main_v262 main_v263 ((transpose S1408x2048 [1, 0] · transposes_S2048x1408_S1408x2048_1_0) : (⟨S2048x1408, .f32⟩ : BufTy).Contents (Elt F) → (⟨S1408x2048, .f32⟩ : BufTy).Contents (Elt F)),
    binary main_v260 main_v263 main_v264 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_23 (constantI S_ 32 12#32),
    unary main_c_23 main_v265 (broadcastInDim S4096x2 ![] bcast_S_S4096x2 : (⟨S_, .i32⟩ : BufTy).Contents (Elt F) → (⟨S4096x2, .i32⟩ : BufTy).Contents (Elt F)),
    binary main_arg4 main_v265 main_v266 (cmpi .eq : (⟨S4096x2, .i32⟩ : BufTy).Contents (Elt F) → (⟨S4096x2, .i32⟩ : BufTy).Contents (Elt F) → (⟨S4096x2, .i1⟩ : BufTy).Contents (Elt F)),
    unary main_v266 main_v267 (uitofp .f32 : (⟨S4096x2, .i1⟩ : BufTy).Contents (Elt F) → (⟨S4096x2, .f32⟩ : BufTy).Contents (Elt F)),
    binary main_arg3 main_v267 main_v268 (mulf : (⟨S4096x2, .f32⟩ : BufTy).Contents (Elt F) → (⟨S4096x2, .f32⟩ : BufTy).Contents (Elt F) → (⟨S4096x2, .f32⟩ : BufTy).Contents (Elt F)),
    nullary main_cst_24 (constant S_ .f32 0x00000000#32),
    binary main_v268 main_cst_24 main_v269 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v269 main_v270 (broadcastInDim S4096x1 ![0] bcast_S4096_S4096x1_0 : (⟨S4096, .f32⟩ : BufTy).Contents (Elt F) → (⟨S4096x1, .f32⟩ : BufTy).Contents (Elt F)),
    unary main_v270 main_v271 (broadcastInDim S4096x2048 ![0, 1] bcast_S4096x1_S4096x2048_0_1 : (⟨S4096x1, .f32⟩ : BufTy).Contents (Elt F) → (⟨S4096x2048, .f32⟩ : BufTy).Contents (Elt F)),
    binary main_v271 main_v264 main_v272 (mulf : (⟨S4096x2048, .f32⟩ : BufTy).Contents (Elt F) → (⟨S4096x2048, .f32⟩ : BufTy).Contents (Elt F) → (⟨S4096x2048, .f32⟩ : BufTy).Contents (Elt F)) ]
abbrev E12b : List (HloOp τ sig (Elt F)) :=
  [ binary main_v252 main_v272 main_v273 (addf : (⟨S4096x2048, .f32⟩ : BufTy).Contents (Elt F) → (⟨S4096x2048, .f32⟩ : BufTy).Contents (Elt F) → (⟨S4096x2048, .f32⟩ : BufTy).Contents (Elt F)) ]
theorem E12_split : (opsE12 : List (HloOp τ sig (Elt F))) = E12a ++ E12b := rfl

abbrev E15a : List (HloOp τ sig (Elt F)) :=
  [ unary main_arg1 main_v316 ((extractStridedSlice S1x2816x2048 ![15, 0, 0] · slices_S16x2816x2048_S1x2816x2048_15_0_0) : (⟨S16x2816x2048, .f32⟩ : BufTy).Contents (Elt F) → (⟨S1x2816x2048, .f32⟩ : BufTy).Contents (Elt F)),
    reshape main_v316 main_v317 rfl shapeCasts_S1x2816x2048_S2816x2048,
    unary main_v317 main_v318 ((transpose S2048x2816 [1, 0] · transposes_S2816x2048_S2048x2816_1_0) : (⟨S2816x2048, .f32⟩ : BufTy).Contents (Elt F) → (⟨S2048x2816, .f32⟩ : BufTy).Contents (Elt F)),
    binary main_arg0 main_v318 main_v319 ((fun l r => Host.dotGeneral dot_S4096x2048_S2048x2816_S4096x2816_1_0_0_1_n_n none l r) : (⟨S4096x2048, .f32⟩ : BufTy).Contents (Elt F) → (⟨S2048x2816, .f32⟩ : BufTy).Contents (Elt F) → (⟨S4096x2816, .f32⟩ : BufTy).Contents (Elt F)),
    unary main_v319 main_v320 ((extractStridedSlice S4096x1408 ![0, 0] · slices_S4096x2816_S4096x1408_0_0) : (⟨S4096x2816, .f32⟩ : BufTy).Contents (Elt F) → (⟨S4096x1408, .f32⟩ : BufTy).Contents (Elt F)),
    TRef.unary (TRef.of (T := ⟨S4096x1408, .f32⟩) main_v320) (TRef.of (T := ⟨S4096x1408, .f32⟩) main_call15_v0) Host.negf,
    TRef.unary (TRef.of (T := ⟨S4096x1408, .f32⟩) main_call15_v0) (TRef.of (T := ⟨S4096x1408, .f32⟩) main_call15_v1) Host.exp,
    TRef.nullary (TRef.of (T := ⟨S_, .f32⟩) main_call15_cst) (constant S_ .f32 0x3F800000#32),
    TRef.unary (TRef.of (T := ⟨S_, .f32⟩) main_call15_cst) (TRef.of (T := ⟨S4096x1408, .f32⟩) main_call15_v2) (broadcastInDim S4096x1408 ![] bcast_S_S4096x1408),
    TRef.binary (TRef.of (T := ⟨S4096x1408, .f32⟩) main_call15_v2) (TRef.of (T := ⟨S4096x1408, .f32⟩) main_call15_v1) (TRef.of (T := ⟨S4096x1408, .f32⟩) main_call15_v3) addf,
    TRef.nullary (TRef.of (T := ⟨S_, .f32⟩) main_call15_cst_0) (constant S_ .f32 0x3F800000#32),
    TRef.unary (TRef.of (T := ⟨S_, .f32⟩) main_call15_cst_0) (TRef.of (T := ⟨S4096x1408, .f32⟩) main_call15_v4) (broadcastInDim S4096x1408 ![] bcast_S_S4096x1408),
    TRef.binary (TRef.of (T := ⟨S4096x1408, .f32⟩) main_call15_v4) (TRef.of (T := ⟨S4096x1408, .f32⟩) main_call15_v3) (TRef.of (T := ⟨S4096x1408, .f32⟩) main_call15_v5) Host.divf,
    TRef.binary (TRef.of (T := ⟨S4096x1408, .f32⟩) main_v320) (TRef.of (T := ⟨S4096x1408, .f32⟩) main_call15_v5) (TRef.of (T := ⟨S4096x1408, .f32⟩) main_v321) mulf,
    unary main_v319 main_v322 ((extractStridedSlice S4096x1408 ![0, 1408] · slices_S4096x2816_S4096x1408_0_1408) : (⟨S4096x2816, .f32⟩ : BufTy).Contents (Elt F) → (⟨S4096x1408, .f32⟩ : BufTy).Contents (Elt F)),
    binary main_v321 main_v322 main_v323 (mulf : (⟨S4096x1408, .f32⟩ : BufTy).Contents (Elt F) → (⟨S4096x1408, .f32⟩ : BufTy).Contents (Elt F) → (⟨S4096x1408, .f32⟩ : BufTy).Contents (Elt F)),
    unary main_arg2 main_v324 ((extractStridedSlice S1x2048x1408 ![15, 0, 0] · slices_S16x2048x1408_S1x2048x1408_15_0_0) : (⟨S16x2048x1408, .f32⟩ : BufTy).Contents (Elt F) → (⟨S1x2048x1408, .f32⟩ : BufTy).Contents (Elt F)),
    reshape main_v324 main_v325 rfl shapeCasts_S1x2048x1408_S2048x1408,
    unary main_v325 main_v326 ((transpose S1408x2048 [1, 0] · transposes_S2048x1408_S1408x2048_1_0) : (⟨S2048x1408, .f32⟩ : BufTy).Contents (Elt F) → (⟨S1408x2048, .f32⟩ : BufTy).Contents (Elt F)),
    binary main_v323 main_v326 main_v327 ((fun l r => Host.dotGeneral dot_S4096x1408_S1408x2048_S4096x2048_1_0_0_1_n_n none l r) : (⟨S4096x1408, .f32⟩ : BufTy).Contents (Elt F) → (⟨S1408x2048, .f32⟩ : BufTy).Contents (Elt F) → (⟨S4096x2048, .f32⟩ : BufTy).Contents (Elt F)),
    nullary main_c_29 (constantI S_ 32 15#32) ]
abbrev E15b : List (HloOp τ sig (Elt F)) :=
  [ unary main_c_29 main_v328 (broadcastInDim S4096x2 ![] bcast_S_S4096x2 : (⟨S_, .i32⟩ : BufTy).Contents (Elt F) → (⟨S4096x2, .i32⟩ : BufTy).Contents (Elt F)),
    binary main_arg4 main_v328 main_v329 (cmpi .eq : (⟨S4096x2, .i32⟩ : BufTy).Contents (Elt F) → (⟨S4096x2, .i32⟩ : BufTy).Contents (Elt F) → (⟨S4096x2, .i1⟩ : BufTy).Contents (Elt F)),
    unary main_v329 main_v330 (uitofp .f32 : (⟨S4096x2, .i1⟩ : BufTy).Contents (Elt F) → (⟨S4096x2, .f32⟩ : BufTy).Contents (Elt F)),
    binary main_arg3 main_v330 main_v331 (mulf : (⟨S4096x2, .f32⟩ : BufTy).Contents (Elt F) → (⟨S4096x2, .f32⟩ : BufTy).Contents (Elt F) → (⟨S4096x2, .f32⟩ : BufTy).Contents (Elt F)),
    nullary main_cst_30 (constant S_ .f32 0x00000000#32),
    binary main_v331 main_cst_30 main_v332 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v332 main_v333 (broadcastInDim S4096x1 ![0] bcast_S4096_S4096x1_0 : (⟨S4096, .f32⟩ : BufTy).Contents (Elt F) → (⟨S4096x1, .f32⟩ : BufTy).Contents (Elt F)),
    unary main_v333 main_v334 (broadcastInDim S4096x2048 ![0, 1] bcast_S4096x1_S4096x2048_0_1 : (⟨S4096x1, .f32⟩ : BufTy).Contents (Elt F) → (⟨S4096x2048, .f32⟩ : BufTy).Contents (Elt F)),
    binary main_v334 main_v327 main_v335 (mulf : (⟨S4096x2048, .f32⟩ : BufTy).Contents (Elt F) → (⟨S4096x2048, .f32⟩ : BufTy).Contents (Elt F) → (⟨S4096x2048, .f32⟩ : BufTy).Contents (Elt F)),
    binary main_v315 main_v335 main_v336 (addf : (⟨S4096x2048, .f32⟩ : BufTy).Contents (Elt F) → (⟨S4096x2048, .f32⟩ : BufTy).Contents (Elt F) → (⟨S4096x2048, .f32⟩ : BufTy).Contents (Elt F)) ]
theorem E15_split : (opsE15 : List (HloOp τ sig (Elt F))) = E15a ++ E15b := rfl

/-! ## Each window as whole experts and halves -/

set_option maxRecDepth 16384 in
set_option maxHeartbeats 4000000 in
theorem P0_eq : (P0 : List (HloOp τ sig (Elt F))) = opsPre ++ (opsE0 ++ (opsE1 ++ (E2a))) := rfl
set_option maxRecDepth 16384 in
set_option maxHeartbeats 4000000 in
theorem P1_eq : (P1 : List (HloOp τ sig (Elt F))) = E2b ++ (opsE3 ++ (opsE4 ++ (E5a))) := rfl
set_option maxRecDepth 16384 in
set_option maxHeartbeats 4000000 in
theorem P2_eq : (P2 : List (HloOp τ sig (Elt F))) = E5b ++ (opsE6 ++ (E7a)) := rfl
set_option maxRecDepth 16384 in
set_option maxHeartbeats 4000000 in
theorem P3_eq : (P3 : List (HloOp τ sig (Elt F))) = E7b ++ (opsE8 ++ (opsE9 ++ (E10a))) := rfl
set_option maxRecDepth 16384 in
set_option maxHeartbeats 4000000 in
theorem P4_eq : (P4 : List (HloOp τ sig (Elt F))) = E10b ++ (opsE11 ++ (E12a)) := rfl
set_option maxRecDepth 16384 in
set_option maxHeartbeats 4000000 in
theorem P5_eq : (P5 : List (HloOp τ sig (Elt F))) = E12b ++ (opsE13 ++ (opsE14 ++ (E15a))) := rfl
set_option maxRecDepth 16384 in
set_option maxHeartbeats 4000000 in
theorem P6_eq : (P6 : List (HloOp τ sig (Elt F))) = E15b := rfl

/-! ## The program from an expert on -/

abbrev R15 : List (HloOp τ sig (Elt F)) := opsE15
abbrev R14 : List (HloOp τ sig (Elt F)) := opsE14 ++ R15
abbrev R13 : List (HloOp τ sig (Elt F)) := opsE13 ++ R14
abbrev R12 : List (HloOp τ sig (Elt F)) := opsE12 ++ R13
abbrev R11 : List (HloOp τ sig (Elt F)) := opsE11 ++ R12
abbrev R10 : List (HloOp τ sig (Elt F)) := opsE10 ++ R11
abbrev R9 : List (HloOp τ sig (Elt F)) := opsE9 ++ R10
abbrev R8 : List (HloOp τ sig (Elt F)) := opsE8 ++ R9
abbrev R7 : List (HloOp τ sig (Elt F)) := opsE7 ++ R8
abbrev R6 : List (HloOp τ sig (Elt F)) := opsE6 ++ R7
abbrev R5 : List (HloOp τ sig (Elt F)) := opsE5 ++ R6
abbrev R4 : List (HloOp τ sig (Elt F)) := opsE4 ++ R5
abbrev R3 : List (HloOp τ sig (Elt F)) := opsE3 ++ R4
abbrev R2 : List (HloOp τ sig (Elt F)) := opsE2 ++ R3
abbrev R1 : List (HloOp τ sig (Elt F)) := opsE1 ++ R2
abbrev R0 : List (HloOp τ sig (Elt F)) := opsE0 ++ R1
/-- The whole program. -/
abbrev whole : List (HloOp τ sig (Elt F)) := opsPre ++ R0

theorem R15_good : ∀ op ∈ (R15 : List (HloOp τ sig (Elt F))), Good op := opsE15_good
theorem R14_good : ∀ op ∈ (R14 : List (HloOp τ sig (Elt F))), Good op := fun op h =>
  (List.mem_append.mp h).elim (opsE14_good op) (R15_good op)
theorem R13_good : ∀ op ∈ (R13 : List (HloOp τ sig (Elt F))), Good op := fun op h =>
  (List.mem_append.mp h).elim (opsE13_good op) (R14_good op)
theorem R12_good : ∀ op ∈ (R12 : List (HloOp τ sig (Elt F))), Good op := fun op h =>
  (List.mem_append.mp h).elim (opsE12_good op) (R13_good op)
theorem R11_good : ∀ op ∈ (R11 : List (HloOp τ sig (Elt F))), Good op := fun op h =>
  (List.mem_append.mp h).elim (opsE11_good op) (R12_good op)
theorem R10_good : ∀ op ∈ (R10 : List (HloOp τ sig (Elt F))), Good op := fun op h =>
  (List.mem_append.mp h).elim (opsE10_good op) (R11_good op)
theorem R9_good : ∀ op ∈ (R9 : List (HloOp τ sig (Elt F))), Good op := fun op h =>
  (List.mem_append.mp h).elim (opsE9_good op) (R10_good op)
theorem R8_good : ∀ op ∈ (R8 : List (HloOp τ sig (Elt F))), Good op := fun op h =>
  (List.mem_append.mp h).elim (opsE8_good op) (R9_good op)
theorem R7_good : ∀ op ∈ (R7 : List (HloOp τ sig (Elt F))), Good op := fun op h =>
  (List.mem_append.mp h).elim (opsE7_good op) (R8_good op)
theorem R6_good : ∀ op ∈ (R6 : List (HloOp τ sig (Elt F))), Good op := fun op h =>
  (List.mem_append.mp h).elim (opsE6_good op) (R7_good op)
theorem R5_good : ∀ op ∈ (R5 : List (HloOp τ sig (Elt F))), Good op := fun op h =>
  (List.mem_append.mp h).elim (opsE5_good op) (R6_good op)
theorem R4_good : ∀ op ∈ (R4 : List (HloOp τ sig (Elt F))), Good op := fun op h =>
  (List.mem_append.mp h).elim (opsE4_good op) (R5_good op)
theorem R3_good : ∀ op ∈ (R3 : List (HloOp τ sig (Elt F))), Good op := fun op h =>
  (List.mem_append.mp h).elim (opsE3_good op) (R4_good op)
theorem R2_good : ∀ op ∈ (R2 : List (HloOp τ sig (Elt F))), Good op := fun op h =>
  (List.mem_append.mp h).elim (opsE2_good op) (R3_good op)
theorem R1_good : ∀ op ∈ (R1 : List (HloOp τ sig (Elt F))), Good op := fun op h =>
  (List.mem_append.mp h).elim (opsE1_good op) (R2_good op)
theorem R0_good : ∀ op ∈ (R0 : List (HloOp τ sig (Elt F))), Good op := fun op h =>
  (List.mem_append.mp h).elim (opsE0_good op) (R1_good op)
theorem whole_good : ∀ op ∈ (whole : List (HloOp τ sig (Elt F))), Good op := fun op h =>
  (List.mem_append.mp h).elim (opsPre_good op) (R0_good op)

/-- The windows in order are the zero array's operations and the experts' stretches in order. -/
theorem parts_eq :
    (P0 ++ (P1 ++ (P2 ++ (P3 ++ (P4 ++ (P5 ++ P6))))) : List (HloOp τ sig (Elt F))) = whole := by
  rw [P0_eq, P1_eq, P2_eq, P3_eq, P4_eq, P5_eq, P6_eq]
  simp only [whole, R0, R1, R2, R3, R4, R5, R6, R7, R8, R9, R10, R11, R12, R13, R14, R15,
    E2_split, E5_split, E7_split, E10_split, E12_split, E15_split, List.append_assoc]

/-- The printed program is these operations in order. -/
theorem main_eq (c : Dev nD) : main (F := F) c = seq (whole (F := F)) := by
  have h : main (F := F) c
      = (main_part0 c >>= fun _ => main_part1 c >>= fun _ => main_part2 c >>= fun _ => main_part3 c >>= fun _ =>
          main_part4 c >>= fun _ => main_part5 c >>= fun _ => main_part6 c) := rfl
  rw [h, part0_eq c, part1_eq c, part2_eq c, part3_eq c, part4_eq c, part5_eq c, part6_eq c,
    ← seq_append, ← seq_append, ← seq_append, ← seq_append, ← seq_append, ← seq_append, parts_eq]

theorem scopedRefs_eq : (Finset.univ.filter fun b : Ref sig .tc => b.isScoped) = ∅ := by decide
theorem scopedSems_eq : (Finset.univ.filter fun sm : SemLoc sig => sm.isScoped .tc) = ∅ := by decide

/-- Every operation of the program touches only TensorCore buffers. -/
theorem whole_sub : (whole : List (HloOp τ sig (Elt F))).Forall fun op => op.bufs ⊆ tcRefs τ sig := by
  rw [List.forall_iff_forall_mem]
  exact fun op h => (whole_good op h).1

/-- Every weakly fair execution of the reference terminates with each buffer at the fold of the operations over its
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (whole (F := F)) (launchContents m d) (Proc.devRef .tc b) :=
  run_seq scopedRefs_eq scopedSems_eq defs main (fun _ => whole) main_eq
    (fun _ => whole_sub) m ρ
    (fun _ op h => (whole_good op h).2)

end Cert.Moe.RefRun

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«156857_j4587025072789_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.RefStep.lean ====
/-
  One expert's step of the reference, read at an index.

  The reference adds the experts' contributions one after the other.  Expert `e`'s step takes slab `e` of each stacked
  weight array, transposes it, and forms the tokens' projected features as a plain matrix product; splits them in two
  halves; applies `silu` as jax spells it on the host, `g · (1 / (1 + exp (-g)))`, which on the extended reals is
  `g · logistic g` by the definition of `logistic`; multiplies by the up half; forms the expert's output as a second
  plain matrix product; takes the expert's share of each token as the sum over the token's two slots of the slot's
  weight times the indicator (as a float, 0 or 1) that the slot's id is `e` — on the extended reals `w · 1 = w` and
  `w · 0 = 0` for every `w`, so this is the weight where the id is `e` and zero elsewhere —; and adds
  `share · output` to the running array.  Entry `(r, c)` of the step's result is the running entry plus the
  specification's contribution of expert `e` to `(r, c)`.  Stated once, for any expert number.
-/
import proofs.«156857_j4587025072789_1_alg».proof.ReferenceIdeal
import proofs.«156857_j4587025072789_1_alg».proof.Proof.Gen.ReferenceIdeal
import proofs.«156857_j4587025072789_1_alg».proof.Proof.Spec
import proofs.«156857_j4587025072789_1_alg».proof.Proof.LibDense
import proofs.«156857_j4587025072789_1_alg».proof.Proof.LibHostLayout
import proofs.«156857_j4587025072789_1_alg».proof.Proof.LibMaskSlab
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.Moe.Ref

open Idealize.ShloMosaic Idealize.ShloMosaic.ValueIdx Cert.ReferenceIdeal Cert.ReferenceIdeal.Facts₀

/-- The tokens' projected features under expert `e`'s first projection. -/
def rProj (e : ℕ) (h1 : S16x2816x2048.Slices ![e, 0, 0] S1x2816x2048) (x0 : FVec Ideal S4096x2048 .f32)
    (x1 : FVec Ideal S16x2816x2048 .f32) : FVec Ideal S4096x2816 .f32 :=
  Host.dotGeneral (F := Ideal) dot_S4096x2048_S2048x2816_S4096x2816_1_0_0_1_n_n none x0
    (transpose S2048x2816 [1, 0]
      (shapeCast _ (extractStridedSlice S1x2816x2048 ![e, 0, 0] x1 h1) shapeCasts_S1x2816x2048_S2816x2048)
      transposes_S2816x2048_S2048x2816_1_0)

theorem rProj_apply (e : ℕ) (he : e < 16) (h1 : S16x2816x2048.Slices ![e, 0, 0] S1x2816x2048)
    (x0 : FVec Ideal S4096x2048 .f32) (x1 : FVec Ideal S16x2816x2048 .f32) (r : Fin 4096) (n : Fin 2816) :
    rProj e h1 x0 x1 (ix2 r n)
      = Moe.proj (fun k => x0 (ix2 r k)) (fun n k => x1 (ix3 (⟨e, he⟩ : Fin 16) n k)) n := by
  unfold rProj Moe.proj
  refine (congrFun (Cert.Dense.hostDot_eq_mm _ rfl rfl rfl rfl rfl rfl none _ _) (ix2 r n)).trans ?_
  refine (Cert.Dense.mm_apply _ _ r n).trans ?_
  refine Finset.sum_congr rfl fun k _ => ?_
  rw [transpose_ix2_apply, shapeCast_1ab_ab_apply, Cert.MaskSlab.slab_apply e x1 h1 0 n k ⟨e, he⟩ rfl]

/-- The hidden features: `silu` of the gate half, as jax spells it on the host, times the up half. -/
def rHidden (e : ℕ) (h1 : S16x2816x2048.Slices ![e, 0, 0] S1x2816x2048) (x0 : FVec Ideal S4096x2048 .f32)
    (x1 : FVec Ideal S16x2816x2048 .f32) : FVec Ideal S4096x1408 .f32 :=
  mulf
    (mulf (extractStridedSlice S4096x1408 ![0, 0] (rProj e h1 x0 x1) slices_S4096x2816_S4096x1408_0_0)
      (Host.divf (F := Ideal)
        (broadcastInDim S4096x1408 ![] bcast_S_S4096x1408 (constant (F := Ideal) S_ .f32 0x3F800000#32))
        (addf (broadcastInDim S4096x1408 ![] bcast_S_S4096x1408 (constant (F := Ideal) S_ .f32 0x3F800000#32))
          (Host.exp (F := Ideal) (Host.negf (F := Ideal)
            (extractStridedSlice S4096x1408 ![0, 0] (rProj e h1 x0 x1) slices_S4096x2816_S4096x1408_0_0))))))
    (extractStridedSlice S4096x1408 ![0, 1408] (rProj e h1 x0 x1) slices_S4096x2816_S4096x1408_0_1408)

theorem rHidden_apply (e : ℕ) (he : e < 16) (h1 : S16x2816x2048.Slices ![e, 0, 0] S1x2816x2048)
    (x0 : FVec Ideal S4096x2048 .f32) (x1 : FVec Ideal S16x2816x2048 .f32) (r : Fin 4096) (n : Fin 1408) :
    rHidden e h1 x0 x1 (ix2 r n)
      = Moe.hidden (fun k => x0 (ix2 r k)) (fun n k => x1 (ix3 (⟨e, he⟩ : Fin 16) n k)) n := by
  unfold rHidden Moe.hidden
  show extractStridedSlice S4096x1408 ![0, 0] (rProj e h1 x0 x1) slices_S4096x2816_S4096x1408_0_0 (ix2 r n)
        * Ideal.div
            (broadcastInDim S4096x1408 ![] bcast_S_S4096x1408 (constant (F := Ideal) S_ .f32 0x3F800000#32) (ix2 r n))
            (broadcastInDim S4096x1408 ![] bcast_S_S4096x1408 (constant (F := Ideal) S_ .f32 0x3F800000#32) (ix2 r n)
              + Ideal.exp (-(extractStridedSlice S4096x1408 ![0, 0] (rProj e h1 x0 x1) slices_S4096x2816_S4096x1408_0_0 (ix2 r n))))
      * extractStridedSlice S4096x1408 ![0, 1408] (rProj e h1 x0 x1) slices_S4096x2816_S4096x1408_0_1408 (ix2 r n) = _
  rw [Cert.HostLayout.bcast_scalar_mat,
    slice2_axis1_apply 0 (rProj e h1 x0 x1) slices_S4096x2816_S4096x1408_0_0 r n (Moe.lo n) (by show n.val = 0 + n.val; omega),
    slice2_axis1_apply 1408 (rProj e h1 x0 x1) slices_S4096x2816_S4096x1408_0_1408 r n (Moe.hi n) rfl,
    rProj_apply e he, rProj_apply e he]
  show _ * Ideal.div (Ideal.ofBits .f32 0x3F800000#32) (Ideal.ofBits .f32 0x3F800000#32 + _) * _ = _
  rw [Ideal.ofBits_one_f32]
  rfl

/-- The expert's output for every token. -/
def rDown (e : ℕ) (h1 : S16x2816x2048.Slices ![e, 0, 0] S1x2816x2048) (h2 : S16x2048x1408.Slices ![e, 0, 0] S1x2048x1408)
    (x0 : FVec Ideal S4096x2048 .f32) (x1 : FVec Ideal S16x2816x2048 .f32) (x2 : FVec Ideal S16x2048x1408 .f32) :
    FVec Ideal S4096x2048 .f32 :=
  Host.dotGeneral (F := Ideal) dot_S4096x1408_S1408x2048_S4096x2048_1_0_0_1_n_n none (rHidden e h1 x0 x1)
    (transpose S1408x2048 [1, 0]
      (shapeCast _ (extractStridedSlice S1x2048x1408 ![e, 0, 0] x2 h2) shapeCasts_S1x2048x1408_S2048x1408)
      transposes_S2048x1408_S1408x2048_1_0)

theorem rDown_apply (e : ℕ) (he : e < 16) (h1 : S16x2816x2048.Slices ![e, 0, 0] S1x2816x2048)
    (h2 : S16x2048x1408.Slices ![e, 0, 0] S1x2048x1408) (x0 : FVec Ideal S4096x2048 .f32)
    (x1 : FVec Ideal S16x2816x2048 .f32) (x2 : FVec Ideal S16x2048x1408 .f32) (r : Fin 4096) (c : Fin 2048) :
    rDown e h1 h2 x0 x1 x2 (ix2 r c)
      = Moe.down (fun k => x0 (ix2 r k)) (fun n k => x1 (ix3 (⟨e, he⟩ : Fin 16) n k))
          (fun d n => x2 (ix3 (⟨e, he⟩ : Fin 16) d n)) c := by
  unfold rDown Moe.down
  refine (congrFun (Cert.Dense.hostDot_eq_mm _ rfl rfl rfl rfl rfl rfl none _ _) (ix2 r c)).trans ?_
  refine (Cert.Dense.mm_apply _ _ r c).trans ?_
  refine Finset.sum_congr rfl fun n _ => ?_
  rw [rHidden_apply e he, transpose_ix2_apply, shapeCast_1ab_ab_apply, Cert.MaskSlab.slab_apply e x2 h2 0 c n ⟨e, he⟩ rfl]

/-- The expert's share of every token, laid out over the token's output row. -/
def rRoute (e : ℕ) (x3 : FVec Ideal S4096x2 .f32) (x4 : IVec S4096x2 32) : FVec Ideal S4096x2048 .f32 :=
  broadcastInDim S4096x2048 ![0, 1] bcast_S4096x1_S4096x2048_0_1
    (broadcastInDim S4096x1 ![0] bcast_S4096_S4096x1_0
      (Host.reduceAdd (F := Ideal)
        (mulf x3 (uitofp (F := Ideal) .f32
          (cmpi .eq x4 (broadcastInDim S4096x2 ![] bcast_S_S4096x2 (constantI S_ 32 (BitVec.ofNat 32 e))))))
        (constant (F := Ideal) S_ .f32 0x00000000#32) reducesTo_S4096x2_S4096_d1 h_S_))

theorem rRoute_apply (e : ℕ) (x3 : FVec Ideal S4096x2 .f32) (x4 : IVec S4096x2 32) (r : Fin 4096) (c : Fin 2048) :
    rRoute e x3 x4 (ix2 r c)
      = Moe.route (fun s => x3 (ix2 r s)) (fun s => x4 (ix2 r s)) (BitVec.ofNat 32 e) := by
  unfold rRoute Moe.route
  rw [Cert.HostLayout.bcast_col_mat, Cert.HostLayout.bcast_vec_col,
    Cert.HostLayout.hostRowSum _ _ reducesTo_S4096x2_S4096_d1 (by decide) h_S_ r]
  show Ideal.ofBits .f32 0x00000000#32 + _ = _
  rw [Ideal.ofBits_zero_f32, zero_add]
  refine Finset.sum_congr rfl fun s _ => ?_
  show x3 (ix2 r s) * FloatOps.uitofp (F := Ideal) .f32 (IntOp.cmpi .eq (x4 (ix2 r s))
      (broadcastInDim S4096x2 ![] bcast_S_S4096x2 (constantI S_ 32 (BitVec.ofNat 32 e)) (ix2 r s))) = _
  rw [Cert.HostLayout.bcast_scalar_mat, Cert.MaskSlab.mul_indicator]
  rfl

/-- Expert `e`'s step: the running array plus share times output. -/
def refStep (e : ℕ) (h1 : S16x2816x2048.Slices ![e, 0, 0] S1x2816x2048) (h2 : S16x2048x1408.Slices ![e, 0, 0] S1x2048x1408)
    (x0 : FVec Ideal S4096x2048 .f32) (x1 : FVec Ideal S16x2816x2048 .f32) (x2 : FVec Ideal S16x2048x1408 .f32)
    (x3 : FVec Ideal S4096x2 .f32) (x4 : IVec S4096x2 32) (prev : FVec Ideal S4096x2048 .f32) :
    FVec Ideal S4096x2048 .f32 :=
  addf prev (mulf (rRoute e x3 x4) (rDown e h1 h2 x0 x1 x2))

theorem refStep_apply (e : ℕ) (he : e < 16) (h1 : S16x2816x2048.Slices ![e, 0, 0] S1x2816x2048)
    (h2 : S16x2048x1408.Slices ![e, 0, 0] S1x2048x1408) (x0 : FVec Ideal S4096x2048 .f32)
    (x1 : FVec Ideal S16x2816x2048 .f32) (x2 : FVec Ideal S16x2048x1408 .f32) (x3 : FVec Ideal S4096x2 .f32)
    (x4 : IVec S4096x2 32) (prev : FVec Ideal S4096x2048 .f32) (r : Fin 4096) (c : Fin 2048) :
    refStep e h1 h2 x0 x1 x2 x3 x4 prev (ix2 r c) = prev (ix2 r c) + Moe.contrib x0 x1 x2 x3 x4 r c e := by
  unfold refStep Moe.contrib
  rw [dif_pos he]
  show prev (ix2 r c) + rRoute e x3 x4 (ix2 r c) * rDown e h1 h2 x0 x1 x2 (ix2 r c) = _
  rw [rRoute_apply, rDown_apply e he]
  rfl

/-- The array the reference starts from: zero everywhere. -/
theorem zero_apply (r : Fin 4096) (c : Fin 2048) :
    broadcastInDim S4096x2048 ![] bcast_S_S4096x2048 (constant (F := Ideal) S_ .f32 0x00000000#32) (ix2 r c) = 0 := by
  rw [Cert.HostLayout.bcast_scalar_mat]
  exact Ideal.ofBits_zero_f32

end Cert.Moe.Ref

end
-- ==== Proof.RefStepsA.lean ====
/-
  The reference's experts 0–3, each as one step: from any buffer contents, an expert's thirty-one operations leave
  in the expert's result buffer the generic step of that expert over the five argument buffers and the running array
  the expert before left, and leave the five argument buffers as they were.
-/
import proofs.«156857_j4587025072789_1_alg».proof.Proof.RefOps
import proofs.«156857_j4587025072789_1_alg».proof.Proof.RefStep

noncomputable section

namespace Cert.Moe.RefRun

open Cert.ReferenceIdeal Cert.ReferenceIdeal.Gen Idealize.ShloMosaic Idealize.ShloMosaic.TcCoe Idealize.SL.Sem Idealize.ShloMosaic.StableHlo

theorem stepE0 (V : Valuation τ sig (Elt Ideal)) :
    after (opsE0 (F := Ideal)) V (Proc.devRef .tc main_v21)
      = Cert.Moe.Ref.refStep 0 slices_S16x2816x2048_S1x2816x2048_0_0_0 slices_S16x2048x1408_S1x2048x1408_0_0_0
          (V (Proc.devRef .tc main_arg0)) (V (Proc.devRef .tc main_arg1)) (V (Proc.devRef .tc main_arg2))
          (V (Proc.devRef .tc main_arg3)) (V (Proc.devRef .tc main_arg4)) (V (Proc.devRef .tc main_v0)) := by
  after_results_simp <;> rfl
theorem keepE0_0 (V : Valuation τ sig (Elt Ideal)) :
    after (opsE0 (F := Ideal)) V (Proc.devRef .tc main_arg0) = V (Proc.devRef .tc main_arg0) := by
  after_results_simp
theorem keepE0_1 (V : Valuation τ sig (Elt Ideal)) :
    after (opsE0 (F := Ideal)) V (Proc.devRef .tc main_arg1) = V (Proc.devRef .tc main_arg1) := by
  after_results_simp
theorem keepE0_2 (V : Valuation τ sig (Elt Ideal)) :
    after (opsE0 (F := Ideal)) V (Proc.devRef .tc main_arg2) = V (Proc.devRef .tc main_arg2) := by
  after_results_simp
theorem keepE0_3 (V : Valuation τ sig (Elt Ideal)) :
    after (opsE0 (F := Ideal)) V (Proc.devRef .tc main_arg3) = V (Proc.devRef .tc main_arg3) := by
  after_results_simp
theorem keepE0_4 (V : Valuation τ sig (Elt Ideal)) :
    after (opsE0 (F := Ideal)) V (Proc.devRef .tc main_arg4) = V (Proc.devRef .tc main_arg4) := by
  after_results_simp

theorem stepE1 (V : Valuation τ sig (Elt Ideal)) :
    after (opsE1 (F := Ideal)) V (Proc.devRef .tc main_v42)
      = Cert.Moe.Ref.refStep 1 slices_S16x2816x2048_S1x2816x2048_1_0_0 slices_S16x2048x1408_S1x2048x1408_1_0_0
          (V (Proc.devRef .tc main_arg0)) (V (Proc.devRef .tc main_arg1)) (V (Proc.devRef .tc main_arg2))
          (V (Proc.devRef .tc main_arg3)) (V (Proc.devRef .tc main_arg4)) (V (Proc.devRef .tc main_v21)) := by
  after_results_simp <;> rfl
theorem keepE1_0 (V : Valuation τ sig (Elt Ideal)) :
    after (opsE1 (F := Ideal)) V (Proc.devRef .tc main_arg0) = V (Proc.devRef .tc main_arg0) := by
  after_results_simp
theorem keepE1_1 (V : Valuation τ sig (Elt Ideal)) :
    after (opsE1 (F := Ideal)) V (Proc.devRef .tc main_arg1) = V (Proc.devRef .tc main_arg1) := by
  after_results_simp
theorem keepE1_2 (V : Valuation τ sig (Elt Ideal)) :
    after (opsE1 (F := Ideal)) V (Proc.devRef .tc main_arg2) = V (Proc.devRef .tc main_arg2) := by
  after_results_simp
theorem keepE1_3 (V : Valuation τ sig (Elt Ideal)) :
    after (opsE1 (F := Ideal)) V (Proc.devRef .tc main_arg3) = V (Proc.devRef .tc main_arg3) := by
  after_results_simp
theorem keepE1_4 (V : Valuation τ sig (Elt Ideal)) :
    after (opsE1 (F := Ideal)) V (Proc.devRef .tc main_arg4) = V (Proc.devRef .tc main_arg4) := by
  after_results_simp

theorem stepE2 (V : Valuation τ sig (Elt Ideal)) :
    after (opsE2 (F := Ideal)) V (Proc.devRef .tc main_v63)
      = Cert.Moe.Ref.refStep 2 slices_S16x2816x2048_S1x2816x2048_2_0_0 slices_S16x2048x1408_S1x2048x1408_2_0_0
          (V (Proc.devRef .tc main_arg0)) (V (Proc.devRef .tc main_arg1)) (V (Proc.devRef .tc main_arg2))
          (V (Proc.devRef .tc main_arg3)) (V (Proc.devRef .tc main_arg4)) (V (Proc.devRef .tc main_v42)) := by
  after_results_simp <;> rfl
theorem keepE2_0 (V : Valuation τ sig (Elt Ideal)) :
    after (opsE2 (F := Ideal)) V (Proc.devRef .tc main_arg0) = V (Proc.devRef .tc main_arg0) := by
  after_results_simp
theorem keepE2_1 (V : Valuation τ sig (Elt Ideal)) :
    after (opsE2 (F := Ideal)) V (Proc.devRef .tc main_arg1) = V (Proc.devRef .tc main_arg1) := by
  after_results_simp
theorem keepE2_2 (V : Valuation τ sig (Elt Ideal)) :
    after (opsE2 (F := Ideal)) V (Proc.devRef .tc main_arg2) = V (Proc.devRef .tc main_arg2) := by
  after_results_simp
theorem keepE2_3 (V : Valuation τ sig (Elt Ideal)) :
    after (opsE2 (F := Ideal)) V (Proc.devRef .tc main_arg3) = V (Proc.devRef .tc main_arg3) := by
  after_results_simp
theorem keepE2_4 (V : Valuation τ sig (Elt Ideal)) :
    after (opsE2 (F := Ideal)) V (Proc.devRef .tc main_arg4) = V (Proc.devRef .tc main_arg4) := by
  after_results_simp

theorem stepE3 (V : Valuation τ sig (Elt Ideal)) :
    after (opsE3 (F := Ideal)) V (Proc.devRef .tc main_v84)
      = Cert.Moe.Ref.refStep 3 slices_S16x2816x2048_S1x2816x2048_3_0_0 slices_S16x2048x1408_S1x2048x1408_3_0_0
          (V (Proc.devRef .tc main_arg0)) (V (Proc.devRef .tc main_arg1)) (V (Proc.devRef .tc main_arg2))
          (V (Proc.devRef .tc main_arg3)) (V (Proc.devRef .tc main_arg4)) (V (Proc.devRef .tc main_v63)) := by
  after_results_simp <;> rfl
theorem keepE3_0 (V : Valuation τ sig (Elt Ideal)) :
    after (opsE3 (F := Ideal)) V (Proc.devRef .tc main_arg0) = V (Proc.devRef .tc main_arg0) := by
  after_results_simp
theorem keepE3_1 (V : Valuation τ sig (Elt Ideal)) :
    after (opsE3 (F := Ideal)) V (Proc.devRef .tc main_arg1) = V (Proc.devRef .tc main_arg1) := by
  after_results_simp
theorem keepE3_2 (V : Valuation τ sig (Elt Ideal)) :
    after (opsE3 (F := Ideal)) V (Proc.devRef .tc main_arg2) = V (Proc.devRef .tc main_arg2) := by
  after_results_simp
theorem keepE3_3 (V : Valuation τ sig (Elt Ideal)) :
    after (opsE3 (F := Ideal)) V (Proc.devRef .tc main_arg3) = V (Proc.devRef .tc main_arg3) := by
  after_results_simp
theorem keepE3_4 (V : Valuation τ sig (Elt Ideal)) :
    after (opsE3 (F := Ideal)) V (Proc.devRef .tc main_arg4) = V (Proc.devRef .tc main_arg4) := by
  after_results_simp

end Cert.Moe.RefRun

end
-- ==== Proof.RefStepsB.lean ====
/-
  The reference's experts 4–7, each as one step: from any buffer contents, an expert's thirty-one operations leave
  in the expert's result buffer the generic step of that expert over the five argument buffers and the running array
  the expert before left, and leave the five argument buffers as they were.
-/
import proofs.«156857_j4587025072789_1_alg».proof.Proof.RefOps
import proofs.«156857_j4587025072789_1_alg».proof.Proof.RefStep

noncomputable section

namespace Cert.Moe.RefRun

open Cert.ReferenceIdeal Cert.ReferenceIdeal.Gen Idealize.ShloMosaic Idealize.ShloMosaic.TcCoe Idealize.SL.Sem Idealize.ShloMosaic.StableHlo

theorem stepE4 (V : Valuation τ sig (Elt Ideal)) :
    after (opsE4 (F := Ideal)) V (Proc.devRef .tc main_v105)
      = Cert.Moe.Ref.refStep 4 slices_S16x2816x2048_S1x2816x2048_4_0_0 slices_S16x2048x1408_S1x2048x1408_4_0_0
          (V (Proc.devRef .tc main_arg0)) (V (Proc.devRef .tc main_arg1)) (V (Proc.devRef .tc main_arg2))
          (V (Proc.devRef .tc main_arg3)) (V (Proc.devRef .tc main_arg4)) (V (Proc.devRef .tc main_v84)) := by
  after_results_simp <;> rfl
theorem keepE4_0 (V : Valuation τ sig (Elt Ideal)) :
    after (opsE4 (F := Ideal)) V (Proc.devRef .tc main_arg0) = V (Proc.devRef .tc main_arg0) := by
  after_results_simp
theorem keepE4_1 (V : Valuation τ sig (Elt Ideal)) :
    after (opsE4 (F := Ideal)) V (Proc.devRef .tc main_arg1) = V (Proc.devRef .tc main_arg1) := by
  after_results_simp
theorem keepE4_2 (V : Valuation τ sig (Elt Ideal)) :
    after (opsE4 (F := Ideal)) V (Proc.devRef .tc main_arg2) = V (Proc.devRef .tc main_arg2) := by
  after_results_simp
theorem keepE4_3 (V : Valuation τ sig (Elt Ideal)) :
    after (opsE4 (F := Ideal)) V (Proc.devRef .tc main_arg3) = V (Proc.devRef .tc main_arg3) := by
  after_results_simp
theorem keepE4_4 (V : Valuation τ sig (Elt Ideal)) :
    after (opsE4 (F := Ideal)) V (Proc.devRef .tc main_arg4) = V (Proc.devRef .tc main_arg4) := by
  after_results_simp

theorem stepE5 (V : Valuation τ sig (Elt Ideal)) :
    after (opsE5 (F := Ideal)) V (Proc.devRef .tc main_v126)
      = Cert.Moe.Ref.refStep 5 slices_S16x2816x2048_S1x2816x2048_5_0_0 slices_S16x2048x1408_S1x2048x1408_5_0_0
          (V (Proc.devRef .tc main_arg0)) (V (Proc.devRef .tc main_arg1)) (V (Proc.devRef .tc main_arg2))
          (V (Proc.devRef .tc main_arg3)) (V (Proc.devRef .tc main_arg4)) (V (Proc.devRef .tc main_v105)) := by
  after_results_simp <;> rfl
theorem keepE5_0 (V : Valuation τ sig (Elt Ideal)) :
    after (opsE5 (F := Ideal)) V (Proc.devRef .tc main_arg0) = V (Proc.devRef .tc main_arg0) := by
  after_results_simp
theorem keepE5_1 (V : Valuation τ sig (Elt Ideal)) :
    after (opsE5 (F := Ideal)) V (Proc.devRef .tc main_arg1) = V (Proc.devRef .tc main_arg1) := by
  after_results_simp
theorem keepE5_2 (V : Valuation τ sig (Elt Ideal)) :
    after (opsE5 (F := Ideal)) V (Proc.devRef .tc main_arg2) = V (Proc.devRef .tc main_arg2) := by
  after_results_simp
theorem keepE5_3 (V : Valuation τ sig (Elt Ideal)) :
    after (opsE5 (F := Ideal)) V (Proc.devRef .tc main_arg3) = V (Proc.devRef .tc main_arg3) := by
  after_results_simp
theorem keepE5_4 (V : Valuation τ sig (Elt Ideal)) :
    after (opsE5 (F := Ideal)) V (Proc.devRef .tc main_arg4) = V (Proc.devRef .tc main_arg4) := by
  after_results_simp

theorem stepE6 (V : Valuation τ sig (Elt Ideal)) :
    after (opsE6 (F := Ideal)) V (Proc.devRef .tc main_v147)
      = Cert.Moe.Ref.refStep 6 slices_S16x2816x2048_S1x2816x2048_6_0_0 slices_S16x2048x1408_S1x2048x1408_6_0_0
          (V (Proc.devRef .tc main_arg0)) (V (Proc.devRef .tc main_arg1)) (V (Proc.devRef .tc main_arg2))
          (V (Proc.devRef .tc main_arg3)) (V (Proc.devRef .tc main_arg4)) (V (Proc.devRef .tc main_v126)) := by
  after_results_simp <;> rfl
theorem keepE6_0 (V : Valuation τ sig (Elt Ideal)) :
    after (opsE6 (F := Ideal)) V (Proc.devRef .tc main_arg0) = V (Proc.devRef .tc main_arg0) := by
  after_results_simp
theorem keepE6_1 (V : Valuation τ sig (Elt Ideal)) :
    after (opsE6 (F := Ideal)) V (Proc.devRef .tc main_arg1) = V (Proc.devRef .tc main_arg1) := by
  after_results_simp
theorem keepE6_2 (V : Valuation τ sig (Elt Ideal)) :
    after (opsE6 (F := Ideal)) V (Proc.devRef .tc main_arg2) = V (Proc.devRef .tc main_arg2) := by
  after_results_simp
theorem keepE6_3 (V : Valuation τ sig (Elt Ideal)) :
    after (opsE6 (F := Ideal)) V (Proc.devRef .tc main_arg3) = V (Proc.devRef .tc main_arg3) := by
  after_results_simp
theorem keepE6_4 (V : Valuation τ sig (Elt Ideal)) :
    after (opsE6 (F := Ideal)) V (Proc.devRef .tc main_arg4) = V (Proc.devRef .tc main_arg4) := by
  after_results_simp

theorem stepE7 (V : Valuation τ sig (Elt Ideal)) :
    after (opsE7 (F := Ideal)) V (Proc.devRef .tc main_v168)
      = Cert.Moe.Ref.refStep 7 slices_S16x2816x2048_S1x2816x2048_7_0_0 slices_S16x2048x1408_S1x2048x1408_7_0_0
          (V (Proc.devRef .tc main_arg0)) (V (Proc.devRef .tc main_arg1)) (V (Proc.devRef .tc main_arg2))
          (V (Proc.devRef .tc main_arg3)) (V (Proc.devRef .tc main_arg4)) (V (Proc.devRef .tc main_v147)) := by
  after_results_simp <;> rfl
theorem keepE7_0 (V : Valuation τ sig (Elt Ideal)) :
    after (opsE7 (F := Ideal)) V (Proc.devRef .tc main_arg0) = V (Proc.devRef .tc main_arg0) := by
  after_results_simp
theorem keepE7_1 (V : Valuation τ sig (Elt Ideal)) :
    after (opsE7 (F := Ideal)) V (Proc.devRef .tc main_arg1) = V (Proc.devRef .tc main_arg1) := by
  after_results_simp
theorem keepE7_2 (V : Valuation τ sig (Elt Ideal)) :
    after (opsE7 (F := Ideal)) V (Proc.devRef .tc main_arg2) = V (Proc.devRef .tc main_arg2) := by
  after_results_simp
theorem keepE7_3 (V : Valuation τ sig (Elt Ideal)) :
    after (opsE7 (F := Ideal)) V (Proc.devRef .tc main_arg3) = V (Proc.devRef .tc main_arg3) := by
  after_results_simp
theorem keepE7_4 (V : Valuation τ sig (Elt Ideal)) :
    after (opsE7 (F := Ideal)) V (Proc.devRef .tc main_arg4) = V (Proc.devRef .tc main_arg4) := by
  after_results_simp

end Cert.Moe.RefRun

end
-- ==== Proof.RefStepsC.lean ====
/-
  The reference's experts 8–11, each as one step: from any buffer contents, an expert's thirty-one operations leave
  in the expert's result buffer the generic step of that expert over the five argument buffers and the running array
  the expert before left, and leave the five argument buffers as they were.
-/
import proofs.«156857_j4587025072789_1_alg».proof.Proof.RefOps
import proofs.«156857_j4587025072789_1_alg».proof.Proof.RefStep

noncomputable section

namespace Cert.Moe.RefRun

open Cert.ReferenceIdeal Cert.ReferenceIdeal.Gen Idealize.ShloMosaic Idealize.ShloMosaic.TcCoe Idealize.SL.Sem Idealize.ShloMosaic.StableHlo

theorem stepE8 (V : Valuation τ sig (Elt Ideal)) :
    after (opsE8 (F := Ideal)) V (Proc.devRef .tc main_v189)
      = Cert.Moe.Ref.refStep 8 slices_S16x2816x2048_S1x2816x2048_8_0_0 slices_S16x2048x1408_S1x2048x1408_8_0_0
          (V (Proc.devRef .tc main_arg0)) (V (Proc.devRef .tc main_arg1)) (V (Proc.devRef .tc main_arg2))
          (V (Proc.devRef .tc main_arg3)) (V (Proc.devRef .tc main_arg4)) (V (Proc.devRef .tc main_v168)) := by
  after_results_simp <;> rfl
theorem keepE8_0 (V : Valuation τ sig (Elt Ideal)) :
    after (opsE8 (F := Ideal)) V (Proc.devRef .tc main_arg0) = V (Proc.devRef .tc main_arg0) := by
  after_results_simp
theorem keepE8_1 (V : Valuation τ sig (Elt Ideal)) :
    after (opsE8 (F := Ideal)) V (Proc.devRef .tc main_arg1) = V (Proc.devRef .tc main_arg1) := by
  after_results_simp
theorem keepE8_2 (V : Valuation τ sig (Elt Ideal)) :
    after (opsE8 (F := Ideal)) V (Proc.devRef .tc main_arg2) = V (Proc.devRef .tc main_arg2) := by
  after_results_simp
theorem keepE8_3 (V : Valuation τ sig (Elt Ideal)) :
    after (opsE8 (F := Ideal)) V (Proc.devRef .tc main_arg3) = V (Proc.devRef .tc main_arg3) := by
  after_results_simp
theorem keepE8_4 (V : Valuation τ sig (Elt Ideal)) :
    after (opsE8 (F := Ideal)) V (Proc.devRef .tc main_arg4) = V (Proc.devRef .tc main_arg4) := by
  after_results_simp

theorem stepE9 (V : Valuation τ sig (Elt Ideal)) :
    after (opsE9 (F := Ideal)) V (Proc.devRef .tc main_v210)
      = Cert.Moe.Ref.refStep 9 slices_S16x2816x2048_S1x2816x2048_9_0_0 slices_S16x2048x1408_S1x2048x1408_9_0_0
          (V (Proc.devRef .tc main_arg0)) (V (Proc.devRef .tc main_arg1)) (V (Proc.devRef .tc main_arg2))
          (V (Proc.devRef .tc main_arg3)) (V (Proc.devRef .tc main_arg4)) (V (Proc.devRef .tc main_v189)) := by
  after_results_simp <;> rfl
theorem keepE9_0 (V : Valuation τ sig (Elt Ideal)) :
    after (opsE9 (F := Ideal)) V (Proc.devRef .tc main_arg0) = V (Proc.devRef .tc main_arg0) := by
  after_results_simp
theorem keepE9_1 (V : Valuation τ sig (Elt Ideal)) :
    after (opsE9 (F := Ideal)) V (Proc.devRef .tc main_arg1) = V (Proc.devRef .tc main_arg1) := by
  after_results_simp
theorem keepE9_2 (V : Valuation τ sig (Elt Ideal)) :
    after (opsE9 (F := Ideal)) V (Proc.devRef .tc main_arg2) = V (Proc.devRef .tc main_arg2) := by
  after_results_simp
theorem keepE9_3 (V : Valuation τ sig (Elt Ideal)) :
    after (opsE9 (F := Ideal)) V (Proc.devRef .tc main_arg3) = V (Proc.devRef .tc main_arg3) := by
  after_results_simp
theorem keepE9_4 (V : Valuation τ sig (Elt Ideal)) :
    after (opsE9 (F := Ideal)) V (Proc.devRef .tc main_arg4) = V (Proc.devRef .tc main_arg4) := by
  after_results_simp

theorem stepE10 (V : Valuation τ sig (Elt Ideal)) :
    after (opsE10 (F := Ideal)) V (Proc.devRef .tc main_v231)
      = Cert.Moe.Ref.refStep 10 slices_S16x2816x2048_S1x2816x2048_10_0_0 slices_S16x2048x1408_S1x2048x1408_10_0_0
          (V (Proc.devRef .tc main_arg0)) (V (Proc.devRef .tc main_arg1)) (V (Proc.devRef .tc main_arg2))
          (V (Proc.devRef .tc main_arg3)) (V (Proc.devRef .tc main_arg4)) (V (Proc.devRef .tc main_v210)) := by
  after_results_simp <;> rfl
theorem keepE10_0 (V : Valuation τ sig (Elt Ideal)) :
    after (opsE10 (F := Ideal)) V (Proc.devRef .tc main_arg0) = V (Proc.devRef .tc main_arg0) := by
  after_results_simp
theorem keepE10_1 (V : Valuation τ sig (Elt Ideal)) :
    after (opsE10 (F := Ideal)) V (Proc.devRef .tc main_arg1) = V (Proc.devRef .tc main_arg1) := by
  after_results_simp
theorem keepE10_2 (V : Valuation τ sig (Elt Ideal)) :
    after (opsE10 (F := Ideal)) V (Proc.devRef .tc main_arg2) = V (Proc.devRef .tc main_arg2) := by
  after_results_simp
theorem keepE10_3 (V : Valuation τ sig (Elt Ideal)) :
    after (opsE10 (F := Ideal)) V (Proc.devRef .tc main_arg3) = V (Proc.devRef .tc main_arg3) := by
  after_results_simp
theorem keepE10_4 (V : Valuation τ sig (Elt Ideal)) :
    after (opsE10 (F := Ideal)) V (Proc.devRef .tc main_arg4) = V (Proc.devRef .tc main_arg4) := by
  after_results_simp

theorem stepE11 (V : Valuation τ sig (Elt Ideal)) :
    after (opsE11 (F := Ideal)) V (Proc.devRef .tc main_v252)
      = Cert.Moe.Ref.refStep 11 slices_S16x2816x2048_S1x2816x2048_11_0_0 slices_S16x2048x1408_S1x2048x1408_11_0_0
          (V (Proc.devRef .tc main_arg0)) (V (Proc.devRef .tc main_arg1)) (V (Proc.devRef .tc main_arg2))
          (V (Proc.devRef .tc main_arg3)) (V (Proc.devRef .tc main_arg4)) (V (Proc.devRef .tc main_v231)) := by
  after_results_simp <;> rfl
theorem keepE11_0 (V : Valuation τ sig (Elt Ideal)) :
    after (opsE11 (F := Ideal)) V (Proc.devRef .tc main_arg0) = V (Proc.devRef .tc main_arg0) := by
  after_results_simp
theorem keepE11_1 (V : Valuation τ sig (Elt Ideal)) :
    after (opsE11 (F := Ideal)) V (Proc.devRef .tc main_arg1) = V (Proc.devRef .tc main_arg1) := by
  after_results_simp
theorem keepE11_2 (V : Valuation τ sig (Elt Ideal)) :
    after (opsE11 (F := Ideal)) V (Proc.devRef .tc main_arg2) = V (Proc.devRef .tc main_arg2) := by
  after_results_simp
theorem keepE11_3 (V : Valuation τ sig (Elt Ideal)) :
    after (opsE11 (F := Ideal)) V (Proc.devRef .tc main_arg3) = V (Proc.devRef .tc main_arg3) := by
  after_results_simp
theorem keepE11_4 (V : Valuation τ sig (Elt Ideal)) :
    after (opsE11 (F := Ideal)) V (Proc.devRef .tc main_arg4) = V (Proc.devRef .tc main_arg4) := by
  after_results_simp

end Cert.Moe.RefRun

end
-- ==== Proof.RefStepsD.lean ====
/-
  The reference's experts 12–15, each as one step: from any buffer contents, an expert's thirty-one operations leave
  in the expert's result buffer the generic step of that expert over the five argument buffers and the running array
  the expert before left, and leave the five argument buffers as they were.
-/
import proofs.«156857_j4587025072789_1_alg».proof.Proof.RefOps
import proofs.«156857_j4587025072789_1_alg».proof.Proof.RefStep

noncomputable section

namespace Cert.Moe.RefRun

open Cert.ReferenceIdeal Cert.ReferenceIdeal.Gen Idealize.ShloMosaic Idealize.ShloMosaic.TcCoe Idealize.SL.Sem Idealize.ShloMosaic.StableHlo

theorem stepE12 (V : Valuation τ sig (Elt Ideal)) :
    after (opsE12 (F := Ideal)) V (Proc.devRef .tc main_v273)
      = Cert.Moe.Ref.refStep 12 slices_S16x2816x2048_S1x2816x2048_12_0_0 slices_S16x2048x1408_S1x2048x1408_12_0_0
          (V (Proc.devRef .tc main_arg0)) (V (Proc.devRef .tc main_arg1)) (V (Proc.devRef .tc main_arg2))
          (V (Proc.devRef .tc main_arg3)) (V (Proc.devRef .tc main_arg4)) (V (Proc.devRef .tc main_v252)) := by
  after_results_simp <;> rfl
theorem keepE12_0 (V : Valuation τ sig (Elt Ideal)) :
    after (opsE12 (F := Ideal)) V (Proc.devRef .tc main_arg0) = V (Proc.devRef .tc main_arg0) := by
  after_results_simp
theorem keepE12_1 (V : Valuation τ sig (Elt Ideal)) :
    after (opsE12 (F := Ideal)) V (Proc.devRef .tc main_arg1) = V (Proc.devRef .tc main_arg1) := by
  after_results_simp
theorem keepE12_2 (V : Valuation τ sig (Elt Ideal)) :
    after (opsE12 (F := Ideal)) V (Proc.devRef .tc main_arg2) = V (Proc.devRef .tc main_arg2) := by
  after_results_simp
theorem keepE12_3 (V : Valuation τ sig (Elt Ideal)) :
    after (opsE12 (F := Ideal)) V (Proc.devRef .tc main_arg3) = V (Proc.devRef .tc main_arg3) := by
  after_results_simp
theorem keepE12_4 (V : Valuation τ sig (Elt Ideal)) :
    after (opsE12 (F := Ideal)) V (Proc.devRef .tc main_arg4) = V (Proc.devRef .tc main_arg4) := by
  after_results_simp

theorem stepE13 (V : Valuation τ sig (Elt Ideal)) :
    after (opsE13 (F := Ideal)) V (Proc.devRef .tc main_v294)
      = Cert.Moe.Ref.refStep 13 slices_S16x2816x2048_S1x2816x2048_13_0_0 slices_S16x2048x1408_S1x2048x1408_13_0_0
          (V (Proc.devRef .tc main_arg0)) (V (Proc.devRef .tc main_arg1)) (V (Proc.devRef .tc main_arg2))
          (V (Proc.devRef .tc main_arg3)) (V (Proc.devRef .tc main_arg4)) (V (Proc.devRef .tc main_v273)) := by
  after_results_simp <;> rfl
theorem keepE13_0 (V : Valuation τ sig (Elt Ideal)) :
    after (opsE13 (F := Ideal)) V (Proc.devRef .tc main_arg0) = V (Proc.devRef .tc main_arg0) := by
  after_results_simp
theorem keepE13_1 (V : Valuation τ sig (Elt Ideal)) :
    after (opsE13 (F := Ideal)) V (Proc.devRef .tc main_arg1) = V (Proc.devRef .tc main_arg1) := by
  after_results_simp
theorem keepE13_2 (V : Valuation τ sig (Elt Ideal)) :
    after (opsE13 (F := Ideal)) V (Proc.devRef .tc main_arg2) = V (Proc.devRef .tc main_arg2) := by
  after_results_simp
theorem keepE13_3 (V : Valuation τ sig (Elt Ideal)) :
    after (opsE13 (F := Ideal)) V (Proc.devRef .tc main_arg3) = V (Proc.devRef .tc main_arg3) := by
  after_results_simp
theorem keepE13_4 (V : Valuation τ sig (Elt Ideal)) :
    after (opsE13 (F := Ideal)) V (Proc.devRef .tc main_arg4) = V (Proc.devRef .tc main_arg4) := by
  after_results_simp

theorem stepE14 (V : Valuation τ sig (Elt Ideal)) :
    after (opsE14 (F := Ideal)) V (Proc.devRef .tc main_v315)
      = Cert.Moe.Ref.refStep 14 slices_S16x2816x2048_S1x2816x2048_14_0_0 slices_S16x2048x1408_S1x2048x1408_14_0_0
          (V (Proc.devRef .tc main_arg0)) (V (Proc.devRef .tc main_arg1)) (V (Proc.devRef .tc main_arg2))
          (V (Proc.devRef .tc main_arg3)) (V (Proc.devRef .tc main_arg4)) (V (Proc.devRef .tc main_v294)) := by
  after_results_simp <;> rfl
theorem keepE14_0 (V : Valuation τ sig (Elt Ideal)) :
    after (opsE14 (F := Ideal)) V (Proc.devRef .tc main_arg0) = V (Proc.devRef .tc main_arg0) := by
  after_results_simp
theorem keepE14_1 (V : Valuation τ sig (Elt Ideal)) :
    after (opsE14 (F := Ideal)) V (Proc.devRef .tc main_arg1) = V (Proc.devRef .tc main_arg1) := by
  after_results_simp
theorem keepE14_2 (V : Valuation τ sig (Elt Ideal)) :
    after (opsE14 (F := Ideal)) V (Proc.devRef .tc main_arg2) = V (Proc.devRef .tc main_arg2) := by
  after_results_simp
theorem keepE14_3 (V : Valuation τ sig (Elt Ideal)) :
    after (opsE14 (F := Ideal)) V (Proc.devRef .tc main_arg3) = V (Proc.devRef .tc main_arg3) := by
  after_results_simp
theorem keepE14_4 (V : Valuation τ sig (Elt Ideal)) :
    after (opsE14 (F := Ideal)) V (Proc.devRef .tc main_arg4) = V (Proc.devRef .tc main_arg4) := by
  after_results_simp

theorem stepE15 (V : Valuation τ sig (Elt Ideal)) :
    after (opsE15 (F := Ideal)) V (Proc.devRef .tc main_v336)
      = Cert.Moe.Ref.refStep 15 slices_S16x2816x2048_S1x2816x2048_15_0_0 slices_S16x2048x1408_S1x2048x1408_15_0_0
          (V (Proc.devRef .tc main_arg0)) (V (Proc.devRef .tc main_arg1)) (V (Proc.devRef .tc main_arg2))
          (V (Proc.devRef .tc main_arg3)) (V (Proc.devRef .tc main_arg4)) (V (Proc.devRef .tc main_v315)) := by
  after_results_simp <;> rfl
theorem keepE15_0 (V : Valuation τ sig (Elt Ideal)) :
    after (opsE15 (F := Ideal)) V (Proc.devRef .tc main_arg0) = V (Proc.devRef .tc main_arg0) := by
  after_results_simp
theorem keepE15_1 (V : Valuation τ sig (Elt Ideal)) :
    after (opsE15 (F := Ideal)) V (Proc.devRef .tc main_arg1) = V (Proc.devRef .tc main_arg1) := by
  after_results_simp
theorem keepE15_2 (V : Valuation τ sig (Elt Ideal)) :
    after (opsE15 (F := Ideal)) V (Proc.devRef .tc main_arg2) = V (Proc.devRef .tc main_arg2) := by
  after_results_simp
theorem keepE15_3 (V : Valuation τ sig (Elt Ideal)) :
    after (opsE15 (F := Ideal)) V (Proc.devRef .tc main_arg3) = V (Proc.devRef .tc main_arg3) := by
  after_results_simp
theorem keepE15_4 (V : Valuation τ sig (Elt Ideal)) :
    after (opsE15 (F := Ideal)) V (Proc.devRef .tc main_arg4) = V (Proc.devRef .tc main_arg4) := by
  after_results_simp

end Cert.Moe.RefRun

end
-- ==== Proof.RefRun.lean ====
/-
  The reference's run.

  The program is the zero array followed by the sixteen experts' stretches.  From any buffer contents, the program
  from expert `k` on leaves in the result buffer the steps of experts `k … 15` applied in order to the running array
  it found, over the argument arrays it found (each stretch leaves the arguments alone, so every step reads them as
  found): by the stretches one after the other.  So the result buffer ends at the sixteen steps applied in order to
  the zero array, over the arguments as launched; read at an index, that is the specification's `out`: each step adds
  its expert's contribution to the running entry.
-/
import proofs.«156857_j4587025072789_1_alg».proof.Proof.RefMain
import proofs.«156857_j4587025072789_1_alg».proof.Proof.RefStepsA
import proofs.«156857_j4587025072789_1_alg».proof.Proof.RefStepsB
import proofs.«156857_j4587025072789_1_alg».proof.Proof.RefStepsC
import proofs.«156857_j4587025072789_1_alg».proof.Proof.RefStepsD

noncomputable section

namespace Cert.Moe.RefRun

open Cert.ReferenceIdeal Cert.ReferenceIdeal.Gen Idealize.ShloMosaic Idealize.ShloMosaic.TcCoe Idealize.SL.Sem Idealize.ShloMosaic.StableHlo
open Idealize.ShloMosaic.ValueIdx

/-! ## The arguments are left alone -/

theorem keepPre_0 (V : Valuation τ sig (Elt Ideal)) :
    after (opsPre (F := Ideal)) V (Proc.devRef .tc main_arg0) = V (Proc.devRef .tc main_arg0) := by
  after_results_simp
theorem keepR15_0 (V : Valuation τ sig (Elt Ideal)) :
    after (R15 (F := Ideal)) V (Proc.devRef .tc main_arg0) = V (Proc.devRef .tc main_arg0) := keepE15_0 V
theorem keepR14_0 (V : Valuation τ sig (Elt Ideal)) :
    after (R14 (F := Ideal)) V (Proc.devRef .tc main_arg0) = V (Proc.devRef .tc main_arg0) := by
  rw [show (R14 (F := Ideal)) = opsE14 ++ R15 from rfl, Cert.MaskSlab.after_append, keepR15_0, keepE14_0]
theorem keepR13_0 (V : Valuation τ sig (Elt Ideal)) :
    after (R13 (F := Ideal)) V (Proc.devRef .tc main_arg0) = V (Proc.devRef .tc main_arg0) := by
  rw [show (R13 (F := Ideal)) = opsE13 ++ R14 from rfl, Cert.MaskSlab.after_append, keepR14_0, keepE13_0]
theorem keepR12_0 (V : Valuation τ sig (Elt Ideal)) :
    after (R12 (F := Ideal)) V (Proc.devRef .tc main_arg0) = V (Proc.devRef .tc main_arg0) := by
  rw [show (R12 (F := Ideal)) = opsE12 ++ R13 from rfl, Cert.MaskSlab.after_append, keepR13_0, keepE12_0]
theorem keepR11_0 (V : Valuation τ sig (Elt Ideal)) :
    after (R11 (F := Ideal)) V (Proc.devRef .tc main_arg0) = V (Proc.devRef .tc main_arg0) := by
  rw [show (R11 (F := Ideal)) = opsE11 ++ R12 from rfl, Cert.MaskSlab.after_append, keepR12_0, keepE11_0]
theorem keepR10_0 (V : Valuation τ sig (Elt Ideal)) :
    after (R10 (F := Ideal)) V (Proc.devRef .tc main_arg0) = V (Proc.devRef .tc main_arg0) := by
  rw [show (R10 (F := Ideal)) = opsE10 ++ R11 from rfl, Cert.MaskSlab.after_append, keepR11_0, keepE10_0]
theorem keepR9_0 (V : Valuation τ sig (Elt Ideal)) :
    after (R9 (F := Ideal)) V (Proc.devRef .tc main_arg0) = V (Proc.devRef .tc main_arg0) := by
  rw [show (R9 (F := Ideal)) = opsE9 ++ R10 from rfl, Cert.MaskSlab.after_append, keepR10_0, keepE9_0]
theorem keepR8_0 (V : Valuation τ sig (Elt Ideal)) :
    after (R8 (F := Ideal)) V (Proc.devRef .tc main_arg0) = V (Proc.devRef .tc main_arg0) := by
  rw [show (R8 (F := Ideal)) = opsE8 ++ R9 from rfl, Cert.MaskSlab.after_append, keepR9_0, keepE8_0]
theorem keepR7_0 (V : Valuation τ sig (Elt Ideal)) :
    after (R7 (F := Ideal)) V (Proc.devRef .tc main_arg0) = V (Proc.devRef .tc main_arg0) := by
  rw [show (R7 (F := Ideal)) = opsE7 ++ R8 from rfl, Cert.MaskSlab.after_append, keepR8_0, keepE7_0]
theorem keepR6_0 (V : Valuation τ sig (Elt Ideal)) :
    after (R6 (F := Ideal)) V (Proc.devRef .tc main_arg0) = V (Proc.devRef .tc main_arg0) := by
  rw [show (R6 (F := Ideal)) = opsE6 ++ R7 from rfl, Cert.MaskSlab.after_append, keepR7_0, keepE6_0]
theorem keepR5_0 (V : Valuation τ sig (Elt Ideal)) :
    after (R5 (F := Ideal)) V (Proc.devRef .tc main_arg0) = V (Proc.devRef .tc main_arg0) := by
  rw [show (R5 (F := Ideal)) = opsE5 ++ R6 from rfl, Cert.MaskSlab.after_append, keepR6_0, keepE5_0]
theorem keepR4_0 (V : Valuation τ sig (Elt Ideal)) :
    after (R4 (F := Ideal)) V (Proc.devRef .tc main_arg0) = V (Proc.devRef .tc main_arg0) := by
  rw [show (R4 (F := Ideal)) = opsE4 ++ R5 from rfl, Cert.MaskSlab.after_append, keepR5_0, keepE4_0]
theorem keepR3_0 (V : Valuation τ sig (Elt Ideal)) :
    after (R3 (F := Ideal)) V (Proc.devRef .tc main_arg0) = V (Proc.devRef .tc main_arg0) := by
  rw [show (R3 (F := Ideal)) = opsE3 ++ R4 from rfl, Cert.MaskSlab.after_append, keepR4_0, keepE3_0]
theorem keepR2_0 (V : Valuation τ sig (Elt Ideal)) :
    after (R2 (F := Ideal)) V (Proc.devRef .tc main_arg0) = V (Proc.devRef .tc main_arg0) := by
  rw [show (R2 (F := Ideal)) = opsE2 ++ R3 from rfl, Cert.MaskSlab.after_append, keepR3_0, keepE2_0]
theorem keepR1_0 (V : Valuation τ sig (Elt Ideal)) :
    after (R1 (F := Ideal)) V (Proc.devRef .tc main_arg0) = V (Proc.devRef .tc main_arg0) := by
  rw [show (R1 (F := Ideal)) = opsE1 ++ R2 from rfl, Cert.MaskSlab.after_append, keepR2_0, keepE1_0]
theorem keepR0_0 (V : Valuation τ sig (Elt Ideal)) :
    after (R0 (F := Ideal)) V (Proc.devRef .tc main_arg0) = V (Proc.devRef .tc main_arg0) := by
  rw [show (R0 (F := Ideal)) = opsE0 ++ R1 from rfl, Cert.MaskSlab.after_append, keepR1_0, keepE0_0]
theorem keepWhole_0 (V : Valuation τ sig (Elt Ideal)) :
    after (whole (F := Ideal)) V (Proc.devRef .tc main_arg0) = V (Proc.devRef .tc main_arg0) := by
  rw [show (whole (F := Ideal)) = opsPre ++ R0 from rfl, Cert.MaskSlab.after_append, keepR0_0, keepPre_0]

theorem keepPre_1 (V : Valuation τ sig (Elt Ideal)) :
    after (opsPre (F := Ideal)) V (Proc.devRef .tc main_arg1) = V (Proc.devRef .tc main_arg1) := by
  after_results_simp
theorem keepR15_1 (V : Valuation τ sig (Elt Ideal)) :
    after (R15 (F := Ideal)) V (Proc.devRef .tc main_arg1) = V (Proc.devRef .tc main_arg1) := keepE15_1 V
theorem keepR14_1 (V : Valuation τ sig (Elt Ideal)) :
    after (R14 (F := Ideal)) V (Proc.devRef .tc main_arg1) = V (Proc.devRef .tc main_arg1) := by
  rw [show (R14 (F := Ideal)) = opsE14 ++ R15 from rfl, Cert.MaskSlab.after_append, keepR15_1, keepE14_1]
theorem keepR13_1 (V : Valuation τ sig (Elt Ideal)) :
    after (R13 (F := Ideal)) V (Proc.devRef .tc main_arg1) = V (Proc.devRef .tc main_arg1) := by
  rw [show (R13 (F := Ideal)) = opsE13 ++ R14 from rfl, Cert.MaskSlab.after_append, keepR14_1, keepE13_1]
theorem keepR12_1 (V : Valuation τ sig (Elt Ideal)) :
    after (R12 (F := Ideal)) V (Proc.devRef .tc main_arg1) = V (Proc.devRef .tc main_arg1) := by
  rw [show (R12 (F := Ideal)) = opsE12 ++ R13 from rfl, Cert.MaskSlab.after_append, keepR13_1, keepE12_1]
theorem keepR11_1 (V : Valuation τ sig (Elt Ideal)) :
    after (R11 (F := Ideal)) V (Proc.devRef .tc main_arg1) = V (Proc.devRef .tc main_arg1) := by
  rw [show (R11 (F := Ideal)) = opsE11 ++ R12 from rfl, Cert.MaskSlab.after_append, keepR12_1, keepE11_1]
theorem keepR10_1 (V : Valuation τ sig (Elt Ideal)) :
    after (R10 (F := Ideal)) V (Proc.devRef .tc main_arg1) = V (Proc.devRef .tc main_arg1) := by
  rw [show (R10 (F := Ideal)) = opsE10 ++ R11 from rfl, Cert.MaskSlab.after_append, keepR11_1, keepE10_1]
theorem keepR9_1 (V : Valuation τ sig (Elt Ideal)) :
    after (R9 (F := Ideal)) V (Proc.devRef .tc main_arg1) = V (Proc.devRef .tc main_arg1) := by
  rw [show (R9 (F := Ideal)) = opsE9 ++ R10 from rfl, Cert.MaskSlab.after_append, keepR10_1, keepE9_1]
theorem keepR8_1 (V : Valuation τ sig (Elt Ideal)) :
    after (R8 (F := Ideal)) V (Proc.devRef .tc main_arg1) = V (Proc.devRef .tc main_arg1) := by
  rw [show (R8 (F := Ideal)) = opsE8 ++ R9 from rfl, Cert.MaskSlab.after_append, keepR9_1, keepE8_1]
theorem keepR7_1 (V : Valuation τ sig (Elt Ideal)) :
    after (R7 (F := Ideal)) V (Proc.devRef .tc main_arg1) = V (Proc.devRef .tc main_arg1) := by
  rw [show (R7 (F := Ideal)) = opsE7 ++ R8 from rfl, Cert.MaskSlab.after_append, keepR8_1, keepE7_1]
theorem keepR6_1 (V : Valuation τ sig (Elt Ideal)) :
    after (R6 (F := Ideal)) V (Proc.devRef .tc main_arg1) = V (Proc.devRef .tc main_arg1) := by
  rw [show (R6 (F := Ideal)) = opsE6 ++ R7 from rfl, Cert.MaskSlab.after_append, keepR7_1, keepE6_1]
theorem keepR5_1 (V : Valuation τ sig (Elt Ideal)) :
    after (R5 (F := Ideal)) V (Proc.devRef .tc main_arg1) = V (Proc.devRef .tc main_arg1) := by
  rw [show (R5 (F := Ideal)) = opsE5 ++ R6 from rfl, Cert.MaskSlab.after_append, keepR6_1, keepE5_1]
theorem keepR4_1 (V : Valuation τ sig (Elt Ideal)) :
    after (R4 (F := Ideal)) V (Proc.devRef .tc main_arg1) = V (Proc.devRef .tc main_arg1) := by
  rw [show (R4 (F := Ideal)) = opsE4 ++ R5 from rfl, Cert.MaskSlab.after_append, keepR5_1, keepE4_1]
theorem keepR3_1 (V : Valuation τ sig (Elt Ideal)) :
    after (R3 (F := Ideal)) V (Proc.devRef .tc main_arg1) = V (Proc.devRef .tc main_arg1) := by
  rw [show (R3 (F := Ideal)) = opsE3 ++ R4 from rfl, Cert.MaskSlab.after_append, keepR4_1, keepE3_1]
theorem keepR2_1 (V : Valuation τ sig (Elt Ideal)) :
    after (R2 (F := Ideal)) V (Proc.devRef .tc main_arg1) = V (Proc.devRef .tc main_arg1) := by
  rw [show (R2 (F := Ideal)) = opsE2 ++ R3 from rfl, Cert.MaskSlab.after_append, keepR3_1, keepE2_1]
theorem keepR1_1 (V : Valuation τ sig (Elt Ideal)) :
    after (R1 (F := Ideal)) V (Proc.devRef .tc main_arg1) = V (Proc.devRef .tc main_arg1) := by
  rw [show (R1 (F := Ideal)) = opsE1 ++ R2 from rfl, Cert.MaskSlab.after_append, keepR2_1, keepE1_1]
theorem keepR0_1 (V : Valuation τ sig (Elt Ideal)) :
    after (R0 (F := Ideal)) V (Proc.devRef .tc main_arg1) = V (Proc.devRef .tc main_arg1) := by
  rw [show (R0 (F := Ideal)) = opsE0 ++ R1 from rfl, Cert.MaskSlab.after_append, keepR1_1, keepE0_1]
theorem keepWhole_1 (V : Valuation τ sig (Elt Ideal)) :
    after (whole (F := Ideal)) V (Proc.devRef .tc main_arg1) = V (Proc.devRef .tc main_arg1) := by
  rw [show (whole (F := Ideal)) = opsPre ++ R0 from rfl, Cert.MaskSlab.after_append, keepR0_1, keepPre_1]

theorem keepPre_2 (V : Valuation τ sig (Elt Ideal)) :
    after (opsPre (F := Ideal)) V (Proc.devRef .tc main_arg2) = V (Proc.devRef .tc main_arg2) := by
  after_results_simp
theorem keepR15_2 (V : Valuation τ sig (Elt Ideal)) :
    after (R15 (F := Ideal)) V (Proc.devRef .tc main_arg2) = V (Proc.devRef .tc main_arg2) := keepE15_2 V
theorem keepR14_2 (V : Valuation τ sig (Elt Ideal)) :
    after (R14 (F := Ideal)) V (Proc.devRef .tc main_arg2) = V (Proc.devRef .tc main_arg2) := by
  rw [show (R14 (F := Ideal)) = opsE14 ++ R15 from rfl, Cert.MaskSlab.after_append, keepR15_2, keepE14_2]
theorem keepR13_2 (V : Valuation τ sig (Elt Ideal)) :
    after (R13 (F := Ideal)) V (Proc.devRef .tc main_arg2) = V (Proc.devRef .tc main_arg2) := by
  rw [show (R13 (F := Ideal)) = opsE13 ++ R14 from rfl, Cert.MaskSlab.after_append, keepR14_2, keepE13_2]
theorem keepR12_2 (V : Valuation τ sig (Elt Ideal)) :
    after (R12 (F := Ideal)) V (Proc.devRef .tc main_arg2) = V (Proc.devRef .tc main_arg2) := by
  rw [show (R12 (F := Ideal)) = opsE12 ++ R13 from rfl, Cert.MaskSlab.after_append, keepR13_2, keepE12_2]
theorem keepR11_2 (V : Valuation τ sig (Elt Ideal)) :
    after (R11 (F := Ideal)) V (Proc.devRef .tc main_arg2) = V (Proc.devRef .tc main_arg2) := by
  rw [show (R11 (F := Ideal)) = opsE11 ++ R12 from rfl, Cert.MaskSlab.after_append, keepR12_2, keepE11_2]
theorem keepR10_2 (V : Valuation τ sig (Elt Ideal)) :
    after (R10 (F := Ideal)) V (Proc.devRef .tc main_arg2) = V (Proc.devRef .tc main_arg2) := by
  rw [show (R10 (F := Ideal)) = opsE10 ++ R11 from rfl, Cert.MaskSlab.after_append, keepR11_2, keepE10_2]
theorem keepR9_2 (V : Valuation τ sig (Elt Ideal)) :
    after (R9 (F := Ideal)) V (Proc.devRef .tc main_arg2) = V (Proc.devRef .tc main_arg2) := by
  rw [show (R9 (F := Ideal)) = opsE9 ++ R10 from rfl, Cert.MaskSlab.after_append, keepR10_2, keepE9_2]
theorem keepR8_2 (V : Valuation τ sig (Elt Ideal)) :
    after (R8 (F := Ideal)) V (Proc.devRef .tc main_arg2) = V (Proc.devRef .tc main_arg2) := by
  rw [show (R8 (F := Ideal)) = opsE8 ++ R9 from rfl, Cert.MaskSlab.after_append, keepR9_2, keepE8_2]
theorem keepR7_2 (V : Valuation τ sig (Elt Ideal)) :
    after (R7 (F := Ideal)) V (Proc.devRef .tc main_arg2) = V (Proc.devRef .tc main_arg2) := by
  rw [show (R7 (F := Ideal)) = opsE7 ++ R8 from rfl, Cert.MaskSlab.after_append, keepR8_2, keepE7_2]
theorem keepR6_2 (V : Valuation τ sig (Elt Ideal)) :
    after (R6 (F := Ideal)) V (Proc.devRef .tc main_arg2) = V (Proc.devRef .tc main_arg2) := by
  rw [show (R6 (F := Ideal)) = opsE6 ++ R7 from rfl, Cert.MaskSlab.after_append, keepR7_2, keepE6_2]
theorem keepR5_2 (V : Valuation τ sig (Elt Ideal)) :
    after (R5 (F := Ideal)) V (Proc.devRef .tc main_arg2) = V (Proc.devRef .tc main_arg2) := by
  rw [show (R5 (F := Ideal)) = opsE5 ++ R6 from rfl, Cert.MaskSlab.after_append, keepR6_2, keepE5_2]
theorem keepR4_2 (V : Valuation τ sig (Elt Ideal)) :
    after (R4 (F := Ideal)) V (Proc.devRef .tc main_arg2) = V (Proc.devRef .tc main_arg2) := by
  rw [show (R4 (F := Ideal)) = opsE4 ++ R5 from rfl, Cert.MaskSlab.after_append, keepR5_2, keepE4_2]
theorem keepR3_2 (V : Valuation τ sig (Elt Ideal)) :
    after (R3 (F := Ideal)) V (Proc.devRef .tc main_arg2) = V (Proc.devRef .tc main_arg2) := by
  rw [show (R3 (F := Ideal)) = opsE3 ++ R4 from rfl, Cert.MaskSlab.after_append, keepR4_2, keepE3_2]
theorem keepR2_2 (V : Valuation τ sig (Elt Ideal)) :
    after (R2 (F := Ideal)) V (Proc.devRef .tc main_arg2) = V (Proc.devRef .tc main_arg2) := by
  rw [show (R2 (F := Ideal)) = opsE2 ++ R3 from rfl, Cert.MaskSlab.after_append, keepR3_2, keepE2_2]
theorem keepR1_2 (V : Valuation τ sig (Elt Ideal)) :
    after (R1 (F := Ideal)) V (Proc.devRef .tc main_arg2) = V (Proc.devRef .tc main_arg2) := by
  rw [show (R1 (F := Ideal)) = opsE1 ++ R2 from rfl, Cert.MaskSlab.after_append, keepR2_2, keepE1_2]
theorem keepR0_2 (V : Valuation τ sig (Elt Ideal)) :
    after (R0 (F := Ideal)) V (Proc.devRef .tc main_arg2) = V (Proc.devRef .tc main_arg2) := by
  rw [show (R0 (F := Ideal)) = opsE0 ++ R1 from rfl, Cert.MaskSlab.after_append, keepR1_2, keepE0_2]
theorem keepWhole_2 (V : Valuation τ sig (Elt Ideal)) :
    after (whole (F := Ideal)) V (Proc.devRef .tc main_arg2) = V (Proc.devRef .tc main_arg2) := by
  rw [show (whole (F := Ideal)) = opsPre ++ R0 from rfl, Cert.MaskSlab.after_append, keepR0_2, keepPre_2]

theorem keepPre_3 (V : Valuation τ sig (Elt Ideal)) :
    after (opsPre (F := Ideal)) V (Proc.devRef .tc main_arg3) = V (Proc.devRef .tc main_arg3) := by
  after_results_simp
theorem keepR15_3 (V : Valuation τ sig (Elt Ideal)) :
    after (R15 (F := Ideal)) V (Proc.devRef .tc main_arg3) = V (Proc.devRef .tc main_arg3) := keepE15_3 V
theorem keepR14_3 (V : Valuation τ sig (Elt Ideal)) :
    after (R14 (F := Ideal)) V (Proc.devRef .tc main_arg3) = V (Proc.devRef .tc main_arg3) := by
  rw [show (R14 (F := Ideal)) = opsE14 ++ R15 from rfl, Cert.MaskSlab.after_append, keepR15_3, keepE14_3]
theorem keepR13_3 (V : Valuation τ sig (Elt Ideal)) :
    after (R13 (F := Ideal)) V (Proc.devRef .tc main_arg3) = V (Proc.devRef .tc main_arg3) := by
  rw [show (R13 (F := Ideal)) = opsE13 ++ R14 from rfl, Cert.MaskSlab.after_append, keepR14_3, keepE13_3]
theorem keepR12_3 (V : Valuation τ sig (Elt Ideal)) :
    after (R12 (F := Ideal)) V (Proc.devRef .tc main_arg3) = V (Proc.devRef .tc main_arg3) := by
  rw [show (R12 (F := Ideal)) = opsE12 ++ R13 from rfl, Cert.MaskSlab.after_append, keepR13_3, keepE12_3]
theorem keepR11_3 (V : Valuation τ sig (Elt Ideal)) :
    after (R11 (F := Ideal)) V (Proc.devRef .tc main_arg3) = V (Proc.devRef .tc main_arg3) := by
  rw [show (R11 (F := Ideal)) = opsE11 ++ R12 from rfl, Cert.MaskSlab.after_append, keepR12_3, keepE11_3]
theorem keepR10_3 (V : Valuation τ sig (Elt Ideal)) :
    after (R10 (F := Ideal)) V (Proc.devRef .tc main_arg3) = V (Proc.devRef .tc main_arg3) := by
  rw [show (R10 (F := Ideal)) = opsE10 ++ R11 from rfl, Cert.MaskSlab.after_append, keepR11_3, keepE10_3]
theorem keepR9_3 (V : Valuation τ sig (Elt Ideal)) :
    after (R9 (F := Ideal)) V (Proc.devRef .tc main_arg3) = V (Proc.devRef .tc main_arg3) := by
  rw [show (R9 (F := Ideal)) = opsE9 ++ R10 from rfl, Cert.MaskSlab.after_append, keepR10_3, keepE9_3]
theorem keepR8_3 (V : Valuation τ sig (Elt Ideal)) :
    after (R8 (F := Ideal)) V (Proc.devRef .tc main_arg3) = V (Proc.devRef .tc main_arg3) := by
  rw [show (R8 (F := Ideal)) = opsE8 ++ R9 from rfl, Cert.MaskSlab.after_append, keepR9_3, keepE8_3]
theorem keepR7_3 (V : Valuation τ sig (Elt Ideal)) :
    after (R7 (F := Ideal)) V (Proc.devRef .tc main_arg3) = V (Proc.devRef .tc main_arg3) := by
  rw [show (R7 (F := Ideal)) = opsE7 ++ R8 from rfl, Cert.MaskSlab.after_append, keepR8_3, keepE7_3]
theorem keepR6_3 (V : Valuation τ sig (Elt Ideal)) :
    after (R6 (F := Ideal)) V (Proc.devRef .tc main_arg3) = V (Proc.devRef .tc main_arg3) := by
  rw [show (R6 (F := Ideal)) = opsE6 ++ R7 from rfl, Cert.MaskSlab.after_append, keepR7_3, keepE6_3]
theorem keepR5_3 (V : Valuation τ sig (Elt Ideal)) :
    after (R5 (F := Ideal)) V (Proc.devRef .tc main_arg3) = V (Proc.devRef .tc main_arg3) := by
  rw [show (R5 (F := Ideal)) = opsE5 ++ R6 from rfl, Cert.MaskSlab.after_append, keepR6_3, keepE5_3]
theorem keepR4_3 (V : Valuation τ sig (Elt Ideal)) :
    after (R4 (F := Ideal)) V (Proc.devRef .tc main_arg3) = V (Proc.devRef .tc main_arg3) := by
  rw [show (R4 (F := Ideal)) = opsE4 ++ R5 from rfl, Cert.MaskSlab.after_append, keepR5_3, keepE4_3]
theorem keepR3_3 (V : Valuation τ sig (Elt Ideal)) :
    after (R3 (F := Ideal)) V (Proc.devRef .tc main_arg3) = V (Proc.devRef .tc main_arg3) := by
  rw [show (R3 (F := Ideal)) = opsE3 ++ R4 from rfl, Cert.MaskSlab.after_append, keepR4_3, keepE3_3]
theorem keepR2_3 (V : Valuation τ sig (Elt Ideal)) :
    after (R2 (F := Ideal)) V (Proc.devRef .tc main_arg3) = V (Proc.devRef .tc main_arg3) := by
  rw [show (R2 (F := Ideal)) = opsE2 ++ R3 from rfl, Cert.MaskSlab.after_append, keepR3_3, keepE2_3]
theorem keepR1_3 (V : Valuation τ sig (Elt Ideal)) :
    after (R1 (F := Ideal)) V (Proc.devRef .tc main_arg3) = V (Proc.devRef .tc main_arg3) := by
  rw [show (R1 (F := Ideal)) = opsE1 ++ R2 from rfl, Cert.MaskSlab.after_append, keepR2_3, keepE1_3]
theorem keepR0_3 (V : Valuation τ sig (Elt Ideal)) :
    after (R0 (F := Ideal)) V (Proc.devRef .tc main_arg3) = V (Proc.devRef .tc main_arg3) := by
  rw [show (R0 (F := Ideal)) = opsE0 ++ R1 from rfl, Cert.MaskSlab.after_append, keepR1_3, keepE0_3]
theorem keepWhole_3 (V : Valuation τ sig (Elt Ideal)) :
    after (whole (F := Ideal)) V (Proc.devRef .tc main_arg3) = V (Proc.devRef .tc main_arg3) := by
  rw [show (whole (F := Ideal)) = opsPre ++ R0 from rfl, Cert.MaskSlab.after_append, keepR0_3, keepPre_3]

theorem keepPre_4 (V : Valuation τ sig (Elt Ideal)) :
    after (opsPre (F := Ideal)) V (Proc.devRef .tc main_arg4) = V (Proc.devRef .tc main_arg4) := by
  after_results_simp
theorem keepR15_4 (V : Valuation τ sig (Elt Ideal)) :
    after (R15 (F := Ideal)) V (Proc.devRef .tc main_arg4) = V (Proc.devRef .tc main_arg4) := keepE15_4 V
theorem keepR14_4 (V : Valuation τ sig (Elt Ideal)) :
    after (R14 (F := Ideal)) V (Proc.devRef .tc main_arg4) = V (Proc.devRef .tc main_arg4) := by
  rw [show (R14 (F := Ideal)) = opsE14 ++ R15 from rfl, Cert.MaskSlab.after_append, keepR15_4, keepE14_4]
theorem keepR13_4 (V : Valuation τ sig (Elt Ideal)) :
    after (R13 (F := Ideal)) V (Proc.devRef .tc main_arg4) = V (Proc.devRef .tc main_arg4) := by
  rw [show (R13 (F := Ideal)) = opsE13 ++ R14 from rfl, Cert.MaskSlab.after_append, keepR14_4, keepE13_4]
theorem keepR12_4 (V : Valuation τ sig (Elt Ideal)) :
    after (R12 (F := Ideal)) V (Proc.devRef .tc main_arg4) = V (Proc.devRef .tc main_arg4) := by
  rw [show (R12 (F := Ideal)) = opsE12 ++ R13 from rfl, Cert.MaskSlab.after_append, keepR13_4, keepE12_4]
theorem keepR11_4 (V : Valuation τ sig (Elt Ideal)) :
    after (R11 (F := Ideal)) V (Proc.devRef .tc main_arg4) = V (Proc.devRef .tc main_arg4) := by
  rw [show (R11 (F := Ideal)) = opsE11 ++ R12 from rfl, Cert.MaskSlab.after_append, keepR12_4, keepE11_4]
theorem keepR10_4 (V : Valuation τ sig (Elt Ideal)) :
    after (R10 (F := Ideal)) V (Proc.devRef .tc main_arg4) = V (Proc.devRef .tc main_arg4) := by
  rw [show (R10 (F := Ideal)) = opsE10 ++ R11 from rfl, Cert.MaskSlab.after_append, keepR11_4, keepE10_4]
theorem keepR9_4 (V : Valuation τ sig (Elt Ideal)) :
    after (R9 (F := Ideal)) V (Proc.devRef .tc main_arg4) = V (Proc.devRef .tc main_arg4) := by
  rw [show (R9 (F := Ideal)) = opsE9 ++ R10 from rfl, Cert.MaskSlab.after_append, keepR10_4, keepE9_4]
theorem keepR8_4 (V : Valuation τ sig (Elt Ideal)) :
    after (R8 (F := Ideal)) V (Proc.devRef .tc main_arg4) = V (Proc.devRef .tc main_arg4) := by
  rw [show (R8 (F := Ideal)) = opsE8 ++ R9 from rfl, Cert.MaskSlab.after_append, keepR9_4, keepE8_4]
theorem keepR7_4 (V : Valuation τ sig (Elt Ideal)) :
    after (R7 (F := Ideal)) V (Proc.devRef .tc main_arg4) = V (Proc.devRef .tc main_arg4) := by
  rw [show (R7 (F := Ideal)) = opsE7 ++ R8 from rfl, Cert.MaskSlab.after_append, keepR8_4, keepE7_4]
theorem keepR6_4 (V : Valuation τ sig (Elt Ideal)) :
    after (R6 (F := Ideal)) V (Proc.devRef .tc main_arg4) = V (Proc.devRef .tc main_arg4) := by
  rw [show (R6 (F := Ideal)) = opsE6 ++ R7 from rfl, Cert.MaskSlab.after_append, keepR7_4, keepE6_4]
theorem keepR5_4 (V : Valuation τ sig (Elt Ideal)) :
    after (R5 (F := Ideal)) V (Proc.devRef .tc main_arg4) = V (Proc.devRef .tc main_arg4) := by
  rw [show (R5 (F := Ideal)) = opsE5 ++ R6 from rfl, Cert.MaskSlab.after_append, keepR6_4, keepE5_4]
theorem keepR4_4 (V : Valuation τ sig (Elt Ideal)) :
    after (R4 (F := Ideal)) V (Proc.devRef .tc main_arg4) = V (Proc.devRef .tc main_arg4) := by
  rw [show (R4 (F := Ideal)) = opsE4 ++ R5 from rfl, Cert.MaskSlab.after_append, keepR5_4, keepE4_4]
theorem keepR3_4 (V : Valuation τ sig (Elt Ideal)) :
    after (R3 (F := Ideal)) V (Proc.devRef .tc main_arg4) = V (Proc.devRef .tc main_arg4) := by
  rw [show (R3 (F := Ideal)) = opsE3 ++ R4 from rfl, Cert.MaskSlab.after_append, keepR4_4, keepE3_4]
theorem keepR2_4 (V : Valuation τ sig (Elt Ideal)) :
    after (R2 (F := Ideal)) V (Proc.devRef .tc main_arg4) = V (Proc.devRef .tc main_arg4) := by
  rw [show (R2 (F := Ideal)) = opsE2 ++ R3 from rfl, Cert.MaskSlab.after_append, keepR3_4, keepE2_4]
theorem keepR1_4 (V : Valuation τ sig (Elt Ideal)) :
    after (R1 (F := Ideal)) V (Proc.devRef .tc main_arg4) = V (Proc.devRef .tc main_arg4) := by
  rw [show (R1 (F := Ideal)) = opsE1 ++ R2 from rfl, Cert.MaskSlab.after_append, keepR2_4, keepE1_4]
theorem keepR0_4 (V : Valuation τ sig (Elt Ideal)) :
    after (R0 (F := Ideal)) V (Proc.devRef .tc main_arg4) = V (Proc.devRef .tc main_arg4) := by
  rw [show (R0 (F := Ideal)) = opsE0 ++ R1 from rfl, Cert.MaskSlab.after_append, keepR1_4, keepE0_4]
theorem keepWhole_4 (V : Valuation τ sig (Elt Ideal)) :
    after (whole (F := Ideal)) V (Proc.devRef .tc main_arg4) = V (Proc.devRef .tc main_arg4) := by
  rw [show (whole (F := Ideal)) = opsPre ++ R0 from rfl, Cert.MaskSlab.after_append, keepR0_4, keepPre_4]

/-! ## The steps of the experts from `k` on -/

/-- After the last expert nothing is left to do. -/
abbrev T16 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 := prev
/-- The steps of experts 15 … 15, in order, from the running array `prev`. -/
abbrev T15 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T16 x0 x1 x2 x3 x4 (Cert.Moe.Ref.refStep 15 slices_S16x2816x2048_S1x2816x2048_15_0_0 slices_S16x2048x1408_S1x2048x1408_15_0_0 x0 x1 x2 x3 x4 prev)
/-- The steps of experts 14 … 15, in order, from the running array `prev`. -/
abbrev T14 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T15 x0 x1 x2 x3 x4 (Cert.Moe.Ref.refStep 14 slices_S16x2816x2048_S1x2816x2048_14_0_0 slices_S16x2048x1408_S1x2048x1408_14_0_0 x0 x1 x2 x3 x4 prev)
/-- The steps of experts 13 … 15, in order, from the running array `prev`. -/
abbrev T13 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T14 x0 x1 x2 x3 x4 (Cert.Moe.Ref.refStep 13 slices_S16x2816x2048_S1x2816x2048_13_0_0 slices_S16x2048x1408_S1x2048x1408_13_0_0 x0 x1 x2 x3 x4 prev)
/-- The steps of experts 12 … 15, in order, from the running array `prev`. -/
abbrev T12 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T13 x0 x1 x2 x3 x4 (Cert.Moe.Ref.refStep 12 slices_S16x2816x2048_S1x2816x2048_12_0_0 slices_S16x2048x1408_S1x2048x1408_12_0_0 x0 x1 x2 x3 x4 prev)
/-- The steps of experts 11 … 15, in order, from the running array `prev`. -/
abbrev T11 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T12 x0 x1 x2 x3 x4 (Cert.Moe.Ref.refStep 11 slices_S16x2816x2048_S1x2816x2048_11_0_0 slices_S16x2048x1408_S1x2048x1408_11_0_0 x0 x1 x2 x3 x4 prev)
/-- The steps of experts 10 … 15, in order, from the running array `prev`. -/
abbrev T10 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T11 x0 x1 x2 x3 x4 (Cert.Moe.Ref.refStep 10 slices_S16x2816x2048_S1x2816x2048_10_0_0 slices_S16x2048x1408_S1x2048x1408_10_0_0 x0 x1 x2 x3 x4 prev)
/-- The steps of experts 9 … 15, in order, from the running array `prev`. -/
abbrev T9 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T10 x0 x1 x2 x3 x4 (Cert.Moe.Ref.refStep 9 slices_S16x2816x2048_S1x2816x2048_9_0_0 slices_S16x2048x1408_S1x2048x1408_9_0_0 x0 x1 x2 x3 x4 prev)
/-- The steps of experts 8 … 15, in order, from the running array `prev`. -/
abbrev T8 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T9 x0 x1 x2 x3 x4 (Cert.Moe.Ref.refStep 8 slices_S16x2816x2048_S1x2816x2048_8_0_0 slices_S16x2048x1408_S1x2048x1408_8_0_0 x0 x1 x2 x3 x4 prev)
/-- The steps of experts 7 … 15, in order, from the running array `prev`. -/
abbrev T7 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T8 x0 x1 x2 x3 x4 (Cert.Moe.Ref.refStep 7 slices_S16x2816x2048_S1x2816x2048_7_0_0 slices_S16x2048x1408_S1x2048x1408_7_0_0 x0 x1 x2 x3 x4 prev)
/-- The steps of experts 6 … 15, in order, from the running array `prev`. -/
abbrev T6 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T7 x0 x1 x2 x3 x4 (Cert.Moe.Ref.refStep 6 slices_S16x2816x2048_S1x2816x2048_6_0_0 slices_S16x2048x1408_S1x2048x1408_6_0_0 x0 x1 x2 x3 x4 prev)
/-- The steps of experts 5 … 15, in order, from the running array `prev`. -/
abbrev T5 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T6 x0 x1 x2 x3 x4 (Cert.Moe.Ref.refStep 5 slices_S16x2816x2048_S1x2816x2048_5_0_0 slices_S16x2048x1408_S1x2048x1408_5_0_0 x0 x1 x2 x3 x4 prev)
/-- The steps of experts 4 … 15, in order, from the running array `prev`. -/
abbrev T4 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T5 x0 x1 x2 x3 x4 (Cert.Moe.Ref.refStep 4 slices_S16x2816x2048_S1x2816x2048_4_0_0 slices_S16x2048x1408_S1x2048x1408_4_0_0 x0 x1 x2 x3 x4 prev)
/-- The steps of experts 3 … 15, in order, from the running array `prev`. -/
abbrev T3 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T4 x0 x1 x2 x3 x4 (Cert.Moe.Ref.refStep 3 slices_S16x2816x2048_S1x2816x2048_3_0_0 slices_S16x2048x1408_S1x2048x1408_3_0_0 x0 x1 x2 x3 x4 prev)
/-- The steps of experts 2 … 15, in order, from the running array `prev`. -/
abbrev T2 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T3 x0 x1 x2 x3 x4 (Cert.Moe.Ref.refStep 2 slices_S16x2816x2048_S1x2816x2048_2_0_0 slices_S16x2048x1408_S1x2048x1408_2_0_0 x0 x1 x2 x3 x4 prev)
/-- The steps of experts 1 … 15, in order, from the running array `prev`. -/
abbrev T1 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T2 x0 x1 x2 x3 x4 (Cert.Moe.Ref.refStep 1 slices_S16x2816x2048_S1x2816x2048_1_0_0 slices_S16x2048x1408_S1x2048x1408_1_0_0 x0 x1 x2 x3 x4 prev)
/-- The steps of experts 0 … 15, in order, from the running array `prev`. -/
abbrev T0 (x0 : FVec Ideal S4096x2048 .f32) (x1 : FVec Ideal S16x2816x2048 .f32) (x2 : FVec Ideal S16x2048x1408 .f32) (x3 : FVec Ideal S4096x2 .f32) (x4 : IVec S4096x2 32) (prev : FVec Ideal S4096x2048 .f32) : FVec Ideal S4096x2048 .f32 :=
  T1 x0 x1 x2 x3 x4 (Cert.Moe.Ref.refStep 0 slices_S16x2816x2048_S1x2816x2048_0_0_0 slices_S16x2048x1408_S1x2048x1408_0_0_0 x0 x1 x2 x3 x4 prev)

theorem resR15 (V : Valuation τ sig (Elt Ideal)) :
    after (R15 (F := Ideal)) V (Proc.devRef .tc main_v336) = T15 (V (Proc.devRef .tc main_arg0)) (V (Proc.devRef .tc main_arg1)) (V (Proc.devRef .tc main_arg2)) (V (Proc.devRef .tc main_arg3)) (V (Proc.devRef .tc main_arg4)) (V (Proc.devRef .tc main_v315)) := stepE15 V
theorem resR14 (V : Valuation τ sig (Elt Ideal)) :
    after (R14 (F := Ideal)) V (Proc.devRef .tc main_v336) = T14 (V (Proc.devRef .tc main_arg0)) (V (Proc.devRef .tc main_arg1)) (V (Proc.devRef .tc main_arg2)) (V (Proc.devRef .tc main_arg3)) (V (Proc.devRef .tc main_arg4)) (V (Proc.devRef .tc main_v294)) := by
  rw [show (R14 (F := Ideal)) = opsE14 ++ R15 from rfl, Cert.MaskSlab.after_append, resR15,
    keepE14_0, keepE14_1, keepE14_2, keepE14_3, keepE14_4, stepE14]
theorem resR13 (V : Valuation τ sig (Elt Ideal)) :
    after (R13 (F := Ideal)) V (Proc.devRef .tc main_v336) = T13 (V (Proc.devRef .tc main_arg0)) (V (Proc.devRef .tc main_arg1)) (V (Proc.devRef .tc main_arg2)) (V (Proc.devRef .tc main_arg3)) (V (Proc.devRef .tc main_arg4)) (V (Proc.devRef .tc main_v273)) := by
  rw [show (R13 (F := Ideal)) = opsE13 ++ R14 from rfl, Cert.MaskSlab.after_append, resR14,
    keepE13_0, keepE13_1, keepE13_2, keepE13_3, keepE13_4, stepE13]
theorem resR12 (V : Valuation τ sig (Elt Ideal)) :
    after (R12 (F := Ideal)) V (Proc.devRef .tc main_v336) = T12 (V (Proc.devRef .tc main_arg0)) (V (Proc.devRef .tc main_arg1)) (V (Proc.devRef .tc main_arg2)) (V (Proc.devRef .tc main_arg3)) (V (Proc.devRef .tc main_arg4)) (V (Proc.devRef .tc main_v252)) := by
  rw [show (R12 (F := Ideal)) = opsE12 ++ R13 from rfl, Cert.MaskSlab.after_append, resR13,
    keepE12_0, keepE12_1, keepE12_2, keepE12_3, keepE12_4, stepE12]
theorem resR11 (V : Valuation τ sig (Elt Ideal)) :
    after (R11 (F := Ideal)) V (Proc.devRef .tc main_v336) = T11 (V (Proc.devRef .tc main_arg0)) (V (Proc.devRef .tc main_arg1)) (V (Proc.devRef .tc main_arg2)) (V (Proc.devRef .tc main_arg3)) (V (Proc.devRef .tc main_arg4)) (V (Proc.devRef .tc main_v231)) := by
  rw [show (R11 (F := Ideal)) = opsE11 ++ R12 from rfl, Cert.MaskSlab.after_append, resR12,
    keepE11_0, keepE11_1, keepE11_2, keepE11_3, keepE11_4, stepE11]
theorem resR10 (V : Valuation τ sig (Elt Ideal)) :
    after (R10 (F := Ideal)) V (Proc.devRef .tc main_v336) = T10 (V (Proc.devRef .tc main_arg0)) (V (Proc.devRef .tc main_arg1)) (V (Proc.devRef .tc main_arg2)) (V (Proc.devRef .tc main_arg3)) (V (Proc.devRef .tc main_arg4)) (V (Proc.devRef .tc main_v210)) := by
  rw [show (R10 (F := Ideal)) = opsE10 ++ R11 from rfl, Cert.MaskSlab.after_append, resR11,
    keepE10_0, keepE10_1, keepE10_2, keepE10_3, keepE10_4, stepE10]
theorem resR9 (V : Valuation τ sig (Elt Ideal)) :
    after (R9 (F := Ideal)) V (Proc.devRef .tc main_v336) = T9 (V (Proc.devRef .tc main_arg0)) (V (Proc.devRef .tc main_arg1)) (V (Proc.devRef .tc main_arg2)) (V (Proc.devRef .tc main_arg3)) (V (Proc.devRef .tc main_arg4)) (V (Proc.devRef .tc main_v189)) := by
  rw [show (R9 (F := Ideal)) = opsE9 ++ R10 from rfl, Cert.MaskSlab.after_append, resR10,
    keepE9_0, keepE9_1, keepE9_2, keepE9_3, keepE9_4, stepE9]
theorem resR8 (V : Valuation τ sig (Elt Ideal)) :
    after (R8 (F := Ideal)) V (Proc.devRef .tc main_v336) = T8 (V (Proc.devRef .tc main_arg0)) (V (Proc.devRef .tc main_arg1)) (V (Proc.devRef .tc main_arg2)) (V (Proc.devRef .tc main_arg3)) (V (Proc.devRef .tc main_arg4)) (V (Proc.devRef .tc main_v168)) := by
  rw [show (R8 (F := Ideal)) = opsE8 ++ R9 from rfl, Cert.MaskSlab.after_append, resR9,
    keepE8_0, keepE8_1, keepE8_2, keepE8_3, keepE8_4, stepE8]
theorem resR7 (V : Valuation τ sig (Elt Ideal)) :
    after (R7 (F := Ideal)) V (Proc.devRef .tc main_v336) = T7 (V (Proc.devRef .tc main_arg0)) (V (Proc.devRef .tc main_arg1)) (V (Proc.devRef .tc main_arg2)) (V (Proc.devRef .tc main_arg3)) (V (Proc.devRef .tc main_arg4)) (V (Proc.devRef .tc main_v147)) := by
  rw [show (R7 (F := Ideal)) = opsE7 ++ R8 from rfl, Cert.MaskSlab.after_append, resR8,
    keepE7_0, keepE7_1, keepE7_2, keepE7_3, keepE7_4, stepE7]
theorem resR6 (V : Valuation τ sig (Elt Ideal)) :
    after (R6 (F := Ideal)) V (Proc.devRef .tc main_v336) = T6 (V (Proc.devRef .tc main_arg0)) (V (Proc.devRef .tc main_arg1)) (V (Proc.devRef .tc main_arg2)) (V (Proc.devRef .tc main_arg3)) (V (Proc.devRef .tc main_arg4)) (V (Proc.devRef .tc main_v126)) := by
  rw [show (R6 (F := Ideal)) = opsE6 ++ R7 from rfl, Cert.MaskSlab.after_append, resR7,
    keepE6_0, keepE6_1, keepE6_2, keepE6_3, keepE6_4, stepE6]
theorem resR5 (V : Valuation τ sig (Elt Ideal)) :
    after (R5 (F := Ideal)) V (Proc.devRef .tc main_v336) = T5 (V (Proc.devRef .tc main_arg0)) (V (Proc.devRef .tc main_arg1)) (V (Proc.devRef .tc main_arg2)) (V (Proc.devRef .tc main_arg3)) (V (Proc.devRef .tc main_arg4)) (V (Proc.devRef .tc main_v105)) := by
  rw [show (R5 (F := Ideal)) = opsE5 ++ R6 from rfl, Cert.MaskSlab.after_append, resR6,
    keepE5_0, keepE5_1, keepE5_2, keepE5_3, keepE5_4, stepE5]
theorem resR4 (V : Valuation τ sig (Elt Ideal)) :
    after (R4 (F := Ideal)) V (Proc.devRef .tc main_v336) = T4 (V (Proc.devRef .tc main_arg0)) (V (Proc.devRef .tc main_arg1)) (V (Proc.devRef .tc main_arg2)) (V (Proc.devRef .tc main_arg3)) (V (Proc.devRef .tc main_arg4)) (V (Proc.devRef .tc main_v84)) := by
  rw [show (R4 (F := Ideal)) = opsE4 ++ R5 from rfl, Cert.MaskSlab.after_append, resR5,
    keepE4_0, keepE4_1, keepE4_2, keepE4_3, keepE4_4, stepE4]
theorem resR3 (V : Valuation τ sig (Elt Ideal)) :
    after (R3 (F := Ideal)) V (Proc.devRef .tc main_v336) = T3 (V (Proc.devRef .tc main_arg0)) (V (Proc.devRef .tc main_arg1)) (V (Proc.devRef .tc main_arg2)) (V (Proc.devRef .tc main_arg3)) (V (Proc.devRef .tc main_arg4)) (V (Proc.devRef .tc main_v63)) := by
  rw [show (R3 (F := Ideal)) = opsE3 ++ R4 from rfl, Cert.MaskSlab.after_append, resR4,
    keepE3_0, keepE3_1, keepE3_2, keepE3_3, keepE3_4, stepE3]
theorem resR2 (V : Valuation τ sig (Elt Ideal)) :
    after (R2 (F := Ideal)) V (Proc.devRef .tc main_v336) = T2 (V (Proc.devRef .tc main_arg0)) (V (Proc.devRef .tc main_arg1)) (V (Proc.devRef .tc main_arg2)) (V (Proc.devRef .tc main_arg3)) (V (Proc.devRef .tc main_arg4)) (V (Proc.devRef .tc main_v42)) := by
  rw [show (R2 (F := Ideal)) = opsE2 ++ R3 from rfl, Cert.MaskSlab.after_append, resR3,
    keepE2_0, keepE2_1, keepE2_2, keepE2_3, keepE2_4, stepE2]
theorem resR1 (V : Valuation τ sig (Elt Ideal)) :
    after (R1 (F := Ideal)) V (Proc.devRef .tc main_v336) = T1 (V (Proc.devRef .tc main_arg0)) (V (Proc.devRef .tc main_arg1)) (V (Proc.devRef .tc main_arg2)) (V (Proc.devRef .tc main_arg3)) (V (Proc.devRef .tc main_arg4)) (V (Proc.devRef .tc main_v21)) := by
  rw [show (R1 (F := Ideal)) = opsE1 ++ R2 from rfl, Cert.MaskSlab.after_append, resR2,
    keepE1_0, keepE1_1, keepE1_2, keepE1_3, keepE1_4, stepE1]
theorem resR0 (V : Valuation τ sig (Elt Ideal)) :
    after (R0 (F := Ideal)) V (Proc.devRef .tc main_v336) = T0 (V (Proc.devRef .tc main_arg0)) (V (Proc.devRef .tc main_arg1)) (V (Proc.devRef .tc main_arg2)) (V (Proc.devRef .tc main_arg3)) (V (Proc.devRef .tc main_arg4)) (V (Proc.devRef .tc main_v0)) := by
  rw [show (R0 (F := Ideal)) = opsE0 ++ R1 from rfl, Cert.MaskSlab.after_append, resR1,
    keepE0_0, keepE0_1, keepE0_2, keepE0_3, keepE0_4, stepE0]

/-- The zero array the program starts from. -/
abbrev Z : FVec Ideal S4096x2048 .f32 :=
  broadcastInDim S4096x2048 ![] bcast_S_S4096x2048 (constant (F := Ideal) S_ .f32 0x00000000#32)

theorem resPre (V : Valuation τ sig (Elt Ideal)) : after (opsPre (F := Ideal)) V (Proc.devRef .tc main_v0) = Z := by
  after_results_simp <;> rfl

theorem resWhole (V : Valuation τ sig (Elt Ideal)) :
    after (whole (F := Ideal)) V (Proc.devRef .tc main_v336) = T0 (V (Proc.devRef .tc main_arg0)) (V (Proc.devRef .tc main_arg1)) (V (Proc.devRef .tc main_arg2)) (V (Proc.devRef .tc main_arg3)) (V (Proc.devRef .tc main_arg4)) Z := by
  rw [show (whole (F := Ideal)) = opsPre ++ R0 from rfl, Cert.MaskSlab.after_append, resR0,
    keepPre_0, keepPre_1, keepPre_2, keepPre_3, keepPre_4, resPre]

/-! ## Read at an index -/

/-- The running array after the first `k` experts. -/
abbrev C0 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 := Z
abbrev C1 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 0 slices_S16x2816x2048_S1x2816x2048_0_0_0 slices_S16x2048x1408_S1x2048x1408_0_0_0 x0 x1 x2 x3 x4 (C0 x0 x1 x2 x3 x4)
abbrev C2 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 1 slices_S16x2816x2048_S1x2816x2048_1_0_0 slices_S16x2048x1408_S1x2048x1408_1_0_0 x0 x1 x2 x3 x4 (C1 x0 x1 x2 x3 x4)
abbrev C3 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 2 slices_S16x2816x2048_S1x2816x2048_2_0_0 slices_S16x2048x1408_S1x2048x1408_2_0_0 x0 x1 x2 x3 x4 (C2 x0 x1 x2 x3 x4)
abbrev C4 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 3 slices_S16x2816x2048_S1x2816x2048_3_0_0 slices_S16x2048x1408_S1x2048x1408_3_0_0 x0 x1 x2 x3 x4 (C3 x0 x1 x2 x3 x4)
abbrev C5 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 4 slices_S16x2816x2048_S1x2816x2048_4_0_0 slices_S16x2048x1408_S1x2048x1408_4_0_0 x0 x1 x2 x3 x4 (C4 x0 x1 x2 x3 x4)
abbrev C6 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 5 slices_S16x2816x2048_S1x2816x2048_5_0_0 slices_S16x2048x1408_S1x2048x1408_5_0_0 x0 x1 x2 x3 x4 (C5 x0 x1 x2 x3 x4)
abbrev C7 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 6 slices_S16x2816x2048_S1x2816x2048_6_0_0 slices_S16x2048x1408_S1x2048x1408_6_0_0 x0 x1 x2 x3 x4 (C6 x0 x1 x2 x3 x4)
abbrev C8 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 7 slices_S16x2816x2048_S1x2816x2048_7_0_0 slices_S16x2048x1408_S1x2048x1408_7_0_0 x0 x1 x2 x3 x4 (C7 x0 x1 x2 x3 x4)
abbrev C9 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 8 slices_S16x2816x2048_S1x2816x2048_8_0_0 slices_S16x2048x1408_S1x2048x1408_8_0_0 x0 x1 x2 x3 x4 (C8 x0 x1 x2 x3 x4)
abbrev C10 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 9 slices_S16x2816x2048_S1x2816x2048_9_0_0 slices_S16x2048x1408_S1x2048x1408_9_0_0 x0 x1 x2 x3 x4 (C9 x0 x1 x2 x3 x4)
abbrev C11 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 10 slices_S16x2816x2048_S1x2816x2048_10_0_0 slices_S16x2048x1408_S1x2048x1408_10_0_0 x0 x1 x2 x3 x4 (C10 x0 x1 x2 x3 x4)
abbrev C12 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 11 slices_S16x2816x2048_S1x2816x2048_11_0_0 slices_S16x2048x1408_S1x2048x1408_11_0_0 x0 x1 x2 x3 x4 (C11 x0 x1 x2 x3 x4)
abbrev C13 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 12 slices_S16x2816x2048_S1x2816x2048_12_0_0 slices_S16x2048x1408_S1x2048x1408_12_0_0 x0 x1 x2 x3 x4 (C12 x0 x1 x2 x3 x4)
abbrev C14 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 13 slices_S16x2816x2048_S1x2816x2048_13_0_0 slices_S16x2048x1408_S1x2048x1408_13_0_0 x0 x1 x2 x3 x4 (C13 x0 x1 x2 x3 x4)
abbrev C15 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 14 slices_S16x2816x2048_S1x2816x2048_14_0_0 slices_S16x2048x1408_S1x2048x1408_14_0_0 x0 x1 x2 x3 x4 (C14 x0 x1 x2 x3 x4)
abbrev C16 (x0 : FVec Ideal S4096x2048 .f32) (x1 : FVec Ideal S16x2816x2048 .f32) (x2 : FVec Ideal S16x2048x1408 .f32) (x3 : FVec Ideal S4096x2 .f32) (x4 : IVec S4096x2 32) : FVec Ideal S4096x2048 .f32 :=
  Cert.Moe.Ref.refStep 15 slices_S16x2816x2048_S1x2816x2048_15_0_0 slices_S16x2048x1408_S1x2048x1408_15_0_0 x0 x1 x2 x3 x4 (C15 x0 x1 x2 x3 x4)

theorem T0_eq (x0 : FVec Ideal S4096x2048 .f32) (x1 : FVec Ideal S16x2816x2048 .f32) (x2 : FVec Ideal S16x2048x1408 .f32) (x3 : FVec Ideal S4096x2 .f32) (x4 : IVec S4096x2 32) : T0 x0 x1 x2 x3 x4 Z = C16 x0 x1 x2 x3 x4 := rfl

theorem C0_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C0 x0 x1 x2 x3 x4 (ix2 r c) = Moe.accum (Moe.contrib x0 x1 x2 x3 x4 r c) 0 :=
  Cert.Moe.Ref.zero_apply r c
theorem C1_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C1 x0 x1 x2 x3 x4 (ix2 r c) = Moe.accum (Moe.contrib x0 x1 x2 x3 x4 r c) 1 :=
  (Cert.Moe.Ref.refStep_apply 0 (by decide) _ _ x0 x1 x2 x3 x4 _ r c).trans
    (by rw [C0_apply]; rfl)
theorem C2_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C2 x0 x1 x2 x3 x4 (ix2 r c) = Moe.accum (Moe.contrib x0 x1 x2 x3 x4 r c) 2 :=
  (Cert.Moe.Ref.refStep_apply 1 (by decide) _ _ x0 x1 x2 x3 x4 _ r c).trans
    (by rw [C1_apply]; rfl)
theorem C3_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C3 x0 x1 x2 x3 x4 (ix2 r c) = Moe.accum (Moe.contrib x0 x1 x2 x3 x4 r c) 3 :=
  (Cert.Moe.Ref.refStep_apply 2 (by decide) _ _ x0 x1 x2 x3 x4 _ r c).trans
    (by rw [C2_apply]; rfl)
theorem C4_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C4 x0 x1 x2 x3 x4 (ix2 r c) = Moe.accum (Moe.contrib x0 x1 x2 x3 x4 r c) 4 :=
  (Cert.Moe.Ref.refStep_apply 3 (by decide) _ _ x0 x1 x2 x3 x4 _ r c).trans
    (by rw [C3_apply]; rfl)
theorem C5_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C5 x0 x1 x2 x3 x4 (ix2 r c) = Moe.accum (Moe.contrib x0 x1 x2 x3 x4 r c) 5 :=
  (Cert.Moe.Ref.refStep_apply 4 (by decide) _ _ x0 x1 x2 x3 x4 _ r c).trans
    (by rw [C4_apply]; rfl)
theorem C6_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C6 x0 x1 x2 x3 x4 (ix2 r c) = Moe.accum (Moe.contrib x0 x1 x2 x3 x4 r c) 6 :=
  (Cert.Moe.Ref.refStep_apply 5 (by decide) _ _ x0 x1 x2 x3 x4 _ r c).trans
    (by rw [C5_apply]; rfl)
theorem C7_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C7 x0 x1 x2 x3 x4 (ix2 r c) = Moe.accum (Moe.contrib x0 x1 x2 x3 x4 r c) 7 :=
  (Cert.Moe.Ref.refStep_apply 6 (by decide) _ _ x0 x1 x2 x3 x4 _ r c).trans
    (by rw [C6_apply]; rfl)
theorem C8_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C8 x0 x1 x2 x3 x4 (ix2 r c) = Moe.accum (Moe.contrib x0 x1 x2 x3 x4 r c) 8 :=
  (Cert.Moe.Ref.refStep_apply 7 (by decide) _ _ x0 x1 x2 x3 x4 _ r c).trans
    (by rw [C7_apply]; rfl)
theorem C9_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C9 x0 x1 x2 x3 x4 (ix2 r c) = Moe.accum (Moe.contrib x0 x1 x2 x3 x4 r c) 9 :=
  (Cert.Moe.Ref.refStep_apply 8 (by decide) _ _ x0 x1 x2 x3 x4 _ r c).trans
    (by rw [C8_apply]; rfl)
theorem C10_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C10 x0 x1 x2 x3 x4 (ix2 r c) = Moe.accum (Moe.contrib x0 x1 x2 x3 x4 r c) 10 :=
  (Cert.Moe.Ref.refStep_apply 9 (by decide) _ _ x0 x1 x2 x3 x4 _ r c).trans
    (by rw [C9_apply]; rfl)
theorem C11_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C11 x0 x1 x2 x3 x4 (ix2 r c) = Moe.accum (Moe.contrib x0 x1 x2 x3 x4 r c) 11 :=
  (Cert.Moe.Ref.refStep_apply 10 (by decide) _ _ x0 x1 x2 x3 x4 _ r c).trans
    (by rw [C10_apply]; rfl)
theorem C12_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C12 x0 x1 x2 x3 x4 (ix2 r c) = Moe.accum (Moe.contrib x0 x1 x2 x3 x4 r c) 12 :=
  (Cert.Moe.Ref.refStep_apply 11 (by decide) _ _ x0 x1 x2 x3 x4 _ r c).trans
    (by rw [C11_apply]; rfl)
theorem C13_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C13 x0 x1 x2 x3 x4 (ix2 r c) = Moe.accum (Moe.contrib x0 x1 x2 x3 x4 r c) 13 :=
  (Cert.Moe.Ref.refStep_apply 12 (by decide) _ _ x0 x1 x2 x3 x4 _ r c).trans
    (by rw [C12_apply]; rfl)
theorem C14_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C14 x0 x1 x2 x3 x4 (ix2 r c) = Moe.accum (Moe.contrib x0 x1 x2 x3 x4 r c) 14 :=
  (Cert.Moe.Ref.refStep_apply 13 (by decide) _ _ x0 x1 x2 x3 x4 _ r c).trans
    (by rw [C13_apply]; rfl)
theorem C15_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C15 x0 x1 x2 x3 x4 (ix2 r c) = Moe.accum (Moe.contrib x0 x1 x2 x3 x4 r c) 15 :=
  (Cert.Moe.Ref.refStep_apply 14 (by decide) _ _ x0 x1 x2 x3 x4 _ r c).trans
    (by rw [C14_apply]; rfl)
theorem C16_apply (x0 : FVec Ideal S4096x2048 .f32) (x1 : FVec Ideal S16x2816x2048 .f32) (x2 : FVec Ideal S16x2048x1408 .f32) (x3 : FVec Ideal S4096x2 .f32) (x4 : IVec S4096x2 32) (r : Fin 4096) (c : Fin 2048) :
    C16 x0 x1 x2 x3 x4 (ix2 r c) = Moe.accum (Moe.contrib x0 x1 x2 x3 x4 r c) 16 :=
  (Cert.Moe.Ref.refStep_apply 15 (by decide) _ _ x0 x1 x2 x3 x4 _ r c).trans
    (by rw [C15_apply]; rfl)

/-- The sixteen steps over the zero array are the layer's output. -/
theorem C16_eq_out (x0 : FVec Ideal S4096x2048 .f32) (x1 : FVec Ideal S16x2816x2048 .f32) (x2 : FVec Ideal S16x2048x1408 .f32) (x3 : FVec Ideal S4096x2 .f32) (x4 : IVec S4096x2 32) : C16 x0 x1 x2 x3 x4 = Moe.out x0 x1 x2 x3 x4 := by
  funext i
  obtain ⟨r, c, rfl⟩ : ∃ (r : Fin 4096) (c : Fin 2048), i = ix2 r c := ⟨i 0, i 1, eq_ix2 i⟩
  rw [C16_apply, Moe.out_apply]

/-- The reference's run: the result array at the layer's output of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v336)
          = Moe.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨(h c main_v336).trans ((resWhole (launchContents m c)).trans
          ((T0_eq _ _ _ _ _).trans (C16_eq_out _ _ _ _ _))),
        (h c main_arg0).trans (keepWhole_0 (launchContents m c)),
        (h c main_arg1).trans (keepWhole_1 (launchContents m c)),
        (h c main_arg2).trans (keepWhole_2 (launchContents m c)),
        (h c main_arg3).trans (keepWhole_3 (launchContents m c)),
        (h c main_arg4).trans (keepWhole_4 (launchContents m c))⟩)
    (run_fold m ρ)

end Cert.Moe.RefRun

end
-- ==== Proof.lean ====
/-
  A mixture-of-experts layer: the kernel and its reference compute one function on the extended reals.

  Both programs add, for every token, the sixteen experts' contributions in the order of the experts, starting from
  zero; expert `e`'s contribution to a token is the token's routing share for `e` (the weights of the token's slots
  whose id is `e`, added) times the expert's output for the token (`silu (gate) · up` of the token's projected
  features, projected back).  The kernel works block by block: 256 tokens at a time, one expert per grid point, the
  running block carried in a scratch buffer and written out after the last expert; its result array is the
  specification's `out` of the arguments (Proof/KernelValue.lean, over the body's arithmetic read at an index in
  Proof/KernelPay.lean).  The reference works on all tokens at once, one expert after the other; its result array is
  the same `out` (Proof/RefRun.lean, over one expert's step read at an index in Proof/RefStep.lean).  No law of the
  extended reals beyond `w · 1 = w`, `w · 0 = 0` and `0 + x = x` is used: the two programs add the same terms in the
  same order, `logistic` is by definition the expression the host spells out, a contraction is the same finite sum on
  both sides, and a change of float format is the identity.  The precondition is not used.
  The ideal pass rewrote nothing, so `preserves` is `True`; the kernels' frames are the generated ones, the
  reference's frame is its run with the result dropped.
-/
import proofs.«156857_j4587025072789_1_alg».proof.Defs
import proofs.«156857_j4587025072789_1_alg».proof.Proof.Gen.Kernel
import proofs.«156857_j4587025072789_1_alg».proof.Proof.Gen.Kernel.Skeleton
import proofs.«156857_j4587025072789_1_alg».proof.Proof.Gen.Kernel.Launch
import proofs.«156857_j4587025072789_1_alg».proof.Proof.Gen.Kernel.Points
import proofs.«156857_j4587025072789_1_alg».proof.Proof.Gen.Kernel.Frame
import proofs.«156857_j4587025072789_1_alg».proof.Proof.Gen.KernelIdeal
import proofs.«156857_j4587025072789_1_alg».proof.Proof.Gen.KernelIdeal.Skeleton
import proofs.«156857_j4587025072789_1_alg».proof.Proof.Gen.KernelIdeal.Launch
import proofs.«156857_j4587025072789_1_alg».proof.Proof.Gen.KernelIdeal.Points
import proofs.«156857_j4587025072789_1_alg».proof.Proof.Gen.KernelIdeal.Frame
import proofs.«156857_j4587025072789_1_alg».proof.Proof.Gen.ReferenceIdeal
import proofs.«156857_j4587025072789_1_alg».proof.Proof.Gen.Pre_finite_inputs
import proofs.«156857_j4587025072789_1_alg».proof.Proof.Gen.KernelIdeal.Value
import proofs.«156857_j4587025072789_1_alg».proof.Proof.KernelValue
import proofs.«156857_j4587025072789_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.Moe.RefRun.run m ρ)

theorem preserves : Cert.preserves_Kernel_KernelIdeal := trivial

/-- Both result arrays end at the layer's output of argument arrays that agree. -/
theorem algebraic : Cert.algebraic_KernelIdeal_ReferenceIdeal := by
  intro m ρ m' ρ' _ hagree
  refine ⟨fun c => Cert.Moe.KernelValue.result m c, Cert.Moe.KernelValue.run m ρ, ?_⟩
  refine (θ_run Cert.ReferenceIdeal.defs _ _).mono (fun _ h c => ⟨(h c).1.trans ?_, (h c).2⟩)
    (Cert.Moe.RefRun.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
